-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v295)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v295) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x56x56 : Shape := ⟨4, ![32, 128, 56, 56]⟩
abbrev S128x128x3x3 : Shape := ⟨4, ![128, 128, 3, 3]⟩
abbrev S128 : Shape := ⟨1, ![128]⟩
abbrev S_ : Shape := ⟨0, ![]⟩

class Facts : Prop where
  bcast_S_S32x128x56x56 : S_.BroadcastsInDim S32x128x56x56 (![] : Fin 0 → Fin S32x128x56x56.rank)
  reducesTo_S32x128x56x56_S_d0_1_2_3 : S32x128x56x56.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_

variable [Facts]

def fn_part3 {F : FTy → Type} [FloatOps F] (main_arg5 : FVec F S128 .f32) (main_arg10 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_cst_20 : FVec F S_ .f32 := constant S_ .f32 0x00000000#32
  let main_v54 : FVec F S128 .f32 := broadcastInDim S128 ![] bcast_S_S128 main_cst_20
  let main_v55 : IVec S128 1 := cmpf .oge main_arg5 main_v54
  let main_c_21 : IVec S_ 1 := constantI S_ 1 1#1
  let main_v56 : IVec S_ 1 := (fun x v => Host.reduce IntOp.andi x v reducesTo_S128_S_d0 h_S_) main_v55 main_c_21
  let main_v57 : IVec S_ 1 := andi main_v53 main_v56
  let main_cst_22 : FVec F S_ .f32 := constant S_ .f32 0x00000000#32
  let main_v58 : FVec F S128 .f32 := broadcastInDim S128 ![] bcast_S_S128 main_cst_22
  let main_v59 : IVec S128 1 := cmpf .oge main_arg10 main_v58
  let main_c_23 : IVec S_ 1 := constantI S_ 1 1#1
  let main_v60 : IVec S_ 1 := (fun x v => Host.reduce IntOp.andi x v reducesTo_S128_S_d0 h_S_) main_v59 main_c_23
  let main_v61 : IVec S_ 1 := andi main_v57 main_v60
  main_v61

def fn_part2 {F : FTy → Type} [FloatOps F] (main_arg5 : FVec F S128 .f32) (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg5 main_arg10 main_v48 main_v49 main_v50

def fn_part1 {F : FTy → Type} [FloatOps F] (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128x3x3 .f32 := Host.absf main_arg6
  let main_cst_10 : FVec F S_ .f32 := constant S_ .f32 0x7F800000#32
  let main_v30 : FVec F S128x128x3x3 .f32 := broadcastInDim S128x128x3x3 ![] bcast_S_S128x128x3x3 main_cst_10
  let main_v31 : IVec S128x128x3x3 1 := cmpf .olt main_v29 main_v30
  let main_c_11 : IVec S_ 1 := constantI S_ 1 1#1
  let main_v32 : IVec S_ 1 := (fun x v => Host.reduce IntOp.andi x v reducesTo_S128x128x3x3_S_d0_1_2_3 h_S_) main_v31 main_c_11
  let main_v33 : IVec S_ 1 := andi main_v28 main_v32
  fn_part2 (F := F) main_arg5 main_arg7 main_arg8 main_arg9 main_arg10 main_v33

def fn {F : FTy → Type} [FloatOps F] (main_arg0 : FVec F S32x128x56x56 .f32) (main_arg1 : FVec F S128x128x3x3 .f32) (main_arg2 : FVec F S128 .f32) (main_arg3 : FVec F S128 .f32) (main_arg4 : FVec F S128 .f32) (main_arg5 : FVec F S128 .f32) (main_arg6 : FVec F S128x128x3x3 .f32) (main_arg7 : FVec F S128 .f32) (main_arg8 : FVec F S128 .f32) (main_arg9 : FVec F S128 .f32) (main_arg10 : FVec F S128 .f32) : IVec S_ 1 :=
  let main_v0 : FVec F S32x128x56x56 .f32 := Host.absf main_arg0
  let main_cst : FVec F S_ .f32 := constant S_ .f32 0x7F800000#32
  let main_v1 : FVec F S32x128x56x56 .f32 := broadcastInDim S32x128x56x56 ![] bcast_S_S32x128x56x56 main_cst
  let main_v2 : IVec S32x128x56x56 1 := cmpf .olt main_v0 main_v1
  let main_c : IVec S_ 1 := constantI S_ 1 1#1
  let main_v3 : IVec S_ 1 := (fun x v => Host.reduce IntOp.andi x v reducesTo_S32x128x56x56_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S32x128x56x56 : Shape := ⟨4, ![32, 128, 56, 56]⟩
abbrev S128x128x3x3 : Shape := ⟨4, ![128, 128, 3, 3]⟩
abbrev S128 : Shape := ⟨1, ![128]⟩
abbrev S32x128x3136 : Shape := ⟨3, ![32, 128, 3136]⟩
abbrev S_ : Shape := ⟨0, ![]⟩
abbrev S128x3x3x128 : Shape := ⟨4, ![128, 3, 3, 128]⟩
abbrev S128x1152 : Shape := ⟨2, ![128, 1152]⟩
abbrev S128x1 : Shape := ⟨2, ![128, 1]⟩
abbrev S128x7 : Shape := ⟨2, ![128, 7]⟩
abbrev S128x1160 : Shape := ⟨2, ![128, 1160]⟩
abbrev S3136 : Shape := ⟨1, ![3136]⟩
abbrev S1x3136 : Shape := ⟨2, ![1, 3136]⟩
abbrev S9x3136 : Shape := ⟨2, ![9, 3136]⟩
abbrev S9x1x3136 : Shape := ⟨3, ![9, 1, 3136]⟩
abbrev S9x128x3136 : Shape := ⟨3, ![9, 128, 3136]⟩
abbrev S8x3136 : Shape := ⟨2, ![8, 3136]⟩
abbrev S1 : Shape := ⟨1, ![1]⟩
abbrev S1x128x3136 : Shape := ⟨3, ![1, 128, 3136]⟩
abbrev S1160x3136 : Shape := ⟨2, ![1160, 3136]⟩
abbrev S128x3136 : Shape := ⟨2, ![128, 3136]⟩

abbrev nBuf : Space → Nat
  | .hbm => 460
  | .vmem => 10
  | .smem => 0
  | _ => 0

abbrev hbmTy0_0 (i : Nat) : BufTy := match i % 128 with
  | 0 => ⟨S32x128x56x56, .f32⟩
  | 1 => ⟨S128x128x3x3, .f32⟩
  | 2 => ⟨S128, .f32⟩
  | 3 => ⟨S128, .f32⟩
  | 4 => ⟨S128, .f32⟩
  | 5 => ⟨S128, .f32⟩
  | 6 => ⟨S128x128x3x3, .f32⟩
  | 7 => ⟨S128, .f32⟩
  | 8 => ⟨S128, .f32⟩
  | 9 => ⟨S128, .f32⟩
  | 10 => ⟨S128, .f32⟩
  | 11 => ⟨S32x128x3136, .f32⟩
  | 12 => ⟨S_, .f32⟩
  | 13 => ⟨S128, .f32⟩
  | 14 => ⟨S128, .f32⟩
  | 15 => ⟨S128, .f32⟩
  | 16 => ⟨S128, .f32⟩
  | 17 => ⟨S128x3x3x128, .f32⟩
  | 18 => ⟨S128x1152, .f32⟩
  | 19 => ⟨S128x1, .f32⟩
  | 20 => ⟨S128x1152, .f32⟩
  | 21 => ⟨S128x1152, .f32⟩
  | 22 => ⟨S128, .f32⟩
  | 23 => ⟨S128, .f32⟩
  | 24 => ⟨S128x1, .f32⟩
  | 25 => ⟨S_, .f32⟩
  | 26 => ⟨S128x7, .f32⟩
  | 27 => ⟨S128x1160, .f32⟩
  | 28 => ⟨S128x1160, .bf16⟩
  | 29 => ⟨S_, .f32⟩
  | 30 => ⟨S128, .f32⟩
  | 31 => ⟨S128, .f32⟩
  | 32 => ⟨S128, .f32⟩
  | 33 => ⟨S128, .f32⟩
  | 34 => ⟨S128x3x3x128, .f32⟩
  | 35 => ⟨S128x1152, .f32⟩
  | 36 => ⟨S128x1, .f32⟩
  | 37 => ⟨S128x1152, .f32⟩
  | 38 => ⟨S128x1152, .f32⟩
  | 39 => ⟨S128, .f32⟩
  | 40 => ⟨S128, .f32⟩
  | 41 => ⟨S128x1, .f32⟩
  | 42 => ⟨S_, .f32⟩
  | 43 => ⟨S128x7, .f32⟩
  | 44 => ⟨S128x1160, .f32⟩
  | 45 => ⟨S128x1160, .bf16⟩
  | 46 => ⟨S3136, .i32⟩
  | 47 => ⟨S_, .i32⟩
  | 48 => ⟨S_, .i32⟩
  | 49 => ⟨S3136, .i32⟩
  | 50 => ⟨S3136, .i32⟩
  | 51 => ⟨S3136, .i32⟩
  | 52 => ⟨S_, .i32⟩
  | 53 => ⟨S3136, .i32⟩
  | 54 => ⟨S3136, .i1⟩
  | 55 => ⟨S3136, .i32⟩
  | 56 => ⟨S3136, .i32⟩
  | 57 => ⟨S_, .i32⟩
  | 58 => ⟨S3136, .i32⟩
  | 59 => ⟨S3136, .i1⟩
  | 60 => ⟨S3136, .i1⟩
  | 61 => ⟨S_, .i32⟩
  | 62 => ⟨S3136, .i32⟩
  | 63 => ⟨S3136, .i32⟩
  | 64 => ⟨S3136, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S3136, .i32⟩
  | 72 => ⟨S3136, .i32⟩
  | 73 => ⟨S_, .i32⟩
  | 74 => ⟨S3136, .i32⟩
  | 75 => ⟨S3136, .i1⟩
  | 76 => ⟨S_, .i32⟩
  | 77 => ⟨S3136, .i32⟩
  | 78 => ⟨S3136, .i1⟩
  | 79 => ⟨S_, .i32⟩
  | 80 => ⟨S_, .i1⟩
  | 81 => ⟨S3136, .i1⟩
  | 82 => ⟨S3136, .i1⟩
  | 83 => ⟨S3136, .i1⟩
  | 84 => ⟨S3136, .i32⟩
  | 85 => ⟨S3136, .i32⟩
  | 86 => ⟨S3136, .i32⟩
  | 87 => ⟨S_, .i32⟩
  | 88 => ⟨S3136, .i32⟩
  | 89 => ⟨S3136, .i32⟩
  | 90 => ⟨S_, .i32⟩
  | 91 => ⟨S3136, .i32⟩
  | 92 => ⟨S3136, .i32⟩
  | 93 => ⟨S_, .i32⟩
  | 94 => ⟨S3136, .i32⟩
  | 95 => ⟨S3136, .i1⟩
  | 96 => ⟨S_, .i32⟩
  | 97 => ⟨S3136, .i32⟩
  | 98 => ⟨S3136, .i32⟩
  | 99 => ⟨S_, .i32⟩
  | 100 => ⟨S3136, .i32⟩
  | 101 => ⟨S3136, .i32⟩
  | 102 => ⟨S_, .i32⟩
  | 103 => ⟨S3136, .i32⟩
  | 104 => ⟨S3136, .i1⟩
  | 105 => ⟨S3136, .i1⟩
  | 106 => ⟨S_, .i32⟩
  | 107 => ⟨S3136, .i32⟩
  | 108 => ⟨S3136, .i32⟩
  | 109 => ⟨S_, .i32⟩
  | 110 => ⟨S3136, .i32⟩
  | 111 => ⟨S3136, .i32⟩
  | 112 => ⟨S_, .i32⟩
  | 113 => ⟨S3136, .i32⟩
  | 114 => ⟨S3136, .i1⟩
  | 115 => ⟨S3136, .i1⟩
  | 116 => ⟨S_, .i32⟩
  | 117 => ⟨S3136, .i32⟩
  | 118 => ⟨S3136, .i32⟩
  | 119 => ⟨S_, .i32⟩
  | 120 => ⟨S3136, .i32⟩
  | 121 => ⟨S3136, .i32⟩
  | 122 => ⟨S_, .i32⟩
  | 123 => ⟨S3136, .i32⟩
  | 124 => ⟨S3136, .i1⟩
  | 125 => ⟨S3136, .i1⟩
  | 126 => ⟨S_, .i32⟩
  | 127 => ⟨S3136, .i32⟩
  | _ => ⟨S32x128x56x56, .f32⟩

abbrev hbmTy0_1 (i : Nat) : BufTy := match i % 128 with
  | 0 => ⟨S3136, .i32⟩
  | 1 => ⟨S_, .i32⟩
  | 2 => ⟨S3136, .i32⟩
  | 3 => ⟨S3136, .i32⟩
  | 4 => ⟨S_, .i32⟩
  | 5 => ⟨S3136, .i32⟩
  | 6 => ⟨S3136, .i1⟩
  | 7 => ⟨S_, .i32⟩
  | 8 => ⟨S3136, .i32⟩
  | 9 => ⟨S3136, .i32⟩
  | 10 => ⟨S_, .i32⟩
  | 11 => ⟨S3136, .i32⟩
  | 12 => ⟨S3136, .i32⟩
  | 13 => ⟨S_, .i32⟩
  | 14 => ⟨S3136, .i32⟩
  | 15 => ⟨S3136, .i1⟩
  | 16 => ⟨S3136, .i1⟩
  | 17 => ⟨S_, .i32⟩
  | 18 => ⟨S3136, .i32⟩
  | 19 => ⟨S3136, .i32⟩
  | 20 => ⟨S_, .i32⟩
  | 21 => ⟨S3136, .i32⟩
  | 22 => ⟨S3136, .i32⟩
  | 23 => ⟨S_, .i32⟩
  | 24 => ⟨S3136, .i32⟩
  | 25 => ⟨S3136, .i1⟩
  | 26 => ⟨S3136, .i1⟩
  | 27 => ⟨S_, .i32⟩
  | 28 => ⟨S3136, .i32⟩
  | 29 => ⟨S3136, .i32⟩
  | 30 => ⟨S_, .i32⟩
  | 31 => ⟨S3136, .i32⟩
  | 32 => ⟨S3136, .i32⟩
  | 33 => ⟨S_, .i32⟩
  | 34 => ⟨S3136, .i32⟩
  | 35 => ⟨S3136, .i1⟩
  | 36 => ⟨S3136, .i1⟩
  | 37 => ⟨S_, .i32⟩
  | 38 => ⟨S3136, .i32⟩
  | 39 => ⟨S3136, .i32⟩
  | 40 => ⟨S_, .i32⟩
  | 41 => ⟨S3136, .i32⟩
  | 42 => ⟨S3136, .i32⟩
  | 43 => ⟨S_, .i32⟩
  | 44 => ⟨S3136, .i32⟩
  | 45 => ⟨S3136, .i1⟩
  | 46 => ⟨S_, .i32⟩
  | 47 => ⟨S3136, .i32⟩
  | 48 => ⟨S3136, .i32⟩
  | 49 => ⟨S_, .i32⟩
  | 50 => ⟨S3136, .i32⟩
  | 51 => ⟨S3136, .i32⟩
  | 52 => ⟨S_, .i32⟩
  | 53 => ⟨S3136, .i32⟩
  | 54 => ⟨S3136, .i1⟩
  | 55 => ⟨S3136, .i1⟩
  | 56 => ⟨S_, .i32⟩
  | 57 => ⟨S3136, .i32⟩
  | 58 => ⟨S3136, .i32⟩
  | 59 => ⟨S_, .i32⟩
  | 60 => ⟨S3136, .i32⟩
  | 61 => ⟨S3136, .i32⟩
  | 62 => ⟨S_, .i32⟩
  | 63 => ⟨S3136, .i32⟩
  | 64 => ⟨S3136, .i1⟩
  | 65 => ⟨S3136, .i1⟩
  | 66 => ⟨S_, .i32⟩
  | 67 => ⟨S3136, .i32⟩
  | 68 => ⟨S3136, .i32⟩
  | 69 => ⟨S_, .i32⟩
  | 70 => ⟨S3136, .i32⟩
  | 71 => ⟨S3136, .i32⟩
  | 72 => ⟨S_, .i32⟩
  | 73 => ⟨S3136, .i32⟩
  | 74 => ⟨S3136, .i1⟩
  | 75 => ⟨S3136, .i1⟩
  | 76 => ⟨S_, .i32⟩
  | 77 => ⟨S3136, .i32⟩
  | 78 => ⟨S3136, .i32⟩
  | 79 => ⟨S_, .i32⟩
  | 80 => ⟨S3136, .i32⟩
  | 81 => ⟨S3136, .i32⟩
  | 82 => ⟨S_, .i32⟩
  | 83 => ⟨S3136, .i32⟩
  | 84 => ⟨S3136, .i1⟩
  | 85 => ⟨S_, .i32⟩
  | 86 => ⟨S3136, .i32⟩
  | 87 => ⟨S3136, .i32⟩
  | 88 => ⟨S_, .i32⟩
  | 89 => ⟨S3136, .i32⟩
  | 90 => ⟨S3136, .i32⟩
  | 91 => ⟨S_, .i32⟩
  | 92 => ⟨S3136, .i32⟩
  | 93 => ⟨S3136, .i1⟩
  | 94 => ⟨S3136, .i1⟩
  | 95 => ⟨S_, .i32⟩
  | 96 => ⟨S3136, .i32⟩
  | 97 => ⟨S3136, .i32⟩
  | 98 => ⟨S_, .i32⟩
  | 99 => ⟨S3136, .i32⟩
  | 100 => ⟨S3136, .i32⟩
  | 101 => ⟨S_, .i32⟩
  | 102 => ⟨S3136, .i32⟩
  | 103 => ⟨S3136, .i1⟩
  | 104 => ⟨S3136, .i1⟩
  | 105 => ⟨S_, .i32⟩
  | 106 => ⟨S3136, .i32⟩
  | 107 => ⟨S3136, .i32⟩
  | 108 => ⟨S_, .i32⟩
  | 109 => ⟨S3136, .i32⟩
  | 110 => ⟨S3136, .i32⟩
  | 111 => ⟨S_, .i32⟩
  | 112 => ⟨S3136, .i32⟩
  | 113 => ⟨S3136, .i1⟩
  | 114 => ⟨S3136, .i1⟩
  | 115 => ⟨S_, .i32⟩
  | 116 => ⟨S3136, .i32⟩
  | 117 => ⟨S3136, .i32⟩
  | 118 => ⟨S_, .i32⟩
  | 119 => ⟨S3136, .i32⟩
  | 120 => ⟨S3136, .i32⟩
  | 121 => ⟨S_, .i32⟩
  | 122 => ⟨S3136, .i32⟩
  | 123 => ⟨S3136, .i1⟩
  | 124 => ⟨S_, .i32⟩
  | 125 => ⟨S3136, .i32⟩
  | 126 => ⟨S3136, .i32⟩
  | 127 => ⟨S_, .i32⟩
  | _ => ⟨S32x128x56x56, .f32⟩

abbrev hbmTy0_2 (i : Nat) : BufTy := match i % 128 with
  | 0 => ⟨S3136, .i32⟩
  | 1 => ⟨S3136, .i32⟩
  | 2 => ⟨S_, .i32⟩
  | 3 => ⟨S3136, .i32⟩
  | 4 => ⟨S3136, .i1⟩
  | 5 => ⟨S3136, .i1⟩
  | 6 => ⟨S_, .i32⟩
  | 7 => ⟨S3136, .i32⟩
  | 8 => ⟨S3136, .i32⟩
  | 9 => ⟨S_, .i32⟩
  | 10 => ⟨S3136, .i32⟩
  | 11 => ⟨S3136, .i32⟩
  | 12 => ⟨S_, .i32⟩
  | 13 => ⟨S3136, .i32⟩
  | 14 => ⟨S3136, .i1⟩
  | 15 => ⟨S3136, .i1⟩
  | 16 => ⟨S_, .i32⟩
  | 17 => ⟨S3136, .i32⟩
  | 18 => ⟨S3136, .i32⟩
  | 19 => ⟨S_, .i32⟩
  | 20 => ⟨S3136, .i32⟩
  | 21 => ⟨S3136, .i32⟩
  | 22 => ⟨S_, .i32⟩
  | 23 => ⟨S3136, .i32⟩
  | 24 => ⟨S3136, .i1⟩
  | 25 => ⟨S3136, .i1⟩
  | 26 => ⟨S_, .i32⟩
  | 27 => ⟨S3136, .i32⟩
  | 28 => ⟨S3136, .i32⟩
  | 29 => ⟨S_, .i32⟩
  | 30 => ⟨S3136, .i32⟩
  | 31 => ⟨S3136, .i32⟩
  | 32 => ⟨S_, .i32⟩
  | 33 => ⟨S3136, .i32⟩
  | 34 => ⟨S3136, .i1⟩
  | 35 => ⟨S_, .i32⟩
  | 36 => ⟨S3136, .i32⟩
  | 37 => ⟨S3136, .i32⟩
  | 38 => ⟨S_, .i32⟩
  | 39 => ⟨S3136, .i32⟩
  | 40 => ⟨S3136, .i32⟩
  | 41 => ⟨S_, .i32⟩
  | 42 => ⟨S3136, .i32⟩
  | 43 => ⟨S3136, .i1⟩
  | 44 => ⟨S3136, .i1⟩
  | 45 => ⟨S_, .i32⟩
  | 46 => ⟨S3136, .i32⟩
  | 47 => ⟨S3136, .i32⟩
  | 48 => ⟨S_, .i32⟩
  | 49 => ⟨S3136, .i32⟩
  | 50 => ⟨S3136, .i32⟩
  | 51 => ⟨S_, .i32⟩
  | 52 => ⟨S3136, .i32⟩
  | 53 => ⟨S3136, .i1⟩
  | 54 => ⟨S3136, .i1⟩
  | 55 => ⟨S_, .i32⟩
  | 56 => ⟨S3136, .i32⟩
  | 57 => ⟨S3136, .i32⟩
  | 58 => ⟨S_, .i32⟩
  | 59 => ⟨S3136, .i32⟩
  | 60 => ⟨S3136, .i32⟩
  | 61 => ⟨S_, .i32⟩
  | 62 => ⟨S3136, .i32⟩
  | 63 => ⟨S3136, .i1⟩
  | 64 => ⟨S3136, .i1⟩
  | 65 => ⟨S_, .i32⟩
  | 66 => ⟨S3136, .i32⟩
  | 67 => ⟨S3136, .i32⟩
  | 68 => ⟨S_, .i32⟩
  | 69 => ⟨S3136, .i32⟩
  | 70 => ⟨S3136, .i32⟩
  | 71 => ⟨S_, .i32⟩
  | 72 => ⟨S3136, .i32⟩
  | 73 => ⟨S3136, .i1⟩
  | 74 => ⟨S_, .i32⟩
  | 75 => ⟨S3136, .i32⟩
  | 76 => ⟨S3136, .i32⟩
  | 77 => ⟨S_, .i32⟩
  | 78 => ⟨S3136, .i32⟩
  | 79 => ⟨S3136, .i32⟩
  | 80 => ⟨S_, .i32⟩
  | 81 => ⟨S3136, .i32⟩
  | 82 => ⟨S3136, .i1⟩
  | 83 => ⟨S3136, .i1⟩
  | 84 => ⟨S_, .i32⟩
  | 85 => ⟨S3136, .i32⟩
  | 86 => ⟨S3136, .i32⟩
  | 87 => ⟨S_, .i32⟩
  | 88 => ⟨S3136, .i32⟩
  | 89 => ⟨S3136, .i32⟩
  | 90 => ⟨S_, .i32⟩
  | 91 => ⟨S3136, .i32⟩
  | 92 => ⟨S3136, .i1⟩
  | 93 => ⟨S3136, .i1⟩
  | 94 => ⟨S_, .i32⟩
  | 95 => ⟨S3136, .i32⟩
  | 96 => ⟨S3136, .i32⟩
  | 97 => ⟨S_, .i32⟩
  | 98 => ⟨S3136, .i32⟩
  | 99 => ⟨S3136, .i32⟩
  | 100 => ⟨S_, .i32⟩
  | 101 => ⟨S3136, .i32⟩
  | 102 => ⟨S3136, .i1⟩
  | 103 => ⟨S3136, .i1⟩
  | 104 => ⟨S_, .i32⟩
  | 105 => ⟨S3136, .i32⟩
  | 106 => ⟨S3136, .i32⟩
  | 107 => ⟨S_, .i32⟩
  | 108 => ⟨S3136, .i32⟩
  | 109 => ⟨S3136, .i32⟩
  | 110 => ⟨S_, .i32⟩
  | 111 => ⟨S3136, .i32⟩
  | 112 => ⟨S3136, .i1⟩
  | 113 => ⟨S_, .i32⟩
  | 114 => ⟨S3136, .i32⟩
  | 115 => ⟨S3136, .i32⟩
  | 116 => ⟨S_, .i32⟩
  | 117 => ⟨S3136, .i32⟩
  | 118 => ⟨S3136, .i32⟩
  | 119 => ⟨S_, .i32⟩
  | 120 => ⟨S3136, .i32⟩
  | 121 => ⟨S3136, .i1⟩
  | 122 => ⟨S3136, .i1⟩
  | 123 => ⟨S_, .i32⟩
  | 124 => ⟨S3136, .i32⟩
  | 125 => ⟨S3136, .i32⟩
  | 126 => ⟨S_, .i32⟩
  | 127 => ⟨S3136, .i32⟩
  | _ => ⟨S32x128x56x56, .f32⟩

abbrev hbmTy0_3 (i : Nat) : BufTy := match i % 128 with
  | 0 => ⟨S3136, .i32⟩
  | 1 => ⟨S_, .i32⟩
  | 2 => ⟨S3136, .i32⟩
  | 3 => ⟨S3136, .i1⟩
  | 4 => ⟨S3136, .i1⟩
  | 5 => ⟨S_, .i32⟩
  | 6 => ⟨S3136, .i32⟩
  | 7 => ⟨S3136, .i32⟩
  | 8 => ⟨S_, .i32⟩
  | 9 => ⟨S3136, .i32⟩
  | 10 => ⟨S3136, .i32⟩
  | 11 => ⟨S_, .i32⟩
  | 12 => ⟨S3136, .i32⟩
  | 13 => ⟨S3136, .i1⟩
  | 14 => ⟨S3136, .i1⟩
  | 15 => ⟨S_, .i32⟩
  | 16 => ⟨S3136, .i32⟩
  | 17 => ⟨S3136, .i32⟩
  | 18 => ⟨S_, .i32⟩
  | 19 => ⟨S3136, .i32⟩
  | 20 => ⟨S3136, .i32⟩
  | 21 => ⟨S_, .i32⟩
  | 22 => ⟨S3136, .i32⟩
  | 23 => ⟨S3136, .i1⟩
  | 24 => ⟨S_, .i32⟩
  | 25 => ⟨S3136, .i32⟩
  | 26 => ⟨S3136, .i32⟩
  | 27 => ⟨S_, .i32⟩
  | 28 => ⟨S3136, .i32⟩
  | 29 => ⟨S3136, .i32⟩
  | 30 => ⟨S_, .i32⟩
  | 31 => ⟨S3136, .i32⟩
  | 32 => ⟨S3136, .i1⟩
  | 33 => ⟨S3136, .i1⟩
  | 34 => ⟨S_, .i32⟩
  | 35 => ⟨S3136, .i32⟩
  | 36 => ⟨S3136, .i32⟩
  | 37 => ⟨S_, .i32⟩
  | 38 => ⟨S3136, .i32⟩
  | 39 => ⟨S3136, .i32⟩
  | 40 => ⟨S_, .i32⟩
  | 41 => ⟨S3136, .i32⟩
  | 42 => ⟨S3136, .i1⟩
  | 43 => ⟨S3136, .i1⟩
  | 44 => ⟨S_, .i32⟩
  | 45 => ⟨S3136, .i32⟩
  | 46 => ⟨S3136, .i32⟩
  | 47 => ⟨S_, .i32⟩
  | 48 => ⟨S3136, .i32⟩
  | 49 => ⟨S3136, .i32⟩
  | 50 => ⟨S_, .i32⟩
  | 51 => ⟨S3136, .i32⟩
  | 52 => ⟨S3136, .i1⟩
  | 53 => ⟨S3136, .i1⟩
  | 54 => ⟨S1x3136, .i1⟩
  | 55 => ⟨S1x3136, .i1⟩
  | 56 => ⟨S1x3136, .i1⟩
  | 57 => ⟨S1x3136, .i1⟩
  | 58 => ⟨S1x3136, .i1⟩
  | 59 => ⟨S1x3136, .i1⟩
  | 60 => ⟨S1x3136, .i1⟩
  | 61 => ⟨S1x3136, .i1⟩
  | 62 => ⟨S1x3136, .i1⟩
  | 63 => ⟨S9x3136, .i1⟩
  | 64 => ⟨S9x3136, .bf16⟩
  | 65 => ⟨S9x1x3136, .bf16⟩
  | 66 => ⟨S9x128x3136, .bf16⟩
  | 67 => ⟨S_, .bf16⟩
  | 68 => ⟨S8x3136, .bf16⟩
  | 69 => ⟨S_, .i32⟩
  | 70 => ⟨S1, .i32⟩
  | 71 => ⟨S_, .bf16⟩
  | 72 => ⟨S3136, .bf16⟩
  | 73 => ⟨S8x3136, .bf16⟩
  | 74 => ⟨S32x128x3136, .f32⟩
  | 75 => ⟨S32x128x56x56, .f32⟩
  | _ => ⟨S32x128x56x56, .f32⟩

abbrev hbmTy (i : Nat) : BufTy := match i / 128 with
  | 0 => hbmTy0_0 i
  | 1 => hbmTy0_1 i
  | 2 => hbmTy0_2 i
  | 3 => hbmTy0_3 i
  | _ => ⟨S32x128x56x56, .f32⟩

abbrev bufTy : (tb : Table) → Fin (tcTables nBuf tb) → BufTy
  | .hbm, ⟨i, _⟩ => hbmTy i
  | .local _ .vmem, ⟨0, _⟩ => ⟨S1x128x3136, .f32⟩
  | .local _ .vmem, ⟨1, _⟩ => ⟨S1x128x3136, .f32⟩
  | .local _ .vmem, ⟨2, _⟩ => ⟨S128x1160, .bf16⟩
  | .local _ .vmem, ⟨3, _⟩ => ⟨S128x1160, .bf16⟩
  | .local _ .vmem, ⟨4, _⟩ => ⟨S9x128x3136, .bf16⟩
  | .local _ .vmem, ⟨5, _⟩ => ⟨S8x3136, .bf16⟩
  | .local _ .vmem, ⟨6, _⟩ => ⟨S1x128x3136, .f32⟩
  | .local _ .vmem, ⟨7, _⟩ => ⟨S1x128x3136, .f32⟩
  | .local _ .vmem, ⟨8, _⟩ => ⟨S1160x3136, .bf16⟩
  | .local _ .vmem, ⟨9, _⟩ => ⟨S128x3136, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v32 : Ref sig .tc := ⟨.hbm, 64, rfl⟩
abbrev main_c_3 : Ref sig .tc := ⟨.hbm, 65, rfl⟩
abbrev main_call1_v0 : Ref sig .tc := ⟨.hbm, 66, rfl⟩
abbrev main_call1_c : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_1 : Ref sig .tc := ⟨.hbm, 73, rfl⟩
abbrev main_call1_v5 : Ref sig .tc := ⟨.hbm, 74, rfl⟩
abbrev main_call1_v6 : Ref sig .tc := ⟨.hbm, 75, rfl⟩
abbrev main_call1_c_2 : Ref sig .tc := ⟨.hbm, 76, rfl⟩
abbrev main_call1_v7 : Ref sig .tc := ⟨.hbm, 77, rfl⟩
abbrev main_call1_v8 : Ref sig .tc := ⟨.hbm, 78, rfl⟩
abbrev main_call1_c_3 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_v33 : Ref sig .tc := ⟨.hbm, 86, rfl⟩
abbrev main_c_4 : Ref sig .tc := ⟨.hbm, 87, rfl⟩
abbrev main_v34 : Ref sig .tc := ⟨.hbm, 88, rfl⟩
abbrev main_v35 : Ref sig .tc := ⟨.hbm, 89, rfl⟩
abbrev main_c_5 : Ref sig .tc := ⟨.hbm, 90, rfl⟩
abbrev main_v36 : Ref sig .tc := ⟨.hbm, 91, rfl⟩
abbrev main_v37 : Ref sig .tc := ⟨.hbm, 92, rfl⟩
abbrev main_c_6 : Ref sig .tc := ⟨.hbm, 93, rfl⟩
abbrev main_v38 : Ref sig .tc := ⟨.hbm, 94, rfl⟩
abbrev main_v39 : Ref sig .tc := ⟨.hbm, 95, rfl⟩
abbrev main_c_7 : Ref sig .tc := ⟨.hbm, 96, rfl⟩
abbrev main_v40 : Ref sig .tc := ⟨.hbm, 97, rfl⟩
abbrev main_v41 : Ref sig .tc := ⟨.hbm, 98, rfl⟩
abbrev main_c_8 : Ref sig .tc := ⟨.hbm, 99, rfl⟩
abbrev main_v42 : Ref sig .tc := ⟨.hbm, 100, rfl⟩
abbrev main_v43 : Ref sig .tc := ⟨.hbm, 101, rfl⟩
abbrev main_c_9 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_c_10 : Ref sig .tc := ⟨.hbm, 106, rfl⟩
abbrev main_v47 : Ref sig .tc := ⟨.hbm, 107, rfl⟩
abbrev main_v48 : Ref sig .tc := ⟨.hbm, 108, rfl⟩
abbrev main_c_11 : Ref sig .tc := ⟨.hbm, 109, rfl⟩
abbrev main_v49 : Ref sig .tc := ⟨.hbm, 110, rfl⟩
abbrev main_v50 : Ref sig .tc := ⟨.hbm, 111, rfl⟩
abbrev main_c_12 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_c_13 : Ref sig .tc := ⟨.hbm, 116, rfl⟩
abbrev main_v54 : Ref sig .tc := ⟨.hbm, 117, rfl⟩
abbrev main_v55 : Ref sig .tc := ⟨.hbm, 118, rfl⟩
abbrev main_c_14 : Ref sig .tc := ⟨.hbm, 119, rfl⟩
abbrev main_v56 : Ref sig .tc := ⟨.hbm, 120, rfl⟩
abbrev main_v57 : Ref sig .tc := ⟨.hbm, 121, rfl⟩
abbrev main_c_15 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_16 : Ref sig .tc := ⟨.hbm, 126, rfl⟩
abbrev main_v61 : Ref sig .tc := ⟨.hbm, 127, rfl⟩
abbrev main_v62 : Ref sig .tc := ⟨.hbm, 128, rfl⟩
abbrev main_c_17 : Ref sig .tc := ⟨.hbm, 129, rfl⟩
abbrev main_v63 : Ref sig .tc := ⟨.hbm, 130, rfl⟩
abbrev main_v64 : Ref sig .tc := ⟨.hbm, 131, rfl⟩
abbrev main_c_18 : Ref sig .tc := ⟨.hbm, 132, rfl⟩
abbrev main_v65 : Ref sig .tc := ⟨.hbm, 133, rfl⟩
abbrev main_v66 : Ref sig .tc := ⟨.hbm, 134, rfl⟩
abbrev main_c_19 : Ref sig .tc := ⟨.hbm, 135, rfl⟩
abbrev main_v67 : Ref sig .tc := ⟨.hbm, 136, rfl⟩
abbrev main_v68 : Ref sig .tc := ⟨.hbm, 137, rfl⟩
abbrev main_c_20 : Ref sig .tc := ⟨.hbm, 138, rfl⟩
abbrev main_v69 : Ref sig .tc := ⟨.hbm, 139, rfl⟩
abbrev main_v70 : Ref sig .tc := ⟨.hbm, 140, rfl⟩
abbrev main_c_21 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_c_22 : Ref sig .tc := ⟨.hbm, 145, rfl⟩
abbrev main_v74 : Ref sig .tc := ⟨.hbm, 146, rfl⟩
abbrev main_v75 : Ref sig .tc := ⟨.hbm, 147, rfl⟩
abbrev main_c_23 : Ref sig .tc := ⟨.hbm, 148, rfl⟩
abbrev main_v76 : Ref sig .tc := ⟨.hbm, 149, rfl⟩
abbrev main_v77 : Ref sig .tc := ⟨.hbm, 150, rfl⟩
abbrev main_c_24 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩
abbrev main_c_25 : Ref sig .tc := ⟨.hbm, 155, rfl⟩
abbrev main_v81 : Ref sig .tc := ⟨.hbm, 156, rfl⟩
abbrev main_v82 : Ref sig .tc := ⟨.hbm, 157, rfl⟩
abbrev main_c_26 : Ref sig .tc := ⟨.hbm, 158, rfl⟩
abbrev main_v83 : Ref sig .tc := ⟨.hbm, 159, rfl⟩
abbrev main_v84 : Ref sig .tc := ⟨.hbm, 160, rfl⟩
abbrev main_c_27 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_c_28 : Ref sig .tc := ⟨.hbm, 165, rfl⟩
abbrev main_v88 : Ref sig .tc := ⟨.hbm, 166, rfl⟩
abbrev main_v89 : Ref sig .tc := ⟨.hbm, 167, rfl⟩
abbrev main_c_29 : Ref sig .tc := ⟨.hbm, 168, rfl⟩
abbrev main_v90 : Ref sig .tc := ⟨.hbm, 169, rfl⟩
abbrev main_v91 : Ref sig .tc := ⟨.hbm, 170, rfl⟩
abbrev main_c_30 : Ref sig .tc := ⟨.hbm, 171, rfl⟩
abbrev main_v92 : Ref sig .tc := ⟨.hbm, 172, rfl⟩
abbrev main_v93 : Ref sig .tc := ⟨.hbm, 173, rfl⟩
abbrev main_c_31 : Ref sig .tc := ⟨.hbm, 174, rfl⟩
abbrev main_v94 : Ref sig .tc := ⟨.hbm, 175, rfl⟩
abbrev main_v95 : Ref sig .tc := ⟨.hbm, 176, rfl⟩
abbrev main_c_32 : Ref sig .tc := ⟨.hbm, 177, rfl⟩
abbrev main_v96 : Ref sig .tc := ⟨.hbm, 178, rfl⟩
abbrev main_v97 : Ref sig .tc := ⟨.hbm, 179, rfl⟩
abbrev main_c_33 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_c_34 : Ref sig .tc := ⟨.hbm, 184, rfl⟩
abbrev main_v101 : Ref sig .tc := ⟨.hbm, 185, rfl⟩
abbrev main_v102 : Ref sig .tc := ⟨.hbm, 186, rfl⟩
abbrev main_c_35 : Ref sig .tc := ⟨.hbm, 187, rfl⟩
abbrev main_v103 : Ref sig .tc := ⟨.hbm, 188, rfl⟩
abbrev main_v104 : Ref sig .tc := ⟨.hbm, 189, rfl⟩
abbrev main_c_36 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_c_37 : Ref sig .tc := ⟨.hbm, 194, rfl⟩
abbrev main_v108 : Ref sig .tc := ⟨.hbm, 195, rfl⟩
abbrev main_v109 : Ref sig .tc := ⟨.hbm, 196, rfl⟩
abbrev main_c_38 : Ref sig .tc := ⟨.hbm, 197, rfl⟩
abbrev main_v110 : Ref sig .tc := ⟨.hbm, 198, rfl⟩
abbrev main_v111 : Ref sig .tc := ⟨.hbm, 199, rfl⟩
abbrev main_c_39 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_c_40 : Ref sig .tc := ⟨.hbm, 204, rfl⟩
abbrev main_v115 : Ref sig .tc := ⟨.hbm, 205, rfl⟩
abbrev main_v116 : Ref sig .tc := ⟨.hbm, 206, rfl⟩
abbrev main_c_41 : Ref sig .tc := ⟨.hbm, 207, rfl⟩
abbrev main_v117 : Ref sig .tc := ⟨.hbm, 208, rfl⟩
abbrev main_v118 : Ref sig .tc := ⟨.hbm, 209, rfl⟩
abbrev main_c_42 : Ref sig .tc := ⟨.hbm, 210, rfl⟩
abbrev main_v119 : Ref sig .tc := ⟨.hbm, 211, rfl⟩
abbrev main_v120 : Ref sig .tc := ⟨.hbm, 212, rfl⟩
abbrev main_c_43 : Ref sig .tc := ⟨.hbm, 213, rfl⟩
abbrev main_v121 : Ref sig .tc := ⟨.hbm, 214, rfl⟩
abbrev main_v122 : Ref sig .tc := ⟨.hbm, 215, rfl⟩
abbrev main_c_44 : Ref sig .tc := ⟨.hbm, 216, rfl⟩
abbrev main_v123 : Ref sig .tc := ⟨.hbm, 217, rfl⟩
abbrev main_v124 : Ref sig .tc := ⟨.hbm, 218, rfl⟩
abbrev main_c_45 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_c_46 : Ref sig .tc := ⟨.hbm, 223, rfl⟩
abbrev main_v128 : Ref sig .tc := ⟨.hbm, 224, rfl⟩
abbrev main_v129 : Ref sig .tc := ⟨.hbm, 225, rfl⟩
abbrev main_c_47 : Ref sig .tc := ⟨.hbm, 226, rfl⟩
abbrev main_v130 : Ref sig .tc := ⟨.hbm, 227, rfl⟩
abbrev main_v131 : Ref sig .tc := ⟨.hbm, 228, rfl⟩
abbrev main_c_48 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_c_49 : Ref sig .tc := ⟨.hbm, 233, rfl⟩
abbrev main_v135 : Ref sig .tc := ⟨.hbm, 234, rfl⟩
abbrev main_v136 : Ref sig .tc := ⟨.hbm, 235, rfl⟩
abbrev main_c_50 : Ref sig .tc := ⟨.hbm, 236, rfl⟩
abbrev main_v137 : Ref sig .tc := ⟨.hbm, 237, rfl⟩
abbrev main_v138 : Ref sig .tc := ⟨.hbm, 238, rfl⟩
abbrev main_c_51 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_c_52 : Ref sig .tc := ⟨.hbm, 243, rfl⟩
abbrev main_v142 : Ref sig .tc := ⟨.hbm, 244, rfl⟩
abbrev main_v143 : Ref sig .tc := ⟨.hbm, 245, rfl⟩
abbrev main_c_53 : Ref sig .tc := ⟨.hbm, 246, rfl⟩
abbrev main_v144 : Ref sig .tc := ⟨.hbm, 247, rfl⟩
abbrev main_v145 : Ref sig .tc := ⟨.hbm, 248, rfl⟩
abbrev main_c_54 : Ref sig .tc := ⟨.hbm, 249, rfl⟩
abbrev main_v146 : Ref sig .tc := ⟨.hbm, 250, rfl⟩
abbrev main_v147 : Ref sig .tc := ⟨.hbm, 251, rfl⟩
abbrev main_c_55 : Ref sig .tc := ⟨.hbm, 252, rfl⟩
abbrev main_v148 : Ref sig .tc := ⟨.hbm, 253, rfl⟩
abbrev main_v149 : Ref sig .tc := ⟨.hbm, 254, rfl⟩
abbrev main_c_56 : Ref sig .tc := ⟨.hbm, 255, rfl⟩
abbrev main_v150 : Ref sig .tc := ⟨.hbm, 256, rfl⟩
abbrev main_v151 : Ref sig .tc := ⟨.hbm, 257, rfl⟩
abbrev main_c_57 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_c_58 : Ref sig .tc := ⟨.hbm, 262, rfl⟩
abbrev main_v155 : Ref sig .tc := ⟨.hbm, 263, rfl⟩
abbrev main_v156 : Ref sig .tc := ⟨.hbm, 264, rfl⟩
abbrev main_c_59 : Ref sig .tc := ⟨.hbm, 265, rfl⟩
abbrev main_v157 : Ref sig .tc := ⟨.hbm, 266, rfl⟩
abbrev main_v158 : Ref sig .tc := ⟨.hbm, 267, rfl⟩
abbrev main_c_60 : Ref sig .tc := ⟨.hbm, 268, rfl⟩
abbrev main_v159 : Ref sig .tc := ⟨.hbm, 269, rfl⟩
abbrev main_v160 : Ref sig .tc := ⟨.hbm, 270, rfl⟩
abbrev main_v161 : Ref sig .tc := ⟨.hbm, 271, rfl⟩
abbrev main_c_61 : Ref sig .tc := ⟨.hbm, 272, rfl⟩
abbrev main_v162 : Ref sig .tc := ⟨.hbm, 273, rfl⟩
abbrev main_v163 : Ref sig .tc := ⟨.hbm, 274, rfl⟩
abbrev main_c_62 : Ref sig .tc := ⟨.hbm, 275, rfl⟩
abbrev main_v164 : Ref sig .tc := ⟨.hbm, 276, rfl⟩
abbrev main_v165 : Ref sig .tc := ⟨.hbm, 277, rfl⟩
abbrev main_c_63 : Ref sig .tc := ⟨.hbm, 278, rfl⟩
abbrev main_v166 : Ref sig .tc := ⟨.hbm, 279, rfl⟩
abbrev main_v167 : Ref sig .tc := ⟨.hbm, 280, rfl⟩
abbrev main_v168 : Ref sig .tc := ⟨.hbm, 281, rfl⟩
abbrev main_c_64 : Ref sig .tc := ⟨.hbm, 282, rfl⟩
abbrev main_v169 : Ref sig .tc := ⟨.hbm, 283, rfl⟩
abbrev main_v170 : Ref sig .tc := ⟨.hbm, 284, rfl⟩
abbrev main_c_65 : Ref sig .tc := ⟨.hbm, 285, rfl⟩
abbrev main_v171 : Ref sig .tc := ⟨.hbm, 286, rfl⟩
abbrev main_v172 : Ref sig .tc := ⟨.hbm, 287, rfl⟩
abbrev main_c_66 : Ref sig .tc := ⟨.hbm, 288, rfl⟩
abbrev main_v173 : Ref sig .tc := ⟨.hbm, 289, rfl⟩
abbrev main_v174 : Ref sig .tc := ⟨.hbm, 290, rfl⟩
abbrev main_c_67 : Ref sig .tc := ⟨.hbm, 291, rfl⟩
abbrev main_v175 : Ref sig .tc := ⟨.hbm, 292, rfl⟩
abbrev main_v176 : Ref sig .tc := ⟨.hbm, 293, rfl⟩
abbrev main_c_68 : Ref sig .tc := ⟨.hbm, 294, rfl⟩
abbrev main_v177 : Ref sig .tc := ⟨.hbm, 295, rfl⟩
abbrev main_v178 : Ref sig .tc := ⟨.hbm, 296, rfl⟩
abbrev main_c_69 : Ref sig .tc := ⟨.hbm, 297, rfl⟩
abbrev main_v179 : Ref sig .tc := ⟨.hbm, 298, rfl⟩
abbrev main_v180 : Ref sig .tc := ⟨.hbm, 299, rfl⟩
abbrev main_v181 : Ref sig .tc := ⟨.hbm, 300, rfl⟩
abbrev main_c_70 : Ref sig .tc := ⟨.hbm, 301, rfl⟩
abbrev main_v182 : Ref sig .tc := ⟨.hbm, 302, rfl⟩
abbrev main_v183 : Ref sig .tc := ⟨.hbm, 303, rfl⟩
abbrev main_c_71 : Ref sig .tc := ⟨.hbm, 304, rfl⟩
abbrev main_v184 : Ref sig .tc := ⟨.hbm, 305, rfl⟩
abbrev main_v185 : Ref sig .tc := ⟨.hbm, 306, rfl⟩
abbrev main_c_72 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_c_73 : Ref sig .tc := ⟨.hbm, 311, rfl⟩
abbrev main_v189 : Ref sig .tc := ⟨.hbm, 312, rfl⟩
abbrev main_v190 : Ref sig .tc := ⟨.hbm, 313, rfl⟩
abbrev main_c_74 : Ref sig .tc := ⟨.hbm, 314, rfl⟩
abbrev main_v191 : Ref sig .tc := ⟨.hbm, 315, rfl⟩
abbrev main_v192 : Ref sig .tc := ⟨.hbm, 316, rfl⟩
abbrev main_c_75 : Ref sig .tc := ⟨.hbm, 317, rfl⟩
abbrev main_v193 : Ref sig .tc := ⟨.hbm, 318, rfl⟩
abbrev main_v194 : Ref sig .tc := ⟨.hbm, 319, rfl⟩
abbrev main_v195 : Ref sig .tc := ⟨.hbm, 320, rfl⟩
abbrev main_c_76 : Ref sig .tc := ⟨.hbm, 321, rfl⟩
abbrev main_v196 : Ref sig .tc := ⟨.hbm, 322, rfl⟩
abbrev main_v197 : Ref sig .tc := ⟨.hbm, 323, rfl⟩
abbrev main_c_77 : Ref sig .tc := ⟨.hbm, 324, rfl⟩
abbrev main_v198 : Ref sig .tc := ⟨.hbm, 325, rfl⟩
abbrev main_v199 : Ref sig .tc := ⟨.hbm, 326, rfl⟩
abbrev main_c_78 : Ref sig .tc := ⟨.hbm, 327, rfl⟩
abbrev main_v200 : Ref sig .tc := ⟨.hbm, 328, rfl⟩
abbrev main_v201 : Ref sig .tc := ⟨.hbm, 329, rfl⟩
abbrev main_c_79 : Ref sig .tc := ⟨.hbm, 330, rfl⟩
abbrev main_v202 : Ref sig .tc := ⟨.hbm, 331, rfl⟩
abbrev main_v203 : Ref sig .tc := ⟨.hbm, 332, rfl⟩
abbrev main_c_80 : Ref sig .tc := ⟨.hbm, 333, rfl⟩
abbrev main_v204 : Ref sig .tc := ⟨.hbm, 334, rfl⟩
abbrev main_v205 : Ref sig .tc := ⟨.hbm, 335, rfl⟩
abbrev main_c_81 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_c_82 : Ref sig .tc := ⟨.hbm, 340, rfl⟩
abbrev main_v209 : Ref sig .tc := ⟨.hbm, 341, rfl⟩
abbrev main_v210 : Ref sig .tc := ⟨.hbm, 342, rfl⟩
abbrev main_c_83 : Ref sig .tc := ⟨.hbm, 343, rfl⟩
abbrev main_v211 : Ref sig .tc := ⟨.hbm, 344, rfl⟩
abbrev main_v212 : Ref sig .tc := ⟨.hbm, 345, rfl⟩
abbrev main_c_84 : Ref sig .tc := ⟨.hbm, 346, rfl⟩
abbrev main_v213 : Ref sig .tc := ⟨.hbm, 347, rfl⟩
abbrev main_v214 : Ref sig .tc := ⟨.hbm, 348, rfl⟩
abbrev main_v215 : Ref sig .tc := ⟨.hbm, 349, rfl⟩
abbrev main_c_85 : Ref sig .tc := ⟨.hbm, 350, rfl⟩
abbrev main_v216 : Ref sig .tc := ⟨.hbm, 351, rfl⟩
abbrev main_v217 : Ref sig .tc := ⟨.hbm, 352, rfl⟩
abbrev main_c_86 : Ref sig .tc := ⟨.hbm, 353, rfl⟩
abbrev main_v218 : Ref sig .tc := ⟨.hbm, 354, rfl⟩
abbrev main_v219 : Ref sig .tc := ⟨.hbm, 355, rfl⟩
abbrev main_c_87 : Ref sig .tc := ⟨.hbm, 356, rfl⟩
abbrev main_v220 : Ref sig .tc := ⟨.hbm, 357, rfl⟩
abbrev main_v221 : Ref sig .tc := ⟨.hbm, 358, rfl⟩
abbrev main_v222 : Ref sig .tc := ⟨.hbm, 359, rfl⟩
abbrev main_c_88 : Ref sig .tc := ⟨.hbm, 360, rfl⟩
abbrev main_v223 : Ref sig .tc := ⟨.hbm, 361, rfl⟩
abbrev main_v224 : Ref sig .tc := ⟨.hbm, 362, rfl⟩
abbrev main_c_89 : Ref sig .tc := ⟨.hbm, 363, rfl⟩
abbrev main_v225 : Ref sig .tc := ⟨.hbm, 364, rfl⟩
abbrev main_v226 : Ref sig .tc := ⟨.hbm, 365, rfl⟩
abbrev main_c_90 : Ref sig .tc := ⟨.hbm, 366, rfl⟩
abbrev main_v227 : Ref sig .tc := ⟨.hbm, 367, rfl⟩
abbrev main_v228 : Ref sig .tc := ⟨.hbm, 368, rfl⟩
abbrev main_c_91 : Ref sig .tc := ⟨.hbm, 369, rfl⟩
abbrev main_v229 : Ref sig .tc := ⟨.hbm, 370, rfl⟩
abbrev main_v230 : Ref sig .tc := ⟨.hbm, 371, rfl⟩
abbrev main_c_92 : Ref sig .tc := ⟨.hbm, 372, rfl⟩
abbrev main_v231 : Ref sig .tc := ⟨.hbm, 373, rfl⟩
abbrev main_v232 : Ref sig .tc := ⟨.hbm, 374, rfl⟩
abbrev main_c_93 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_c_94 : Ref sig .tc := ⟨.hbm, 379, rfl⟩
abbrev main_v236 : Ref sig .tc := ⟨.hbm, 380, rfl⟩
abbrev main_v237 : Ref sig .tc := ⟨.hbm, 381, rfl⟩
abbrev main_c_95 : Ref sig .tc := ⟨.hbm, 382, rfl⟩
abbrev main_v238 : Ref sig .tc := ⟨.hbm, 383, rfl⟩
abbrev main_v239 : Ref sig .tc := ⟨.hbm, 384, rfl⟩
abbrev main_c_96 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_c_97 : Ref sig .tc := ⟨.hbm, 389, rfl⟩
abbrev main_v243 : Ref sig .tc := ⟨.hbm, 390, rfl⟩
abbrev main_v244 : Ref sig .tc := ⟨.hbm, 391, rfl⟩
abbrev main_c_98 : Ref sig .tc := ⟨.hbm, 392, rfl⟩
abbrev main_v245 : Ref sig .tc := ⟨.hbm, 393, rfl⟩
abbrev main_v246 : Ref sig .tc := ⟨.hbm, 394, rfl⟩
abbrev main_c_99 : Ref sig .tc := ⟨.hbm, 395, rfl⟩
abbrev main_v247 : Ref sig .tc := ⟨.hbm, 396, rfl⟩
abbrev main_v248 : Ref sig .tc := ⟨.hbm, 397, rfl⟩
abbrev main_v249 : Ref sig .tc := ⟨.hbm, 398, rfl⟩
abbrev main_c_100 : Ref sig .tc := ⟨.hbm, 399, rfl⟩
abbrev main_v250 : Ref sig .tc := ⟨.hbm, 400, rfl⟩
abbrev main_v251 : Ref sig .tc := ⟨.hbm, 401, rfl⟩
abbrev main_c_101 : Ref sig .tc := ⟨.hbm, 402, rfl⟩
abbrev main_v252 : Ref sig .tc := ⟨.hbm, 403, rfl⟩
abbrev main_v253 : Ref sig .tc := ⟨.hbm, 404, rfl⟩
abbrev main_c_102 : Ref sig .tc := ⟨.hbm, 405, rfl⟩
abbrev main_v254 : Ref sig .tc := ⟨.hbm, 406, rfl⟩
abbrev main_v255 : Ref sig .tc := ⟨.hbm, 407, rfl⟩
abbrev main_c_103 : Ref sig .tc := ⟨.hbm, 408, rfl⟩
abbrev main_v256 : Ref sig .tc := ⟨.hbm, 409, rfl⟩
abbrev main_v257 : Ref sig .tc := ⟨.hbm, 410, rfl⟩
abbrev main_c_104 : Ref sig .tc := ⟨.hbm, 411, rfl⟩
abbrev main_v258 : Ref sig .tc := ⟨.hbm, 412, rfl⟩
abbrev main_v259 : Ref sig .tc := ⟨.hbm, 413, rfl⟩
abbrev main_c_105 : Ref sig .tc := ⟨.hbm, 414, rfl⟩
abbrev main_v260 : Ref sig .tc := ⟨.hbm, 415, rfl⟩
abbrev main_v261 : Ref sig .tc := ⟨.hbm, 416, rfl⟩
abbrev main_v262 : Ref sig .tc := ⟨.hbm, 417, rfl⟩
abbrev main_c_106 : Ref sig .tc := ⟨.hbm, 418, rfl⟩
abbrev main_v263 : Ref sig .tc := ⟨.hbm, 419, rfl⟩
abbrev main_v264 : Ref sig .tc := ⟨.hbm, 420, rfl⟩
abbrev main_c_107 : Ref sig .tc := ⟨.hbm, 421, rfl⟩
abbrev main_v265 : Ref sig .tc := ⟨.hbm, 422, rfl⟩
abbrev main_v266 : Ref sig .tc := ⟨.hbm, 423, rfl⟩
abbrev main_c_108 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_c_109 : Ref sig .tc := ⟨.hbm, 428, rfl⟩
abbrev main_v270 : Ref sig .tc := ⟨.hbm, 429, rfl⟩
abbrev main_v271 : Ref sig .tc := ⟨.hbm, 430, rfl⟩
abbrev main_c_110 : Ref sig .tc := ⟨.hbm, 431, rfl⟩
abbrev main_v272 : Ref sig .tc := ⟨.hbm, 432, rfl⟩
abbrev main_v273 : Ref sig .tc := ⟨.hbm, 433, rfl⟩
abbrev main_c_111 : Ref sig .tc := ⟨.hbm, 434, rfl⟩
abbrev main_v274 : Ref sig .tc := ⟨.hbm, 435, rfl⟩
abbrev main_v275 : Ref sig .tc := ⟨.hbm, 436, rfl⟩
abbrev main_v276 : Ref sig .tc := ⟨.hbm, 437, rfl⟩
abbrev main_v277 : Ref sig .tc := ⟨.hbm, 438, rfl⟩
abbrev main_v278 : Ref sig .tc := ⟨.hbm, 439, rfl⟩
abbrev main_v279 : Ref sig .tc := ⟨.hbm, 440, rfl⟩
abbrev main_v280 : Ref sig .tc := ⟨.hbm, 441, rfl⟩
abbrev main_v281 : Ref sig .tc := ⟨.hbm, 442, rfl⟩
abbrev main_v282 : Ref sig .tc := ⟨.hbm, 443, rfl⟩
abbrev main_v283 : Ref sig .tc := ⟨.hbm, 444, rfl⟩
abbrev main_v284 : Ref sig .tc := ⟨.hbm, 445, rfl⟩
abbrev main_v285 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_v289 : Ref sig .tc := ⟨.hbm, 450, rfl⟩
abbrev main_cst_112 : Ref sig .tc := ⟨.hbm, 451, rfl⟩
abbrev main_v290 : Ref sig .tc := ⟨.hbm, 452, rfl⟩
abbrev main_c_113 : Ref sig .tc := ⟨.hbm, 453, rfl⟩
abbrev main_v291 : Ref sig .tc := ⟨.hbm, 454, rfl⟩
abbrev main_cst_114 : Ref sig .tc := ⟨.hbm, 455, rfl⟩
abbrev main_v292 : Ref sig .tc := ⟨.hbm, 456, rfl⟩
abbrev main_v293 : Ref sig .tc := ⟨.hbm, 457, rfl⟩
abbrev main_v294 : Ref sig .tc := ⟨.hbm, 458, rfl⟩
abbrev main_v295 : Ref sig .tc := ⟨.hbm, 459, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1160 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x128x3136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3136 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x128x56x56_S32x128x3136 : S32x128x56x56.ShapeCasts S32x128x3136
  bcast_S_S128 : S_.BroadcastsInDim S128 (![] : Fin 0 → Fin S128.rank)
  transposes_S128x128x3x3_S128x3x3x128_0_2_3_1 : S128x128x3x3.Transposes [0, 2, 3, 1] S128x3x3x128
  shapeCasts_S128x3x3x128_S128x1152 : S128x3x3x128.ShapeCasts S128x1152
  bcast_S128_S128x1_0 : S128.BroadcastsInDim S128x1 (![0] : Fin 1 → Fin S128x1.rank)
  bcast_S128x1_S128x1152_0_1 : S128x1.BroadcastsInDim S128x1152 (![0, 1] : Fin 2 → Fin S128x1152.rank)
  bcast_S_S128x7 : S_.BroadcastsInDim S128x7 (![] : Fin 0 → Fin S128x7.rank)
  concatenates_S128x1152_S128x1_S128x7_S128x1160_d1 : Shape.Concatenates [S128x1152, S128x1, S128x7] S128x1160 1
  bitsLt_bf16_f32 : FTy.bits .bf16 < FTy.bits .f32
  bcast_S_S3136 : S_.BroadcastsInDim S3136 (![] : Fin 0 → Fin S3136.rank)
  bcast_S3136_S1x3136_1 : S3136.BroadcastsInDim S1x3136 (![1] : Fin 1 → Fin S1x3136.rank)
  concatenates_S1x3136_S1x3136_S1x3136_S1x3136_S1x3136_S1x3136_S1x3136_S1x3136_S1x3136_S9x3136_d0 : Shape.Concatenates [S1x3136, S1x3136, S1x3136, S1x3136, S1x3136, S1x3136, S1x3136, S1x3136, S1x3136] S9x3136 0
  bcast_S9x3136_S9x1x3136_0_2 : S9x3136.BroadcastsInDim S9x1x3136 (![0, 2] : Fin 2 → Fin S9x1x3136.rank)
  bcast_S9x1x3136_S9x128x3136_0_1_2 : S9x1x3136.BroadcastsInDim S9x128x3136 (![0, 1, 2] : Fin 3 → Fin S9x128x3136.rank)
  bcast_S_S8x3136 : S_.BroadcastsInDim S8x3136 (![] : Fin 0 → Fin S8x3136.rank)
  bcast_S_S1 : S_.BroadcastsInDim S1 (![] : Fin 0 → Fin S1.rank)
  inb_S1x128x3136_S1x128x3136_0_0_0 : ∀ a, (![0, 0, 0] : Fin 3 → Nat) a + S1x128x3136.size a ≤ S1x128x3136.size a
  h_S1x128x3136 : 0 < S1x128x3136.numel
  shapeCasts_S1x128x3136_S128x3136 : S1x128x3136.ShapeCasts S128x3136
  inb_S8x3136_S8x3136_0_0 : ∀ a, (![0, 0] : Fin 2 → Nat) a + S8x3136.size a ≤ S8x3136.size a
  h_S8x3136 : 0 < S8x3136.numel
  shapeCasts_S8x3136_S8x3136 : S8x3136.ShapeCasts S8x3136
  inb_S1160x3136_S8x3136_1152_0 : ∀ a, (![1152, 0] : Fin 2 → Nat) a + S8x3136.size a ≤ S1160x3136.size a
  packedbf16_S1160x3136_S8x3136_1152_0 : (Rect.unit (s := S1160x3136) ![1152, 0] S8x3136.size inb_S1160x3136_S8x3136_1152_0).PackedRows (EltTy.packing .bf16)
  rotates_S128x3136_d1 : S128x3136.Rotates 1 none
  inb_S9x128x3136_S1x128x3136_0_0_0 : ∀ a, (![0, 0, 0] : Fin 3 → Nat) a + S1x128x3136.size a ≤ S9x128x3136.size a
  inb_S1160x3136_S128x3136_0_0 : ∀ a, (![0, 0] : Fin 2 → Nat) a + S128x3136.size a ≤ S1160x3136.size a
  h_S128x3136 : 0 < S128x3136.numel
  shapeCasts_S128x3136_S128x3136 : S128x3136.ShapeCasts S128x3136
  packedbf16_S1160x3136_S128x3136_0_0 : (Rect.unit (s := S1160x3136) ![0, 0] S128x3136.size inb_S1160x3136_S128x3136_0_0).PackedRows (EltTy.packing .bf16)
  inb_S9x128x3136_S1x128x3136_1_0_0 : ∀ a, (![1, 0, 0] : Fin 3 → Nat) a + S1x128x3136.size a ≤ S9x128x3136.size a
  inb_S1160x3136_S128x3136_128_0 : ∀ a, (![128, 0] : Fin 2 → Nat) a + S128x3136.size a ≤ S1160x3136.size a
  packedbf16_S1160x3136_S128x3136_128_0 : (Rect.unit (s := S1160x3136) ![128, 0] S128x3136.size inb_S1160x3136_S128x3136_128_0).PackedRows (EltTy.packing .bf16)
  inb_S9x128x3136_S1x128x3136_2_0_0 : ∀ a, (![2, 0, 0] : Fin 3 → Nat) a + S1x128x3136.size a ≤ S9x128x3136.size a
  inb_S1160x3136_S128x3136_256_0 : ∀ a, (![256, 0] : Fin 2 → Nat) a + S128x3136.size a ≤ S1160x3136.size a
  packedbf16_S1160x3136_S128x3136_256_0 : (Rect.unit (s := S1160x3136) ![256, 0] S128x3136.size inb_S1160x3136_S128x3136_256_0).PackedRows (EltTy.packing .bf16)
  inb_S9x128x3136_S1x128x3136_3_0_0 : ∀ a, (![3, 0, 0] : Fin 3 → Nat) a + S1x128x3136.size a ≤ S9x128x3136.size a
  inb_S1160x3136_S128x3136_384_0 : ∀ a, (![384, 0] : Fin 2 → Nat) a + S128x3136.size a ≤ S1160x3136.size a
  packedbf16_S1160x3136_S128x3136_384_0 : (Rect.unit (s := S1160x3136) ![384, 0] S128x3136.size inb_S1160x3136_S128x3136_384_0).PackedRows (EltTy.packing .bf16)
  inb_S1160x3136_S128x3136_512_0 : ∀ a, (![512, 0] : Fin 2 → Nat) a + S128x3136.size a ≤ S1160x3136.size a
  packedbf16_S1160x3136_S128x3136_512_0 : (Rect.unit (s := S1160x3136) ![512, 0] S128x3136.size inb_S1160x3136_S128x3136_512_0).PackedRows (EltTy.packing .bf16)
  inb_S9x128x3136_S1x128x3136_5_0_0 : ∀ a, (![5, 0, 0] : Fin 3 → Nat) a + S1x128x3136.size a ≤ S9x128x3136.size a
  inb_S1160x3136_S128x3136_640_0 : ∀ a, (![640, 0] : Fin 2 → Nat) a + S128x3136.size a ≤ S1160x3136.size a
  packedbf16_S1160x3136_S128x3136_640_0 : (Rect.unit (s := S1160x3136) ![640, 0] S128x3136.size inb_S1160x3136_S128x3136_640_0).PackedRows (EltTy.packing .bf16)
  inb_S9x128x3136_S1x128x3136_6_0_0 : ∀ a, (![6, 0, 0] : Fin 3 → Nat) a + S1x128x3136.size a ≤ S9x128x3136.size a
  inb_S1160x3136_S128x3136_768_0 : ∀ a, (![768, 0] : Fin 2 → Nat) a + S128x3136.size a ≤ S1160x3136.size a
  packedbf16_S1160x3136_S128x3136_768_0 : (Rect.unit (s := S1160x3136) ![768, 0] S128x3136.size inb_S1160x3136_S128x3136_768_0).PackedRows (EltTy.packing .bf16)
  inb_S9x128x3136_S1x128x3136_7_0_0 : ∀ a, (![7, 0, 0] : Fin 3 → Nat) a + S1x128x3136.size a ≤ S9x128x3136.size a
  inb_S1160x3136_S128x3136_896_0 : ∀ a, (![896, 0] : Fin 2 → Nat) a + S128x3136.size a ≤ S1160x3136.size a
  packedbf16_S1160x3136_S128x3136_896_0 : (Rect.unit (s := S1160x3136) ![896, 0] S128x3136.size inb_S1160x3136_S128x3136_896_0).PackedRows (EltTy.packing .bf16)
  inb_S9x128x3136_S1x128x3136_8_0_0 : ∀ a, (![8, 0, 0] : Fin 3 → Nat) a + S1x128x3136.size a ≤ S9x128x3136.size a
  inb_S1160x3136_S128x3136_1024_0 : ∀ a, (![1024, 0] : Fin 2 → Nat) a + S128x3136.size a ≤ S1160x3136.size a
  packedbf16_S1160x3136_S128x3136_1024_0 : (Rect.unit (s := S1160x3136) ![1024, 0] S128x3136.size inb_S1160x3136_S128x3136_1024_0).PackedRows (EltTy.packing .bf16)
  inb_S128x1160_S128x1160_0_0 : ∀ a, (![0, 0] : Fin 2 → Nat) a + S128x1160.size a ≤ S128x1160.size a
  h_S128x1160 : 0 < S128x1160.numel
  shapeCasts_S128x1160_S128x1160 : S128x1160.ShapeCasts S128x1160
  inb_S1160x3136_S1160x3136_0_0 : ∀ a, (![0, 0] : Fin 2 → Nat) a + S1160x3136.size a ≤ S1160x3136.size a
  h_S1160x3136 : 0 < S1160x3136.numel
  inb_S128x3136_S128x3136_0_0 : ∀ a, (![0, 0] : Fin 2 → Nat) a + S128x3136.size a ≤ S128x3136.size a
  shapeCasts_S128x3136_S1x128x3136 : S128x3136.ShapeCasts S1x128x3136
  shapeCasts_S32x128x3136_S32x128x56x56 : S32x128x3136.ShapeCasts S32x128x56x56
  scatter_S8x3136_S1_S3136_0_0_0_0_wf : ScatterDims.WF S8x3136 S1 S3136 [0] [0] [0] 0
  dot_S128x1160_S1160x3136_S128x3136_1_0_0_1_n_n_wf : DotDims.WF S128x1160 S1160x3136 S128x3136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3136.size a ≤ S32x128x3136.size a
  hwx0_0 : ∀ i : grid0.Coords, EltTy.bits .f32 = 32 ∨ (Rect.block (s := S32x128x3136) S1x128x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1160.size a ≤ S128x1160.size a
  hwx0_1 : ∀ i : grid0.Coords, EltTy.bits .bf16 = 32 ∨ (Rect.block (s := S128x1160) S128x1160.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1160.size a ≤ S128x1160.size a
  hwx0_2 : ∀ i : grid0.Coords, EltTy.bits .bf16 = 32 ∨ (Rect.block (s := S128x1160) S128x1160.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x128x3136.size a ≤ S9x128x3136.size a
  hwx0_3 : ∀ i : grid0.Coords, EltTy.bits .bf16 = 32 ∨ (Rect.block (s := S9x128x3136) S9x128x3136.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x3136.size a ≤ S8x3136.size a
  hwx0_4 : ∀ i : grid0.Coords, EltTy.bits .bf16 = 32 ∨ (Rect.block (s := S8x3136) S8x3136.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x3136.size a ≤ S32x128x3136.size a
  hwx0_5 : ∀ i : grid0.Coords, EltTy.bits .f32 = 32 ∨ (Rect.block (s := S32x128x3136) S1x128x3136.size (cc0_transform_5 i) (hinb0_5 i)).WholeWords (EltTy.packing .f32)

variable [Facts₀]

def scatter_S8x3136_S1_S3136_0_0_0_0 : ScatterDims S8x3136 S1 S3136 where
  updateWindowDims := [0]
  insertedWindowDims := [0]
  scatterDimsToOperandDims := [0]
  indexVectorDim := 0
  wf := scatter_S8x3136_S1_S3136_0_0_0_0_wf
def dot_S128x1160_S1160x3136_S128x3136_1_0_0_1_n_n : DotDims S128x1160 S1160x3136 S128x3136 where
  lhsContracting := [1]
  rhsContracting := [0]
  lhsNonContracting := [0]
  rhsNonContracting := [1]
  lhsBatch := []
  rhsBatch := []
  wf := dot_S128x1160_S1160x3136_S128x3136_1_0_0_1_n_n_wf

abbrev win0_0 : Pipeline.Window sig grid0 :=
  Pipeline.Window.ofSpec (Memref.whole main_v0) S1x128x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x1160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x1160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v289) S9x128x3136.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v293) S8x3136.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v294) S1x128x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x128x56x56 : Shape := ⟨4, ![32, 128, 56, 56]⟩
abbrev S128x128x3x3 : Shape := ⟨4, ![128, 128, 3, 3]⟩
abbrev S128 : Shape := ⟨1, ![128]⟩
abbrev S32x56x56x128 : Shape := ⟨4, ![32, 56, 56, 128]⟩
abbrev S_ : Shape := ⟨0, ![]⟩
abbrev S32x58x58x128 : Shape := ⟨4, ![32, 58, 58, 128]⟩
abbrev S3x3x128x128 : Shape := ⟨4, ![3, 3, 128, 128]⟩
abbrev S1152x128 : Shape := ⟨2, ![1152, 128]⟩
abbrev S1x128 : Shape := ⟨2, ![1, 128]⟩
abbrev S1x58x58x128 : Shape := ⟨4, ![1, 58, 58, 128]⟩
abbrev S1x56x56x128 : Shape := ⟨4, ![1, 56, 56, 128]⟩
abbrev S3136x1152 : Shape := ⟨2, ![3136, 1152]⟩
abbrev S58x58x128 : Shape := ⟨3, ![58, 58, 128]⟩
abbrev S56x56x128 : Shape := ⟨3, ![56, 56, 128]⟩
abbrev S3136x128 : Shape := ⟨2, ![3136, 128]⟩

abbrev nBuf : Space → Nat
  | .hbm => 59
  | .vmem => 12
  | .smem => 0
  | _ => 0

abbrev bufTy : (tb : Table) → Fin (tcTables nBuf tb) → BufTy
  | .hbm, ⟨0, _⟩ => ⟨S32x128x56x56, .f32⟩
  | .hbm, ⟨1, _⟩ => ⟨S128x128x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128x3x3, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S32x56x56x128, .f32⟩
  | .hbm, ⟨12, _⟩ => ⟨S_, .i32⟩
  | .hbm, ⟨13, _⟩ => ⟨S_, .f32⟩
  | .hbm, ⟨14, _⟩ => ⟨S32x58x58x128, .f32⟩
  | .hbm, ⟨15, _⟩ => ⟨S3x3x128x128, .f32⟩
  | .hbm, ⟨16, _⟩ => ⟨S_, .i32⟩
  | .hbm, ⟨17, _⟩ => ⟨S_, .f32⟩
  | .hbm, ⟨18, _⟩ => ⟨S3x3x128x128, .f32⟩
  | .hbm, ⟨19, _⟩ => ⟨S1152x128, .f32⟩
  | .hbm, ⟨20, _⟩ => ⟨S1152x128, .bf16⟩
  | .hbm, ⟨21, _⟩ => ⟨S3x3x128x128, .f32⟩
  | .hbm, ⟨22, _⟩ => ⟨S_, .i32⟩
  | .hbm, ⟨23, _⟩ => ⟨S_, .f32⟩
  | .hbm, ⟨24, _⟩ => ⟨S3x3x128x128, .f32⟩
  | .hbm, ⟨25, _⟩ => ⟨S1152x128, .f32⟩
  | .hbm, ⟨26, _⟩ => ⟨S1152x128, .bf16⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S128, .f32⟩
  | .hbm, ⟨37, _⟩ => ⟨S128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S1x128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .i32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S128, .f32⟩
  | .hbm, ⟨53, _⟩ => ⟨S_, .i32⟩
  | .hbm, ⟨54, _⟩ => ⟨S_, .f32⟩
  | .hbm, ⟨55, _⟩ => ⟨S128, .f32⟩
  | .hbm, ⟨56, _⟩ => ⟨S1x128, .f32⟩
  | .hbm, ⟨57, _⟩ => ⟨S32x56x56x128, .f32⟩
  | .hbm, ⟨58, _⟩ => ⟨S32x128x56x56, .f32⟩
  | .local _ .vmem, ⟨0, _⟩ => ⟨S1x58x58x128, .f32⟩
  | .local _ .vmem, ⟨1, _⟩ => ⟨S1x58x58x128, .f32⟩
  | .local _ .vmem, ⟨2, _⟩ => ⟨S1152x128, .bf16⟩
  | .local _ .vmem, ⟨3, _⟩ => ⟨S1x128, .f32⟩
  | .local _ .vmem, ⟨4, _⟩ => ⟨S1x128, .f32⟩
  | .local _ .vmem, ⟨5, _⟩ => ⟨S1152x128, .bf16⟩
  | .local _ .vmem, ⟨6, _⟩ => ⟨S1x128, .f32⟩
  | .local _ .vmem, ⟨7, _⟩ => ⟨S1x128, .f32⟩
  | .local _ .vmem, ⟨8, _⟩ => ⟨S1x56x56x128, .f32⟩
  | .local _ .vmem, ⟨9, _⟩ => ⟨S1x56x56x128, .f32⟩
  | .local _ .vmem, ⟨10, _⟩ => ⟨S3136x1152, .bf16⟩
  | .local _ .vmem, ⟨11, _⟩ => ⟨S58x58x128, .f32⟩
  | _, _ => ⟨S32x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_call3_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_call4_v0 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_call5_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_call6_v0 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x58x58x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1152x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x56x56x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S32x128x56x56_S32x56x56x128_0_2_3_1 : S32x128x56x56.Transposes [0, 2, 3, 1] S32x56x56x128
  pads_S32x56x56x128_S32x58x58x128_000_110_110_000 : S32x56x56x128.Pads (![0, 1, 1, 0] : Fin 4 → Nat) ![0, 1, 1, 0] ![0, 0, 0, 0] S32x58x58x128
  h_S_ : 0 < S_.numel
  transposes_S128x128x3x3_S3x3x128x128_2_3_1_0 : S128x128x3x3.Transposes [2, 3, 1, 0] S3x3x128x128
  pads_S3x3x128x128_S3x3x128x128_000_000_000_000 : S3x3x128x128.Pads (![0, 0, 0, 0] : Fin 4 → Nat) ![0, 0, 0, 0] ![0, 0, 0, 0] S3x3x128x128
  shapeCasts_S3x3x128x128_S1152x128 : S3x3x128x128.ShapeCasts S1152x128
  bitsLt_bf16_f32 : FTy.bits .bf16 < FTy.bits .f32
  bcast_S_S128 : S_.BroadcastsInDim S128 (![] : Fin 0 → Fin S128.rank)
  pads_S128_S128_000 : S128.Pads (![0] : Fin 1 → Nat) ![0] ![0] S128
  shapeCasts_S128_S1x128 : S128.ShapeCasts S1x128
  inb_S1x58x58x128_S1x58x58x128_0_0_0_0 : ∀ a, (![0, 0, 0, 0] : Fin 4 → Nat) a + S1x58x58x128.size a ≤ S1x58x58x128.size a
  h_S1x58x58x128 : 0 < S1x58x58x128.numel
  shapeCasts_S1x58x58x128_S58x58x128 : S1x58x58x128.ShapeCasts S58x58x128
  slices_S58x58x128_o0_0_0_S56x56x128 : S58x58x128.Slices ![0, 0, 0] S56x56x128
  shapeCasts_S56x56x128_S3136x128 : S56x56x128.ShapeCasts S3136x128
  inb_S3136x1152_S3136x128_0_0 : ∀ a, (![0, 0] : Fin 2 → Nat) a + S3136x128.size a ≤ S3136x1152.size a
  h_S3136x128 : 0 < S3136x128.numel
  shapeCasts_S3136x128_S3136x128 : S3136x128.ShapeCasts S3136x128
  packedbf16_S3136x1152_S3136x128_0_0 : (Rect.unit (s := S3136x1152) ![0, 0] S3136x128.size inb_S3136x1152_S3136x128_0_0).PackedRows (EltTy.packing .bf16)
  slices_S58x58x128_o0_1_0_S56x56x128 : S58x58x128.Slices ![0, 1, 0] S56x56x128
  inb_S3136x1152_S3136x128_0_128 : ∀ a, (![0, 128] : Fin 2 → Nat) a + S3136x128.size a ≤ S3136x1152.size a
  packedbf16_S3136x1152_S3136x128_0_128 : (Rect.unit (s := S3136x1152) ![0, 128] S3136x128.size inb_S3136x1152_S3136x128_0_128).PackedRows (EltTy.packing .bf16)
  slices_S58x58x128_o0_2_0_S56x56x128 : S58x58x128.Slices ![0, 2, 0] S56x56x128
  inb_S3136x1152_S3136x128_0_256 : ∀ a, (![0, 256] : Fin 2 → Nat) a + S3136x128.size a ≤ S3136x1152.size a
  packedbf16_S3136x1152_S3136x128_0_256 : (Rect.unit (s := S3136x1152) ![0, 256] S3136x128.size inb_S3136x1152_S3136x128_0_256).PackedRows (EltTy.packing .bf16)
  slices_S58x58x128_o1_0_0_S56x56x128 : S58x58x128.Slices ![1, 0, 0] S56x56x128
  inb_S3136x1152_S3136x128_0_384 : ∀ a, (![0, 384] : Fin 2 → Nat) a + S3136x128.size a ≤ S3136x1152.size a
  packedbf16_S3136x1152_S3136x128_0_384 : (Rect.unit (s := S3136x1152) ![0, 384] S3136x128.size inb_S3136x1152_S3136x128_0_384).PackedRows (EltTy.packing .bf16)
  slices_S58x58x128_o1_1_0_S56x56x128 : S58x58x128.Slices ![1, 1, 0] S56x56x128
  inb_S3136x1152_S3136x128_0_512 : ∀ a, (![0, 512] : Fin 2 → Nat) a + S3136x128.size a ≤ S3136x1152.size a
  packedbf16_S3136x1152_S3136x128_0_512 : (Rect.unit (s := S3136x1152) ![0, 512] S3136x128.size inb_S3136x1152_S3136x128_0_512).PackedRows (EltTy.packing .bf16)
  slices_S58x58x128_o1_2_0_S56x56x128 : S58x58x128.Slices ![1, 2, 0] S56x56x128
  inb_S3136x1152_S3136x128_0_640 : ∀ a, (![0, 640] : Fin 2 → Nat) a + S3136x128.size a ≤ S3136x1152.size a
  packedbf16_S3136x1152_S3136x128_0_640 : (Rect.unit (s := S3136x1152) ![0, 640] S3136x128.size inb_S3136x1152_S3136x128_0_640).PackedRows (EltTy.packing .bf16)
  slices_S58x58x128_o2_0_0_S56x56x128 : S58x58x128.Slices ![2, 0, 0] S56x56x128
  inb_S3136x1152_S3136x128_0_768 : ∀ a, (![0, 768] : Fin 2 → Nat) a + S3136x128.size a ≤ S3136x1152.size a
  packedbf16_S3136x1152_S3136x128_0_768 : (Rect.unit (s := S3136x1152) ![0, 768] S3136x128.size inb_S3136x1152_S3136x128_0_768).PackedRows (EltTy.packing .bf16)
  slices_S58x58x128_o2_1_0_S56x56x128 : S58x58x128.Slices ![2, 1, 0] S56x56x128
  inb_S3136x1152_S3136x128_0_896 : ∀ a, (![0, 896] : Fin 2 → Nat) a + S3136x128.size a ≤ S3136x1152.size a
  packedbf16_S3136x1152_S3136x128_0_896 : (Rect.unit (s := S3136x1152) ![0, 896] S3136x128.size inb_S3136x1152_S3136x128_0_896).PackedRows (EltTy.packing .bf16)
  slices_S58x58x128_o2_2_0_S56x56x128 : S58x58x128.Slices ![2, 2, 0] S56x56x128
  inb_S3136x1152_S3136x128_0_1024 : ∀ a, (![0, 1024] : Fin 2 → Nat) a + S3136x128.size a ≤ S3136x1152.size a
  packedbf16_S3136x1152_S3136x128_0_1024 : (Rect.unit (s := S3136x1152) ![0, 1024] S3136x128.size inb_S3136x1152_S3136x128_0_1024).PackedRows (EltTy.packing .bf16)
  inb_S3136x1152_S3136x1152_0_0 : ∀ a, (![0, 0] : Fin 2 → Nat) a + S3136x1152.size a ≤ S3136x1152.size a
  h_S3136x1152 : 0 < S3136x1152.numel
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3136x128 : S1x128.Broadcasts S3136x128
  inb_S58x58x128_S58x58x128_0_0_0 : ∀ a, (![0, 0, 0] : Fin 3 → Nat) a + S58x58x128.size a ≤ S58x58x128.size a
  h_S58x58x128 : 0 < S58x58x128.numel
  shapeCasts_S58x58x128_S58x58x128 : S58x58x128.ShapeCasts S58x58x128
  shapeCasts_S3136x128_S56x56x128 : S3136x128.ShapeCasts S56x56x128
  inb_S58x58x128_S56x56x128_1_1_0 : ∀ a, (![1, 1, 0] : Fin 3 → Nat) a + S56x56x128.size a ≤ S58x58x128.size a
  h_S56x56x128 : 0 < S56x56x128.numel
  shapeCasts_S56x56x128_S56x56x128 : S56x56x128.ShapeCasts S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  transposes_S32x56x56x128_S32x128x56x56_0_3_1_2 : S32x56x56x128.Transposes [0, 3, 1, 2] S32x128x56x56
  dot_S3136x1152_S1152x128_S3136x128_1_0_0_1_n_n_wf : DotDims.WF S3136x1152 S1152x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x128.size a ≤ S32x58x58x128.size a
  hwx0_0 : ∀ i : grid0.Coords, EltTy.bits .f32 = 32 ∨ (Rect.block (s := S32x58x58x128) S1x58x58x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1152x128.size a ≤ S1152x128.size a
  hwx0_4 : ∀ i : grid0.Coords, EltTy.bits .bf16 = 32 ∨ (Rect.block (s := S1152x128) S1152x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x56x56x128.size a ≤ S32x56x56x128.size a
  hwx0_7 : ∀ i : grid0.Coords, EltTy.bits .f32 = 32 ∨ (Rect.block (s := S32x56x56x128) S1x56x56x128.size (cc0_transform_7 i) (hinb0_7 i)).WholeWords (EltTy.packing .f32)

variable [Facts₀]

def dot_S3136x1152_S1152x128_S3136x128_1_0_0_1_n_n : DotDims S3136x1152 S1152x128 S3136x128 where
  lhsContracting := [1]
  rhsContracting := [0]
  lhsNonContracting := [0]
  rhsNonContracting := [1]
  lhsBatch := []
  rhsBatch := []
  wf := dot_S3136x1152_S1152x128_S3136x128_1_0_0_1_n_n_wf

abbrev win0_0 : Pipeline.Window sig grid0 :=
  Pipeline.Window.ofSpec (Memref.whole main_v1) S1x58x58x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1152x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x56x56x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.BitsEntry.lean ====
/-
  What the one pallas_call of the kernel program as printed finds when it is entered, and what is left of the
  argument arrays around it.  @main is five stretches of host operations (the two weight matrices with the
  batch-norm scale folded into their rows and the shift appended as one more column, the nine boundary masks
  of the 3x3 taps over the 56x56 plane, the ones-row block), then the call, then one reshape of its result.
  None of these operations writes an argument array, so the call finds every argument as launched and @main
  ends with every argument as launched; the arrays the call's windows stage are read off the valuation the
  host prefix leaves.  Everything here holds at any float instance.
-/
import proofs.«104539_g2000404336194624_pallasbulk_886_2_alg».proof.Proof.Gen.Kernel.Launch
import proofs.«104539_g2000404336194624_pallasbulk_886_2_alg».proof.Proof.Gen.Kernel.Skeleton
import proofs.«104539_g2000404336194624_pallasbulk_886_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call, as one valuation -/

/-- Core `c`'s buffer contents when the call is entered: the launch memory after the five host stretches. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the call, and the reshape after it: it reduces to the call continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the call touches the call's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the call. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- Closes "no operation of these stretches writes this buffer": every host operation writes only its own result
    buffer, and that buffer is another reference than the one asked about. -/
macro "unwritten" : tactic => `(tactic| (
  simp only [hostOps0, hostOps0_1, hostOps0_2, hostOps0_3, hostOps0_4, hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-! The call finds each argument array as launched. -/
set_option maxHeartbeats 2000000 in
theorem V_main_arg0 (c : Dev nD) : V m c main_arg0 = m ((c : Thread nD τ).loc main_arg0) :=
  StableHlo.after_of_forall_not_mem (b := Proc.devRef .tc main_arg0) _ _ (List.forall_iff_forall_mem.mp (by unwritten))
set_option maxHeartbeats 2000000 in
theorem V_main_arg1 (c : Dev nD) : V m c main_arg1 = m ((c : Thread nD τ).loc main_arg1) :=
  StableHlo.after_of_forall_not_mem (b := Proc.devRef .tc main_arg1) _ _ (List.forall_iff_forall_mem.mp (by unwritten))
set_option maxHeartbeats 2000000 in
theorem V_main_arg2 (c : Dev nD) : V m c main_arg2 = m ((c : Thread nD τ).loc main_arg2) :=
  StableHlo.after_of_forall_not_mem (b := Proc.devRef .tc main_arg2) _ _ (List.forall_iff_forall_mem.mp (by unwritten))
set_option maxHeartbeats 2000000 in
theorem V_main_arg3 (c : Dev nD) : V m c main_arg3 = m ((c : Thread nD τ).loc main_arg3) :=
  StableHlo.after_of_forall_not_mem (b := Proc.devRef .tc main_arg3) _ _ (List.forall_iff_forall_mem.mp (by unwritten))
set_option maxHeartbeats 2000000 in
theorem V_main_arg4 (c : Dev nD) : V m c main_arg4 = m ((c : Thread nD τ).loc main_arg4) :=
  StableHlo.after_of_forall_not_mem (b := Proc.devRef .tc main_arg4) _ _ (List.forall_iff_forall_mem.mp (by unwritten))
set_option maxHeartbeats 2000000 in
theorem V_main_arg5 (c : Dev nD) : V m c main_arg5 = m ((c : Thread nD τ).loc main_arg5) :=
  StableHlo.after_of_forall_not_mem (b := Proc.devRef .tc main_arg5) _ _ (List.forall_iff_forall_mem.mp (by unwritten))
set_option maxHeartbeats 2000000 in
theorem V_main_arg6 (c : Dev nD) : V m c main_arg6 = m ((c : Thread nD τ).loc main_arg6) :=
  StableHlo.after_of_forall_not_mem (b := Proc.devRef .tc main_arg6) _ _ (List.forall_iff_forall_mem.mp (by unwritten))
set_option maxHeartbeats 2000000 in
theorem V_main_arg7 (c : Dev nD) : V m c main_arg7 = m ((c : Thread nD τ).loc main_arg7) :=
  StableHlo.after_of_forall_not_mem (b := Proc.devRef .tc main_arg7) _ _ (List.forall_iff_forall_mem.mp (by unwritten))
set_option maxHeartbeats 2000000 in
theorem V_main_arg8 (c : Dev nD) : V m c main_arg8 = m ((c : Thread nD τ).loc main_arg8) :=
  StableHlo.after_of_forall_not_mem (b := Proc.devRef .tc main_arg8) _ _ (List.forall_iff_forall_mem.mp (by unwritten))
set_option maxHeartbeats 2000000 in
theorem V_main_arg9 (c : Dev nD) : V m c main_arg9 = m ((c : Thread nD τ).loc main_arg9) :=
  StableHlo.after_of_forall_not_mem (b := Proc.devRef .tc main_arg9) _ _ (List.forall_iff_forall_mem.mp (by unwritten))
set_option maxHeartbeats 2000000 in
theorem V_main_arg10 (c : Dev nD) : V m c main_arg10 = m ((c : Thread nD τ).loc main_arg10) :=
  StableHlo.after_of_forall_not_mem (b := Proc.devRef .tc main_arg10) _ _ (List.forall_iff_forall_mem.mp (by unwritten))

/-- An unscoped buffer that is no array of the call and that the reshape after the call does not write ends as the
    call found it. -/
theorem tail_keeps (dats : (p : Fin _) → (c : Dev nD) → Dat τ (Elt F) Unit ℕ (UR sig nD τ) ℕ (cfgs p) c) (c : Dev nD)
    (b : Ref sig .tc) (hw : ∀ op ∈ List.flatten [(hostOps1 : List (HloOp τ sig (Elt F)))], Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hw, Pipeline.withArrays_of_ne _ c (V0 m c) _ b hne]

/-! @main ends with each argument array as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (List.forall_iff_forall_mem.mp (by unwritten)) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (List.forall_iff_forall_mem.mp (by unwritten)) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (List.forall_iff_forall_mem.mp (by unwritten)) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (List.forall_iff_forall_mem.mp (by unwritten)) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (List.forall_iff_forall_mem.mp (by unwritten)) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (List.forall_iff_forall_mem.mp (by unwritten)) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (List.forall_iff_forall_mem.mp (by unwritten)) (by decide)).trans (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (List.forall_iff_forall_mem.mp (by unwritten)) (by decide)).trans (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (List.forall_iff_forall_mem.mp (by unwritten)) (by decide)).trans (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (List.forall_iff_forall_mem.mp (by unwritten)) (by decide)).trans (V_main_arg9 m c)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (List.forall_iff_forall_mem.mp (by unwritten)) (by decide)).trans (V_main_arg10 m c)

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an unfetched
    window's block index has not moved), for any proof data whose array is the one found on entry and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- For any proof data whose arrays are the entry contents, a run of @main to the library's frame post — every array of
    the call at what the proof data computes, every other unscoped buffer as the reshape after the call leaves it —
    ends with the eleven argument arrays as launched: none is an array of the call, and none is written around it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

/-! ## The body's operands -/

/-- One staging buffer of the output window, through which what the body leaves there is stated. -/
abbrev VO0_5 : View sig .tc .vmem S1x128x3136 .f32 := (Memref.whole cc0_stg5_0 : Memref sig .tc .vmem S1x128x3136 .f32).view
/-- Each window's current staging memref at point `t`, as the pipeline passes it to the body, and its wholeness. -/
abbrev ms0_0 (t : Fin cfg0.N) : Memref sig .tc .vmem S1x128x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1160 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1160 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x128x3136 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x3136 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3136 .f32 := win0_5.stage (cfg0.slots t 5)
abbrev hs0_5 (t : Fin cfg0.N) : (ms0_5 t).IsWhole := hstage0_5 ((cfg0.slots t 5).cast nbuf0_5)
/-- The two scratch operands: the patch matrix (1160 rows of 3136 lanes) and the hidden activation (128 x 3136). -/
abbrev scM0_0 : Memref sig .tc .vmem S1160x3136 .bf16 := Memref.whole cc0_scratch0
abbrev scM0_1 : Memref sig .tc .vmem S128x3136 .f32 := Memref.whole cc0_scratch1

/-- The invariant between grid points: the two scratch buffers owned whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Frm

end
-- ==== Proof.BitsBody.lean ====
/-
  The kernel body of the kernel program as printed on any whole staging memrefs.  One grid point is one image: the
  body loads the image as a 128 x 3136 tile (channels by flat 56x56 positions), writes the nine shifted and
  masked copies of it and the ones-row block into the 1160-row patch matrix, multiplies the first weight matrix
  by the patch matrix and keeps the positive part as the hidden activation, builds the patch matrix again from
  the hidden activation, multiplies the second weight matrix by it, adds the image back and keeps the positive part.
  Stated here: from the five input memrefs owned at their contents, the output memref and the two scratch memrefs
  owned at any contents, the body runs, without a fault, to a continuation that holds the inputs as they were, the
  scratch at some contents, and the output memref with a list of pieces written into it — the list the run finds.
-/
import proofs.«104539_g2000404336194624_pallasbulk_886_2_alg».proof.Proof.BitsEntry

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's one store into the output leaves there, as pieces, with the proof that the body runs. -/
noncomputable def bodyRun (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) :
    { L5 : List (View.Piece (Elt F) S1x128x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0__bb_kernel i arg1 harg1 arg2 harg2 arg3 harg3 arg4 harg4 arg5 harg5 arg6 harg6 arg7 harg7 arg8 harg8) K } := by
  refine ⟨?_, fun E K => ?run⟩
  case run =>
    simp only [cc0__bb_kernel_eq_skeleton]; unfold cc0__bb_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    iexists _, _; isplitr; swap; · iexact HS1
    ipureintro; rfl

end Cert.Kernel.Frm

end
-- ==== Proof.BitsFrame.lean ====
/-
  The frame of the kernel program as printed: every weakly fair execution of @main terminates without a fault and
  leaves the eleven argument arrays as launched.  The call's grid has 32 points, one image each.  After the body at
  point `t` the five input windows' staging buffers still hold their blocks (the image's tile, the two weight
  matrices, the nine masks, the ones-row block) and the output window's holds what the body's one covering store
  wrote; the two scratch buffers are handed from point to point at some contents.  With that proof data the
  library's launch theorem for a call with host operations around it gives the run, and the run's post read at the
  argument arrays is the frame claim.  At any float instance.
-/
import proofs.«104539_g2000404336194624_pallasbulk_886_2_alg».proof.Proof.BitsBody

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store into the output window is of the whole 1 x 128 x 3136 block, so its pieces cover the block. -/
theorem cover0_5 (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) (y : S1x128x3136.Idx) :
    ∃ pc ∈ (bodyRun c i arg1 harg1 arg2 harg2 arg3 harg3 arg4 harg4 arg5 harg5 arg6 harg6 arg7 harg7 arg8 harg8 x0 x1 x2 x3 x4).1, y ∈ pc.1.set :=
  View.cover_of_tiledL (bodyRun c i arg1 harg1 arg2 harg2 arg3 harg3 arg4 harg4 arg5 harg5 arg6 harg6 arg7 harg7 arg8 harg8 x0 x1 x2 x3 x4).1 S1x128x3136.size (by sl_kernel_rfl) y

/-- What the body leaves in the output window's staging buffer: its pieces read back. -/
def out0_5 (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) : Vec F S1x128x3136 .f32 :=
  VO0_5.read (Elt F) (VO0_5.writes (Elt F) VO0_5.junk (bodyRun c i arg1 harg1 arg2 harg2 arg3 harg3 arg4 harg4 arg5 harg5 arg6 harg6 arg7 harg7 arg8 harg8 x0 x1 x2 x3 x4).1)

/-- What the output window's staging buffer holds after the body at point `t`: the run's contents at the point's
    memrefs and input blocks. -/
def outsAt0 (c : Dev nD) (t : Fin cfg0.N) : Vec F S1x128x3136 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-- The proof data of the call on core `c`: the arrays as the call finds them; after the body at point `t` each input's
    buffer at its block and the output's at `outsAt0`; between points the scratch buffers at some contents and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks, so the body's run applies; the invariant hands the
    body its scratch buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_5
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main on the TensorCores terminates, and every final state has every array of the
    call at what the library computes from the proof data and every other unscoped buffer as the reshape after the
    call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the kernel program as printed, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Frm

end
-- ==== Proof.IdealEntry.lean ====
/-
  What the one pallas_call of the idealized kernel program finds when it is entered, and what is left of the
  argument arrays around it.  @main is five stretches of host operations (the two weight matrices with the
  batch-norm scale folded into their rows and the shift appended as one more column, the nine boundary masks
  of the 3x3 taps over the 56x56 plane, the ones-row block), then the call, then one reshape of its result.
  None of these operations writes an argument array, so the call finds every argument as launched and @main
  ends with every argument as launched; the arrays the call's windows stage are read off the valuation the
  host prefix leaves.  Everything here holds at any float instance.
-/
import proofs.«104539_g2000404336194624_pallasbulk_886_2_alg».proof.Proof.Gen.KernelIdeal.Launch
import proofs.«104539_g2000404336194624_pallasbulk_886_2_alg».proof.Proof.Gen.KernelIdeal.Skeleton
import proofs.«104539_g2000404336194624_pallasbulk_886_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the call, as one valuation -/

/-- Core `c`'s buffer contents when the call is entered: the launch memory after the five host stretches. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host prefix, the call, and the reshape after it: it reduces to the call continued by that reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the call touches the call's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the call. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays are written by no host operation -/

/-- Closes "no operation of these stretches writes this buffer": every host operation writes only its own result
    buffer, and that buffer is another reference than the one asked about. -/
macro "unwritten" : tactic => `(tactic| (
  simp only [hostOps0, hostOps0_1, hostOps0_2, hostOps0_3, hostOps0_4, hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)))

/-! The call finds each argument array as launched. -/
set_option maxHeartbeats 2000000 in
theorem V_main_arg0 (c : Dev nD) : V m c main_arg0 = m ((c : Thread nD τ).loc main_arg0) :=
  StableHlo.after_of_forall_not_mem (b := Proc.devRef .tc main_arg0) _ _ (List.forall_iff_forall_mem.mp (by unwritten))
set_option maxHeartbeats 2000000 in
theorem V_main_arg1 (c : Dev nD) : V m c main_arg1 = m ((c : Thread nD τ).loc main_arg1) :=
  StableHlo.after_of_forall_not_mem (b := Proc.devRef .tc main_arg1) _ _ (List.forall_iff_forall_mem.mp (by unwritten))
set_option maxHeartbeats 2000000 in
theorem V_main_arg2 (c : Dev nD) : V m c main_arg2 = m ((c : Thread nD τ).loc main_arg2) :=
  StableHlo.after_of_forall_not_mem (b := Proc.devRef .tc main_arg2) _ _ (List.forall_iff_forall_mem.mp (by unwritten))
set_option maxHeartbeats 2000000 in
theorem V_main_arg3 (c : Dev nD) : V m c main_arg3 = m ((c : Thread nD τ).loc main_arg3) :=
  StableHlo.after_of_forall_not_mem (b := Proc.devRef .tc main_arg3) _ _ (List.forall_iff_forall_mem.mp (by unwritten))
set_option maxHeartbeats 2000000 in
theorem V_main_arg4 (c : Dev nD) : V m c main_arg4 = m ((c : Thread nD τ).loc main_arg4) :=
  StableHlo.after_of_forall_not_mem (b := Proc.devRef .tc main_arg4) _ _ (List.forall_iff_forall_mem.mp (by unwritten))
set_option maxHeartbeats 2000000 in
theorem V_main_arg5 (c : Dev nD) : V m c main_arg5 = m ((c : Thread nD τ).loc main_arg5) :=
  StableHlo.after_of_forall_not_mem (b := Proc.devRef .tc main_arg5) _ _ (List.forall_iff_forall_mem.mp (by unwritten))
set_option maxHeartbeats 2000000 in
theorem V_main_arg6 (c : Dev nD) : V m c main_arg6 = m ((c : Thread nD τ).loc main_arg6) :=
  StableHlo.after_of_forall_not_mem (b := Proc.devRef .tc main_arg6) _ _ (List.forall_iff_forall_mem.mp (by unwritten))
set_option maxHeartbeats 2000000 in
theorem V_main_arg7 (c : Dev nD) : V m c main_arg7 = m ((c : Thread nD τ).loc main_arg7) :=
  StableHlo.after_of_forall_not_mem (b := Proc.devRef .tc main_arg7) _ _ (List.forall_iff_forall_mem.mp (by unwritten))
set_option maxHeartbeats 2000000 in
theorem V_main_arg8 (c : Dev nD) : V m c main_arg8 = m ((c : Thread nD τ).loc main_arg8) :=
  StableHlo.after_of_forall_not_mem (b := Proc.devRef .tc main_arg8) _ _ (List.forall_iff_forall_mem.mp (by unwritten))
set_option maxHeartbeats 2000000 in
theorem V_main_arg9 (c : Dev nD) : V m c main_arg9 = m ((c : Thread nD τ).loc main_arg9) :=
  StableHlo.after_of_forall_not_mem (b := Proc.devRef .tc main_arg9) _ _ (List.forall_iff_forall_mem.mp (by unwritten))
set_option maxHeartbeats 2000000 in
theorem V_main_arg10 (c : Dev nD) : V m c main_arg10 = m ((c : Thread nD τ).loc main_arg10) :=
  StableHlo.after_of_forall_not_mem (b := Proc.devRef .tc main_arg10) _ _ (List.forall_iff_forall_mem.mp (by unwritten))

/-- An unscoped buffer that is no array of the call and that the reshape after the call does not write ends as the
    call found it. -/
theorem tail_keeps (dats : (p : Fin _) → (c : Dev nD) → Dat τ (Elt F) Unit ℕ (UR sig nD τ) ℕ (cfgs p) c) (c : Dev nD)
    (b : Ref sig .tc) (hw : ∀ op ∈ List.flatten [(hostOps1 : List (HloOp τ sig (Elt F)))], Proc.devRef .tc b ∉ op.writes)
    (hne : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hw, Pipeline.withArrays_of_ne _ c (V0 m c) _ b hne]

/-! @main ends with each argument array as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (tail_keeps m dats c main_arg0 (List.forall_iff_forall_mem.mp (by unwritten)) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (tail_keeps m dats c main_arg1 (List.forall_iff_forall_mem.mp (by unwritten)) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (tail_keeps m dats c main_arg2 (List.forall_iff_forall_mem.mp (by unwritten)) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (tail_keeps m dats c main_arg3 (List.forall_iff_forall_mem.mp (by unwritten)) (by decide)).trans (V_main_arg3 m c)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  (tail_keeps m dats c main_arg4 (List.forall_iff_forall_mem.mp (by unwritten)) (by decide)).trans (V_main_arg4 m c)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  (tail_keeps m dats c main_arg5 (List.forall_iff_forall_mem.mp (by unwritten)) (by decide)).trans (V_main_arg5 m c)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  (tail_keeps m dats c main_arg6 (List.forall_iff_forall_mem.mp (by unwritten)) (by decide)).trans (V_main_arg6 m c)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  (tail_keeps m dats c main_arg7 (List.forall_iff_forall_mem.mp (by unwritten)) (by decide)).trans (V_main_arg7 m c)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (tail_keeps m dats c main_arg8 (List.forall_iff_forall_mem.mp (by unwritten)) (by decide)).trans (V_main_arg8 m c)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (tail_keeps m dats c main_arg9 (List.forall_iff_forall_mem.mp (by unwritten)) (by decide)).trans (V_main_arg9 m c)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (tail_keeps m dats c main_arg10 (List.forall_iff_forall_mem.mp (by unwritten)) (by decide)).trans (V_main_arg10 m c)

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Each input window's current staging buffer holds its block at every point, fetched there or not (an unfetched
    window's block index has not moved), for any proof data whose array is the one found on entry and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

/-- For any proof data whose arrays are the entry contents, a run of @main to the library's frame post — every array of
    the call at what the proof data computes, every other unscoped buffer as the reshape after the call leaves it —
    ends with the eleven argument arrays as launched: none is an array of the call, and none is written around it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

/-! ## The body's operands -/

/-- One staging buffer of the output window, through which what the body leaves there is stated. -/
abbrev VO0_5 : View sig .tc .vmem S1x128x3136 .f32 := (Memref.whole cc0_stg5_0 : Memref sig .tc .vmem S1x128x3136 .f32).view
/-- Each window's current staging memref at point `t`, as the pipeline passes it to the body, and its wholeness. -/
abbrev ms0_0 (t : Fin cfg0.N) : Memref sig .tc .vmem S1x128x3136 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1160 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1160 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x128x3136 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x3136 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x3136 .f32 := win0_5.stage (cfg0.slots t 5)
abbrev hs0_5 (t : Fin cfg0.N) : (ms0_5 t).IsWhole := hstage0_5 ((cfg0.slots t 5).cast nbuf0_5)
/-- The two scratch operands: the patch matrix (1160 rows of 3136 lanes) and the hidden activation (128 x 3136). -/
abbrev scM0_0 : Memref sig .tc .vmem S1160x3136 .bf16 := Memref.whole cc0_scratch0
abbrev scM0_1 : Memref sig .tc .vmem S128x3136 .f32 := Memref.whole cc0_scratch1

/-- The invariant between grid points: the two scratch buffers owned whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Frm

end
-- ==== Proof.IdealBody.lean ====
/-
  The kernel body of the idealized kernel program on any whole staging memrefs.  One grid point is one image: the
  body loads the image as a 128 x 3136 tile (channels by flat 56x56 positions), writes the nine shifted and
  masked copies of it and the ones-row block into the 1160-row patch matrix, multiplies the first weight matrix
  by the patch matrix and keeps the positive part as the hidden activation, builds the patch matrix again from
  the hidden activation, multiplies the second weight matrix by it, adds the image back and keeps the positive part.
  Stated here: from the five input memrefs owned at their contents, the output memref and the two scratch memrefs
  owned at any contents, the body runs, without a fault, to a continuation that holds the inputs as they were, the
  scratch at some contents, and the output memref with a list of pieces written into it — the list the run finds.
-/
import proofs.«104539_g2000404336194624_pallasbulk_886_2_alg».proof.Proof.IdealEntry

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's one store into the output leaves there, as pieces, with the proof that the body runs. -/
noncomputable def bodyRun (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) :
    { L5 : List (View.Piece (Elt F) S1x128x3136 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d) ∗ (∃ d, owns (c : Thread nD τ) arg8 fullShare d)) -∗ K ⟨⟩))
          ⊢ wp frame (wpE (defs₀ (F := F)) Variants.none c none) E (cc0__bb_kernel i arg1 harg1 arg2 harg2 arg3 harg3 arg4 harg4 arg5 harg5 arg6 harg6 arg7 harg7 arg8 harg8) K } := by
  refine ⟨?_, fun E K => ?run⟩
  case run =>
    simp only [cc0__bb_kernel_eq_skeleton]; unfold cc0__bb_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [HS0]
    · iexists _, _; isplitr; swap; · iexact HS0
      ipureintro; rfl
    iexists _, _; isplitr; swap; · iexact HS1
    ipureintro; rfl

end Cert.KernelIdeal.Frm

end
-- ==== Proof.IdealFrame.lean ====
/-
  The frame of the idealized kernel program: every weakly fair execution of @main terminates without a fault and
  leaves the eleven argument arrays as launched.  The call's grid has 32 points, one image each.  After the body at
  point `t` the five input windows' staging buffers still hold their blocks (the image's tile, the two weight
  matrices, the nine masks, the ones-row block) and the output window's holds what the body's one covering store
  wrote; the two scratch buffers are handed from point to point at some contents.  With that proof data the
  library's launch theorem for a call with host operations around it gives the run, and the run's post read at the
  argument arrays is the frame claim.  At any float instance.
-/
import proofs.«104539_g2000404336194624_pallasbulk_886_2_alg».proof.Proof.IdealBody

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store into the output window is of the whole 1 x 128 x 3136 block, so its pieces cover the block. -/
theorem cover0_5 (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) (y : S1x128x3136.Idx) :
    ∃ pc ∈ (bodyRun c i arg1 harg1 arg2 harg2 arg3 harg3 arg4 harg4 arg5 harg5 arg6 harg6 arg7 harg7 arg8 harg8 x0 x1 x2 x3 x4).1, y ∈ pc.1.set :=
  View.cover_of_tiledL (bodyRun c i arg1 harg1 arg2 harg2 arg3 harg3 arg4 harg4 arg5 harg5 arg6 harg6 arg7 harg7 arg8 harg8 x0 x1 x2 x3 x4).1 S1x128x3136.size (by sl_kernel_rfl) y

/-- What the body leaves in the output window's staging buffer: its pieces read back. -/
def out0_5 (c : Dev nD) (i : grid0.Coords) (arg1 : Memref sig .tc .vmem S1x128x3136 .f32) (harg1 : arg1.IsWhole) (arg2 : Memref sig .tc .vmem S128x1160 .bf16) (harg2 : arg2.IsWhole) (arg3 : Memref sig .tc .vmem S128x1160 .bf16) (harg3 : arg3.IsWhole) (arg4 : Memref sig .tc .vmem S9x128x3136 .bf16) (harg4 : arg4.IsWhole) (arg5 : Memref sig .tc .vmem S8x3136 .bf16) (harg5 : arg5.IsWhole) (arg6 : Memref sig .tc .vmem S1x128x3136 .f32) (harg6 : arg6.IsWhole) (arg7 : Memref sig .tc .vmem S1160x3136 .bf16) (harg7 : arg7.IsWhole) (arg8 : Memref sig .tc .vmem S128x3136 .f32) (harg8 : arg8.IsWhole)
    (x0 : Vec F S1x128x3136 .f32) (x1 : Vec F S128x1160 .bf16) (x2 : Vec F S128x1160 .bf16) (x3 : Vec F S9x128x3136 .bf16) (x4 : Vec F S8x3136 .bf16) : Vec F S1x128x3136 .f32 :=
  VO0_5.read (Elt F) (VO0_5.writes (Elt F) VO0_5.junk (bodyRun c i arg1 harg1 arg2 harg2 arg3 harg3 arg4 harg4 arg5 harg5 arg6 harg6 arg7 harg7 arg8 harg8 x0 x1 x2 x3 x4).1)

/-- What the output window's staging buffer holds after the body at point `t`: the run's contents at the point's
    memrefs and input blocks. -/
def outsAt0 (c : Dev nD) (t : Fin cfg0.N) : Vec F S1x128x3136 .f32 :=
  out0_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-- The proof data of the call on core `c`: the arrays as the call finds them; after the body at point `t` each input's
    buffer at its block and the output's at `outsAt0`; between points the scratch buffers at some contents and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks, so the body's run applies; the invariant hands the
    body its scratch buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_5
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_5 c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main on the TensorCores terminates, and every final state has every array of the
    call at what the library computes from the proof data and every other unscoped buffer as the reshape after the
    call leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the idealized kernel program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Frm

end
-- ==== Proof.IdealTaps.lean ====
/-
  The pieces of the kernel body's patch matrix, read at an index over the extended reals.  A tap of the 3 x 3
  window shifts the 128 x 3136 tile along its 3136 lanes: the rotation by r reads, at lane p, the tile at lane
  (p + 3136 - r) mod 3136.  A masked tap is that rotated tile times the tap's 0/1 mask, entry by entry; the centre
  tap is the tile itself.  A change of float format is the identity over the extended reals, and a shape cast
  between [1,128,3136] and [128,3136] only renames the index.
-/
import proofs.«104539_g2000404336194624_pallasbulk_886_2_alg».proof.Proof.IdealFrame
import Idealize.ShloMosaic.Lib.KernelVsHost
import Idealize.ShloMosaic.Lib.ValueLayout
import Idealize.ShloMosaic.Lib.Pipeline.Value

set_option maxRecDepth 16384

noncomputable section

namespace Cert.KernelIdeal.BodyVal

open Cert.KernelIdeal Cert.KernelIdeal.Gen
open Idealize.ShloMosaic Idealize.ShloMosaic.TcCoe Idealize.ShloMosaic.ValueIdx Idealize.SL.Sem

/-- The lane a rotation by `r` reads at lane `p`. -/
def back (r : Nat) (p : Fin 3136) : Fin 3136 := ⟨(p.val + 3136 - r % 3136) % 3136, Nat.mod_lt _ (by norm_num)⟩

/-- A rotation of the tile along its lanes, read at (i, p). -/
theorem rot_apply (amt : BitVec 32) (src : FVec Ideal S128x3136 .f32) (i : Fin 128) (p : Fin 3136) :
    dynamicRotate 1 amt none src rotates_S128x3136_d1 (ix2 i p) = src (ix2 i (back amt.toNat p)) :=
  dynamicRotate_apply (1 : Fin 2) amt src rotates_S128x3136_d1 (ix2 i p) (ix2 i (back amt.toNat p)) (by
    intro b
    match b with
    | ⟨0, _⟩ => rfl
    | ⟨1, _⟩ => rfl)

/-- A masked tap: the rotated tile, its format changed, times the tap's mask block. -/
theorem tap_apply (amt : BitVec 32) (src : FVec Ideal S128x3136 .f32) (mb : Vec Ideal S1x128x3136 .bf16) (i : Fin 128) (p : Fin 3136) :
    (shapeCast S128x3136 (mulf (truncf .bf16 (dynamicRotate 1 amt none src rotates_S128x3136_d1) bitsLt_bf16_f32)
        (shapeCast S128x3136 mb shapeCasts_S1x128x3136_S128x3136)) shapeCasts_S128x3136_S128x3136 : FVec Ideal S128x3136 .bf16) (ix2 i p)
      = src (ix2 i (back amt.toNat p)) * mb (ix3 (0 : Fin 1) i p) := by
  rw [shapeCast_self]
  show (dynamicRotate 1 amt none src rotates_S128x3136_d1 (ix2 i p) : EReal) * shapeCast S128x3136 mb shapeCasts_S1x128x3136_S128x3136 (ix2 i p) = _
  rw [rot_apply, shapeCast_1ab_ab_apply]

/-- The centre tap: the tile itself. -/
theorem centre_apply (src : FVec Ideal S128x3136 .f32) (i : Fin 128) (p : Fin 3136) :
    (shapeCast S128x3136 (truncf .bf16 src bitsLt_bf16_f32) shapeCasts_S128x3136_S128x3136 : FVec Ideal S128x3136 .bf16) (ix2 i p)
      = src (ix2 i p) := by
  rw [shapeCast_self]; rfl

/-- The image's tile: the [1,128,3136] block as a [128,3136] matrix. -/
theorem tile_apply (x0 : Vec Ideal S1x128x3136 .f32) (i : Fin 128) (p : Fin 3136) :
    k0_pay2 (F := Ideal) x0 (ix2 i p) = x0 (ix3 (0 : Fin 1) i p) := by
  unfold k0_pay2
  exact shapeCast_1ab_ab_apply _ _ i p

/-- One mask block [1,128,3136] of the nine, loaded through a whole memref holding the masks array. -/
theorem maskBlock_apply {arg4 : Memref sig .tc .vmem S9x128x3136 .bf16} (harg4 : arg4.IsWhole) (x3 : Vec Ideal S9x128x3136 .bf16)
    (t : Fin 9) (inb : ∀ a, (![t.val, 0, 0] : Fin 3 → Nat) a + S1x128x3136.size a ≤ S9x128x3136.size a) (i : Fin 128) (p : Fin 3136) :
    View.readAt (Elt Ideal) arg4.view (Rect.unit (s := S9x128x3136) ![t.val, 0, 0] S1x128x3136.size inb).toLoadRect (harg4.unread x3) (ix3 (0 : Fin 1) i p)
      = x3 (ix3 t i p) := by
  rw [View.readAt_eq_ld, harg4.read_unread]
  show x3 _ = x3 _
  refine congrArg x3 (funext fun a => Fin.ext ?_)
  match a with
  | ⟨0, _⟩ => show t.val + 1 * 0 = t.val; omega
  | ⟨1, _⟩ => show 0 + 1 * i.val = i.val; omega
  | ⟨2, _⟩ => show 0 + 1 * p.val = p.val; omega

/-- The image block loaded whole through a whole memref is the block. -/
theorem wholeLoad3 {arg1 : Memref sig .tc .vmem S1x128x3136 .f32} (harg1 : arg1.IsWhole) (x0 : Vec Ideal S1x128x3136 .f32)
    (inb : ∀ a, (![0, 0, 0] : Fin 3 → Nat) a + S1x128x3136.size a ≤ S1x128x3136.size a) :
    View.readAt (Elt Ideal) arg1.view (Rect.unit (s := S1x128x3136) ![0, 0, 0] S1x128x3136.size inb).toLoadRect (harg1.unread x0) = x0 := by
  rw [View.readAt_eq_ld, harg1.read_unread]
  exact View.ld_unit_zero (funext fun a => by match a with | ⟨0, _⟩ => rfl | ⟨1, _⟩ => rfl | ⟨2, _⟩ => rfl) inb x0

/-- A weight matrix loaded whole through a whole memref is the matrix. -/
theorem wholeLoadW {arg2 : Memref sig .tc .vmem S128x1160 .bf16} (harg2 : arg2.IsWhole) (x1 : Vec Ideal S128x1160 .bf16)
    (inb : ∀ a, (![0, 0] : Fin 2 → Nat) a + S128x1160.size a ≤ S128x1160.size a) :
    View.readAt (Elt Ideal) arg2.view (Rect.unit (s := S128x1160) ![0, 0] S128x1160.size inb).toLoadRect (harg2.unread x1) = x1 := by
  rw [View.readAt_eq_ld, harg2.read_unread]
  exact View.ld_unit_zero (funext fun a => by match a with | ⟨0, _⟩ => rfl | ⟨1, _⟩ => rfl) inb x1

/-- The ones-row block loaded whole, through its two identity shape casts, is the block. -/
theorem onesBlock_apply {arg5 : Memref sig .tc .vmem S8x3136 .bf16} (harg5 : arg5.IsWhole) (x4 : Vec Ideal S8x3136 .bf16)
    (inb : ∀ a, (![0, 0] : Fin 2 → Nat) a + S8x3136.size a ≤ S8x3136.size a) :
    k0_pay3 (F := Ideal) (View.readAt (Elt Ideal) arg5.view (Rect.unit (s := S8x3136) ![0, 0] S8x3136.size inb).toLoadRect (harg5.unread x4)) = x4 := by
  unfold k0_pay3
  dsimp only
  rw [shapeCast_self, shapeCast_self, View.readAt_eq_ld, harg5.read_unread]
  exact View.ld_unit_zero (funext fun a => by match a with | ⟨0, _⟩ => rfl | ⟨1, _⟩ => rfl) inb x4

end Cert.KernelIdeal.BodyVal

end
-- ==== Proof.IdealPatch.lean ====
/-
  The patch matrix the kernel body builds from a 128 x 3136 tile, as ONE function of its row and lane.  Row
  k < 1152 belongs to tap t = k / 128 and input channel i = k % 128: it is the tile's row i rotated along the lanes
  by the tap's amount, times the tap's mask — the tile's row itself for the centre tap t = 4, which is stored unmasked —
  and rows 1152 .. 1159 are the ones-row block.  The body stores this matrix in ten row slabs; the slabs tile the
  1160 x 3136 buffer, so reading the buffer back reads this function.
-/
import proofs.«104539_g2000404336194624_pallasbulk_886_2_alg».proof.Proof.IdealTaps
import Idealize.ShloMosaic.Lib.Pipeline.CanonAppend

set_option maxRecDepth 16384

noncomputable section

namespace Cert.KernelIdeal.BodyVal

open Cert.KernelIdeal Cert.KernelIdeal.Gen Cert.KernelIdeal.Frm
open Idealize.ShloMosaic Idealize.ShloMosaic.TcCoe Idealize.ShloMosaic.ValueIdx Idealize.SL.Sem

/-- The rotation amount of tap t = ky*3 + kx: (57 - (ky*56 + kx)) mod 3136. -/
def rotAmt : Nat → Nat
  | 0 => 57 | 1 => 56 | 2 => 55 | 3 => 1 | 5 => 3135 | 6 => 3081 | 7 => 3080 | 8 => 3079 | _ => 0

/-- The masks array read at a tap given as a number (zero past the ninth tap). -/
def maskAt (x3 : Vec Ideal S9x128x3136 .bf16) (t : Nat) (i : Fin 128) (p : Fin 3136) : EReal :=
  if h : t < 9 then x3 (ix3 (⟨t, h⟩ : Fin 9) i p) else 0

/-- The ones-row block read at a row given as a number. -/
def onesAt (x4 : Vec Ideal S8x3136 .bf16) (r : Nat) (p : Fin 3136) : EReal :=
  if h : r < 8 then x4 (ix2 (⟨r, h⟩ : Fin 8) p) else 0

/-- Row `k`, lane `p` of the patch matrix built from the tile `A`. -/
def patchRow (A : FVec Ideal S128x3136 .f32) (x3 : Vec Ideal S9x128x3136 .bf16) (x4 : Vec Ideal S8x3136 .bf16) (k : Nat) (p : Fin 3136) : EReal :=
  if k < 1152 then
    (if k / 128 = 4 then A (ix2 (⟨k % 128, Nat.mod_lt _ (by norm_num)⟩ : Fin 128) p)
     else A (ix2 (⟨k % 128, Nat.mod_lt _ (by norm_num)⟩ : Fin 128) (back (rotAmt (k / 128)) p)) * maskAt x3 (k / 128) ⟨k % 128, Nat.mod_lt _ (by norm_num)⟩ p)
  else onesAt x4 (k - 1152) p

/-- The patch matrix as a function of the buffer's index. -/
def patchMat (A : FVec Ideal S128x3136 .f32) (x3 : Vec Ideal S9x128x3136 .bf16) (x4 : Vec Ideal S8x3136 .bf16) : S1160x3136.Idx → EReal :=
  fun j => patchRow A x3 x4 (j 0).val (j 1)

/-- An index of the buffer in rows off .. off+127 lies in the 128-row slab stored at row off. -/
theorem slab_mem (off : Nat) (inb : ∀ a, (![off, 0] : Fin 2 → Nat) a + S128x3136.size a ≤ S1160x3136.size a) (k : Fin 1160) (p : Fin 3136)
    (h : off ≤ k.val ∧ k.val < off + 128) : (ix2 k p : S1160x3136.Idx) ∈ (Rect.unit (s := S1160x3136) ![off, 0] S128x3136.size inb).set :=
  Rect.mem_set_unit.mpr (fun a => by
    match a with
    | ⟨0, _⟩ => exact ⟨h.1, h.2⟩
    | ⟨1, _⟩ => exact ⟨Nat.zero_le _, by show p.val < 0 + 3136; omega⟩)

/-- and in rows 1152 .. 1159 in the 8-row slab stored at row 1152. -/
theorem tail_mem (inb : ∀ a, (![1152, 0] : Fin 2 → Nat) a + S8x3136.size a ≤ S1160x3136.size a) (k : Fin 1160) (p : Fin 3136)
    (h : 1152 ≤ k.val) : (ix2 k p : S1160x3136.Idx) ∈ (Rect.unit (s := S1160x3136) ![1152, 0] S8x3136.size inb).set :=
  Rect.mem_set_unit.mpr (fun a => by
    match a with
    | ⟨0, _⟩ => exact ⟨h, by show k.val < 1152 + 8; omega⟩
    | ⟨1, _⟩ => exact ⟨Nat.zero_le _, by show p.val < 0 + 3136; omega⟩)

/-- A masked tap's slab is the patch matrix's restriction to the slab's rows: for tap `t` stored at rows t*128 .. t*128+127,
    a payload that is the tile rotated by the tap's amount times the tap's mask block agrees with `patchMat` there. -/
theorem piece_tap (src : FVec Ideal S128x3136 .f32) (x3 : Vec Ideal S9x128x3136 .bf16) (x4 : Vec Ideal S8x3136 .bf16)
    (t : Nat) (ht : t < 9) (ht4 : t ≠ 4) (inb : ∀ a, (![t * 128, 0] : Fin 2 → Nat) a + S128x3136.size a ≤ S1160x3136.size a)
    (r : Nat) (hr : r = rotAmt t) (mb : Vec Ideal S1x128x3136 .bf16) (hmb : ∀ i p, mb (ix3 (0 : Fin 1) i p) = x3 (ix3 (⟨t, ht⟩ : Fin 9) i p))
    (w : S128x3136.Idx → EReal) (hw : ∀ i p, w (ix2 i p) = src (ix2 i (back r p)) * mb (ix3 (0 : Fin 1) i p)) (i : Fin 128) (p : Fin 3136) :
    w (ix2 i p) = patchMat src x3 x4 ((Rect.unit (s := S1160x3136) ![t * 128, 0] S128x3136.size inb).emb (ix2 i p)) := by
  have hemb : (Rect.unit (s := S1160x3136) ![t * 128, 0] S128x3136.size inb).emb (ix2 i p)
      = ix2 (⟨t * 128 + i.val, by omega⟩ : Fin 1160) p :=
    funext fun a => Fin.ext (by
      match a with
      | ⟨0, _⟩ => show t * 128 + 1 * i.val = t * 128 + i.val; omega
      | ⟨1, _⟩ => show 0 + 1 * p.val = p.val; omega)
  rw [hemb, hw i p, hmb i p]
  show _ = patchRow src x3 x4 (t * 128 + i.val) p
  unfold patchRow
  have h1 : (t * 128 + i.val) / 128 = t := by omega
  have h2 : (t * 128 + i.val) % 128 = i.val := by omega
  rw [if_pos (by omega : t * 128 + i.val < 1152)]
  simp only [h1, h2, if_neg ht4, Fin.eta]
  unfold maskAt
  rw [dif_pos ht, hr]

/-- The centre tap's slab (rows 512 .. 639) is the tile itself. -/
theorem piece_centre (src : FVec Ideal S128x3136 .f32) (x3 : Vec Ideal S9x128x3136 .bf16) (x4 : Vec Ideal S8x3136 .bf16)
    (inb : ∀ a, (![512, 0] : Fin 2 → Nat) a + S128x3136.size a ≤ S1160x3136.size a)
    (w : S128x3136.Idx → EReal) (hw : ∀ i p, w (ix2 i p) = src (ix2 i p)) (i : Fin 128) (p : Fin 3136) :
    w (ix2 i p) = patchMat src x3 x4 ((Rect.unit (s := S1160x3136) ![512, 0] S128x3136.size inb).emb (ix2 i p)) := by
  have hemb : (Rect.unit (s := S1160x3136) ![512, 0] S128x3136.size inb).emb (ix2 i p)
      = ix2 (⟨512 + i.val, by omega⟩ : Fin 1160) p :=
    funext fun a => Fin.ext (by
      match a with
      | ⟨0, _⟩ => show 512 + 1 * i.val = 512 + i.val; omega
      | ⟨1, _⟩ => show 0 + 1 * p.val = p.val; omega)
  rw [hemb, hw i p]
  show _ = patchRow src x3 x4 (512 + i.val) p
  unfold patchRow
  have h1 : (512 + i.val) / 128 = 4 := by omega
  have h2 : (512 + i.val) % 128 = i.val := by omega
  rw [if_pos (by omega : 512 + i.val < 1152)]
  simp only [h1, h2, if_true, Fin.eta]

/-- The last slab (rows 1152 .. 1159) is the ones-row block. -/
theorem piece_ones (src : FVec Ideal S128x3136 .f32) (x3 : Vec Ideal S9x128x3136 .bf16) (x4 : Vec Ideal S8x3136 .bf16)
    (inb : ∀ a, (![1152, 0] : Fin 2 → Nat) a + S8x3136.size a ≤ S1160x3136.size a)
    (w : S8x3136.Idx → EReal) (hw : w = x4) (r : Fin 8) (p : Fin 3136) :
    w (ix2 r p) = patchMat src x3 x4 ((Rect.unit (s := S1160x3136) ![1152, 0] S8x3136.size inb).emb (ix2 r p)) := by
  have hemb : (Rect.unit (s := S1160x3136) ![1152, 0] S8x3136.size inb).emb (ix2 r p)
      = ix2 (⟨1152 + r.val, by omega⟩ : Fin 1160) p :=
    funext fun a => Fin.ext (by
      match a with
      | ⟨0, _⟩ => show 1152 + 1 * r.val = 1152 + r.val; omega
      | ⟨1, _⟩ => show 0 + 1 * p.val = p.val; omega)
  rw [hemb, hw]
  show _ = patchRow src x3 x4 (1152 + r.val) p
  unfold patchRow
  rw [if_neg (by omega : ¬ 1152 + r.val < 1152)]
  unfold onesAt
  rw [dif_pos (by omega : 1152 + r.val - 1152 < 8)]
  exact congrArg x4 (funext fun a => Fin.ext (by
    match a with
    | ⟨0, _⟩ => show r.val = 1152 + r.val - 1152; omega
    | ⟨1, _⟩ => rfl))

/-- An index of the buffer in rows at or past off+128 lies outside the 128-row slab stored at row off. -/
theorem slab_not_mem (off : Nat) (inb : ∀ a, (![off, 0] : Fin 2 → Nat) a + S128x3136.size a ≤ S1160x3136.size a) (k : Fin 1160) (p : Fin 3136)
    (h : off + 128 ≤ k.val) : (ix2 k p : S1160x3136.Idx) ∉ (Rect.unit (s := S1160x3136) ![off, 0] S128x3136.size inb).set := fun hm => by
  have h0 := (Rect.mem_set_unit.mp hm) (0 : Fin 2)
  have : k.val < off + 128 := h0.2
  omega

/-- The ten slabs the body has stored when it first reads the patch buffer tile it and are `patchMat` of the image's tile, slab by slab. -/
theorem canon1_apply (c : Dev nD) (arg1 : Memref sig .tc .vmem S1x128x3136 .f32) (harg1 : arg1.IsWhole) (arg4 : Memref sig .tc .vmem S9x128x3136 .bf16) (harg4 : arg4.IsWhole) (arg5 : Memref sig .tc .vmem S8x3136 .bf16) (harg5 : arg5.IsWhole)
    (x0 : Vec Ideal S1x128x3136 .f32) (x3 : Vec Ideal S9x128x3136 .bf16) (x4 : Vec Ideal S8x3136 .bf16) (k : Fin 1160) (p : Fin 3136) :
    View.canon (Frm.bodyRun.sl.HS0_10 (F := Ideal) c arg1 harg1 arg4 harg4 arg5 harg5 x0 x3 x4) (ix2 k p)
      = patchMat (k0_pay2 x0) x3 x4 (ix2 k p) := by
  refine View.canon_apply_of_pieces (Val := Elt Ideal) (S := S1160x3136) (e := .bf16) (patchMat (k0_pay2 x0) x3 x4) _ ?_ (ix2 k p) ?_
  · unfold Frm.bodyRun.sl.HS0_10
    intro q hq
    simp only [List.mem_cons, List.mem_nil_iff, or_false] at hq
    rcases hq with rfl | rfl | rfl | rfl | rfl | rfl | rfl | rfl | rfl | rfl
    · intro x
      obtain ⟨i, p, rfl⟩ : ∃ (i : Fin 128) (p : Fin 3136), x = ix2 i p := ⟨x 0, x 1, eq_ix2 x⟩
      exact piece_tap (k0_pay2 x0) x3 x4 8 (by norm_num) (by norm_num) inb_S1160x3136_S128x3136_1024_0 3079 rfl _ (fun i p => maskBlock_apply harg4 x3 8 inb_S9x128x3136_S1x128x3136_8_0_0 i p) _ (fun i p => by
        unfold Frm.bodyRun.sl.r; rw [wholeLoad3 harg1 x0]
        exact tap_apply 3079#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 7 (by norm_num) (by norm_num) inb_S1160x3136_S128x3136_896_0 3080 rfl _ (fun i p => maskBlock_apply harg4 x3 7 inb_S9x128x3136_S1x128x3136_7_0_0 i p) _ (fun i p => by
        unfold Frm.bodyRun.sl.r_2 Frm.bodyRun.sl.r_3 Frm.bodyRun.sl.r; rw [wholeLoad3 harg1 x0]
        exact tap_apply 3080#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 6 (by norm_num) (by norm_num) inb_S1160x3136_S128x3136_768_0 3081 rfl _ (fun i p => maskBlock_apply harg4 x3 6 inb_S9x128x3136_S1x128x3136_6_0_0 i p) _ (fun i p => by
        unfold Frm.bodyRun.sl.r; rw [wholeLoad3 harg1 x0]
        exact tap_apply 3081#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 5 (by norm_num) (by norm_num) inb_S1160x3136_S128x3136_640_0 3135 rfl _ (fun i p => maskBlock_apply harg4 x3 5 inb_S9x128x3136_S1x128x3136_5_0_0 i p) _ (fun i p => by
        unfold Frm.bodyRun.sl.r; rw [wholeLoad3 harg1 x0]
        exact tap_apply 3135#32 (k0_pay2 x0) _ i p) i p
    · intro x
      obtain ⟨i, p, rfl⟩ : ∃ (i : Fin 128) (p : Fin 3136), x = ix2 i p := ⟨x 0, x 1, eq_ix2 x⟩
      exact piece_centre (k0_pay2 x0) x3 x4 inb_S1160x3136_S128x3136_512_0 _ (fun i p => by
        unfold Frm.bodyRun.sl.r; rw [wholeLoad3 harg1 x0]
        exact centre_apply (k0_pay2 x0) i p) i p
    · intro x
      obtain ⟨i, p, rfl⟩ : ∃ (i : Fin 128) (p : Fin 3136), x = ix2 i p := ⟨x 0, x 1, eq_ix2 x⟩
      exact piece_tap (k0_pay2 x0) x3 x4 3 (by norm_num) (by norm_num) inb_S1160x3136_S128x3136_384_0 1 rfl _ (fun i p => maskBlock_apply harg4 x3 3 inb_S9x128x3136_S1x128x3136_3_0_0 i p) _ (fun i p => by
        unfold Frm.bodyRun.sl.r; rw [wholeLoad3 harg1 x0]
        exact tap_apply 1#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 2 (by norm_num) (by norm_num) inb_S1160x3136_S128x3136_256_0 55 rfl _ (fun i p => maskBlock_apply harg4 x3 2 inb_S9x128x3136_S1x128x3136_2_0_0 i p) _ (fun i p => by
        unfold Frm.bodyRun.sl.r_1; rw [wholeLoad3 harg1 x0]
        exact tap_apply 55#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 1 (by norm_num) (by norm_num) inb_S1160x3136_S128x3136_128_0 56 rfl _ (fun i p => maskBlock_apply harg4 x3 1 inb_S9x128x3136_S1x128x3136_1_0_0 i p) _ (fun i p => by
        rw [wholeLoad3 harg1 x0]
        exact tap_apply 56#32 (k0_pay2 x0) _ i p) i p
    · intro x
      obtain ⟨i, p, rfl⟩ : ∃ (i : Fin 128) (p : Fin 3136), x = ix2 i p := ⟨x 0, x 1, eq_ix2 x⟩
      exact piece_tap (k0_pay2 x0) x3 x4 0 (by norm_num) (by norm_num) inb_S1160x3136_S128x3136_0_0 57 rfl _ (fun i p => maskBlock_apply harg4 x3 0 inb_S9x128x3136_S1x128x3136_0_0_0 i p) _ (fun i p => by
        rw [wholeLoad3 harg1 x0]
        exact tap_apply 57#32 (k0_pay2 x0) _ i p) i p
    · intro x
      obtain ⟨r, p, rfl⟩ : ∃ (r : Fin 8) (p : Fin 3136), x = ix2 r p := ⟨x 0, x 1, eq_ix2 x⟩
      exact piece_ones (k0_pay2 x0) x3 x4 inb_S1160x3136_S8x3136_1152_0 _ (onesBlock_apply harg5 x4 inb_S8x3136_S8x3136_0_0) r p
  · unfold Frm.bodyRun.sl.HS0_10
    have hk := k.isLt
    rcases (show k.val < 128 ∨ (128 ≤ k.val ∧ k.val < 256) ∨ (256 ≤ k.val ∧ k.val < 384) ∨ (384 ≤ k.val ∧ k.val < 512) ∨ (512 ≤ k.val ∧ k.val < 640)
        ∨ (640 ≤ k.val ∧ k.val < 768) ∨ (768 ≤ k.val ∧ k.val < 896) ∨ (896 ≤ k.val ∧ k.val < 1024) ∨ (1024 ≤ k.val ∧ k.val < 1152) ∨ 1152 ≤ k.val by omega)
      with h | h | h | h | h | h | h | h | h | h
    · exact ⟨_, (.tail _ (.tail _ (.tail _ (.tail _ (.tail _ (.tail _ (.tail _ (.tail _ (.head _))))))))), slab_mem 0 inb_S1160x3136_S128x3136_0_0 k p (by omega)⟩
    · exact ⟨_, (.tail _ (.tail _ (.tail _ (.tail _ (.tail _ (.tail _ (.tail _ (.head _)))))))), slab_mem 128 inb_S1160x3136_S128x3136_128_0 k p (by omega)⟩
    · exact ⟨_, (.tail _ (.tail _ (.tail _ (.tail _ (.tail _ (.tail _ (.head _))))))), slab_mem 256 inb_S1160x3136_S128x3136_256_0 k p (by omega)⟩
    · exact ⟨_, (.tail _ (.tail _ (.tail _ (.tail _ (.tail _ (.head _)))))), slab_mem 384 inb_S1160x3136_S128x3136_384_0 k p (by omega)⟩
    · exact ⟨_, (.tail _ (.tail _ (.tail _ (.tail _ (.head _))))), slab_mem 512 inb_S1160x3136_S128x3136_512_0 k p (by omega)⟩
    · exact ⟨_, (.tail _ (.tail _ (.tail _ (.head _)))), slab_mem 640 inb_S1160x3136_S128x3136_640_0 k p (by omega)⟩
    · exact ⟨_, (.tail _ (.tail _ (.head _))), slab_mem 768 inb_S1160x3136_S128x3136_768_0 k p (by omega)⟩
    · exact ⟨_, (.tail _ (.head _)), slab_mem 896 inb_S1160x3136_S128x3136_896_0 k p (by omega)⟩
    · exact ⟨_, (.head _), slab_mem 1024 inb_S1160x3136_S128x3136_1024_0 k p (by omega)⟩
    · exact ⟨_, (.tail _ (.tail _ (.tail _ (.tail _ (.tail _ (.tail _ (.tail _ (.tail _ (.tail _ (.head _)))))))))), tail_mem inb_S1160x3136_S8x3136_1152_0 k p h⟩

/-- The body's first read of the whole patch buffer, after its ten slab stores, reads `patchMat` of the image's tile. -/
theorem patch1_apply (c : Dev nD) (arg1 : Memref sig .tc .vmem S1x128x3136 .f32) (harg1 : arg1.IsWhole) (arg4 : Memref sig .tc .vmem S9x128x3136 .bf16) (harg4 : arg4.IsWhole) (arg5 : Memref sig .tc .vmem S8x3136 .bf16) (harg5 : arg5.IsWhole) (arg7 : Memref sig .tc .vmem S1160x3136 .bf16)
    (x0 : Vec Ideal S1x128x3136 .f32) (x3 : Vec Ideal S9x128x3136 .bf16) (x4 : Vec Ideal S8x3136 .bf16) (k : Fin 1160) (p : Fin 3136) :
    Frm.bodyRun.sl.v77 (F := Ideal) c arg1 harg1 arg4 harg4 arg5 harg5 arg7 x0 x3 x4 (ix2 k p)
      = patchMat (k0_pay2 x0) x3 x4 (ix2 k p) := by
  unfold Frm.bodyRun.sl.v77
  rw [View.readCov_eq_canon']
  have hidx : (Rect.unit (s := S1160x3136) ![0, 0] S1160x3136.size inb_S1160x3136_S1160x3136_0_0).toLoadRect.idx (ix2 k p) = ix2 k p :=
    funext fun a => Fin.ext (by
      match a with
      | ⟨0, _⟩ => show 0 + 1 * k.val = k.val; omega
      | ⟨1, _⟩ => show 0 + 1 * p.val = p.val; omega)
  show View.canon _ ((Rect.unit (s := S1160x3136) ![0, 0] S1160x3136.size inb_S1160x3136_S1160x3136_0_0).toLoadRect.idx (ix2 k p)) = _
  rw [hidx]
  exact canon1_apply c arg1 harg1 arg4 harg4 arg5 harg5 x0 x3 x4 k p

end Cert.KernelIdeal.BodyVal

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.IdealBlock.lean ====
/-
  One grid point of the kernel body over the extended reals, as functions of the point's blocks.  The hidden
  activation is the positive part of the first weight matrix times the patch matrix of the image's tile; the body
  keeps it in a scratch buffer, builds the patch matrix again from it (nine new slabs over the old ones, the
  ones-row slab kept), multiplies the second weight matrix by that, adds the image's tile back and keeps the
  positive part: that is what the one store into the output block writes.
-/
import proofs.«104539_g2000404336194624_pallasbulk_886_2_alg».proof.Proof.IdealPatch
import proofs.«104539_g2000404336194624_pallasbulk_886_2_alg».proof.Proof.LibPlainDot

set_option maxRecDepth 16384

noncomputable section

namespace Cert.KernelIdeal.BodyVal

open Cert.KernelIdeal Cert.KernelIdeal.Gen Cert.KernelIdeal.Frm
open Idealize.ShloMosaic Idealize.ShloMosaic.TcCoe Idealize.ShloMosaic.ValueIdx Idealize.SL.Sem

/-- A weight matrix [128,1160] times a patch matrix [1160,3136] at (o, p), positive part. -/
def reluDot (W : Vec Ideal S128x1160 .bf16) (Pm : S1160x3136.Idx → EReal) (o : Fin 128) (p : Fin 3136) : EReal :=
  max (∑ k : Fin 1160, W (ix2 o k) * Pm (ix2 k p)) 0

/-- The product alone. -/
def dotAt (W : Vec Ideal S128x1160 .bf16) (Pm : S1160x3136.Idx → EReal) (o : Fin 128) (p : Fin 3136) : EReal :=
  ∑ k : Fin 1160, W (ix2 o k) * Pm (ix2 k p)

/-- The body's first product with its positive part, read at (o, p). -/
theorem pay14_apply (W : Vec Ideal S128x1160 .bf16) (Pm : Vec Ideal S1160x3136 .bf16) (o : Fin 128) (p : Fin 3136) :
    k0_pay14 (F := Ideal) W Pm (ix2 o p) = reluDot W Pm o p := by
  unfold k0_pay14
  try dsimp only
  rw [shapeCast_self, shapeCast_self]
  show max (FloatOps.matmul dot_S128x1160_S1160x3136_S128x3136_1_0_0_1_n_n none W Pm (constant (F := Ideal) S128x3136 .f32 0x00000000#32) (ix2 o p))
      (Ideal.ofBits .f32 0x00000000#32) = _
  rw [Ideal.ofBits_zero_f32]
  exact congrArg (max · 0) (Cert.Lib.matmul_zero_apply dot_S128x1160_S1160x3136_S128x3136_1_0_0_1_n_n.wf none W Pm o p)

/-- The body's second product, read at (o, p). -/
theorem pay25_apply (W : Vec Ideal S128x1160 .bf16) (Pm : Vec Ideal S1160x3136 .bf16) (o : Fin 128) (p : Fin 3136) :
    k0_pay25 (F := Ideal) W Pm (ix2 o p) = dotAt W Pm o p := by
  unfold k0_pay25
  try dsimp only
  rw [shapeCast_self]
  exact Cert.Lib.matmul_zero_apply dot_S128x1160_S1160x3136_S128x3136_1_0_0_1_n_n.wf none W Pm o p

variable (c : Dev nD) (arg1 : Memref sig .tc .vmem S1x128x3136 .f32) (harg1 : arg1.IsWhole) (arg2 : Memref sig .tc .vmem S128x1160 .bf16) (harg2 : arg2.IsWhole)
  (arg3 : Memref sig .tc .vmem S128x1160 .bf16) (harg3 : arg3.IsWhole) (arg4 : Memref sig .tc .vmem S9x128x3136 .bf16) (harg4 : arg4.IsWhole)
  (arg5 : Memref sig .tc .vmem S8x3136 .bf16) (harg5 : arg5.IsWhole) (arg7 : Memref sig .tc .vmem S1160x3136 .bf16) (arg8 : Memref sig .tc .vmem S128x3136 .f32)
  (x0 : Vec Ideal S1x128x3136 .f32) (x1 x2 : Vec Ideal S128x1160 .bf16) (x3 : Vec Ideal S9x128x3136 .bf16) (x4 : Vec Ideal S8x3136 .bf16)

/-- The hidden activation the body reads back from its scratch buffer. -/
theorem hidden_apply (o : Fin 128) (p : Fin 3136) :
    Frm.bodyRun.sl.v84 (F := Ideal) c arg1 harg1 arg2 harg2 arg4 harg4 arg5 harg5 arg7 arg8 x0 x1 x3 x4 (ix2 o p)
      = reluDot x1 (patchMat (k0_pay2 x0) x3 x4) o p := by
  unfold Frm.bodyRun.sl.v84
  rw [View.readCov_eq_canon']
  have hidx : (Rect.unit (s := S128x3136) ![0, 0] S128x3136.size inb_S128x3136_S128x3136_0_0).toLoadRect.idx (ix2 o p) = ix2 o p :=
    funext fun a => Fin.ext (by
      match a with
      | ⟨0, _⟩ => show 0 + 1 * o.val = o.val; omega
      | ⟨1, _⟩ => show 0 + 1 * p.val = p.val; omega)
  show View.canon _ ((Rect.unit (s := S128x3136) ![0, 0] S128x3136.size inb_S128x3136_S128x3136_0_0).toLoadRect.idx (ix2 o p)) = _
  rw [hidx]
  unfold Frm.bodyRun.sl.HS1_1
  rw [View.canon_unit_zero (funext fun a => by match a with | ⟨0, _⟩ => rfl | ⟨1, _⟩ => rfl) inb_S128x3136_S128x3136_0_0]
  rw [wholeLoadW harg2 x1 inb_S128x1160_S128x1160_0_0, pay14_apply]
  unfold reluDot
  refine congrArg (max · 0) (Finset.sum_congr rfl fun k _ => ?_)
  rw [patch1_apply]

/-- A store into a 128-row slab that ends at or before row k does not touch row k: the canon there is the earlier stores'. -/
theorem canon_skip_slab (off : Nat) (inb : ∀ a, (![off, 0] : Fin 2 → Nat) a + S128x3136.size a ≤ S1160x3136.size a)
    (w : S128x3136.Idx → EReal) (L : List (View.Piece (Elt Ideal) S1160x3136 .bf16)) (k : Fin 1160) (p : Fin 3136) (h : off + 128 ≤ k.val) :
    View.canon ((⟨Rect.unit (s := S1160x3136) ![off, 0] S128x3136.size inb, w⟩ : View.Piece (Elt Ideal) S1160x3136 .bf16) :: L) (ix2 k p)
      = View.canon L (ix2 k p) :=
  View.canon_cons_of_not_mem _ _ (slab_not_mem off inb k p h)

/-- The second patch matrix: the body's second read of the whole patch buffer reads `patchMat` of the hidden activation. -/
theorem patch2_apply (k : Fin 1160) (p : Fin 3136) :
    Frm.bodyRun.sl.v155 (F := Ideal) c arg1 harg1 arg2 harg2 arg4 harg4 arg5 harg5 arg7 arg8 x0 x1 x3 x4 (ix2 k p)
      = patchMat (Frm.bodyRun.sl.v84 (F := Ideal) c arg1 harg1 arg2 harg2 arg4 harg4 arg5 harg5 arg7 arg8 x0 x1 x3 x4) x3 x4 (ix2 k p) := by
  unfold Frm.bodyRun.sl.v155
  rw [View.readCov_eq_canon']
  have hidx : (Rect.unit (s := S1160x3136) ![0, 0] S1160x3136.size inb_S1160x3136_S1160x3136_0_0).toLoadRect.idx (ix2 k p) = ix2 k p :=
    funext fun a => Fin.ext (by
      match a with
      | ⟨0, _⟩ => show 0 + 1 * k.val = k.val; omega
      | ⟨1, _⟩ => show 0 + 1 * p.val = p.val; omega)
  show View.canon _ ((Rect.unit (s := S1160x3136) ![0, 0] S1160x3136.size inb_S1160x3136_S1160x3136_0_0).toLoadRect.idx (ix2 k p)) = _
  rw [hidx]
  unfold Frm.bodyRun.sl.HS0_19
  generalize hH : Frm.bodyRun.sl.v84 (F := Ideal) c arg1 harg1 arg2 harg2 arg4 harg4 arg5 harg5 arg7 arg8 x0 x1 x3 x4 = H
  by_cases hk : k.val < 1152
  · refine View.canon_append_of_pieces (Val := Elt Ideal) (S := S1160x3136) (e := .bf16) (patchMat H x3 x4)
      (Frm.bodyRun.sl.HS0_10 (F := Ideal) c arg1 harg1 arg4 harg4 arg5 harg5 x0 x3 x4)
      [_, _, _, _, _, _, _, _, _] ?_ (ix2 k p) ?_
    · intro q hq
      simp only [List.mem_cons, List.mem_nil_iff, or_false] at hq
      rcases hq with rfl | rfl | rfl | rfl | rfl | rfl | rfl | rfl | rfl
      · intro x
        obtain ⟨i, p, rfl⟩ : ∃ (i : Fin 128) (p : Fin 3136), x = ix2 i p := ⟨x 0, x 1, eq_ix2 x⟩
        exact piece_tap H x3 x4 8 (by norm_num) (by norm_num) inb_S1160x3136_S128x3136_1024_0 3079 rfl _ (fun i p => maskBlock_apply harg4 x3 8 inb_S9x128x3136_S1x128x3136_8_0_0 i p) _ (fun i p => by
          exact tap_apply 3079#32 H _ i p) i p
      · intro x
        obtain ⟨i, p, rfl⟩ : ∃ (i : Fin 128) (p : Fin 3136), x = ix2 i p := ⟨x 0, x 1, eq_ix2 x⟩
        exact piece_tap H x3 x4 7 (by norm_num) (by norm_num) inb_S1160x3136_S128x3136_896_0 3080 rfl _ (fun i p => maskBlock_apply harg4 x3 7 inb_S9x128x3136_S1x128x3136_7_0_0 i p) _ (fun i p => by
          exact tap_apply 3080#32 H _ i p) i p
      · intro x
        obtain ⟨i, p, rfl⟩ : ∃ (i : Fin 128) (p : Fin 3136), x = ix2 i p := ⟨x 0, x 1, eq_ix2 x⟩
        exact piece_tap H x3 x4 6 (by norm_num) (by norm_num) inb_S1160x3136_S128x3136_768_0 3081 rfl _ (fun i p => maskBlock_apply harg4 x3 6 inb_S9x128x3136_S1x128x3136_6_0_0 i p) _ (fun i p => by
          exact tap_apply 3081#32 H _ i p) i p
      · intro x
        obtain ⟨i, p, rfl⟩ : ∃ (i : Fin 128) (p : Fin 3136), x = ix2 i p := ⟨x 0, x 1, eq_ix2 x⟩
        exact piece_tap H x3 x4 5 (by norm_num) (by norm_num) inb_S1160x3136_S128x3136_640_0 3135 rfl _ (fun i p => maskBlock_apply harg4 x3 5 inb_S9x128x3136_S1x128x3136_5_0_0 i p) _ (fun i p => by
          unfold Frm.bodyRun.sl.r_4; rw [hH]
          exact tap_apply 3135#32 H _ i p) i p
      · intro x
        obtain ⟨i, p, rfl⟩ : ∃ (i : Fin 128) (p : Fin 3136), x = ix2 i p := ⟨x 0, x 1, eq_ix2 x⟩
        exact piece_centre H x3 x4 inb_S1160x3136_S128x3136_512_0 _ (fun i p => centre_apply H i p) i p
      · intro x
        obtain ⟨i, p, rfl⟩ : ∃ (i : Fin 128) (p : Fin 3136), x = ix2 i p := ⟨x 0, x 1, eq_ix2 x⟩
        exact piece_tap H x3 x4 3 (by norm_num) (by norm_num) inb_S1160x3136_S128x3136_384_0 1 rfl _ (fun i p => maskBlock_apply harg4 x3 3 inb_S9x128x3136_S1x128x3136_3_0_0 i p) _ (fun i p => by
          exact tap_apply 1#32 H _ i p) i p
      · intro x
        obtain ⟨i, p, rfl⟩ : ∃ (i : Fin 128) (p : Fin 3136), x = ix2 i p := ⟨x 0, x 1, eq_ix2 x⟩
        exact piece_tap H x3 x4 2 (by norm_num) (by norm_num) inb_S1160x3136_S128x3136_256_0 55 rfl _ (fun i p => maskBlock_apply harg4 x3 2 inb_S9x128x3136_S1x128x3136_2_0_0 i p) _ (fun i p => by
          exact tap_apply 55#32 H _ i p) i p
      · intro x
        obtain ⟨i, p, rfl⟩ : ∃ (i : Fin 128) (p : Fin 3136), x = ix2 i p := ⟨x 0, x 1, eq_ix2 x⟩
        exact piece_tap H x3 x4 1 (by norm_num) (by norm_num) inb_S1160x3136_S128x3136_128_0 56 rfl _ (fun i p => maskBlock_apply harg4 x3 1 inb_S9x128x3136_S1x128x3136_1_0_0 i p) _ (fun i p => by
          exact tap_apply 56#32 H _ i p) i p
      · intro x
        obtain ⟨i, p, rfl⟩ : ∃ (i : Fin 128) (p : Fin 3136), x = ix2 i p := ⟨x 0, x 1, eq_ix2 x⟩
        exact piece_tap H x3 x4 0 (by norm_num) (by norm_num) inb_S1160x3136_S128x3136_0_0 57 rfl _ (fun i p => maskBlock_apply harg4 x3 0 inb_S9x128x3136_S1x128x3136_0_0_0 i p) _ (fun i p => by
          exact tap_apply 57#32 H _ i p) i p
    · rcases (show k.val < 128 ∨ (128 ≤ k.val ∧ k.val < 256) ∨ (256 ≤ k.val ∧ k.val < 384) ∨ (384 ≤ k.val ∧ k.val < 512) ∨ (512 ≤ k.val ∧ k.val < 640)
          ∨ (640 ≤ k.val ∧ k.val < 768) ∨ (768 ≤ k.val ∧ k.val < 896) ∨ (896 ≤ k.val ∧ k.val < 1024) ∨ (1024 ≤ k.val ∧ k.val < 1152) by omega)
        with h | h | h | h | h | h | h | h | h
      · exact ⟨_, (.tail _ (.tail _ (.tail _ (.tail _ (.tail _ (.tail _ (.tail _ (.tail _ (.head _))))))))), slab_mem 0 inb_S1160x3136_S128x3136_0_0 k p (by omega)⟩
      · exact ⟨_, (.tail _ (.tail _ (.tail _ (.tail _ (.tail _ (.tail _ (.tail _ (.head _)))))))), slab_mem 128 inb_S1160x3136_S128x3136_128_0 k p (by omega)⟩
      · exact ⟨_, (.tail _ (.tail _ (.tail _ (.tail _ (.tail _ (.tail _ (.head _))))))), slab_mem 256 inb_S1160x3136_S128x3136_256_0 k p (by omega)⟩
      · exact ⟨_, (.tail _ (.tail _ (.tail _ (.tail _ (.tail _ (.head _)))))), slab_mem 384 inb_S1160x3136_S128x3136_384_0 k p (by omega)⟩
      · exact ⟨_, (.tail _ (.tail _ (.tail _ (.tail _ (.head _))))), slab_mem 512 inb_S1160x3136_S128x3136_512_0 k p (by omega)⟩
      · exact ⟨_, (.tail _ (.tail _ (.tail _ (.head _)))), slab_mem 640 inb_S1160x3136_S128x3136_640_0 k p (by omega)⟩
      · exact ⟨_, (.tail _ (.tail _ (.head _))), slab_mem 768 inb_S1160x3136_S128x3136_768_0 k p (by omega)⟩
      · exact ⟨_, (.tail _ (.head _)), slab_mem 896 inb_S1160x3136_S128x3136_896_0 k p (by omega)⟩
      · exact ⟨_, (.head _), slab_mem 1024 inb_S1160x3136_S128x3136_1024_0 k p (by omega)⟩
  · have hk' : 1152 ≤ k.val := Nat.le_of_not_lt hk
    rw [canon_skip_slab 1024 inb_S1160x3136_S128x3136_1024_0 _ _ k p (by omega),
      canon_skip_slab 896 inb_S1160x3136_S128x3136_896_0 _ _ k p (by omega),
      canon_skip_slab 768 inb_S1160x3136_S128x3136_768_0 _ _ k p (by omega),
      canon_skip_slab 640 inb_S1160x3136_S128x3136_640_0 _ _ k p (by omega),
      canon_skip_slab 512 inb_S1160x3136_S128x3136_512_0 _ _ k p (by omega),
      canon_skip_slab 384 inb_S1160x3136_S128x3136_384_0 _ _ k p (by omega),
      canon_skip_slab 256 inb_S1160x3136_S128x3136_256_0 _ _ k p (by omega),
      canon_skip_slab 128 inb_S1160x3136_S128x3136_128_0 _ _ k p (by omega),
      canon_skip_slab 0 inb_S1160x3136_S128x3136_0_0 _ _ k p (by omega),
      canon1_apply]
    show patchRow _ x3 x4 k.val p = patchRow _ x3 x4 k.val p
    unfold patchRow
    rw [if_neg hk, if_neg hk]

/-- The hidden activation as a matrix of the point's blocks. -/
def hiddenMat (x0 : Vec Ideal S1x128x3136 .f32) (x1 : Vec Ideal S128x1160 .bf16) (x3 : Vec Ideal S9x128x3136 .bf16) (x4 : Vec Ideal S8x3136 .bf16) :
    FVec Ideal S128x3136 .f32 :=
  fun j => reluDot x1 (patchMat (k0_pay2 x0) x3 x4) (j 0) (j 1)

/-- What the body leaves in the output block, entry (o, p): the second product at (o, p) plus the image's entry, positive part. -/
def outAt (x0 : Vec Ideal S1x128x3136 .f32) (x1 x2 : Vec Ideal S128x1160 .bf16) (x3 : Vec Ideal S9x128x3136 .bf16) (x4 : Vec Ideal S8x3136 .bf16)
    (o : Fin 128) (p : Fin 3136) : EReal :=
  max (dotAt x2 (patchMat (hiddenMat x0 x1 x3 x4) x3 x4) o p + x0 (ix3 (0 : Fin 1) o p)) 0

theorem hidden_eq : Frm.bodyRun.sl.v84 (F := Ideal) c arg1 harg1 arg2 harg2 arg4 harg4 arg5 harg5 arg7 arg8 x0 x1 x3 x4 = hiddenMat x0 x1 x3 x4 :=
  funext fun j => by
    have e := eq_ix2 j
    rw [e]
    exact hidden_apply c arg1 harg1 arg2 harg2 arg4 harg4 arg5 harg5 arg7 arg8 x0 x1 x3 x4 (j 0) (j 1)

/-- The output block after the body, read at (u, o, p). -/
theorem out_apply (i : grid0.Coords) (arg6 : Memref sig .tc .vmem S1x128x3136 .f32) (harg6 : arg6.IsWhole) (harg7 : arg7.IsWhole) (harg8 : arg8.IsWhole)
    (u : Fin 1) (o : Fin 128) (p : Fin 3136) :
    Frm.out0_5 (F := Ideal) c i arg1 harg1 arg2 harg2 arg3 harg3 arg4 harg4 arg5 harg5 arg6 harg6 arg7 harg7 arg8 harg8 x0 x1 x2 x3 x4 (ix3 u o p)
      = outAt x0 x1 x2 x3 x4 o p := by
  unfold Frm.out0_5
  rw [View.read_writes_eq_canon _ _ _ (Frm.cover0_5 c i arg1 harg1 arg2 harg2 arg3 harg3 arg4 harg4 arg5 harg5 arg6 harg6 arg7 harg7 arg8 harg8 x0 x1 x2 x3 x4)]
  unfold Frm.bodyRun
  dsimp only
  rw [View.canon_unit_zero (funext fun a => by match a with | ⟨0, _⟩ => rfl | ⟨1, _⟩ => rfl | ⟨2, _⟩ => rfl) inb_S1x128x3136_S1x128x3136_0_0_0]
  unfold k0_pay1
  try dsimp only
  rw [shapeCast_ab_1ab_apply]
  show max ((Frm.bodyRun.sl.r_5 (F := Ideal) c arg1 harg1 arg2 harg2 arg3 harg3 arg4 harg4 arg5 harg5 arg7 arg8 x0 x1 x2 x3 x4) (ix2 o p)
      + (Frm.bodyRun.sl.r (F := Ideal) c arg1 harg1 x0) (ix2 o p)) (Ideal.ofBits .f32 0x00000000#32) = _
  rw [Ideal.ofBits_zero_f32]
  unfold Frm.bodyRun.sl.r_5 Frm.bodyRun.sl.r
  rw [wholeLoadW harg3 x2 inb_S128x1160_S128x1160_0_0, wholeLoad3 harg1 x0 inb_S1x128x3136_S1x128x3136_0_0_0, pay25_apply, tile_apply]
  unfold outAt dotAt
  refine congrArg (max · 0) (congrArg (· + x0 (ix3 (0 : Fin 1) o p)) (Finset.sum_congr rfl fun k _ => ?_))
  rw [patch2_apply, hidden_eq]

end Cert.KernelIdeal.BodyVal

end
-- ==== Proof.ResBlock.lean ====
/-
  The residual block both programs compute, as one function of the eleven argument arrays, index by index, over
  the extended reals.  One image is 128 channels of a 56 x 56 plane.  A 3 x 3 convolution with zero padding is a
  contraction over k = (ky*3 + kx)*128 + i  (tap-major: the tap (ky, kx) first, the input channel i last) of the
  image read at row y + ky - 1, column x + kx - 1 — zero outside the plane — times the weight w[o, i, ky, kx].
  Batch normalisation with running statistics is the scale  g / sqrt(v + eps)  and the shift  b - mu * scale.
  The block is   relu( conv(relu(conv(a, w1) * scale1 + shift1), w2) * scale2 + shift2 + a ).
-/
import Idealize.ShloMosaic.PureOps.Ideal
import Idealize.ShloMosaic.Lib.ValueIdx

noncomputable section

namespace Cert.ResBlock

open Idealize.ShloMosaic Idealize.ShloMosaic.ValueIdx

/-- One image: channel, row, column. -/
abbrev Img := Fin 128 → Fin 56 → Fin 56 → EReal
/-- Convolution weights: output channel, input channel, tap row, tap column. -/
abbrev Wt := Fin 128 → Fin 128 → Fin 3 → Fin 3 → EReal
/-- One number per channel. -/
abbrev Chan := Fin 128 → EReal

/-- The tap row of a contraction index k = (ky*3 + kx)*128 + i. -/
def tapY (k : Fin 1152) : Fin 3 := ⟨k.val / 128 / 3, by omega⟩
/-- Its tap column. -/
def tapX (k : Fin 1152) : Fin 3 := ⟨k.val / 128 % 3, by omega⟩
/-- Its input channel. -/
def chan (k : Fin 1152) : Fin 128 := ⟨k.val % 128, Nat.mod_lt _ (by norm_num)⟩

/-- The position (y + ky - 1, x + kx - 1) lies in the 56 x 56 plane. -/
def InPlane (y x : Fin 56) (k : Fin 1152) : Prop :=
  1 ≤ y.val + (tapY k).val ∧ y.val + (tapY k).val ≤ 56 ∧ 1 ≤ x.val + (tapX k).val ∧ x.val + (tapX k).val ≤ 56

instance (y x : Fin 56) (k : Fin 1152) : Decidable (InPlane y x k) := by unfold InPlane; infer_instance

/-- The image read at the tap's position, zero outside the plane: entry k of the patch at (y, x). -/
def patch (a : Img) (y x : Fin 56) (k : Fin 1152) : EReal :=
  if h : InPlane y x k then
    a (chan k) ⟨y.val + (tapY k).val - 1, by unfold InPlane at h; omega⟩ ⟨x.val + (tapX k).val - 1, by unfold InPlane at h; omega⟩
  else 0

/-- The 3 x 3 convolution with zero padding, output channel o at (y, x). -/
def conv (a : Img) (w : Wt) (o : Fin 128) (y x : Fin 56) : EReal :=
  ∑ k : Fin 1152, patch a y x k * w o (chan k) (tapY k) (tapX k)

/-- The f32 word both programs add to the variance (the float nearest 1e-5). -/
def eps : EReal := Ideal.ofBits .f32 0x3727C5AC#32

/-- The folded batch-norm scale  g / sqrt(v + eps). -/
def scale (g v : Chan) (o : Fin 128) : EReal := Ideal.div (g o) (Ideal.sqrt (v o + eps))
/-- The folded batch-norm shift  b - mu * scale. -/
def shift (b mu g v : Chan) (o : Fin 128) : EReal := b o - mu o * scale g v o

/-- The hidden activation  relu(conv(a, w1) * scale1 + shift1). -/
def hidden (a : Img) (w1 : Wt) (g1 b1 mu1 v1 : Chan) : Img :=
  fun o y x => max (conv a w1 o y x * scale g1 v1 o + shift b1 mu1 g1 v1 o) 0

/-- The block's output for one image  relu(conv(hidden, w2) * scale2 + shift2 + a). -/
def block (a : Img) (w1 : Wt) (g1 b1 mu1 v1 : Chan) (w2 : Wt) (g2 b2 mu2 v2 : Chan) : Img :=
  fun o y x => max (conv (hidden a w1 g1 b1 mu1 v1) w2 o y x * scale g2 v2 o + shift b2 mu2 g2 v2 o + a o y x) 0

/-! ## The same over the programs' arrays -/

/-- Image n of a batch [32, 128, 56, 56]. -/
def img (X : (⟨4, ![32, 128, 56, 56]⟩ : Shape).Idx → EReal) (n : Fin 32) : Img := fun i y x => X (ix4 n i y x)
/-- A weight array [128, 128, 3, 3]. -/
def wt (W : (⟨4, ![128, 128, 3, 3]⟩ : Shape).Idx → EReal) : Wt := fun o i ky kx => W (ix4 o i ky kx)
/-- A per-channel vector [128]. -/
def vec (g : (⟨1, ![128]⟩ : Shape).Idx → EReal) : Chan := fun o => g (ix1 o)

/-- The whole result [32, 128, 56, 56] as one function of the eleven argument arrays. -/
def result (X : (⟨4, ![32, 128, 56, 56]⟩ : Shape).Idx → EReal)
    (W1 : (⟨4, ![128, 128, 3, 3]⟩ : Shape).Idx → EReal) (g1 b1 mu1 v1 : (⟨1, ![128]⟩ : Shape).Idx → EReal)
    (W2 : (⟨4, ![128, 128, 3, 3]⟩ : Shape).Idx → EReal) (g2 b2 mu2 v2 : (⟨1, ![128]⟩ : Shape).Idx → EReal) :
    (⟨4, ![32, 128, 56, 56]⟩ : Shape).Idx → EReal :=
  fun j => block (img X (j 0)) (wt W1) (vec g1) (vec b1) (vec mu1) (vec v1) (wt W2) (vec g2) (vec b2) (vec mu2) (vec v2) (j 1) (j 2) (j 3)

theorem result_apply (X W1 g1 b1 mu1 v1 W2 g2 b2 mu2 v2) (n : Fin 32) (o : Fin 128) (y x : Fin 56) :
    result X W1 g1 b1 mu1 v1 W2 g2 b2 mu2 v2 (ix4 n o y x)
      = block (img X n) (wt W1) (vec g1) (vec b1) (vec mu1) (vec v1) (wt W2) (vec g2) (vec b2) (vec mu2) (vec v2) o y x := rfl

end Cert.ResBlock

end
-- ==== Proof.LibRealCollapse.lean ====
/-
  The algebra of a two-layer graph convolution on the extended reals. Independent of any program.

  A layer aggregates, at node n, the rows of a feature matrix at the sources of the edges that end in n, each
  row scaled by a per-source weight; the aggregate is scaled by a per-node weight and multiplied by a dense weight
  matrix. Multiplying by the weight matrix BEFORE aggregating gives the same result, because the product is linear in
  the rows: for real entries
      ((Σ_e (Σ_k h e k · W k) · a e) · c = Σ_k ((Σ_e h e k · a e) · c) · W k.
  On the extended reals distributivity fails at the infinities, so the law is stated for entries that are real
  numbers; the predicate `IsReal` and its closure under the operations a layer uses say which entries are.
-/
import Mathlib.Data.EReal.Basic
import Mathlib.Data.EReal.Operations
import Mathlib.Algebra.BigOperators.Ring.Finset
import Mathlib.Algebra.BigOperators.Group.Finset.Sigma
import Mathlib.Tactic.Ring

noncomputable section

namespace Cert.Gcn

open Finset

/-- An extended real that is a real number. -/
def IsReal (v : EReal) : Prop := ∃ r : ℝ, v = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.sum {ι : Type} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dense weight commutes with the weighted aggregation, over the reals. -/
theorem collapse_real {ι κ : Type} [Fintype κ] (S : Finset ι) (h : ι → κ → ℝ) (a : ι → ℝ) (W : κ → ℝ) (c : ℝ) :
    (∑ e ∈ S, (∑ k, h e k * W k) * a e) * c = ∑ k, ((∑ e ∈ S, h e k * a e) * c) * W k := by
  simp only [Finset.sum_mul]
  rw [Finset.sum_comm]
  exact Finset.sum_congr rfl fun k _ => Finset.sum_congr rfl fun e _ => by ring

/-- The same on the extended reals, for entries that are real numbers: the node's result with the weight applied
    before the aggregation equals the result with the weight applied after it; the bias `b` is any extended real. -/
theorem collapse {ι κ : Type} [Fintype κ] (S : Finset ι) (h : ι → κ → EReal) (a : ι → EReal) (W : κ → EReal) (c b : EReal)
    (hh : ∀ e k, IsReal (h e k)) (ha : ∀ e, IsReal (a e)) (hW : ∀ k, IsReal (W k)) (hc : IsReal c) :
    (∑ e ∈ S, (∑ k, h e k * W k) * a e) * c + b = (∑ k, ((∑ e ∈ S, h e k * a e) * c) * W k) + b := by
  choose h' hh' using hh
  choose a' ha' using ha
  choose W' hW' using hW
  obtain ⟨c', rfl⟩ := hc
  refine congrArg (· + b) ?_
  simp only [hh', ha', hW', ← EReal.coe_mul, ← coe_sum]
  exact congrArg _ (collapse_real S h' a' W' c')

end Cert.Gcn

end
-- ==== Proof.FoldedConv.lean ====
/-
  The law that joins the two programs.  The kernel contracts 1160 terms: the first 1152 are (w_k * s) * q_k — the
  convolution weight with the batch-norm scale folded in, times the patch entry —, term 1152 is the shift times one,
  and the last seven are zero.  The reference contracts the 1152 products q_k * w_k, multiplies the sum by the scale
  and adds the shift.  For real numbers the two agree, because multiplication distributes over a finite sum; on the
  extended reals that fails at the infinities, so the law is stated for entries that are real numbers.
-/
import proofs.«104539_g2000404336194624_pallasbulk_886_2_alg».proof.Proof.ResBlock
import proofs.«104539_g2000404336194624_pallasbulk_886_2_alg».proof.Proof.LibRealCollapse
import Mathlib.Algebra.BigOperators.Fin

noncomputable section

namespace Cert.ResBlock

open Cert.Gcn (IsReal)
open Finset

/-- A sum over 1160 terms is the sum of the first 1152 plus the sum of the last 8. -/
theorem sum_1160 (f : Fin 1160 → EReal) :
    ∑ k : Fin 1160, f k = ∑ k : Fin 1152, f ⟨k.val, by omega⟩ + ∑ j : Fin 8, f ⟨1152 + j.val, by omega⟩ :=
  Fin.sum_univ_add (a := 1152) (b := 8) f

/-- A real scale moves through a finite sum of real products. -/
theorem sum_mul_scale {ι : Type} [Fintype ι] (w q : ι → EReal) (s : EReal)
    (hw : ∀ k, IsReal (w k)) (hq : ∀ k, IsReal (q k)) (hs : IsReal s) :
    ∑ k, (w k * s) * q k = (∑ k, q k * w k) * s := by
  choose w' hw' using hw
  choose q' hq' using hq
  obtain ⟨s', rfl⟩ := hs
  simp only [hw', hq', ← EReal.coe_mul, ← Cert.Gcn.coe_sum]
  refine congrArg _ ?_
  rw [Finset.sum_mul]
  exact Finset.sum_congr rfl fun k _ => by ring

/-- THE FOLDED CONTRACTION: the kernel's 1160-term contraction is the reference's 1152-term contraction scaled and shifted. -/
theorem folded_contraction (Wm Pm : Fin 1160 → EReal) (w q : Fin 1152 → EReal) (s sh : EReal)
    (hW : ∀ k : Fin 1152, Wm ⟨k.val, by omega⟩ = w k * s) (hWs : Wm ⟨1152, by norm_num⟩ = sh)
    (hW0 : ∀ j : Fin 8, j.val ≠ 0 → Wm ⟨1152 + j.val, by omega⟩ = 0)
    (hP : ∀ k : Fin 1152, Pm ⟨k.val, by omega⟩ = q k) (hP1 : Pm ⟨1152, by norm_num⟩ = 1)
    (hw : ∀ k, IsReal (w k)) (hq : ∀ k, IsReal (q k)) (hs : IsReal s) :
    ∑ k : Fin 1160, Wm k * Pm k = (∑ k : Fin 1152, q k * w k) * s + sh := by
  rw [sum_1160]
  congr 1
  · rw [← sum_mul_scale w q s hw hq hs]
    exact Finset.sum_congr rfl fun k _ => by rw [hW k, hP k]
  · rw [Finset.sum_eq_single (0 : Fin 8) (fun j _ hj => by rw [hW0 j (fun h => hj (Fin.ext h)), zero_mul])
      (fun h => absurd (Finset.mem_univ _) h)]
    show Wm ⟨1152 + 0, _⟩ * Pm ⟨1152 + 0, _⟩ = sh
    rw [show Wm ⟨1152 + 0, by norm_num⟩ = sh from hWs, show Pm ⟨1152 + 0, by norm_num⟩ = 1 from hP1, mul_one]

/-! ## Real entries stay real -/

theorem IsReal.neg {u : EReal} (hu : IsReal u) : IsReal (-u) := by
  obtain ⟨a, rfl⟩ := hu; exact ⟨-a, (EReal.coe_neg a).symm⟩

theorem IsReal.sub {u v : EReal} (hu : IsReal u) (hv : IsReal v) : IsReal (u - v) := by
  obtain ⟨a, rfl⟩ := hu; obtain ⟨b, rfl⟩ := hv
  exact ⟨a - b, (EReal.coe_sub a b).symm⟩

/-- A patch of a real image is real. -/
theorem patch_real (a : Img) (ha : ∀ i y x, IsReal (a i y x)) (y x : Fin 56) (k : Fin 1152) : IsReal (patch a y x k) := by
  unfold patch
  split
  · exact ha _ _ _
  · exact Cert.Gcn.isReal_zero

/-- A convolution of a real image with real weights is real. -/
theorem conv_real (a : Img) (w : Wt) (ha : ∀ i y x, IsReal (a i y x)) (hw : ∀ o i ky kx, IsReal (w o i ky kx))
    (o : Fin 128) (y x : Fin 56) : IsReal (conv a w o y x) :=
  Cert.Gcn.IsReal.sum _ _ fun k _ => (patch_real a ha y x k).mul (hw _ _ _ _)

/-- The hidden activation of real data is real. -/
theorem hidden_real (a : Img) (w1 : Wt) (g1 b1 mu1 v1 : Chan) (ha : ∀ i y x, IsReal (a i y x)) (hw : ∀ o i ky kx, IsReal (w1 o i ky kx))
    (hs : ∀ o, IsReal (scale g1 v1 o)) (hsh : ∀ o, IsReal (shift b1 mu1 g1 v1 o)) (o : Fin 128) (y x : Fin 56) :
    IsReal (hidden a w1 g1 b1 mu1 v1 o y x) :=
  (((conv_real a w1 ha hw o y x).mul (hs o)).add (hsh o)).max Cert.Gcn.isReal_zero

end Cert.ResBlock

end
-- ==== Proof.IdealBridge.lean ====
/-
  The kernel body's patch matrix is the specification's patch, and one grid point of the kernel body is the
  specification's residual block of the point's image.  A lane p of the flat 56 x 56 plane is row y = p / 56,
  column x = p % 56.  Tap t = ky*3 + kx rotates the lanes by (57 - (ky*56 + kx)) mod 3136, so at a lane whose
  neighbour (y + ky - 1, x + kx - 1) lies in the plane the rotated tile reads exactly that neighbour, with no wrap
  around; where the neighbour lies outside, the tap's mask is zero.  With the folded weights — scaled rows, the
  shift column, zero columns — against the patch matrix — patches, the ones row — the folded contraction gives the
  convolution scaled and shifted, twice.
-/
import proofs.«104539_g2000404336194624_pallasbulk_886_2_alg».proof.Proof.IdealBlock
import proofs.«104539_g2000404336194624_pallasbulk_886_2_alg».proof.Proof.FoldedConv

set_option maxRecDepth 16384

noncomputable section

namespace Cert.KernelIdeal.BodyVal

open Cert.KernelIdeal Cert.KernelIdeal.Gen
open Idealize.ShloMosaic Idealize.ShloMosaic.TcCoe Idealize.ShloMosaic.ValueIdx Idealize.SL.Sem
open Cert.ResBlock
open Cert.Gcn (IsReal)

/-- A 128 x 3136 tile as an image: lane y*56 + x is position (y, x). -/
def tileImg (A : FVec Ideal S128x3136 .f32) : Img :=
  fun i y x => A (ix2 i (⟨y.val * 56 + x.val, by have := y.isLt; have := x.isLt; omega⟩ : Fin 3136))

/-- The row and column of a lane. -/
def laneY (p : Fin 3136) : Fin 56 := ⟨p.val / 56, by have := p.isLt; omega⟩
def laneX (p : Fin 3136) : Fin 56 := ⟨p.val % 56, Nat.mod_lt _ (by norm_num)⟩

/-- The 0/1 mask of tap t at lane p, as the masks array should hold it. -/
def MaskOK (x3 : Vec Ideal S9x128x3136 .bf16) : Prop :=
  ∀ (t : Fin 9) (i : Fin 128) (p : Fin 3136), x3 (ix3 t i p)
    = if 1 ≤ p.val / 56 + t.val / 3 ∧ p.val / 56 + t.val / 3 ≤ 56 ∧ 1 ≤ p.val % 56 + t.val % 3 ∧ p.val % 56 + t.val % 3 ≤ 56 then (1 : EReal) else (0 : EReal)

/-- Where the tap's neighbour lies in the plane, the rotation reads it without wrapping around. -/
theorem back_inPlane (t : Nat) (ht : t < 9) (p : Fin 3136)
    (h : 1 ≤ p.val / 56 + t / 3 ∧ p.val / 56 + t / 3 ≤ 56 ∧ 1 ≤ p.val % 56 + t % 3 ∧ p.val % 56 + t % 3 ≤ 56) :
    (back (rotAmt t) p).val = (p.val / 56 + t / 3 - 1) * 56 + (p.val % 56 + t % 3 - 1) := by
  have hp := p.isLt
  unfold back
  interval_cases t <;> simp only [rotAmt] <;> omega

/-- Row k < 1152 of the patch matrix is the specification's patch entry k. -/
theorem patchMat_eq_patch (A : FVec Ideal S128x3136 .f32) (x3 : Vec Ideal S9x128x3136 .bf16) (x4 : Vec Ideal S8x3136 .bf16)
    (hmask : MaskOK x3) (k : Fin 1152) (p : Fin 3136) :
    patchMat A x3 x4 (ix2 (⟨k.val, by omega⟩ : Fin 1160) p) = patch (tileImg A) (laneY p) (laneX p) k := by
  have hk := k.isLt
  have hp := p.isLt
  show patchRow A x3 x4 k.val p = _
  unfold patchRow patch
  rw [if_pos hk]
  have ht9 : k.val / 128 < 9 := by omega
  by_cases h4 : k.val / 128 = 4
  · rw [if_pos h4]
    have hin : InPlane (laneY p) (laneX p) k := by
      unfold InPlane tapY tapX laneY laneX
      show 1 ≤ p.val / 56 + k.val / 128 / 3 ∧ p.val / 56 + k.val / 128 / 3 ≤ 56 ∧ 1 ≤ p.val % 56 + k.val / 128 % 3 ∧ p.val % 56 + k.val / 128 % 3 ≤ 56
      omega
    rw [dif_pos hin]
    unfold tileImg chan tapY tapX laneY laneX
    refine congrArg A (congrArg (ix2 _) (Fin.ext ?_))
    show p.val = (p.val / 56 + k.val / 128 / 3 - 1) * 56 + (p.val % 56 + k.val / 128 % 3 - 1)
    omega
  · rw [if_neg h4]
    unfold maskAt
    rw [dif_pos ht9, hmask]
    by_cases hin : InPlane (laneY p) (laneX p) k
    · have hin' : 1 ≤ p.val / 56 + k.val / 128 / 3 ∧ p.val / 56 + k.val / 128 / 3 ≤ 56 ∧ 1 ≤ p.val % 56 + k.val / 128 % 3 ∧ p.val % 56 + k.val / 128 % 3 ≤ 56 := hin
      rw [dif_pos hin, if_pos hin', mul_one]
      unfold tileImg chan tapY tapX laneY laneX
      refine congrArg A (congrArg (ix2 _) (Fin.ext ?_))
      exact back_inPlane (k.val / 128) ht9 p hin'
    · have hin' : ¬ (1 ≤ p.val / 56 + k.val / 128 / 3 ∧ p.val / 56 + k.val / 128 / 3 ≤ 56 ∧ 1 ≤ p.val % 56 + k.val / 128 % 3 ∧ p.val % 56 + k.val / 128 % 3 ≤ 56) := hin
      rw [dif_neg hin, if_neg hin', mul_zero]

/-- A folded weight matrix: scaled weights in tap-major order, the shift in column 1152, zeros after it. -/
def FoldOK (W : Vec Ideal S128x1160 .bf16) (w : Wt) (s sh : Chan) : Prop :=
  ∀ (o : Fin 128) (k : Fin 1160), W (ix2 o k)
    = if h : k.val < 1152 then w o (chan ⟨k.val, h⟩) (tapY ⟨k.val, h⟩) (tapX ⟨k.val, h⟩) * s o
      else if k.val = 1152 then sh o else 0

/-- The ones-row block: row 0 all ones, rows 1 .. 7 zero. -/
def OnesOK (x4 : Vec Ideal S8x3136 .bf16) : Prop :=
  ∀ (r : Fin 8) (p : Fin 3136), x4 (ix2 r p) = if r.val = 0 then (1 : EReal) else (0 : EReal)

/-- One product of the body: a folded weight matrix against the patch matrix of a real tile is the convolution of the
    tile, scaled and shifted. -/
theorem conv_fold (W : Vec Ideal S128x1160 .bf16) (A : FVec Ideal S128x3136 .f32) (x3 : Vec Ideal S9x128x3136 .bf16) (x4 : Vec Ideal S8x3136 .bf16)
    (w : Wt) (s sh : Chan) (hW : FoldOK W w s sh) (hmask : MaskOK x3) (hones : OnesOK x4)
    (hA : ∀ i y x, IsReal (tileImg A i y x)) (hw : ∀ o i ky kx, IsReal (w o i ky kx)) (hs : ∀ o, IsReal (s o))
    (o : Fin 128) (p : Fin 3136) :
    dotAt W (patchMat A x3 x4) o p = conv (tileImg A) w o (laneY p) (laneX p) * s o + sh o := by
  unfold dotAt conv
  refine folded_contraction (fun k => W (ix2 o k)) (fun k => patchMat A x3 x4 (ix2 k p))
    (fun k => w o (chan k) (tapY k) (tapX k)) (fun k => patch (tileImg A) (laneY p) (laneX p) k) (s o) (sh o)
    ?_ ?_ ?_ (fun k => patchMat_eq_patch A x3 x4 hmask k p) ?_ (fun k => hw _ _ _ _) (fun k => patch_real _ hA _ _ k) (hs o)
  · intro k
    show W (ix2 o ⟨k.val, _⟩) = _
    rw [hW, dif_pos k.isLt]
  · show W (ix2 o ⟨1152, _⟩) = _
    rw [hW, dif_neg (by norm_num), if_pos rfl]
  · intro j hj
    show W (ix2 o ⟨1152 + j.val, _⟩) = _
    rw [hW, dif_neg (by show ¬ 1152 + j.val < 1152; omega), if_neg (by show ¬ 1152 + j.val = 1152; omega)]
  · show patchRow A x3 x4 1152 p = 1
    unfold patchRow
    rw [if_neg (by norm_num)]
    unfold onesAt
    rw [dif_pos (by norm_num), hones, if_pos rfl]

/-- ONE GRID POINT: what the body leaves in the output block is the specification's residual block of the point's image. -/
theorem point_eq_block (x0 : Vec Ideal S1x128x3136 .f32) (x1 x2 : Vec Ideal S128x1160 .bf16) (x3 : Vec Ideal S9x128x3136 .bf16) (x4 : Vec Ideal S8x3136 .bf16)
    (w1 w2 : Wt) (g1 b1 mu1 v1 g2 b2 mu2 v2 : Chan)
    (hW1 : FoldOK x1 w1 (scale g1 v1) (shift b1 mu1 g1 v1)) (hW2 : FoldOK x2 w2 (scale g2 v2) (shift b2 mu2 g2 v2))
    (hmask : MaskOK x3) (hones : OnesOK x4)
    (hx : ∀ i p, IsReal (x0 (ix3 (0 : Fin 1) i p))) (hw1 : ∀ o i ky kx, IsReal (w1 o i ky kx)) (hw2 : ∀ o i ky kx, IsReal (w2 o i ky kx))
    (hs1 : ∀ o, IsReal (scale g1 v1 o)) (hsh1 : ∀ o, IsReal (shift b1 mu1 g1 v1 o)) (hs2 : ∀ o, IsReal (scale g2 v2 o))
    (o : Fin 128) (p : Fin 3136) :
    outAt x0 x1 x2 x3 x4 o p
      = block (tileImg (k0_pay2 x0)) w1 g1 b1 mu1 v1 w2 g2 b2 mu2 v2 o (laneY p) (laneX p) := by
  have hA0 : ∀ i y x, IsReal (tileImg (k0_pay2 x0) i y x) := fun i y x => by
    unfold tileImg; rw [tile_apply]; exact hx _ _
  have hH : tileImg (hiddenMat x0 x1 x3 x4) = hidden (tileImg (k0_pay2 x0)) w1 g1 b1 mu1 v1 := by
    funext i y x
    have hy := y.isLt
    have hx' := x.isLt
    show max (dotAt x1 (patchMat (k0_pay2 x0) x3 x4) i ⟨y.val * 56 + x.val, _⟩) 0 = max (conv _ w1 i y x * scale g1 v1 i + shift b1 mu1 g1 v1 i) 0
    rw [conv_fold x1 (k0_pay2 x0) x3 x4 w1 _ _ hW1 hmask hones hA0 hw1 hs1]
    have e1 : laneY (⟨y.val * 56 + x.val, by omega⟩ : Fin 3136) = y := Fin.ext (by show (y.val * 56 + x.val) / 56 = y.val; omega)
    have e2 : laneX (⟨y.val * 56 + x.val, by omega⟩ : Fin 3136) = x := Fin.ext (by show (y.val * 56 + x.val) % 56 = x.val; omega)
    rw [e1, e2]
  unfold outAt block
  rw [conv_fold x2 (hiddenMat x0 x1 x3 x4) x3 x4 w2 _ _ hW2 hmask hones
    (by rw [hH]; exact fun i y x => hidden_real _ w1 g1 b1 mu1 v1 hA0 hw1 hs1 hsh1 i y x) hw2 hs2 o p, hH]
  have e3 : x0 (ix3 (0 : Fin 1) o p) = tileImg (k0_pay2 x0) o (laneY p) (laneX p) := by
    unfold tileImg; rw [tile_apply]
    refine congrArg x0 (congrArg (ix3 (0 : Fin 1) o) (Fin.ext ?_))
    have hp := p.isLt
    show p.val = p.val / 56 * 56 + p.val % 56
    omega
  rw [e3]

end Cert.KernelIdeal.BodyVal

end
-- ==== Proof.IdealArray.lean ====
/-
  From grid points to the whole result.  The call's grid has 32 points; point t handles image t: the output window's
  block at point t is rows [t, t+1) x [0,128) x [0,3136) of the [32,128,3136] result array, and every point writes its
  block back.  So the array after the call holds, at (n, o, p), what point n's body left at (0, o, p); the reshape
  after the call only renames lane p as (p / 56, p % 56).
-/
import proofs.«104539_g2000404336194624_pallasbulk_886_2_alg».proof.Proof.IdealBridge

set_option maxRecDepth 16384

noncomputable section

namespace Cert.KernelIdeal.BodyVal

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Grid point n. -/
def pt (n : Fin 32) : Fin cfg0.N := ⟨n.val, lt_of_lt_of_eq n.isLt N_0.symm⟩

/-- A grid point's number is below 32. -/
theorem pt_lt (t : Fin cfg0.N) : t.val < 32 := lt_of_lt_of_eq t.isLt N_0

/-- The printed index maps over the grid: the output window's block index at point t is (t, 0, 0), and so is the image window's. -/
theorem idx_out : ∀ t : Fin cfg0.N, win0_5.index t (0 : Fin 3) = t.val ∧ win0_5.index t (1 : Fin 3) = 0 ∧ win0_5.index t (2 : Fin 3) = 0 :=
  (by decide +kernel : ∀ t : Fin grid0.N, _)

/-- The result array as one function of the points' blocks. -/
def outArr (c : Dev nD) : S32x128x3136.Idx → EReal :=
  fun j => outAt (iblk m c 0 (pt (j 0))) (iblk m c 1 (pt (j 0))) (iblk m c 2 (pt (j 0))) (iblk m c 3 (pt (j 0))) (iblk m c 4 (pt (j 0))) (j 1) (j 2)

/-- What point t writes back is block t of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold outsAt0
  obtain ⟨e0, e1, e2⟩ := idx_out t
  funext y
  obtain ⟨u, o, p, rfl⟩ : ∃ (u : Fin 1) (o : Fin 128) (p : Fin 3136), y = ix3 u o p := ⟨y 0, y 1, y 2, eq_ix3 y⟩
  have hu : u.val = 0 := by omega
  show out0_5 c (grid0.coords t) _ _ _ _ _ _ _ _ _ _ _ _ _ _ _ _ (iblk m c 0 t) (iblk m c 1 t) (iblk m c 2 t) (iblk m c 3 t) (iblk m c 4 t) (ix3 u o p)
    = outArr m c (((cfg0.win 5).blk t).view.emb (ix3 u o p))
  rw [out_apply]
  have hemb : ((cfg0.win 5).blk t).view.emb (ix3 u o p) = ix3 (⟨t.val, pt_lt t⟩ : Fin 32) o p :=
    funext fun a => Fin.ext (by
      match a with
      | ⟨0, _⟩ => show win0_5.index t (0 : Fin 3) * 1 + 1 * u.val = t.val; omega
      | ⟨1, _⟩ => show win0_5.index t (1 : Fin 3) * 128 + 1 * o.val = o.val; omega
      | ⟨2, _⟩ => show win0_5.index t (2 : Fin 3) * 3136 + 1 * p.val = p.val; omega)
  rw [hemb]
  rfl

/-- An index of the result array lies in point t's block iff each coordinate lies in the block's range on its axis. -/
theorem mem_blk (t : Fin cfg0.N) (i : S32x128x3136.Idx) :
    i ∈ ((cfg0.win 5).blk t).view.set ↔ ∀ a : Fin 3, win0_5.index t a * S1x128x3136.size a ≤ (i a).val
      ∧ (i a).val < win0_5.index t a * S1x128x3136.size a + S1x128x3136.size a := by
  show i ∈ ((View.whole main_v294).slice (win0_5.rect t)).set ↔ _
  rw [View.set_slice_whole, Rect.mem_set_unit]
  exact Iff.rfl

/-- THE ARRAY AFTER THE CALL: every row n is covered by point n's block, so the array is `outArr`. -/
theorem final (c : Dev nD) : (dats m 0 c).arrAt 5 cfg0.N = outArr m c :=
  (dats m 0 c).arrAt_eq_of_cover 5 (outArr m c) (fun t _ => flushed_eq m c t) (fun i => by
    refine ⟨pt (i 0), flush0_5 _, ?_⟩
    rw [mem_blk]
    obtain ⟨e0, e1, e2⟩ := idx_out (pt (i 0))
    have hpt : (pt (i 0)).val = (i 0).val := rfl
    have h1 := (i 1).isLt
    have h2 := (i 2).isLt
    intro a
    match a with
    | ⟨0, _⟩ => show win0_5.index (pt (i 0)) (0 : Fin 3) * 1 ≤ (i 0).val ∧ (i 0).val < win0_5.index (pt (i 0)) (0 : Fin 3) * 1 + 1; omega
    | ⟨1, _⟩ => show win0_5.index (pt (i 0)) (1 : Fin 3) * 128 ≤ (i 1).val ∧ (i 1).val < win0_5.index (pt (i 0)) (1 : Fin 3) * 128 + 128; change (i 1).val < 128 at h1; omega
    | ⟨2, _⟩ => show win0_5.index (pt (i 0)) (2 : Fin 3) * 3136 ≤ (i 2).val ∧ (i 2).val < win0_5.index (pt (i 0)) (2 : Fin 3) * 3136 + 3136; change (i 2).val < 3136 at h2; omega)

/-- The reshape after the call, read at (n, o, y, x): the array after the call at (n, o, y*56 + x). -/
theorem tail_apply (c : Dev nD) (n : Fin 32) (o : Fin 128) (y x : Fin 56) :
    (Pipeline.afterTail₀ cfgs (dats m) 0 (V0 m) [hostOps1] c main_v295 : S32x128x56x56.Idx → EReal) (ix4 n o y x)
      = outArr m c (ix3 n o (⟨y.val * 56 + x.val, by have := y.isLt; have := x.isLt; omega⟩ : Fin 3136)) := by
  unfold Pipeline.afterTail₀
  show StableHlo.after hostOps1 _ (Proc.devRef .tc main_v295) (ix4 n o y x) = _
  simp only [hostOps1, StableHlo.after_cons, StableHlo.after_nil]
  rw [StableHlo.reshape_result']
  have hA := (Pipeline.withArrays_arr spec0 launch0.win.arr_inj c (V0 m c) (fun w => (dats m 0 c).arrAt w (cfgs 0).N) 5).trans (final m c)
  refine (congrArg (fun A : S32x128x3136.Idx → EReal => shapeCast S32x128x56x56 A shapeCasts_S32x128x3136_S32x128x56x56 (ix4 n o y x)) hA).trans ?_
  refine shapeCast_apply _ _ _ _ ?_
  rw [Shape.rowMajor_val_four, Shape.rowMajor_val_three]
  show (n.val * 128 + o.val) * 3136 + (y.val * 56 + x.val) = ((n.val * 128 + o.val) * 56 + y.val) * 56 + x.val
  ring

end Cert.KernelIdeal.BodyVal

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.PreReal.lean ====
/-
  What the precondition gives.  The printed precondition is a conjunction of thirteen all-reductions: for each of the
  eleven argument arrays that every entry's absolute value is below +inf, and for the two variance vectors that every
  entry is at least zero.  So every entry of every argument is a real number and the variances are non-negative.
  Then var + eps is a positive real, its square root is a positive real, and the folded batch-norm scale
  g / sqrt(var + eps) and shift b - mu * scale are real numbers.
-/
import proofs.«104539_g2000404336194624_pallasbulk_886_2_alg».proof.Pre_finite_inputs
import proofs.«104539_g2000404336194624_pallasbulk_886_2_alg».proof.Proof.LibAllFinite
import proofs.«104539_g2000404336194624_pallasbulk_886_2_alg».proof.Proof.FoldedConv

noncomputable section

namespace Cert.ResBlock

open Cert.Gcn (IsReal)
open Idealize.ShloMosaic Idealize.ShloMosaic.ValueIdx

/-- The word added to the variance denotes a positive real. -/
theorem eps_pos : ∃ e : ℝ, 0 < e ∧ eps = (e : EReal) := by
  unfold eps
  refine ⟨_, ?_, by simp [Ideal.ofBits, Ideal.ieee]; rfl⟩
  positivity

/-- The folded scale of real data with non-negative variance is real. -/
theorem scale_real (g v : Chan) (hg : ∀ o, IsReal (g o)) (hv : ∀ o, IsReal (v o)) (hv0 : ∀ o, 0 ≤ v o) (o : Fin 128) :
    IsReal (scale g v o) := by
  obtain ⟨a, ha⟩ := hg o
  obtain ⟨b, hb⟩ := hv o
  obtain ⟨e, he, hE⟩ := eps_pos
  have hb0 : 0 ≤ b := by have h := hv0 o; rw [hb] at h; exact_mod_cast h
  unfold scale
  rw [ha, hb, hE, ← EReal.coe_add, Ideal.sqrt_coe, if_neg (by linarith),
    Ideal.div_coe (ne_of_gt (Real.sqrt_pos.mpr (by linarith)))]
  exact ⟨a * (1 / Real.sqrt (b + e)), (EReal.coe_mul _ _).symm⟩

/-- and so is the folded shift. -/
theorem shift_real (b mu g v : Chan) (hb : ∀ o, IsReal (b o)) (hmu : ∀ o, IsReal (mu o)) (hg : ∀ o, IsReal (g o)) (hv : ∀ o, IsReal (v o))
    (hv0 : ∀ o, 0 ≤ v o) (o : Fin 128) : IsReal (shift b mu g v o) :=
  Cert.ResBlock.IsReal.sub (hb o) ((hmu o).mul (scale_real g v hg hv hv0 o))

/-- An all-reduction of "x >= 0" being one makes every entry non-negative. -/
theorem nonneg_of_all {s : Shape} {axes : List (Fin s.rank)} (x : s.Idx → EReal)
    (hb : (⟨0, ![]⟩ : Shape).BroadcastsInDim s ![]) (hr : s.ReducesTo axes ⟨0, ![]⟩) (hu : 0 < (⟨0, ![]⟩ : Shape).numel)
    (e : Host.reduce IntOp.andi (cmpf (F := Ideal) (φ := .f32) .oge x
        (broadcastInDim s ![] hb (constant (F := Ideal) ⟨0, ![]⟩ .f32 0x00000000#32)))
        (constantI ⟨0, ![]⟩ 1 1#1) hr hu ix0 = 1#1) (i : s.Idx) : 0 ≤ x i := by
  have hi := Host.reduce_andi_all _ _ hr hu ix0 e i
  have hc : broadcastInDim s ![] hb (constant (F := Ideal) ⟨0, ![]⟩ .f32 0x00000000#32) i = Ideal.ofBits .f32 0x00000000#32 :=
    broadcastInDim_scalar_apply hb _ i
  have h1 : Ideal.cmp .oge (x i) (Ideal.ofBits .f32 0x00000000#32) = 1#1 := by rw [← hc]; exact hi
  rw [Ideal.ofBits_zero_f32] at h1
  by_contra hneg
  simp [Ideal.cmp, hneg] at h1

/-- THE PRECONDITION DECODED. -/
theorem pre_facts [Cert.Pre_finite_inputs.Facts]
    (a0 : FVec Ideal Cert.Pre_finite_inputs.S32x128x56x56 .f32) (a1 : FVec Ideal Cert.Pre_finite_inputs.S128x128x3x3 .f32)
    (a2 a3 a4 a5 : FVec Ideal Cert.Pre_finite_inputs.S128 .f32) (a6 : FVec Ideal Cert.Pre_finite_inputs.S128x128x3x3 .f32)
    (a7 a8 a9 a10 : FVec Ideal Cert.Pre_finite_inputs.S128 .f32)
    (h : Cert.Pre_finite_inputs.fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) ∧ (∀ i, IsReal (a10 i))
      ∧ (∀ i, 0 ≤ a5 i) ∧ (∀ i, 0 ≤ a10 i) := by
  have h0 := congrFun h ix0
  unfold Cert.Pre_finite_inputs.fn Cert.Pre_finite_inputs.fn_part1 Cert.Pre_finite_inputs.fn_part2 Cert.Pre_finite_inputs.fn_part3 at h0
  dsimp only at h0
  have hand : ∀ u v : IVec Cert.Pre_finite_inputs.S_ 1, andi u v ix0 = IntOp.andi (u ix0) (v ix0) := fun _ _ => rfl
  simp only [hand, IntOp.andi_eq_one] at h0
  obtain ⟨⟨⟨⟨⟨⟨⟨⟨⟨⟨⟨⟨h_0, h_1⟩, h_2⟩, h_3⟩, h_4⟩, h_5⟩, h_6⟩, h_7⟩, h_8⟩, h_9⟩, h_10⟩, h_11⟩, h_12⟩ := h0
  exact ⟨Cert.Lib.AllFinite.real_of_all a0 _ _ _ h_0, Cert.Lib.AllFinite.real_of_all a1 _ _ _ h_1, Cert.Lib.AllFinite.real_of_all a2 _ _ _ h_2,
    Cert.Lib.AllFinite.real_of_all a3 _ _ _ h_3, Cert.Lib.AllFinite.real_of_all a4 _ _ _ h_4, Cert.Lib.AllFinite.real_of_all a5 _ _ _ h_5,
    Cert.Lib.AllFinite.real_of_all a6 _ _ _ h_6, Cert.Lib.AllFinite.real_of_all a7 _ _ _ h_7, Cert.Lib.AllFinite.real_of_all a8 _ _ _ h_8,
    Cert.Lib.AllFinite.real_of_all a9 _ _ _ h_9, Cert.Lib.AllFinite.real_of_all a10 _ _ _ h_10,
    nonneg_of_all a5 _ _ _ h_11, nonneg_of_all a10 _ _ _ h_12⟩

end Cert.ResBlock

end
-- ==== Proof.IdealValue.lean ====
/-
  The value of the idealized kernel program.  From a memory satisfying the precondition, every weakly fair
  execution of @main ends with the result array equal to the residual block of the eleven argument arrays, and the
  arguments unchanged.  The pieces: the frame run names the array after the call; that array is, row by row, what
  each grid point's body left; one grid point is the specification's block of the point's image once the call's
  five input arrays hold the image tiles, the two folded weight matrices, the nine 0/1 masks and the ones-row block;
  and the precondition makes every quantity a real number, which is what the folded contraction needs.
-/
import proofs.«104539_g2000404336194624_pallasbulk_886_2_alg».proof.Proof.IdealArray
import proofs.«104539_g2000404336194624_pallasbulk_886_2_alg».proof.Proof.PreReal

set_option maxRecDepth 16384

noncomputable section

namespace Cert.KernelIdeal.BodyVal

open Cert.KernelIdeal Cert.KernelIdeal.Gen Cert.KernelIdeal.Frm
open Idealize.ShloMosaic Idealize.ShloMosaic.TcCoe Idealize.ShloMosaic.ValueIdx Idealize.SL.Sem
open Cert.ResBlock
open Cert.Gcn (IsReal)

variable (m : (ℓ : Loc nD τ sig) → Buf (Elt Ideal) ℓ) (ρ : Dev nD → PrngReg)

/-- What the call's five input arrays hold when it is entered (the host operations before the call, read at an index). -/
structure HostFacts (c : Dev nD) : Prop where
  tile : ∀ (n : Fin 32) (i : Fin 128) (p : Fin 3136), (V (F := Ideal) m c main_v0 : S32x128x3136.Idx → EReal) (ix3 n i p)
      = (m ((c : Thread nD τ).loc main_arg0)) (ix4 n i ⟨p.val / 56, by omega⟩ ⟨p.val % 56, Nat.mod_lt _ (by norm_num)⟩)
  w1 : ∀ (o : Fin 128) (k : Fin 1160), (V (F := Ideal) m c main_v15 : S128x1160.Idx → EReal) (ix2 o k)
      = if h : k.val < 1152 then
          wt (m ((c : Thread nD τ).loc main_arg1)) o (chan ⟨k.val, h⟩) (tapY ⟨k.val, h⟩) (tapX ⟨k.val, h⟩) * scale (vec (m ((c : Thread nD τ).loc main_arg2))) (vec (m ((c : Thread nD τ).loc main_arg5))) o
        else if k.val = 1152 then shift (vec (m ((c : Thread nD τ).loc main_arg3))) (vec (m ((c : Thread nD τ).loc main_arg4))) (vec (m ((c : Thread nD τ).loc main_arg2))) (vec (m ((c : Thread nD τ).loc main_arg5))) o
        else 0
  w2 : ∀ (o : Fin 128) (k : Fin 1160), (V (F := Ideal) m c main_v30 : S128x1160.Idx → EReal) (ix2 o k)
      = if h : k.val < 1152 then
          wt (m ((c : Thread nD τ).loc main_arg6)) o (chan ⟨k.val, h⟩) (tapY ⟨k.val, h⟩) (tapX ⟨k.val, h⟩) * scale (vec (m ((c : Thread nD τ).loc main_arg7))) (vec (m ((c : Thread nD τ).loc main_arg10))) o
        else if k.val = 1152 then shift (vec (m ((c : Thread nD τ).loc main_arg8))) (vec (m ((c : Thread nD τ).loc main_arg9))) (vec (m ((c : Thread nD τ).loc main_arg7))) (vec (m ((c : Thread nD τ).loc main_arg10))) o
        else 0
  mask : ∀ (t : Fin 9) (i : Fin 128) (p : Fin 3136), (V (F := Ideal) m c main_v289 : S9x128x3136.Idx → EReal) (ix3 t i p)
      = if 1 ≤ p.val / 56 + t.val / 3 ∧ p.val / 56 + t.val / 3 ≤ 56 ∧ 1 ≤ p.val % 56 + t.val % 3 ∧ p.val % 56 + t.val % 3 ≤ 56 then (1 : EReal) else (0 : EReal)
  ones : ∀ (r : Fin 8) (p : Fin 3136), (V (F := Ideal) m c main_v293 : S8x3136.Idx → EReal) (ix2 r p) = if r.val = 0 then (1 : EReal) else (0 : EReal)

/-- The printed index maps over the grid: the image window's block index at point t is (t, 0, 0); the other four input windows' is zero on every axis. -/
theorem idx_in : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = 0 ∧ win0_3.index t (1 : Fin 3) = 0 ∧ win0_3.index t (2 : Fin 3) = 0)
    ∧ (win0_4.index t (0 : Fin 2) = 0 ∧ win0_4.index t (1 : Fin 2) = 0) :=
  (by decide +kernel : ∀ t : Fin grid0.N, _)

/-- The image window's block at point t is row t of the tiles array. -/
theorem blk0_apply (c : Dev nD) (t : Fin cfg0.N) (u : Fin 1) (i : Fin 128) (p : Fin 3136) :
    iblk m c 0 t (ix3 u i p) = (V (F := Ideal) m c main_v0 : S32x128x3136.Idx → EReal) (ix3 (⟨t.val, pt_lt t⟩ : Fin 32) i p) := by
  obtain ⟨⟨e0, e1, e2⟩, -⟩ := idx_in t
  have hu : u.val = 0 := by omega
  show V m c main_v0 (((cfg0.win 0).blk t).view.emb (ix3 u i p)) = _
  refine congrArg (V (F := Ideal) m c main_v0) (funext fun a => Fin.ext ?_)
  match a with
  | ⟨0, _⟩ => show win0_0.index t (0 : Fin 3) * 1 + 1 * u.val = t.val; omega
  | ⟨1, _⟩ => show win0_0.index t (1 : Fin 3) * 128 + 1 * i.val = i.val; omega
  | ⟨2, _⟩ => show win0_0.index t (2 : Fin 3) * 3136 + 1 * p.val = p.val; omega

/-- The other four input windows stage their whole arrays. -/
theorem blk1_apply (c : Dev nD) (t : Fin cfg0.N) (o : Fin 128) (k : Fin 1160) :
    iblk m c 1 t (ix2 o k) = (V (F := Ideal) m c main_v15 : S128x1160.Idx → EReal) (ix2 o k) := by
  obtain ⟨-, ⟨e0, e1⟩, -⟩ := idx_in t
  show V m c main_v15 (((cfg0.win 1).blk t).view.emb (ix2 o k)) = _
  refine congrArg (V (F := Ideal) m c main_v15) (funext fun a => Fin.ext ?_)
  match a with
  | ⟨0, _⟩ => show win0_1.index t (0 : Fin 2) * 128 + 1 * o.val = o.val; omega
  | ⟨1, _⟩ => show win0_1.index t (1 : Fin 2) * 1160 + 1 * k.val = k.val; omega
theorem blk2_apply (c : Dev nD) (t : Fin cfg0.N) (o : Fin 128) (k : Fin 1160) :
    iblk m c 2 t (ix2 o k) = (V (F := Ideal) m c main_v30 : S128x1160.Idx → EReal) (ix2 o k) := by
  obtain ⟨-, -, ⟨e0, e1⟩, -⟩ := idx_in t
  show V m c main_v30 (((cfg0.win 2).blk t).view.emb (ix2 o k)) = _
  refine congrArg (V (F := Ideal) m c main_v30) (funext fun a => Fin.ext ?_)
  match a with
  | ⟨0, _⟩ => show win0_2.index t (0 : Fin 2) * 128 + 1 * o.val = o.val; omega
  | ⟨1, _⟩ => show win0_2.index t (1 : Fin 2) * 1160 + 1 * k.val = k.val; omega
theorem blk3_apply (c : Dev nD) (t : Fin cfg0.N) (s : Fin 9) (i : Fin 128) (p : Fin 3136) :
    iblk m c 3 t (ix3 s i p) = (V (F := Ideal) m c main_v289 : S9x128x3136.Idx → EReal) (ix3 s i p) := by
  obtain ⟨-, -, -, ⟨e0, e1, e2⟩, -⟩ := idx_in t
  show V m c main_v289 (((cfg0.win 3).blk t).view.emb (ix3 s i p)) = _
  refine congrArg (V (F := Ideal) m c main_v289) (funext fun a => Fin.ext ?_)
  match a with
  | ⟨0, _⟩ => show win0_3.index t (0 : Fin 3) * 9 + 1 * s.val = s.val; omega
  | ⟨1, _⟩ => show win0_3.index t (1 : Fin 3) * 128 + 1 * i.val = i.val; omega
  | ⟨2, _⟩ => show win0_3.index t (2 : Fin 3) * 3136 + 1 * p.val = p.val; omega
theorem blk4_apply (c : Dev nD) (t : Fin cfg0.N) (r : Fin 8) (p : Fin 3136) :
    iblk m c 4 t (ix2 r p) = (V (F := Ideal) m c main_v293 : S8x3136.Idx → EReal) (ix2 r p) := by
  obtain ⟨-, -, -, -, ⟨e0, e1⟩⟩ := idx_in t
  show V m c main_v293 (((cfg0.win 4).blk t).view.emb (ix2 r p)) = _
  refine congrArg (V (F := Ideal) m c main_v293) (funext fun a => Fin.ext ?_)
  match a with
  | ⟨0, _⟩ => show win0_4.index t (0 : Fin 2) * 8 + 1 * r.val = r.val; omega
  | ⟨1, _⟩ => show win0_4.index t (1 : Fin 2) * 3136 + 1 * p.val = p.val; omega

/-- ONE ROW OF THE RESULT: under the host-side facts and the precondition's facts, the array after the call at
    (n, o, y*56 + x) is the specification's block of image n at (o, y, x). -/
theorem outArr_eq (c : Dev nD) (hh : HostFacts m c)
    (hX : ∀ i, IsReal ((m ((c : Thread nD τ).loc main_arg0)) i)) (hW1 : ∀ i, IsReal ((m ((c : Thread nD τ).loc main_arg1)) i)) (hg1 : ∀ i, IsReal ((m ((c : Thread nD τ).loc main_arg2)) i)) (hb1 : ∀ i, IsReal ((m ((c : Thread nD τ).loc main_arg3)) i))
    (hm1 : ∀ i, IsReal ((m ((c : Thread nD τ).loc main_arg4)) i)) (hv1 : ∀ i, IsReal ((m ((c : Thread nD τ).loc main_arg5)) i)) (hW2 : ∀ i, IsReal ((m ((c : Thread nD τ).loc main_arg6)) i)) (hg2 : ∀ i, IsReal ((m ((c : Thread nD τ).loc main_arg7)) i))
    (hb2 : ∀ i, IsReal ((m ((c : Thread nD τ).loc main_arg8)) i)) (hm2 : ∀ i, IsReal ((m ((c : Thread nD τ).loc main_arg9)) i)) (hv2 : ∀ i, IsReal ((m ((c : Thread nD τ).loc main_arg10)) i))
    (hv1n : ∀ i, (0 : EReal) ≤ ((m ((c : Thread nD τ).loc main_arg5)) : S128.Idx → EReal) i) (hv2n : ∀ i, (0 : EReal) ≤ ((m ((c : Thread nD τ).loc main_arg10)) : S128.Idx → EReal) i)
    (n : Fin 32) (o : Fin 128) (y x : Fin 56) :
    outArr m c (ix3 n o (⟨y.val * 56 + x.val, by have := y.isLt; have := x.isLt; omega⟩ : Fin 3136))
      = block (img (m ((c : Thread nD τ).loc main_arg0)) n) (wt (m ((c : Thread nD τ).loc main_arg1))) (vec (m ((c : Thread nD τ).loc main_arg2))) (vec (m ((c : Thread nD τ).loc main_arg3))) (vec (m ((c : Thread nD τ).loc main_arg4))) (vec (m ((c : Thread nD τ).loc main_arg5)))
          (wt (m ((c : Thread nD τ).loc main_arg6))) (vec (m ((c : Thread nD τ).loc main_arg7))) (vec (m ((c : Thread nD τ).loc main_arg8))) (vec (m ((c : Thread nD τ).loc main_arg9))) (vec (m ((c : Thread nD τ).loc main_arg10))) o y x := by
  have hy := y.isLt
  have hx := x.isLt
  show outAt (iblk m c 0 (pt n)) (iblk m c 1 (pt n)) (iblk m c 2 (pt n)) (iblk m c 3 (pt n)) (iblk m c 4 (pt n)) o ⟨y.val * 56 + x.val, _⟩ = _
  rw [point_eq_block (iblk m c 0 (pt n)) (iblk m c 1 (pt n)) (iblk m c 2 (pt n)) (iblk m c 3 (pt n)) (iblk m c 4 (pt n))
    (wt (m ((c : Thread nD τ).loc main_arg1))) (wt (m ((c : Thread nD τ).loc main_arg6))) (vec (m ((c : Thread nD τ).loc main_arg2))) (vec (m ((c : Thread nD τ).loc main_arg3))) (vec (m ((c : Thread nD τ).loc main_arg4))) (vec (m ((c : Thread nD τ).loc main_arg5))) (vec (m ((c : Thread nD τ).loc main_arg7))) (vec (m ((c : Thread nD τ).loc main_arg8))) (vec (m ((c : Thread nD τ).loc main_arg9))) (vec (m ((c : Thread nD τ).loc main_arg10)))
    (fun o k => (blk1_apply m c _ o k).trans (hh.w1 o k)) (fun o k => (blk2_apply m c _ o k).trans (hh.w2 o k))
    (fun t i p => (blk3_apply m c _ t i p).trans (hh.mask t i p)) (fun r p => (blk4_apply m c _ r p).trans (hh.ones r p))
    (fun i p => by rw [blk0_apply, hh.tile]; exact hX _) (fun _ _ _ _ => hW1 _) (fun _ _ _ _ => hW2 _)
    (scale_real _ _ (fun _ => hg1 _) (fun _ => hv1 _) (fun _ => hv1n _))
    (shift_real _ _ _ _ (fun _ => hb1 _) (fun _ => hm1 _) (fun _ => hg1 _) (fun _ => hv1 _) (fun _ => hv1n _))
    (scale_real _ _ (fun _ => hg2 _) (fun _ => hv2 _) (fun _ => hv2n _))]
  have e1 : laneY (⟨y.val * 56 + x.val, by omega⟩ : Fin 3136) = y := Fin.ext (by show (y.val * 56 + x.val) / 56 = y.val; omega)
  have e2 : laneX (⟨y.val * 56 + x.val, by omega⟩ : Fin 3136) = x := Fin.ext (by show (y.val * 56 + x.val) % 56 = x.val; omega)
  have e3 : tileImg (k0_pay2 (F := Ideal) (iblk m c 0 (pt n))) = img (m ((c : Thread nD τ).loc main_arg0)) n := by
    funext i y' x'
    have hy' := y'.isLt
    have hx' := x'.isLt
    unfold tileImg img
    rw [tile_apply, blk0_apply, hh.tile]
    refine congrArg (m ((c : Thread nD τ).loc main_arg0)) (funext fun a => Fin.ext ?_)
    match a with
    | ⟨0, _⟩ => rfl
    | ⟨1, _⟩ => rfl
    | ⟨2, _⟩ => show (y'.val * 56 + x'.val) / 56 = y'.val; omega
    | ⟨3, _⟩ => show (y'.val * 56 + x'.val) % 56 = x'.val; omega
  rw [e1, e2, e3]

/-- THE VALUE OF THE IDEALIZED KERNEL PROGRAM. -/
theorem value [Cert.Pre_finite_inputs.Facts] (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1) (hh : ∀ c, HostFacts m c) :
    θ_run (defs (F := Ideal)) (onTc (τ := τ) (main (F := Ideal))) ⟨m, fun _ => 0, ρ⟩ (fun r => ∀ c : Dev nD,
      r.2.mem ((c.tc : Thread nD τ).loc main_v295) = Cert.ResBlock.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨f0, f1, f2, f3, f4, f5, f6, f7, f8, f9, f10, n5, n10⟩ := pre_facts _ _ _ _ _ _ _ _ _ _ _ (hpre c)
    refine ⟨?_, (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩
    refine ((h c).2 main_v295 (Pipeline.mem_restRefs_of main_v295 (by decide) (by decide))).trans (funext fun j => ?_)
    rw [eq_ix4 j]
    exact (tail_apply m c (j 0) (j 1) (j 2) (j 3)).trans
      (outArr_eq m c (hh c) f0 f1 f2 f3 f4 f5 f6 f7 f8 f9 f10 n5 n10 (j 0) (j 1) (j 2) (j 3))) (run_main m ρ)

end Cert.KernelIdeal.BodyVal

end
-- ==== Proof.RefCanon.lean ====
/-
  What a buffer reads after a list of rectangle stores, in three forms a scratch buffer meets.

  (1) Later stores come first in the list. If the first stores of the list are each a block of ONE function G of the
  buffer's index, then at every index one of them covers, the contents are G there, whatever the earlier stores were.
  (2) A load of the whole buffer reads the contents. (3) After a fill of the whole buffer by Z followed by a store of A
  through a rectangle, the contents are A on the rectangle and Z off it.
-/
import Idealize.ShloMosaic.Lib.Pipeline.Value

noncomputable section

namespace Cert.ReferenceIdeal.RefValue

open Idealize.ShloMosaic Idealize.SL.Sem

variable {Val : EltTy → Type} [∀ e, Nonempty (Val e)] {S : Shape} {e : EltTy}

/-- Stores that are blocks of one function G, made AFTER any other stores: where one of them covers, the contents are G. -/
theorem canon_prefix_apply (G : S.Idx → Val e) :
    ∀ (L1 L2 : List (View.Piece Val S e)) (_ : ∀ p ∈ L1, ∀ x : p.1.shape.Idx, p.2 x = G (p.1.emb x)) (y : S.Idx)
      (_ : ∃ p ∈ L1, y ∈ p.1.set), View.canon (L1 ++ L2) y = G y
  | [], _, _, _, hy => by obtain ⟨p, hp, _⟩ := hy; simp at hp
  | p :: L, L2, hL, y, hy => by
    by_cases hm : y ∈ p.1.set
    · obtain ⟨x, rfl⟩ := p.1.exists_idx_of_mem hm
      rw [List.cons_append, show p.1.idx x = p.1.emb x from rfl, View.canon_cons_emb]
      exact hL p (by simp) x
    · rw [List.cons_append, View.canon_cons_of_not_mem _ _ hm]
      refine canon_prefix_apply G L L2 (fun q hq => hL q (by simp [hq])) y ?_
      obtain ⟨q, hq, hyq⟩ := hy
      rcases List.mem_cons.mp hq with rfl | hq'
      · exact absurd hyq hm
      · exact ⟨q, hq', hyq⟩

/-- A load of the whole buffer after the stores L reads what they leave. -/
theorem readCov_whole {sig : RefSig} {κ : Kind} {sp : Space} (v : View sig κ sp S e) (L : List (View.Piece Val S e))
    {off : Fin S.rank → Nat} (h : off = fun _ => 0) (inb : ∀ a, off a + S.size a ≤ S.size a) :
    v.readCov L (Rect.unit off S.size inb).toLoadRect = View.canon L := by
  rw [View.readCov_eq_canon']
  subst h
  funext j
  show View.canon L ((Rect.whole S).emb j) = View.canon L j
  rw [Rect.emb_whole_apply]

/-- A fill of the whole buffer by Z, then a store of A through the rectangle r: on r the contents are A, -/
theorem canon_store_over_fill_emb (r : Rect S) (A : r.shape.Idx → Val e) {off : Fin S.rank → Nat} (h : off = fun _ => 0)
    (inb : ∀ a, off a + S.size a ≤ S.size a) (Z : S.Idx → Val e) (x : r.shape.Idx) :
    View.canon [(⟨r, A⟩ : View.Piece Val S e), ⟨Rect.unit off S.size inb, Z⟩] (r.emb x) = A x :=
  View.canon_cons_emb r A _ x

/-- and off r they are Z. -/
theorem canon_store_over_fill_of_not_mem (r : Rect S) (A : r.shape.Idx → Val e) {off : Fin S.rank → Nat} (h : off = fun _ => 0)
    (inb : ∀ a, off a + S.size a ≤ S.size a) (Z : S.Idx → Val e) (y : S.Idx) (hy : y ∉ r.set) :
    View.canon [(⟨r, A⟩ : View.Piece Val S e), ⟨Rect.unit off S.size inb, Z⟩] y = Z y := by
  rw [View.canon_cons_of_not_mem _ _ hy, View.canon_unit_zero h]

end Cert.ReferenceIdeal.RefValue

end
-- ==== Proof.RefSlab.lean ====
/-
  The patch matrix: what the scratch matrix [3136, 1152] holds after the nine column-slab stores.

  Row p = y*56 + x of the patch matrix holds, in column k = (dy*3 + dx)*128 + i, the source [58, 58, 128] read at row
  y + dy, column x + dx, channel i. It is written slab by slab: the slab of tap (dy, dx) is the source's window
  [dy : dy+56, dx : dx+56, :] flattened to [3136, 128] (a change of float format in between is the identity on
  extended reals), stored at columns (dy*3+dx)*128 ... +127. Each slab is the block of the patch matrix its rectangle
  names, and the nine slabs tile the matrix; so whatever was stored before them, the matrix reads as the patch matrix.
-/
import proofs.«104539_g2000404336194624_pallasbulk_886_2_alg».proof.Proof.Gen.ReferenceIdeal.Skeleton
import proofs.«104539_g2000404336194624_pallasbulk_886_2_alg».proof.Proof.RefCanon
import Idealize.ShloMosaic.Lib.Ring
import Idealize.ShloMosaic.Lib.ValueIdx
import Idealize.ShloMosaic.PureOps.Ideal
import Idealize.ShloMosaic.PureOps.Ideal.Laws
import Idealize.ShloMosaic.Lib.Tactic

set_option maxRecDepth 16384

noncomputable section

namespace Cert.ReferenceIdeal.RefValue

open Cert.ReferenceIdeal Cert.ReferenceIdeal.Gen
open Idealize.ShloMosaic Idealize.ShloMosaic.ValueIdx Idealize.ShloMosaic.Tactic Idealize.SL.Sem

/-- Two rank-3 indices with equal coordinates are equal. -/
theorem ix3_ext {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

/-- The slab of tap (dy, dx): row p = y*56 + x, channel i, is the source at (y + dy, x + dx, i). -/
def tapSlab (src : S58x58x128.Idx → EReal) (dy dx : Nat) (hdy : dy ≤ 2) (hdx : dx ≤ 2) : S3136x128.Idx → EReal :=
  fun j => src (ix3 (⟨(j 0).val / 56 + dy, by have := idx2_lt0 j; omega⟩ : Fin 58)
    (⟨(j 0).val % 56 + dx, by have := idx2_lt0 j; omega⟩ : Fin 58) (⟨(j 1).val, idx2_lt1 j⟩ : Fin 128))

/-- The window [dy : dy+56, dx : dx+56, :] of the source, flattened: the slab. -/
theorem window_flat_eq (src : FVec Ideal S58x58x128 .f32) (dy dx : Nat) (hdy : dy ≤ 2) (hdx : dx ≤ 2)
    (hs : S58x58x128.Slices ![dy, dx, 0] S56x56x128) (hc1 : S56x56x128.ShapeCasts S3136x128) :
    shapeCast S3136x128 (extractStridedSlice S56x56x128 ![dy, dx, 0] src hs) hc1 = tapSlab src dy dx hdy hdx := by
  funext j
  obtain ⟨p, i, rfl⟩ : ∃ (p : Fin 3136) (i : Fin 128), j = ix2 p i := ⟨j 0, j 1, eq_ix2 j⟩
  refine (shapeCast_apply _ hc1 (ix2 p i)
    (ix3 (⟨p.val / 56, by omega⟩ : Fin 56) (⟨p.val % 56, Nat.mod_lt _ (by norm_num)⟩ : Fin 56) i) ?_).trans ?_
  · rw [Shape.rowMajor_val_three, Shape.rowMajor_val_two]
    show (p.val / 56 * 56 + p.val % 56) * 128 + i.val = p.val * 128 + i.val
    omega
  · unfold tapSlab
    refine extractStridedSlice_apply _ src hs _ _ (fun a => ?_)
    match a with
    | ⟨0, _⟩ => show p.val / 56 + dy = dy + p.val / 56; omega
    | ⟨1, _⟩ => show p.val % 56 + dx = dx + p.val % 56; omega
    | ⟨2, _⟩ => show i.val = 0 + i.val; omega

/-- The same through a change of float format, which is the identity on extended reals. -/
theorem slab_eq (src : FVec Ideal S58x58x128 .f32) (dy dx : Nat) (hdy : dy ≤ 2) (hdx : dx ≤ 2)
    (hs : S58x58x128.Slices ![dy, dx, 0] S56x56x128) (hc1 : S56x56x128.ShapeCasts S3136x128)
    (hb : FTy.bits .bf16 < FTy.bits .f32) (hc2 : S3136x128.ShapeCasts S3136x128) :
    shapeCast S3136x128 (truncf .bf16 (shapeCast S3136x128 (extractStridedSlice S56x56x128 ![dy, dx, 0] src hs) hc1) hb) hc2
      = tapSlab src dy dx hdy hdx := by
  rw [shapeCast_self]
  funext j
  rw [truncf_apply, window_flat_eq src dy dx hdy hdx hs hc1]

/-- Entry (p, k) of the patch matrix of a source: the source at row p/56 + ky, column p%56 + kx, channel i, where
    k = (ky*3 + kx)*128 + i. -/
def patchRow (src : S58x58x128.Idx → EReal) (p : Fin 3136) (k : Fin 1152) : EReal :=
  src (ix3 (⟨p.val / 56 + k.val / 128 / 3, by omega⟩ : Fin 58) (⟨p.val % 56 + k.val / 128 % 3, by omega⟩ : Fin 58)
    (⟨k.val % 128, Nat.mod_lt _ (by norm_num)⟩ : Fin 128))

/-- The patch matrix [3136, 1152] of a source. -/
def patchMat (src : S58x58x128.Idx → EReal) : S3136x1152.Idx → EReal :=
  fun j => patchRow src ⟨(j 0).val, idx2_lt0 j⟩ ⟨(j 1).val, idx2_lt1 j⟩

theorem patchMat_apply (src : S58x58x128.Idx → EReal) (p : Fin 3136) (k : Fin 1152) :
    patchMat src (ix2 p k) = patchRow src p k := rfl

/-- The slab of tap (dy, dx) is the block of the patch matrix at columns (dy*3+dx)*128 ... +127. -/
theorem tapSlab_piece (src : S58x58x128.Idx → EReal) (dy dx off1 : Nat) (hdy : dy ≤ 2) (hdx : dx ≤ 2)
    (hoff : off1 = 128 * (3 * dy + dx))
    (inb : ∀ a, (![0, off1] : Fin 2 → Nat) a + S3136x128.size a ≤ S3136x1152.size a)
    (x : (Rect.unit (s := S3136x1152) ![0, off1] S3136x128.size inb).shape.Idx) :
    tapSlab src dy dx hdy hdx x = patchMat src ((Rect.unit (s := S3136x1152) ![0, off1] S3136x128.size inb).emb x) := by
  obtain ⟨p, i, rfl⟩ : ∃ (p : Fin 3136) (i : Fin 128), x = ix2 p i := ⟨x 0, x 1, eq_ix2 (n0 := 3136) (n1 := 128) x⟩
  unfold tapSlab patchMat patchRow
  refine congrArg src (ix3_ext ?_ ?_ ?_)
  · show p.val / 56 + dy = (0 + 1 * p.val) / 56 + (off1 + 1 * i.val) / 128 / 3
    subst hoff; omega
  · show p.val % 56 + dx = (0 + 1 * p.val) % 56 + (off1 + 1 * i.val) / 128 % 3
    subst hoff; omega
  · show i.val = (off1 + 1 * i.val) % 128
    subst hoff; omega

/-- NINE SLABS MAKE THE PATCH MATRIX: after the nine slab stores (last first in the list), over anything stored
    earlier, the scratch matrix reads as the patch matrix of the source, at every index. -/
theorem patch_canon (src : S58x58x128.Idx → EReal) (P0 P1 P2 P3 P4 P5 P6 P7 P8 : FVec Ideal S3136x128 .bf16)
    (h0 : P0 = tapSlab src 0 0 (by norm_num) (by norm_num))
    (h1 : P1 = tapSlab src 0 1 (by norm_num) (by norm_num))
    (h2 : P2 = tapSlab src 0 2 (by norm_num) (by norm_num))
    (h3 : P3 = tapSlab src 1 0 (by norm_num) (by norm_num))
    (h4 : P4 = tapSlab src 1 1 (by norm_num) (by norm_num))
    (h5 : P5 = tapSlab src 1 2 (by norm_num) (by norm_num))
    (h6 : P6 = tapSlab src 2 0 (by norm_num) (by norm_num))
    (h7 : P7 = tapSlab src 2 1 (by norm_num) (by norm_num))
    (h8 : P8 = tapSlab src 2 2 (by norm_num) (by norm_num))
    (L2 : List (View.Piece (Elt Ideal) S3136x1152 .bf16)) (y : S3136x1152.Idx) :
    View.canon ([(⟨Rect.unit (s := S3136x1152) ![0, 1024] S3136x128.size inb_S3136x1152_S3136x128_0_1024, P8⟩ : View.Piece (Elt Ideal) S3136x1152 .bf16),
      (⟨Rect.unit (s := S3136x1152) ![0, 896] S3136x128.size inb_S3136x1152_S3136x128_0_896, P7⟩ : View.Piece (Elt Ideal) S3136x1152 .bf16),
      (⟨Rect.unit (s := S3136x1152) ![0, 768] S3136x128.size inb_S3136x1152_S3136x128_0_768, P6⟩ : View.Piece (Elt Ideal) S3136x1152 .bf16),
      (⟨Rect.unit (s := S3136x1152) ![0, 640] S3136x128.size inb_S3136x1152_S3136x128_0_640, P5⟩ : View.Piece (Elt Ideal) S3136x1152 .bf16),
      (⟨Rect.unit (s := S3136x1152) ![0, 512] S3136x128.size inb_S3136x1152_S3136x128_0_512, P4⟩ : View.Piece (Elt Ideal) S3136x1152 .bf16),
      (⟨Rect.unit (s := S3136x1152) ![0, 384] S3136x128.size inb_S3136x1152_S3136x128_0_384, P3⟩ : View.Piece (Elt Ideal) S3136x1152 .bf16),
      (⟨Rect.unit (s := S3136x1152) ![0, 256] S3136x128.size inb_S3136x1152_S3136x128_0_256, P2⟩ : View.Piece (Elt Ideal) S3136x1152 .bf16),
      (⟨Rect.unit (s := S3136x1152) ![0, 128] S3136x128.size inb_S3136x1152_S3136x128_0_128, P1⟩ : View.Piece (Elt Ideal) S3136x1152 .bf16),
      (⟨Rect.unit (s := S3136x1152) ![0, 0] S3136x128.size inb_S3136x1152_S3136x128_0_0, P0⟩ : View.Piece (Elt Ideal) S3136x1152 .bf16)] ++ L2) y = patchMat src y := by
  subst h0 h1 h2 h3 h4 h5 h6 h7 h8
  refine canon_prefix_apply (patchMat src) _ L2 ?_ y (View.cover_of_tiledL (s := S3136x1152) _ S3136x128.size (by sl_kernel_rfl) y)
  intro p hp x
  simp only [List.mem_cons, List.mem_nil_iff, or_false] at hp
  rcases hp with rfl | rfl | rfl | rfl | rfl | rfl | rfl | rfl | rfl
  · exact tapSlab_piece src 2 2 1024 (by norm_num) (by norm_num) rfl inb_S3136x1152_S3136x128_0_1024 x
  · exact tapSlab_piece src 2 1 896 (by norm_num) (by norm_num) rfl inb_S3136x1152_S3136x128_0_896 x
  · exact tapSlab_piece src 2 0 768 (by norm_num) (by norm_num) rfl inb_S3136x1152_S3136x128_0_768 x
  · exact tapSlab_piece src 1 2 640 (by norm_num) (by norm_num) rfl inb_S3136x1152_S3136x128_0_640 x
  · exact tapSlab_piece src 1 1 512 (by norm_num) (by norm_num) rfl inb_S3136x1152_S3136x128_0_512 x
  · exact tapSlab_piece src 1 0 384 (by norm_num) (by norm_num) rfl inb_S3136x1152_S3136x128_0_384 x
  · exact tapSlab_piece src 0 2 256 (by norm_num) (by norm_num) rfl inb_S3136x1152_S3136x128_0_256 x
  · exact tapSlab_piece src 0 1 128 (by norm_num) (by norm_num) rfl inb_S3136x1152_S3136x128_0_128 x
  · exact tapSlab_piece src 0 0 0 (by norm_num) (by norm_num) rfl inb_S3136x1152_S3136x128_0_0 x

end Cert.ReferenceIdeal.RefValue

end
-- ==== Proof.RefPayloads.lean ====
/-
  The arithmetic payloads of the block's body, read at an index over the extended reals.

  A row vector [1, 128] broadcast down 3136 rows reads its entry of the column; a matrix product [3136, 1152] x
  [1152, 128] into a zero accumulator is the sum over the 1152 shared positions; a flattening [56, 56, 128] ->
  [3136, 128] puts (y, x) at row y*56 + x; a block [1, 56, 56, 128] is its one image. With these, the two fused
  epilogues read as   max(dot * scale + shift, 0)   and   dot * scale + shift + centre of the window.
-/
import proofs.«104539_g2000404336194624_pallasbulk_886_2_alg».proof.Proof.Gen.ReferenceIdeal.Skeleton
import proofs.«104539_g2000404336194624_pallasbulk_886_2_alg».proof.Proof.LibPlainDot
import proofs.«104539_g2000404336194624_pallasbulk_886_2_alg».proof.Proof.RefSlab
import Idealize.ShloMosaic.Lib.Pipeline.Value

set_option maxRecDepth 16384

noncomputable section

namespace Cert.ReferenceIdeal.RefValue

open Cert.ReferenceIdeal Cert.ReferenceIdeal.Gen
open Idealize.ShloMosaic Idealize.ShloMosaic.ValueIdx Idealize.SL.Sem

/-- The f32 zero word is the extended real 0. -/
theorem zero_word : (Scalar.ofBits (F := Ideal) .f32 0x00000000#32 : Ideal .f32) = 0 := Ideal.ofBits_zero_f32

/-- A row [1, 128] broadcast to [3136, 128], at (p, o): the row's entry o. -/
theorem rowBroadcast_apply (v : FVec Ideal S1x128 .f32) (h : S1x128.Broadcasts S3136x128) (p : Fin 3136) (o : Fin 128) :
    broadcastTo S3136x128 v h (ix2 p o) = v (ix2 (0 : Fin 1) o) :=
  broadcastTo_apply v h _ _ (fun a => by match a with | ⟨0, _⟩ => rfl | ⟨1, _⟩ => rfl)

/-- The program's product record is the plain matrix product [3136, 1152] x [1152, 128]. -/
theorem dot_plain : dot_S3136x1152_S1152x128_S3136x128_1_0_0_1_n_n = Cert.Lib.plainDot 3136 1152 128 (dot_S3136x1152_S1152x128_S3136x128_1_0_0_1_n_n).wf := rfl

/-- The patch matrix times a weight matrix, from zero, at (p, o). -/
theorem matmul_apply_sum (l : FVec Ideal S3136x1152 .bf16) (r : FVec Ideal S1152x128 .bf16) (p : Fin 3136) (o : Fin 128) :
    matmul dot_S3136x1152_S1152x128_S3136x128_1_0_0_1_n_n none l r (constant (F := Ideal) S3136x128 .f32 0x00000000#32) (ix2 p o)
      = ∑ k : Fin 1152, l (ix2 p k) * r (ix2 k o) := by
  rw [dot_plain]
  exact Cert.Lib.matmul_zero_apply _ none l r p o

/-- The first epilogue: max(dot * scale + shift, 0) at (p, o). -/
theorem pay12_apply (v56 : Vec Ideal S3136x1152 .bf16) (v57 : Vec Ideal S1152x128 .bf16) (v60 v64 : Vec Ideal S1x128 .f32)
    (p : Fin 3136) (o : Fin 128) :
    k0_pay12 v56 v57 v60 v64 (ix2 p o)
      = max ((∑ k : Fin 1152, v56 (ix2 p k) * v57 (ix2 k o)) * v60 (ix2 (0 : Fin 1) o) + v64 (ix2 (0 : Fin 1) o)) 0 := by
  unfold k0_pay12
  simp only [shapeCast_self]
  rw [maximumf_apply, addf_apply, mulf_apply, broadcast_apply, zero_word, rowBroadcast_apply, rowBroadcast_apply,
    matmul_apply_sum]

/-- The second epilogue before its maximum: dot * scale + shift + the centre of the window, at (p, o). -/
theorem pay25_apply (v1 : FVec Ideal S58x58x128 .f32) (v133 : Vec Ideal S3136x1152 .bf16) (v134 : Vec Ideal S1152x128 .bf16)
    (v137 v141 : Vec Ideal S1x128 .f32) (p : Fin 3136) (o : Fin 128) :
    k0_pay25 v1 v133 v134 v137 v141 (ix2 p o)
      = (∑ k : Fin 1152, v133 (ix2 p k) * v134 (ix2 k o)) * v137 (ix2 (0 : Fin 1) o) + v141 (ix2 (0 : Fin 1) o)
        + tapSlab v1 1 1 (by norm_num) (by norm_num) (ix2 p o) := by
  unfold k0_pay25
  simp only [shapeCast_self]
  rw [addf_apply, addf_apply, mulf_apply, rowBroadcast_apply, rowBroadcast_apply, matmul_apply_sum, window_flat_eq]

/-- The zero splat. -/
theorem pay26_apply (j : S3136x128.Idx) : k0_pay26 (F := Ideal) j = 0 := zero_word

/-- The zero fill of the padded buffer. -/
theorem pay13_apply (j : S58x58x128.Idx) : k0_pay13 (F := Ideal) j = 0 := by
  unfold k0_pay13
  simp only [shapeCast_self]
  exact zero_word

/-- The hidden activation [3136, 128] viewed [56, 56, 128]: (y, x, i) is row y*56 + x, channel i. -/
theorem pay14_apply (v69 : FVec Ideal S3136x128 .f32) (y x : Fin 56) (i : Fin 128) :
    k0_pay14 v69 (ix3 y x i) = v69 (ix2 (⟨y.val * 56 + x.val, by omega⟩ : Fin 3136) i) := by
  unfold k0_pay14
  simp only [shapeCast_self]
  refine shapeCast_apply v69 _ _ _ ?_
  rw [Shape.rowMajor_val_three, Shape.rowMajor_val_two]
  rfl

/-- The output block [1, 56, 56, 128]: (0, y, x, o) is the maximum at row y*56 + x, channel o. -/
theorem pay1_apply (v147 v148 : FVec Ideal S3136x128 .f32) (y x : Fin 56) (o : Fin 128) :
    k0_pay1 v147 v148 (ix4 (0 : Fin 1) y x o)
      = max (v147 (ix2 (⟨y.val * 56 + x.val, by omega⟩ : Fin 3136) o)) (v148 (ix2 (⟨y.val * 56 + x.val, by omega⟩ : Fin 3136) o)) := by
  unfold k0_pay1
  refine (shapeCast_apply _ shapeCasts_S56x56x128_S1x56x56x128 _ (ix3 y x o) ?_).trans ?_
  · rw [Shape.rowMajor_val_three, Shape.rowMajor_val_four]
    show (y.val * 56 + x.val) * 128 + o.val = ((0 * 56 + y.val) * 56 + x.val) * 128 + o.val
    omega
  · refine (shapeCast_apply _ shapeCasts_S3136x128_S56x56x128 _ (ix2 (⟨y.val * 56 + x.val, by omega⟩ : Fin 3136) o) ?_).trans ?_
    · rw [Shape.rowMajor_val_three, Shape.rowMajor_val_two]
      rfl
    · rfl

end Cert.ReferenceIdeal.RefValue

end
-- ==== Proof.RefMath.lean ====
/-
  The arithmetic of the residual block, apart from any program.

  The zero-padded image: the plane with one ring of zeros around it, indexed by row and column in 0..57. Entry k of
  the patch at (y, x) is the padded image read at row y + ky, column x + kx, channel i, where k = (ky*3 + kx)*128 + i;
  and the centre of the 3 x 3 window, row y + 1 and column x + 1, is the image itself. The block, stated over any
  per-channel scale and shift in place of the folded batch-norm ones, so that a program that receives the scale and
  shift as arrays can be read against it.
-/
import proofs.«104539_g2000404336194624_pallasbulk_886_2_alg».proof.Proof.ResBlock

noncomputable section

namespace Cert.ReferenceIdeal.RefValue

open Idealize.ShloMosaic Idealize.ShloMosaic.ValueIdx Cert.ResBlock

/-- The image with one ring of zeros around its plane: row and column in 0..57, the plane at 1..56. -/
def padded (a : Img) (y' x' : Fin 58) (i : Fin 128) : EReal :=
  if h : 1 ≤ y'.val ∧ y'.val ≤ 56 ∧ 1 ≤ x'.val ∧ x'.val ≤ 56 then
    a i ⟨y'.val - 1, by omega⟩ ⟨x'.val - 1, by omega⟩
  else 0

/-- The padded image at row y + ky, column x + kx, channel i is entry k = (ky*3 + kx)*128 + i of the patch at (y, x). -/
theorem padded_tap (a : Img) (y x : Fin 56) (k : Fin 1152) (hy : y.val + (tapY k).val < 58) (hx : x.val + (tapX k).val < 58) :
    padded a ⟨y.val + (tapY k).val, hy⟩ ⟨x.val + (tapX k).val, hx⟩ (chan k) = patch a y x k := by
  unfold padded patch
  by_cases h : InPlane y x k
  · rw [dif_pos h, dif_pos (by unfold InPlane at h; exact h)]
  · rw [dif_neg h, dif_neg (by unfold InPlane at h; exact h)]

/-- The centre of the window: the padded image at row y + 1, column x + 1 is the image at (y, x). -/
theorem padded_centre (a : Img) (y x : Fin 56) (i : Fin 128) (hy : y.val + 1 < 58) (hx : x.val + 1 < 58) :
    padded a ⟨y.val + 1, hy⟩ ⟨x.val + 1, hx⟩ i = a i y x := by
  unfold padded
  rw [dif_pos (by refine ⟨?_, ?_, ?_, ?_⟩ <;> simp only [] <;> omega)]
  rfl

/-- The block over any per-channel scales and shifts. -/
def blockG (a : Img) (w1 : Wt) (s1 b1 : Chan) (w2 : Wt) (s2 b2 : Chan) : Img :=
  fun o y x => max (conv (fun o y x => max (conv a w1 o y x * s1 o + b1 o) 0) w2 o y x * s2 o + b2 o + a o y x) 0

/-- The residual block is the general one at the folded batch-norm scales and shifts. -/
theorem block_eq_blockG (a : Img) (w1 : Wt) (g1 b1 mu1 v1 : Chan) (w2 : Wt) (g2 b2 mu2 v2 : Chan) :
    block a w1 g1 b1 mu1 v1 w2 g2 b2 mu2 v2
      = blockG a w1 (scale g1 v1) (shift b1 mu1 g1 v1) w2 (scale g2 v2) (shift b2 mu2 g2 v2) := rfl

end Cert.ReferenceIdeal.RefValue

end
-- ==== Proof.RefBodyStages.lean ====
/-
  The block's body, stage by stage: what each load of the run reads, as a function of the seven input blocks.

  The source is the input block without its unit axis. The scratch matrix after the first nine slab stores is the
  source's patch matrix. The hidden activation is max(patch matrix * w1 * scale1 + shift1, 0). The padded buffer,
  after the zero fill and the store of the hidden activation at [1:57, 1:57, :], is the hidden activation with one
  ring of zeros. The scratch matrix after the second nine slab stores — made over the first nine — is the padded
  buffer's patch matrix. The output block is max(patch matrix * w2 * scale2 + shift2 + the source's centre, 0).
-/
import proofs.«104539_g2000404336194624_pallasbulk_886_2_alg».proof.Proof.Gen.ReferenceIdeal.Frame
import proofs.«104539_g2000404336194624_pallasbulk_886_2_alg».proof.Proof.RefPayloads
import proofs.«104539_g2000404336194624_pallasbulk_886_2_alg».proof.Proof.RefMath

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.ValueIdx Idealize.SL.Sem

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- A load of a whole buffer that holds X reads X. -/
theorem readAt_whole_unread {S : Shape} {e : EltTy} (M : Memref sig .tc .vmem S e) (hM : M.IsWhole) (X : S.Idx → Elt Ideal e)
    {off : Fin S.rank → Nat} (h : off = fun _ => 0) (inb : ∀ a, off a + S.size a ≤ S.size a) :
    View.readAt (Elt Ideal) M.view (Rect.unit off S.size inb).toLoadRect (hM.unread X) = X := by
  rw [View.readAt_eq_ld, hM.read_unread, View.ld_unit_zero h]

/-- The input block [1, 58, 58, 128] without its unit axis, at (y', x', i). -/
theorem pay2_apply (x0 : Vec Ideal S1x58x58x128 .f32) (y' x' : Fin 58) (i : Fin 128) :
    k0_pay2 x0 (ix3 y' x' i) = x0 (ix4 (0 : Fin 1) y' x' i) := by
  unfold k0_pay2
  refine shapeCast_apply x0 _ _ _ ?_
  rw [Shape.rowMajor_val_three, Shape.rowMajor_val_four]
  show ((0 * 58 + y'.val) * 58 + x'.val) * 128 + i.val = (y'.val * 58 + x'.val) * 128 + i.val
  omega

variable (c : Dev nD) (arg1 : Memref sig .tc .vmem S1x58x58x128 .f32) (harg1 : arg1.IsWhole) (arg2 : Memref sig .tc .vmem S1152x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x56x56x128 .f32) (harg8 : arg8.IsWhole) (arg9 : Memref sig .tc .vmem S3136x1152 .bf16) (harg9 : arg9.IsWhole) (arg10 : Memref sig .tc .vmem S58x58x128 .f32) (harg10 : arg10.IsWhole)

/-- The source the first patch matrix is built from: the input block without its unit axis. -/
theorem run_src (x0 : Vec Ideal S1x58x58x128 .f32) : kernelRun0_A.sl.r (F := Ideal) c arg1 harg1 x0 = k0_pay2 x0 := by
  unfold kernelRun0_A.sl.r
  rw [readAt_whole_unread arg1 harg1 x0 hz4]

/-- The scratch matrix after the first nine slab stores: the source's patch matrix. -/
theorem run_patch1 (x0 : Vec Ideal S1x58x58x128 .f32) : kernelRun0_A.sl.v56 (F := Ideal) c arg1 harg1 arg9 x0 = patchMat (k0_pay2 x0) := by
  unfold kernelRun0_A.sl.v56
  rw [readCov_whole _ _ hz2]
  funext y
  unfold kernelRun0_A.sl.HS0_9 kernelRun0_A.sl.r_1
  rw [run_src, readAt_whole_unread arg1 harg1 x0 hz4]
  exact patch_canon (k0_pay2 x0) (k0_pay3 x0) (k0_pay4 x0) (k0_pay5 x0) (k0_pay6 x0) (k0_pay7 x0) (k0_pay8 x0)
    (k0_pay9 (k0_pay2 x0)) (k0_pay10 (k0_pay2 x0)) (k0_pay11 (k0_pay2 x0))
    (slab_eq (k0_pay2 x0) 0 0 (by norm_num) (by norm_num) slices_S58x58x128_o0_0_0_S56x56x128 shapeCasts_S56x56x128_S3136x128 bitsLt_bf16_f32 shapeCasts_S3136x128_S3136x128) (slab_eq (k0_pay2 x0) 0 1 (by norm_num) (by norm_num) slices_S58x58x128_o0_1_0_S56x56x128 shapeCasts_S56x56x128_S3136x128 bitsLt_bf16_f32 shapeCasts_S3136x128_S3136x128) (slab_eq (k0_pay2 x0) 0 2 (by norm_num) (by norm_num) slices_S58x58x128_o0_2_0_S56x56x128 shapeCasts_S56x56x128_S3136x128 bitsLt_bf16_f32 shapeCasts_S3136x128_S3136x128)
    (slab_eq (k0_pay2 x0) 1 0 (by norm_num) (by norm_num) slices_S58x58x128_o1_0_0_S56x56x128 shapeCasts_S56x56x128_S3136x128 bitsLt_bf16_f32 shapeCasts_S3136x128_S3136x128) (slab_eq (k0_pay2 x0) 1 1 (by norm_num) (by norm_num) slices_S58x58x128_o1_1_0_S56x56x128 shapeCasts_S56x56x128_S3136x128 bitsLt_bf16_f32 shapeCasts_S3136x128_S3136x128) (slab_eq (k0_pay2 x0) 1 2 (by norm_num) (by norm_num) slices_S58x58x128_o1_2_0_S56x56x128 shapeCasts_S56x56x128_S3136x128 bitsLt_bf16_f32 shapeCasts_S3136x128_S3136x128)
    (slab_eq (k0_pay2 x0) 2 0 (by norm_num) (by norm_num) slices_S58x58x128_o2_0_0_S56x56x128 shapeCasts_S56x56x128_S3136x128 bitsLt_bf16_f32 shapeCasts_S3136x128_S3136x128) (slab_eq (k0_pay2 x0) 2 1 (by norm_num) (by norm_num) slices_S58x58x128_o2_1_0_S56x56x128 shapeCasts_S56x56x128_S3136x128 bitsLt_bf16_f32 shapeCasts_S3136x128_S3136x128) (slab_eq (k0_pay2 x0) 2 2 (by norm_num) (by norm_num) slices_S58x58x128_o2_2_0_S56x56x128 shapeCasts_S56x56x128_S3136x128 bitsLt_bf16_f32 shapeCasts_S3136x128_S3136x128) [] y

/-- The hidden activation [3136, 128] at (p, o). -/
theorem run_hidden (x0 : Vec Ideal S1x58x58x128 .f32) (x1 : Vec Ideal S1152x128 .bf16) (x2 x3 : Vec Ideal S1x128 .f32)
    (p : Fin 3136) (o : Fin 128) :
    kernelRun0_A.sl.r_2 (F := Ideal) c arg1 harg1 arg2 harg2 arg3 harg3 arg4 harg4 arg9 x0 x1 x2 x3 (ix2 p o)
      = max ((∑ k : Fin 1152, patchRow (k0_pay2 x0) p k * x1 (ix2 k o)) * x2 (ix2 (0 : Fin 1) o) + x3 (ix2 (0 : Fin 1) o)) 0 := by
  unfold kernelRun0_A.sl.r_2
  rw [run_patch1, readAt_whole_unread arg2 harg2 x1 hz2, readAt_whole_unread arg3 harg3 x2 hz2,
    readAt_whole_unread arg4 harg4 x3 hz2, pay12_apply]
  rfl

/-- The hidden activation as an image: channel i at (y, x) is row y*56 + x, column i. -/
def hiddenRun (x0 : Vec Ideal S1x58x58x128 .f32) (x1 : Vec Ideal S1152x128 .bf16) (x2 x3 : Vec Ideal S1x128 .f32) : Img :=
  fun i y x => kernelRun0_A.sl.r_2 (F := Ideal) c arg1 harg1 arg2 harg2 arg3 harg3 arg4 harg4 arg9 x0 x1 x2 x3 (ix2 (⟨y.val * 56 + x.val, by omega⟩ : Fin 3136) i)

/-- The padded buffer after the zero fill and the store of the hidden activation inside it: the hidden activation with
    one ring of zeros. -/
theorem run_hpad (x0 : Vec Ideal S1x58x58x128 .f32) (x1 : Vec Ideal S1152x128 .bf16) (x2 x3 : Vec Ideal S1x128 .f32)
    (y' x' : Fin 58) (i : Fin 128) :
    kernelRun0_A.sl.v78 (F := Ideal) c arg1 harg1 arg2 harg2 arg3 harg3 arg4 harg4 arg9 arg10 x0 x1 x2 x3 (ix3 y' x' i)
      = padded (hiddenRun c arg1 harg1 arg2 harg2 arg3 harg3 arg4 harg4 arg9 x0 x1 x2 x3) y' x' i := by
  unfold kernelRun0_A.sl.v78
  rw [readCov_whole _ _ hz3]
  unfold kernelRun0_A.sl.HS1_2 padded
  by_cases h : 1 ≤ y'.val ∧ y'.val ≤ 56 ∧ 1 ≤ x'.val ∧ x'.val ≤ 56
  · rw [dif_pos h]
    have e : ix3 y' x' i = (Rect.unit (s := S58x58x128) ![1, 1, 0] S56x56x128.size inb_S58x58x128_S56x56x128_1_1_0).emb
        (ix3 (⟨y'.val - 1, by omega⟩ : Fin 56) (⟨x'.val - 1, by omega⟩ : Fin 56) i) := by
      funext a
      match a with
      | ⟨0, _⟩ => exact Fin.ext (by show y'.val = 1 + 1 * (y'.val - 1); omega)
      | ⟨1, _⟩ => exact Fin.ext (by show x'.val = 1 + 1 * (x'.val - 1); omega)
      | ⟨2, _⟩ => exact Fin.ext (by show i.val = 0 + 1 * i.val; omega)
    rw [e, canon_store_over_fill_emb _ _ hz3, pay14_apply]
    rfl
  · rw [dif_neg h, canon_store_over_fill_of_not_mem _ _ hz3, pay13_apply]
    rw [Rect.mem_set_unit]
    intro hall
    apply h
    have h0 := hall (0 : Fin 3)
    have h1 := hall (1 : Fin 3)
    change (1 ≤ y'.val ∧ y'.val < 1 + 56) at h0
    change (1 ≤ x'.val ∧ x'.val < 1 + 56) at h1
    omega

/-- The scratch matrix after the second nine slab stores, made over the first nine: the padded buffer's patch matrix. -/
theorem run_patch2 (x0 : Vec Ideal S1x58x58x128 .f32) (x1 : Vec Ideal S1152x128 .bf16) (x2 x3 : Vec Ideal S1x128 .f32) :
    kernelRun0_A.sl.v133 (F := Ideal) c arg1 harg1 arg2 harg2 arg3 harg3 arg4 harg4 arg9 arg10 x0 x1 x2 x3 = patchMat (kernelRun0_A.sl.v78 (F := Ideal) c arg1 harg1 arg2 harg2 arg3 harg3 arg4 harg4 arg9 arg10 x0 x1 x2 x3) := by
  unfold kernelRun0_A.sl.v133
  rw [readCov_whole _ _ hz2]
  funext y
  unfold kernelRun0_A.sl.HS0_18 kernelRun0_A.sl.r_3
  exact patch_canon (kernelRun0_A.sl.v78 (F := Ideal) c arg1 harg1 arg2 harg2 arg3 harg3 arg4 harg4 arg9 arg10 x0 x1 x2 x3)
    (k0_pay15 (kernelRun0_A.sl.v78 (F := Ideal) c arg1 harg1 arg2 harg2 arg3 harg3 arg4 harg4 arg9 arg10 x0 x1 x2 x3)) (k0_pay16 (kernelRun0_A.sl.v78 (F := Ideal) c arg1 harg1 arg2 harg2 arg3 harg3 arg4 harg4 arg9 arg10 x0 x1 x2 x3)) (k0_pay17 (kernelRun0_A.sl.v78 (F := Ideal) c arg1 harg1 arg2 harg2 arg3 harg3 arg4 harg4 arg9 arg10 x0 x1 x2 x3))
    (k0_pay18 (kernelRun0_A.sl.v78 (F := Ideal) c arg1 harg1 arg2 harg2 arg3 harg3 arg4 harg4 arg9 arg10 x0 x1 x2 x3)) (k0_pay19 (kernelRun0_A.sl.v78 (F := Ideal) c arg1 harg1 arg2 harg2 arg3 harg3 arg4 harg4 arg9 arg10 x0 x1 x2 x3)) (k0_pay21 (k0_pay20 (kernelRun0_A.sl.v78 (F := Ideal) c arg1 harg1 arg2 harg2 arg3 harg3 arg4 harg4 arg9 arg10 x0 x1 x2 x3)))
    (k0_pay22 (kernelRun0_A.sl.v78 (F := Ideal) c arg1 harg1 arg2 harg2 arg3 harg3 arg4 harg4 arg9 arg10 x0 x1 x2 x3)) (k0_pay23 (kernelRun0_A.sl.v78 (F := Ideal) c arg1 harg1 arg2 harg2 arg3 harg3 arg4 harg4 arg9 arg10 x0 x1 x2 x3)) (k0_pay24 (kernelRun0_A.sl.v78 (F := Ideal) c arg1 harg1 arg2 harg2 arg3 harg3 arg4 harg4 arg9 arg10 x0 x1 x2 x3))
    (slab_eq _ 0 0 (by norm_num) (by norm_num) slices_S58x58x128_o0_0_0_S56x56x128 shapeCasts_S56x56x128_S3136x128 bitsLt_bf16_f32 shapeCasts_S3136x128_S3136x128) (slab_eq _ 0 1 (by norm_num) (by norm_num) slices_S58x58x128_o0_1_0_S56x56x128 shapeCasts_S56x56x128_S3136x128 bitsLt_bf16_f32 shapeCasts_S3136x128_S3136x128) (slab_eq _ 0 2 (by norm_num) (by norm_num) slices_S58x58x128_o0_2_0_S56x56x128 shapeCasts_S56x56x128_S3136x128 bitsLt_bf16_f32 shapeCasts_S3136x128_S3136x128)
    (slab_eq _ 1 0 (by norm_num) (by norm_num) slices_S58x58x128_o1_0_0_S56x56x128 shapeCasts_S56x56x128_S3136x128 bitsLt_bf16_f32 shapeCasts_S3136x128_S3136x128) (slab_eq _ 1 1 (by norm_num) (by norm_num) slices_S58x58x128_o1_1_0_S56x56x128 shapeCasts_S56x56x128_S3136x128 bitsLt_bf16_f32 shapeCasts_S3136x128_S3136x128) (slab_eq _ 1 2 (by norm_num) (by norm_num) slices_S58x58x128_o1_2_0_S56x56x128 shapeCasts_S56x56x128_S3136x128 bitsLt_bf16_f32 shapeCasts_S3136x128_S3136x128)
    (slab_eq _ 2 0 (by norm_num) (by norm_num) slices_S58x58x128_o2_0_0_S56x56x128 shapeCasts_S56x56x128_S3136x128 bitsLt_bf16_f32 shapeCasts_S3136x128_S3136x128) (slab_eq _ 2 1 (by norm_num) (by norm_num) slices_S58x58x128_o2_1_0_S56x56x128 shapeCasts_S56x56x128_S3136x128 bitsLt_bf16_f32 shapeCasts_S3136x128_S3136x128) (slab_eq _ 2 2 (by norm_num) (by norm_num) slices_S58x58x128_o2_2_0_S56x56x128 shapeCasts_S56x56x128_S3136x128 bitsLt_bf16_f32 shapeCasts_S3136x128_S3136x128) (kernelRun0_A.sl.HS0_9 (F := Ideal) c arg1 harg1 x0) y

/-- The output block at (0, y, x, o). -/
theorem run_out (x0 : Vec Ideal S1x58x58x128 .f32) (x1 : Vec Ideal S1152x128 .bf16) (x2 : Vec Ideal S1x128 .f32) (x3 : Vec Ideal S1x128 .f32) (x4 : Vec Ideal S1152x128 .bf16) (x5 : Vec Ideal S1x128 .f32) (x6 : Vec Ideal S1x128 .f32) (y x : Fin 56) (o : Fin 128) :
    k0_pay1 (kernelRun0_A.sl.r_4 (F := Ideal) c arg1 harg1 arg2 harg2 arg3 harg3 arg4 harg4 arg5 harg5 arg6 harg6 arg7 harg7 arg9 arg10 x0 x1 x2 x3 x4 x5 x6) (k0_pay26 (F := Ideal)) (ix4 (0 : Fin 1) y x o)
      = max ((∑ k : Fin 1152, patchRow (kernelRun0_A.sl.v78 (F := Ideal) c arg1 harg1 arg2 harg2 arg3 harg3 arg4 harg4 arg9 arg10 x0 x1 x2 x3) (⟨y.val * 56 + x.val, by omega⟩ : Fin 3136) k * x4 (ix2 k o))
          * x5 (ix2 (0 : Fin 1) o) + x6 (ix2 (0 : Fin 1) o)
          + k0_pay2 x0 (ix3 (⟨y.val + 1, by omega⟩ : Fin 58) (⟨x.val + 1, by omega⟩ : Fin 58) o)) 0 := by
  rw [pay1_apply, pay26_apply]
  unfold kernelRun0_A.sl.r_4
  rw [run_src, run_patch2, readAt_whole_unread arg5 harg5 x4 hz2, readAt_whole_unread arg6 harg6 x5 hz2,
    readAt_whole_unread arg7 harg7 x6 hz2, pay25_apply]
  unfold tapSlab
  refine congrArg (fun t => max t (0 : EReal)) (congrArg₂ (· + ·) rfl (congrArg (k0_pay2 x0) (ix3_ext ?_ ?_ rfl)))
  · show (y.val * 56 + x.val) / 56 + 1 = y.val + 1
    omega
  · show (y.val * 56 + x.val) % 56 + 1 = x.val + 1
    omega

end Cert.ReferenceIdeal.RefValue

end
-- ==== Proof.RefBody.lean ====
/-
  The block's body at one image: the output block is the residual block of the image.

  If the input block holds the zero-padded image a, the weight blocks hold w[o, i, ky, kx] at row (ky*3+kx)*128 + i,
  column o, and the four rows hold two scales and two shifts, then a row of a patch matrix times a weight column is a
  3 x 3 convolution with zero padding at that row's position: the hidden activation is
  max(conv(a, w1) * scale1 + shift1, 0), the padded buffer is its zero-padded image, and the output block at
  (0, y, x, o) is max(conv(hidden, w2) * scale2 + shift2 + a, 0) at channel o, position (y, x).
-/
import proofs.«104539_g2000404336194624_pallasbulk_886_2_alg».proof.Proof.RefBodyStages

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.ValueIdx Idealize.SL.Sem

theorem padded_congr (a : Img) {y1 y2 x1 x2 : Fin 58} {i1 i2 : Fin 128} (hy : y1.val = y2.val) (hx : x1.val = x2.val)
    (hi : i1.val = i2.val) : padded a y1 x1 i1 = padded a y2 x2 i2 := by
  rw [Fin.ext hy, Fin.ext hx, Fin.ext hi]

/-- Row y*56 + x of the patch matrix of a zero-padded image is the patch of the image at (y, x). -/
theorem patchRow_of_padded (src : S58x58x128.Idx → EReal) (a : Img)
    (hsrc : ∀ (y' x' : Fin 58) (i : Fin 128), src (ix3 y' x' i) = padded a y' x' i) (y x : Fin 56) (k : Fin 1152) :
    patchRow src (⟨y.val * 56 + x.val, by omega⟩ : Fin 3136) k = patch a y x k := by
  unfold patchRow
  rw [hsrc]
  have hty : (tapY k).val < 3 := (tapY k).isLt
  have htx : (tapX k).val < 3 := (tapX k).isLt
  refine (padded_congr a (y2 := ⟨y.val + (tapY k).val, by omega⟩) (x2 := ⟨x.val + (tapX k).val, by omega⟩) (i2 := chan k)
    ?_ ?_ rfl).trans (padded_tap a y x k _ _)
  · show (y.val * 56 + x.val) / 56 + k.val / 128 / 3 = y.val + k.val / 128 / 3
    omega
  · show (y.val * 56 + x.val) % 56 + k.val / 128 % 3 = x.val + k.val / 128 % 3
    omega

variable (c : Dev nD) (arg1 : Memref sig .tc .vmem S1x58x58x128 .f32) (harg1 : arg1.IsWhole) (arg2 : Memref sig .tc .vmem S1152x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S1152x128 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x56x56x128 .f32) (harg8 : arg8.IsWhole) (arg9 : Memref sig .tc .vmem S3136x1152 .bf16) (harg9 : arg9.IsWhole) (arg10 : Memref sig .tc .vmem S58x58x128 .f32) (harg10 : arg10.IsWhole)

/-- The output's one covering store leaves its payload: the block the body leaves is the last payload of the chain. -/
theorem piece_eq (i : grid0.Coords) (x0 : Vec Ideal S1x58x58x128 .f32) (x1 : Vec Ideal S1152x128 .bf16) (x2 : Vec Ideal S1x128 .f32) (x3 : Vec Ideal S1x128 .f32) (x4 : Vec Ideal S1152x128 .bf16) (x5 : Vec Ideal S1x128 .f32) (x6 : Vec Ideal S1x128 .f32) :
    out0_A_7 (F := Ideal) c i arg1 harg1 arg2 harg2 arg3 harg3 arg4 harg4 arg5 harg5 arg6 harg6 arg7 harg7 arg8 harg8 arg9 harg9 arg10 harg10 x0 x1 x2 x3 x4 x5 x6
      = k0_pay1 (kernelRun0_A.sl.r_4 (F := Ideal) c arg1 harg1 arg2 harg2 arg3 harg3 arg4 harg4 arg5 harg5 arg6 harg6 arg7 harg7 arg9 arg10 x0 x1 x2 x3 x4 x5 x6) (k0_pay26 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  exact View.canon_unit_zero (S := S1x56x56x128) hz4 _ _

/-- THE BODY AT ONE IMAGE. -/
theorem body_block (i : grid0.Coords) (x0 : Vec Ideal S1x58x58x128 .f32) (x1 : Vec Ideal S1152x128 .bf16) (x2 : Vec Ideal S1x128 .f32) (x3 : Vec Ideal S1x128 .f32) (x4 : Vec Ideal S1152x128 .bf16) (x5 : Vec Ideal S1x128 .f32) (x6 : Vec Ideal S1x128 .f32)
    (a : Img) (w1 : Wt) (s1 b1 : Chan) (w2 : Wt) (s2 b2 : Chan)
    (hx0 : ∀ (y' x' : Fin 58) (i : Fin 128), x0 (ix4 (0 : Fin 1) y' x' i) = padded a y' x' i)
    (hx1 : ∀ (k : Fin 1152) (o : Fin 128), x1 (ix2 k o) = w1 o (chan k) (tapY k) (tapX k))
    (hx2 : ∀ o : Fin 128, x2 (ix2 (0 : Fin 1) o) = s1 o) (hx3 : ∀ o : Fin 128, x3 (ix2 (0 : Fin 1) o) = b1 o)
    (hx4 : ∀ (k : Fin 1152) (o : Fin 128), x4 (ix2 k o) = w2 o (chan k) (tapY k) (tapX k))
    (hx5 : ∀ o : Fin 128, x5 (ix2 (0 : Fin 1) o) = s2 o) (hx6 : ∀ o : Fin 128, x6 (ix2 (0 : Fin 1) o) = b2 o)
    (y x : Fin 56) (o : Fin 128) :
    out0_A_7 (F := Ideal) c i arg1 harg1 arg2 harg2 arg3 harg3 arg4 harg4 arg5 harg5 arg6 harg6 arg7 harg7 arg8 harg8 arg9 harg9 arg10 harg10 x0 x1 x2 x3 x4 x5 x6 (ix4 (0 : Fin 1) y x o) = blockG a w1 s1 b1 w2 s2 b2 o y x := by
  have hsrc : ∀ (y' x' : Fin 58) (i : Fin 128), k0_pay2 x0 (ix3 y' x' i) = padded a y' x' i := fun y' x' i => by
    rw [pay2_apply, hx0]
  have hH : hiddenRun c arg1 harg1 arg2 harg2 arg3 harg3 arg4 harg4 arg9 x0 x1 x2 x3 = fun o y x => max (conv a w1 o y x * s1 o + b1 o) 0 := by
    funext o y x
    unfold hiddenRun
    rw [run_hidden, hx2, hx3]
    unfold conv
    refine congrArg (fun t => max (t * s1 o + b1 o) (0 : EReal)) (Finset.sum_congr rfl fun k _ => ?_)
    rw [patchRow_of_padded _ a hsrc, hx1]
  rw [piece_eq, run_out, hx5, hx6, hsrc, padded_centre]
  unfold blockG
  refine congrArg (fun t => max (t * s2 o + b2 o + a o y x) (0 : EReal)) ?_
  rw [← hH]
  unfold conv
  refine Finset.sum_congr rfl fun k _ => ?_
  rw [patchRow_of_padded _ _ (run_hpad c arg1 harg1 arg2 harg2 arg3 harg3 arg4 harg4 arg9 arg10 x0 x1 x2 x3) y x k, hx4]

end Cert.ReferenceIdeal.RefValue

end
-- ==== Proof.RefHost.lean ====
/-
  What the call's seven input arrays hold, read at an index, as functions of the program's eleven arguments.

  The image batch [32, 128, 56, 56] is transposed to channels-last and padded by one zero row and column on each
  side of both spatial axes: entry (n, y', x', i) of the result is the zero-padded image n at (y', x', i). A weight
  array [128, 128, 3, 3] is transposed to [3, 3, 128, 128], padded by nothing, and flattened to [1152, 128]: entry
  (k, o) with k = (ky*3 + kx)*128 + i is w[o, i, ky, kx]; the change of float format is the identity on extended
  reals. The scale g / sqrt(v + eps) and the shift b - mu * scale are computed entry by entry, padded by nothing and
  viewed as rows [1, 128].
-/
import proofs.«104539_g2000404336194624_pallasbulk_886_2_alg».proof.Proof.Gen.ReferenceIdeal.Frame
import proofs.«104539_g2000404336194624_pallasbulk_886_2_alg».proof.Proof.RefMath
import Idealize.ShloMosaic.Lib.KernelVsHost
import Idealize.ShloMosaic.Lib.Pipeline.Value

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.Tactic Idealize.ShloMosaic.ValueIdx Idealize.SL.Sem

/-- The padding value every pad of the program uses: the integer 0 converted to a float. -/
abbrev zeroPad : FVec Ideal S_ .f32 := sitofp (F := Ideal) .f32 (constantI S_ 32 0#32)

theorem zeroPad_apply (j : S_.Idx) : zeroPad j = 0 := by
  show (((0#32 : BitVec 32).toInt : ℝ) : EReal) = 0
  simp

/-! ## The pure layout facts, over any arrays -/

/-- The batch transposed to channels-last and padded spatially, at (n, y', x', i): the zero-padded image n. -/
theorem padded_batch_apply (X : FVec Ideal S32x128x56x56 .f32) (n : Fin 32) (y' x' : Fin 58) (i : Fin 128) :
    pad S32x58x58x128 ![0, 1, 1, 0] ![0, 1, 1, 0] ![0, 0, 0, 0]
        (transpose S32x56x56x128 [0, 2, 3, 1] X transposes_S32x128x56x56_S32x56x56x128_0_2_3_1)
        zeroPad pads_S32x56x56x128_S32x58x58x128_000_110_110_000 h_S_ (ix4 n y' x' i)
      = padded (img X n) y' x' i := by
  unfold padded
  by_cases h : 1 ≤ y'.val ∧ y'.val ≤ 56 ∧ 1 ≤ x'.val ∧ x'.val ≤ 56
  · rw [dif_pos h]
    refine (pad_apply_of_inside _ _ _ _ zeroPad pads_S32x56x56x128_S32x58x58x128_000_110_110_000 h_S_ (ix4 n y' x' i)
      (ix4 n (⟨y'.val - 1, by omega⟩ : Fin 56) (⟨x'.val - 1, by omega⟩ : Fin 56) i) (fun a => ?_)).trans ?_
    · match a with
      | ⟨0, _⟩ => show n.val = 0 + n.val * (0 + 1); omega
      | ⟨1, _⟩ => show y'.val = 1 + (y'.val - 1) * (0 + 1); omega
      | ⟨2, _⟩ => show x'.val = 1 + (x'.val - 1) * (0 + 1); omega
      | ⟨3, _⟩ => show i.val = 0 + i.val * (0 + 1); omega
    · exact transpose_apply [0, 2, 3, 1] X transposes_S32x128x56x56_S32x56x56x128_0_2_3_1 _
        (ix4 n i (⟨y'.val - 1, by omega⟩ : Fin 56) (⟨x'.val - 1, by omega⟩ : Fin 56))
        (fun b => by match b with | ⟨0, _⟩ => rfl | ⟨1, _⟩ => rfl | ⟨2, _⟩ => rfl | ⟨3, _⟩ => rfl)
  · rw [dif_neg h]
    have hy : ¬ (1 ≤ y'.val ∧ y'.val ≤ 56) ∨ ¬ (1 ≤ x'.val ∧ x'.val ≤ 56) := by
      by_cases hyy : 1 ≤ y'.val ∧ y'.val ≤ 56
      · exact Or.inr (fun hxx => h ⟨hyy.1, hyy.2, hxx.1, hxx.2⟩)
      · exact Or.inl hyy
    rcases hy with hy | hx
    · refine (pad_apply_of_not_inside _ _ _ _ zeroPad pads_S32x56x56x128_S32x58x58x128_000_110_110_000 h_S_ (ix4 n y' x' i)
        (1 : Fin 4) ?_).trans (zeroPad_apply _)
      show ¬ (1 ≤ y'.val ∧ (y'.val - 1) % (0 + 1) = 0 ∧ (y'.val - 1) / (0 + 1) < 56)
      omega
    · refine (pad_apply_of_not_inside _ _ _ _ zeroPad pads_S32x56x56x128_S32x58x58x128_000_110_110_000 h_S_ (ix4 n y' x' i)
        (2 : Fin 4) ?_).trans (zeroPad_apply _)
      show ¬ (1 ≤ x'.val ∧ (x'.val - 1) % (0 + 1) = 0 ∧ (x'.val - 1) / (0 + 1) < 56)
      omega

/-- A weight array transposed to taps-first, padded by nothing, flattened to [1152, 128], at (k, o): w[o, i, ky, kx]
    with k = (ky*3 + kx)*128 + i. -/
theorem weight_matrix_apply (W : FVec Ideal S128x128x3x3 .f32) (k : Fin 1152) (o : Fin 128) :
    (truncf .bf16 (shapeCast S1152x128 (pad S3x3x128x128 ![0, 0, 0, 0] ![0, 0, 0, 0] ![0, 0, 0, 0] (transpose S3x3x128x128 [2, 3, 1, 0] W transposes_S128x128x3x3_S3x3x128x128_2_3_1_0) zeroPad pads_S3x3x128x128_S3x3x128x128_000_000_000_000 h_S_) shapeCasts_S3x3x128x128_S1152x128) bitsLt_bf16_f32 : FVec Ideal S1152x128 .bf16) (ix2 k o)
      = wt W o (chan k) (tapY k) (tapX k) := by
  rw [truncf_apply]
  refine (shapeCast_apply _ shapeCasts_S3x3x128x128_S1152x128 (ix2 k o) (ix4 (tapY k) (tapX k) (chan k) o) ?_).trans ?_
  · rw [Shape.rowMajor_val_four, Shape.rowMajor_val_two]
    show ((k.val / 128 / 3 * 3 + k.val / 128 % 3) * 128 + k.val % 128) * 128 + o.val = k.val * 128 + o.val
    omega
  · refine (pad_apply_of_inside _ _ _ _ zeroPad pads_S3x3x128x128_S3x3x128x128_000_000_000_000 h_S_ _
      (ix4 (tapY k) (tapX k) (chan k) o) (fun a => ?_)).trans ?_
    · match a with
      | ⟨0, _⟩ => show (tapY k).val = 0 + (tapY k).val * (0 + 1); omega
      | ⟨1, _⟩ => show (tapX k).val = 0 + (tapX k).val * (0 + 1); omega
      | ⟨2, _⟩ => show (chan k).val = 0 + (chan k).val * (0 + 1); omega
      | ⟨3, _⟩ => show o.val = 0 + o.val * (0 + 1); omega
    · exact transpose_apply [2, 3, 1, 0] W transposes_S128x128x3x3_S3x3x128x128_2_3_1_0 _
        (ix4 o (chan k) (tapY k) (tapX k))
        (fun b => by match b with | ⟨0, _⟩ => rfl | ⟨1, _⟩ => rfl | ⟨2, _⟩ => rfl | ⟨3, _⟩ => rfl)

/-- A per-channel vector padded by nothing and viewed as a row [1, 128], at (0, o): the vector's entry o. -/
theorem row_apply (v : FVec Ideal S128 .f32) (o : Fin 128) :
    (shapeCast S1x128 (pad S128 ![0] ![0] ![0] v zeroPad pads_S128_S128_000 h_S_) shapeCasts_S128_S1x128 : FVec Ideal S1x128 .f32) (ix2 (0 : Fin 1) o) = v (ix1 o) := by
  refine (shapeCast_apply _ shapeCasts_S128_S1x128 _ (ix1 o) ?_).trans ?_
  · rw [Shape.rowMajor_val_one, Shape.rowMajor_val_two]
    show o.val = 0 * 128 + o.val
    omega
  · exact pad_apply_of_inside _ _ _ _ zeroPad pads_S128_S128_000 h_S_ _ (ix1 o)
      (fun a => by match a with | ⟨0, _⟩ => show o.val = 0 + o.val * (0 + 1); omega)

/-- The folded scale computed entry by entry: g / sqrt(v + eps). -/
theorem scale_vector_apply (g v : FVec Ideal S128 .f32) (o : Fin 128) :
    Host.divf (F := Ideal) g (Host.sqrt (F := Ideal) (addf v (broadcastInDim S128 ![] bcast_S_S128 (constant (F := Ideal) S_ .f32 0x3727C5AC#32)))) (ix1 o)
      = scale (vec g) (vec v) o := by
  have hb : broadcastInDim S128 ![] bcast_S_S128 (constant (F := Ideal) S_ .f32 0x3727C5AC#32) (ix1 o) = eps :=
    (broadcastInDim_apply ![] bcast_S_S128 _ (ix1 o) ix0 (fun a => a.elim0)).trans rfl
  show Ideal.div (g (ix1 o)) (Ideal.sqrt (v (ix1 o) + broadcastInDim S128 ![] bcast_S_S128 (constant (F := Ideal) S_ .f32 0x3727C5AC#32) (ix1 o))) = _
  rw [hb]
  rfl

/-! ## The call's input arrays -/

variable (m : (ℓ : Loc nD τ sig) → Buf (Elt Ideal) ℓ) (c : Dev nD)

/-- Window 0's array: the zero-padded channels-last batch. -/
theorem xp_apply (n : Fin 32) (y' x' : Fin 58) (i : Fin 128) :
    (V (F := Ideal) m c main_v1 : S32x58x58x128.Idx → EReal) (ix4 n y' x' i) = padded (img (m ((c : Thread nD τ).loc main_arg0)) n) y' x' i := by
  have e : (V (F := Ideal) m c main_v1 : S32x58x58x128.Idx → EReal)
      = pad S32x58x58x128 ![0, 1, 1, 0] ![0, 1, 1, 0] ![0, 0, 0, 0]
          (transpose S32x56x56x128 [0, 2, 3, 1] (m ((c : Thread nD τ).loc main_arg0)) transposes_S32x128x56x56_S32x56x56x128_0_2_3_1)
          zeroPad pads_S32x56x56x128_S32x58x58x128_000_110_110_000 h_S_ := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact padded_batch_apply _ n y' x' i

/-- Window 1's array: the first weight matrix. -/
theorem w1m_apply (k : Fin 1152) (o : Fin 128) :
    (V (F := Ideal) m c main_v5 : S1152x128.Idx → EReal) (ix2 k o) = wt (m ((c : Thread nD τ).loc main_arg1)) o (chan k) (tapY k) (tapX k) := by
  have e : (V (F := Ideal) m c main_v5 : S1152x128.Idx → EReal) = truncf .bf16 (shapeCast S1152x128 (pad S3x3x128x128 ![0, 0, 0, 0] ![0, 0, 0, 0] ![0, 0, 0, 0] (transpose S3x3x128x128 [2, 3, 1, 0] (m ((c : Thread nD τ).loc main_arg1)) transposes_S128x128x3x3_S3x3x128x128_2_3_1_0) zeroPad pads_S3x3x128x128_S3x3x128x128_000_000_000_000 h_S_) shapeCasts_S3x3x128x128_S1152x128) bitsLt_bf16_f32 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact weight_matrix_apply _ k o

/-- Window 4's array: the second weight matrix. -/
theorem w2m_apply (k : Fin 1152) (o : Fin 128) :
    (V (F := Ideal) m c main_v9 : S1152x128.Idx → EReal) (ix2 k o) = wt (m ((c : Thread nD τ).loc main_arg6)) o (chan k) (tapY k) (tapX k) := by
  have e : (V (F := Ideal) m c main_v9 : S1152x128.Idx → EReal) = truncf .bf16 (shapeCast S1152x128 (pad S3x3x128x128 ![0, 0, 0, 0] ![0, 0, 0, 0] ![0, 0, 0, 0] (transpose S3x3x128x128 [2, 3, 1, 0] (m ((c : Thread nD τ).loc main_arg6)) transposes_S128x128x3x3_S3x3x128x128_2_3_1_0) zeroPad pads_S3x3x128x128_S3x3x128x128_000_000_000_000 h_S_) shapeCasts_S3x3x128x128_S1152x128) bitsLt_bf16_f32 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e]
  exact weight_matrix_apply _ k o

end Cert.ReferenceIdeal.RefValue

end
-- ==== Proof.RefHostRows1.lean ====
/-
  The first batch normalisation's scale and shift rows, as the call finds them: g1 / sqrt(v1 + eps) and b1 - mu1 * scale1, entry by entry.
-/
import proofs.«104539_g2000404336194624_pallasbulk_886_2_alg».proof.Proof.RefHost

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.Tactic Idealize.ShloMosaic.ValueIdx Idealize.SL.Sem

variable (m : (ℓ : Loc nD τ sig) → Buf (Elt Ideal) ℓ) (c : Dev nD)

set_option maxHeartbeats 4000000 in
/-- Window 2's array: the first scale row. -/
theorem s1_apply (o : Fin 128) :
    (V (F := Ideal) m c main_v15 : S1x128.Idx → EReal) (ix2 (0 : Fin 1) o) = scale (vec (m ((c : Thread nD τ).loc main_arg2))) (vec (m ((c : Thread nD τ).loc main_arg5))) o := by
  have e : (V (F := Ideal) m c main_v15 : S1x128.Idx → EReal) = shapeCast S1x128 (pad S128 ![0] ![0] ![0] (Host.divf (F := Ideal) (m ((c : Thread nD τ).loc main_arg2)) (Host.sqrt (F := Ideal) (addf (m ((c : Thread nD τ).loc main_arg5)) (broadcastInDim S128 ![] bcast_S_S128 (constant (F := Ideal) S_ .f32 0x3727C5AC#32))))) zeroPad pads_S128_S128_000 h_S_) shapeCasts_S128_S1x128 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e, row_apply]
  exact scale_vector_apply _ _ o

set_option maxHeartbeats 4000000 in
/-- Window 3's array: the first shift row. -/
theorem b1_apply (o : Fin 128) :
    (V (F := Ideal) m c main_v19 : S1x128.Idx → EReal) (ix2 (0 : Fin 1) o)
      = shift (vec (m ((c : Thread nD τ).loc main_arg3))) (vec (m ((c : Thread nD τ).loc main_arg4))) (vec (m ((c : Thread nD τ).loc main_arg2))) (vec (m ((c : Thread nD τ).loc main_arg5))) o := by
  have e : (V (F := Ideal) m c main_v19 : S1x128.Idx → EReal) = shapeCast S1x128 (pad S128 ![0] ![0] ![0] (subf (m ((c : Thread nD τ).loc main_arg3)) (mulf (m ((c : Thread nD τ).loc main_arg4)) (Host.divf (F := Ideal) (m ((c : Thread nD τ).loc main_arg2)) (Host.sqrt (F := Ideal) (addf (m ((c : Thread nD τ).loc main_arg5)) (broadcastInDim S128 ![] bcast_S_S128 (constant (F := Ideal) S_ .f32 0x3727C5AC#32))))))) zeroPad pads_S128_S128_000 h_S_) shapeCasts_S128_S1x128 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e, row_apply, subf_apply, mulf_apply, scale_vector_apply]
  rfl

end Cert.ReferenceIdeal.RefValue

end
-- ==== Proof.RefHostRows2.lean ====
/-
  The second batch normalisation's scale and shift rows, as the call finds them: g2 / sqrt(v2 + eps) and b2 - mu2 * scale2, entry by entry.
-/
import proofs.«104539_g2000404336194624_pallasbulk_886_2_alg».proof.Proof.RefHost

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.Tactic Idealize.ShloMosaic.ValueIdx Idealize.SL.Sem

variable (m : (ℓ : Loc nD τ sig) → Buf (Elt Ideal) ℓ) (c : Dev nD)

set_option maxHeartbeats 4000000 in
/-- Window 5's array: the second scale row. -/
theorem s2_apply (o : Fin 128) :
    (V (F := Ideal) m c main_v25 : S1x128.Idx → EReal) (ix2 (0 : Fin 1) o) = scale (vec (m ((c : Thread nD τ).loc main_arg7))) (vec (m ((c : Thread nD τ).loc main_arg10))) o := by
  have e : (V (F := Ideal) m c main_v25 : S1x128.Idx → EReal) = shapeCast S1x128 (pad S128 ![0] ![0] ![0] (Host.divf (F := Ideal) (m ((c : Thread nD τ).loc main_arg7)) (Host.sqrt (F := Ideal) (addf (m ((c : Thread nD τ).loc main_arg10)) (broadcastInDim S128 ![] bcast_S_S128 (constant (F := Ideal) S_ .f32 0x3727C5AC#32))))) zeroPad pads_S128_S128_000 h_S_) shapeCasts_S128_S1x128 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e, row_apply]
  exact scale_vector_apply _ _ o

set_option maxHeartbeats 4000000 in
/-- Window 6's array: the second shift row. -/
theorem b2_apply (o : Fin 128) :
    (V (F := Ideal) m c main_v29 : S1x128.Idx → EReal) (ix2 (0 : Fin 1) o)
      = shift (vec (m ((c : Thread nD τ).loc main_arg8))) (vec (m ((c : Thread nD τ).loc main_arg9))) (vec (m ((c : Thread nD τ).loc main_arg7))) (vec (m ((c : Thread nD τ).loc main_arg10))) o := by
  have e : (V (F := Ideal) m c main_v29 : S1x128.Idx → EReal) = shapeCast S1x128 (pad S128 ![0] ![0] ![0] (subf (m ((c : Thread nD τ).loc main_arg8)) (mulf (m ((c : Thread nD τ).loc main_arg9)) (Host.divf (F := Ideal) (m ((c : Thread nD τ).loc main_arg7)) (Host.sqrt (F := Ideal) (addf (m ((c : Thread nD τ).loc main_arg10)) (broadcastInDim S128 ![] bcast_S_S128 (constant (F := Ideal) S_ .f32 0x3727C5AC#32))))))) zeroPad pads_S128_S128_000 h_S_) shapeCasts_S128_S1x128 := by
    dsimp only [Gen.V, Gen.V0]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append]
    after_results
    rfl
  rw [e, row_apply, subf_apply, mulf_apply, scale_vector_apply]
  rfl

end Cert.ReferenceIdeal.RefValue

end
-- ==== Proof.RefBlocks.lean ====
/-
  From the call's blocks to its result array.

  The call runs over 32 points, one image each. At point t the first window's block is image t of the zero-padded
  batch, the other six windows' blocks are their whole arrays, and the output window's block is image t of the result.
  So what point t writes back is block t of ONE array — the residual block of every image, channels last — and the 32
  blocks tile that array.
-/
import proofs.«104539_g2000404336194624_pallasbulk_886_2_alg».proof.Proof.RefBody
import proofs.«104539_g2000404336194624_pallasbulk_886_2_alg».proof.Proof.RefHostRows1
import proofs.«104539_g2000404336194624_pallasbulk_886_2_alg».proof.Proof.RefHostRows2

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.ValueIdx Idealize.SL.Sem

variable (m : (ℓ : Loc nD τ sig) → Buf (Elt Ideal) ℓ) (c : Dev nD)

/-- The program's result [32, 128, 56, 56] as the specification states it. -/
abbrev resultOf : S32x128x56x56.Idx → EReal := Cert.ResBlock.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The call's result array [32, 56, 56, 128]: the same, channels last. -/
def callResult : S32x56x56x128.Idx → EReal :=
  fun j => resultOf m c (ix4 (⟨(j 0).val, (j 0).isLt⟩ : Fin 32) (⟨(j 3).val, (j 3).isLt⟩ : Fin 128)
    (⟨(j 1).val, (j 1).isLt⟩ : Fin 56) (⟨(j 2).val, (j 2).isLt⟩ : Fin 56))

theorem callResult_apply (n : Fin 32) (y x : Fin 56) (o : Fin 128) :
    callResult m c (ix4 n y x o) = resultOf m c (ix4 n o y x) := rfl

/-- The printed index maps over the grid: the image windows move with the point, the others stay at block 0. -/
theorem idx_facts : ∀ t : Fin cfg0.N, win0_0.index t (0 : Fin 4) = t.val
    ∧ win0_0.index t (1 : Fin 4) = 0
    ∧ win0_0.index t (2 : Fin 4) = 0
    ∧ win0_0.index t (3 : Fin 4) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 4) = t.val
    ∧ win0_7.index t (1 : Fin 4) = 0
    ∧ win0_7.index t (2 : Fin 4) = 0
    ∧ win0_7.index t (3 : Fin 4) = 0 :=
  (by decide +kernel : ∀ t : Fin grid0.N, _)

theorem point_lt (t : Fin cfg0.N) : t.val < 32 := by
  have h := t.isLt
  have hN : cfg0.N = 32 := N_0
  omega

/-- Window 0's block at point t is image t of the zero-padded batch. -/
theorem blk0_apply (t : Fin cfg0.N) (y' x' : Fin 58) (i : Fin 128) :
    iblk (F := Ideal) m c 0 t (ix4 (0 : Fin 1) y' x' i) = padded (img (m ((c : Thread nD τ).loc main_arg0)) ⟨t.val, point_lt t⟩) y' x' i := by
  show V m c main_v1 (((cfg0.win 0).blk t).view.emb (ix4 (0 : Fin 1) y' x' i)) = _
  obtain ⟨f0, f1, f2, f3, f4, f5, f6, f7, f8, f9, f10, f11, f12, f13, f14, f15, f16, f17, f18, f19⟩ := idx_facts t
  refine (congrArg (V (F := Ideal) m c main_v1) (funext fun a => Fin.ext ?_)).trans (xp_apply m c ⟨t.val, point_lt t⟩ y' x' i)
  match a with
  | ⟨0, _⟩ => show win0_0.index t (0 : Fin 4) * 1 + 1 * 0 = t.val; rw [f0]; omega
  | ⟨1, _⟩ => show win0_0.index t (1 : Fin 4) * 58 + 1 * y'.val = y'.val; rw [f1]; omega
  | ⟨2, _⟩ => show win0_0.index t (2 : Fin 4) * 58 + 1 * x'.val = x'.val; rw [f2]; omega
  | ⟨3, _⟩ => show win0_0.index t (3 : Fin 4) * 128 + 1 * i.val = i.val; rw [f3]; omega

/-- Window 1's block at any point is its whole array. -/
theorem blk1_apply (t : Fin cfg0.N) (k : Fin 1152) (o : Fin 128) :
    iblk (F := Ideal) m c 1 t (ix2 k o) = (V (F := Ideal) m c main_v5 : S1152x128.Idx → EReal) (ix2 k o) := by
  show V m c main_v5 (((cfg0.win 1).blk t).view.emb (ix2 k o)) = _
  obtain ⟨f0, f1, f2, f3, f4, f5, f6, f7, f8, f9, f10, f11, f12, f13, f14, f15, f16, f17, f18, f19⟩ := idx_facts t
  refine congrArg (V (F := Ideal) m c main_v5) (funext fun a => Fin.ext ?_)
  match a with
  | ⟨0, _⟩ => show win0_1.index t (0 : Fin 2) * 1152 + 1 * k.val = k.val; rw [f4]; omega
  | ⟨1, _⟩ => show win0_1.index t (1 : Fin 2) * 128 + 1 * o.val = o.val; rw [f5]; omega

/-- Window 2's block at any point is its whole array. -/
theorem blk2_apply (t : Fin cfg0.N) (k : Fin 1) (o : Fin 128) :
    iblk (F := Ideal) m c 2 t (ix2 k o) = (V (F := Ideal) m c main_v15 : S1x128.Idx → EReal) (ix2 k o) := by
  show V m c main_v15 (((cfg0.win 2).blk t).view.emb (ix2 k o)) = _
  obtain ⟨f0, f1, f2, f3, f4, f5, f6, f7, f8, f9, f10, f11, f12, f13, f14, f15, f16, f17, f18, f19⟩ := idx_facts t
  refine congrArg (V (F := Ideal) m c main_v15) (funext fun a => Fin.ext ?_)
  match a with
  | ⟨0, _⟩ => show win0_2.index t (0 : Fin 2) * 1 + 1 * k.val = k.val; rw [f6]; omega
  | ⟨1, _⟩ => show win0_2.index t (1 : Fin 2) * 128 + 1 * o.val = o.val; rw [f7]; omega

/-- Window 3's block at any point is its whole array. -/
theorem blk3_apply (t : Fin cfg0.N) (k : Fin 1) (o : Fin 128) :
    iblk (F := Ideal) m c 3 t (ix2 k o) = (V (F := Ideal) m c main_v19 : S1x128.Idx → EReal) (ix2 k o) := by
  show V m c main_v19 (((cfg0.win 3).blk t).view.emb (ix2 k o)) = _
  obtain ⟨f0, f1, f2, f3, f4, f5, f6, f7, f8, f9, f10, f11, f12, f13, f14, f15, f16, f17, f18, f19⟩ := idx_facts t
  refine congrArg (V (F := Ideal) m c main_v19) (funext fun a => Fin.ext ?_)
  match a with
  | ⟨0, _⟩ => show win0_3.index t (0 : Fin 2) * 1 + 1 * k.val = k.val; rw [f8]; omega
  | ⟨1, _⟩ => show win0_3.index t (1 : Fin 2) * 128 + 1 * o.val = o.val; rw [f9]; omega

/-- Window 4's block at any point is its whole array. -/
theorem blk4_apply (t : Fin cfg0.N) (k : Fin 1152) (o : Fin 128) :
    iblk (F := Ideal) m c 4 t (ix2 k o) = (V (F := Ideal) m c main_v9 : S1152x128.Idx → EReal) (ix2 k o) := by
  show V m c main_v9 (((cfg0.win 4).blk t).view.emb (ix2 k o)) = _
  obtain ⟨f0, f1, f2, f3, f4, f5, f6, f7, f8, f9, f10, f11, f12, f13, f14, f15, f16, f17, f18, f19⟩ := idx_facts t
  refine congrArg (V (F := Ideal) m c main_v9) (funext fun a => Fin.ext ?_)
  match a with
  | ⟨0, _⟩ => show win0_4.index t (0 : Fin 2) * 1152 + 1 * k.val = k.val; rw [f10]; omega
  | ⟨1, _⟩ => show win0_4.index t (1 : Fin 2) * 128 + 1 * o.val = o.val; rw [f11]; omega

/-- Window 5's block at any point is its whole array. -/
theorem blk5_apply (t : Fin cfg0.N) (k : Fin 1) (o : Fin 128) :
    iblk (F := Ideal) m c 5 t (ix2 k o) = (V (F := Ideal) m c main_v25 : S1x128.Idx → EReal) (ix2 k o) := by
  show V m c main_v25 (((cfg0.win 5).blk t).view.emb (ix2 k o)) = _
  obtain ⟨f0, f1, f2, f3, f4, f5, f6, f7, f8, f9, f10, f11, f12, f13, f14, f15, f16, f17, f18, f19⟩ := idx_facts t
  refine congrArg (V (F := Ideal) m c main_v25) (funext fun a => Fin.ext ?_)
  match a with
  | ⟨0, _⟩ => show win0_5.index t (0 : Fin 2) * 1 + 1 * k.val = k.val; rw [f12]; omega
  | ⟨1, _⟩ => show win0_5.index t (1 : Fin 2) * 128 + 1 * o.val = o.val; rw [f13]; omega

/-- Window 6's block at any point is its whole array. -/
theorem blk6_apply (t : Fin cfg0.N) (k : Fin 1) (o : Fin 128) :
    iblk (F := Ideal) m c 6 t (ix2 k o) = (V (F := Ideal) m c main_v29 : S1x128.Idx → EReal) (ix2 k o) := by
  show V m c main_v29 (((cfg0.win 6).blk t).view.emb (ix2 k o)) = _
  obtain ⟨f0, f1, f2, f3, f4, f5, f6, f7, f8, f9, f10, f11, f12, f13, f14, f15, f16, f17, f18, f19⟩ := idx_facts t
  refine congrArg (V (F := Ideal) m c main_v29) (funext fun a => Fin.ext ?_)
  match a with
  | ⟨0, _⟩ => show win0_6.index t (0 : Fin 2) * 1 + 1 * k.val = k.val; rw [f14]; omega
  | ⟨1, _⟩ => show win0_6.index t (1 : Fin 2) * 128 + 1 * o.val = o.val; rw [f15]; omega

/-- WHAT POINT t WRITES BACK is block t of the call's result array. -/
theorem flushed_eq (t : Fin cfg0.N) :
    (dats (F := Ideal) m 0 c).flushed 7 t = ((cfg0.win 7).blk t).view.read (Elt Ideal) (callResult m c) := by
  show (cfg0.win 7).cut (grid0.coords t) ((dats m 0 c).after 7 t) = _
  rw [after0_7]
  funext j
  obtain ⟨z, y, x, o, rfl⟩ : ∃ (z : Fin 1) (y x : Fin 56) (o : Fin 128), j = ix4 z y x o := ⟨j 0, j 1, j 2, j 3, eq_ix4 j⟩
  obtain rfl : z = 0 := Subsingleton.elim _ _
  show outsAt0 m c t (ix4 (0 : Fin 1) y x o) = callResult m c (((cfg0.win 7).blk t).view.emb (ix4 (0 : Fin 1) y x o))
  obtain ⟨f0, f1, f2, f3, f4, f5, f6, f7, f8, f9, f10, f11, f12, f13, f14, f15, f16, f17, f18, f19⟩ := idx_facts t
  have e : ((cfg0.win 7).blk t).view.emb (ix4 (0 : Fin 1) y x o) = ix4 (⟨t.val, point_lt t⟩ : Fin 32) y x o := by
    funext a
    apply Fin.ext
    match a with
    | ⟨0, _⟩ => show win0_7.index t (0 : Fin 4) * 1 + 1 * 0 = t.val; rw [f16]; omega
    | ⟨1, _⟩ => show win0_7.index t (1 : Fin 4) * 56 + 1 * y.val = y.val; rw [f17]; omega
    | ⟨2, _⟩ => show win0_7.index t (2 : Fin 4) * 56 + 1 * x.val = x.val; rw [f18]; omega
    | ⟨3, _⟩ => show win0_7.index t (3 : Fin 4) * 128 + 1 * o.val = o.val; rw [f19]; omega
  rw [e, callResult_apply]
  unfold outsAt0
  refine (body_block c (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (grid0.coords t) (iblk m c 0 t) (iblk m c 1 t) (iblk m c 2 t) (iblk m c 3 t) (iblk m c 4 t) (iblk m c 5 t) (iblk m c 6 t)
    (img (m ((c : Thread nD τ).loc main_arg0)) ⟨t.val, point_lt t⟩) (wt (m ((c : Thread nD τ).loc main_arg1)))
    (scale (vec (m ((c : Thread nD τ).loc main_arg2))) (vec (m ((c : Thread nD τ).loc main_arg5)))) (shift (vec (m ((c : Thread nD τ).loc main_arg3))) (vec (m ((c : Thread nD τ).loc main_arg4))) (vec (m ((c : Thread nD τ).loc main_arg2))) (vec (m ((c : Thread nD τ).loc main_arg5))))
    (wt (m ((c : Thread nD τ).loc main_arg6)))
    (scale (vec (m ((c : Thread nD τ).loc main_arg7))) (vec (m ((c : Thread nD τ).loc main_arg10)))) (shift (vec (m ((c : Thread nD τ).loc main_arg8))) (vec (m ((c : Thread nD τ).loc main_arg9))) (vec (m ((c : Thread nD τ).loc main_arg7))) (vec (m ((c : Thread nD τ).loc main_arg10))))
    (fun y' x' i => blk0_apply m c t y' x' i)
    (fun k o => (blk1_apply m c t k o).trans (w1m_apply m c k o))
    (fun o => (blk2_apply m c t 0 o).trans (s1_apply m c o))
    (fun o => (blk3_apply m c t 0 o).trans (b1_apply m c o))
    (fun k o => (blk4_apply m c t k o).trans (w2m_apply m c k o))
    (fun o => (blk5_apply m c t 0 o).trans (s2_apply m c o))
    (fun o => (blk6_apply m c t 0 o).trans (b2_apply m c o))
    y x o).trans ?_
  exact ((Cert.ResBlock.result_apply _ _ _ _ _ _ _ _ _ _ _ _ o y x).trans (congrFun (congrFun (congrFun (block_eq_blockG _ _ _ _ _ _ _ _ _ _ _) o) y) x)).symm

/-- An index of the result array is in point t's block iff its image coordinate is t. -/
theorem mem_blk7 (t : Fin cfg0.N) (i : S32x56x56x128.Idx) :
    i ∈ ((cfg0.win 7).blk t).view.set ↔ ∀ a : Fin 4, win0_7.index t a * S1x56x56x128.size a ≤ (i a).val ∧ (i a).val < win0_7.index t a * S1x56x56x128.size a + S1x56x56x128.size a := by
  show i ∈ ((View.whole main_v30).slice (win0_7.rect t)).set ↔ _
  rw [View.set_slice_whole, Rect.mem_set_unit]
  exact Iff.rfl

/-- The 32 blocks cover the result array. -/
theorem cover7 (i : S32x56x56x128.Idx) : ∃ t : Fin cfg0.N, (cfg0.win 7).flush t = true ∧ i ∈ ((cfg0.win 7).blk t).view.set := by
  obtain ⟨n, y, x, o, rfl⟩ : ∃ (n : Fin 32) (y x : Fin 56) (o : Fin 128), i = ix4 n y x o := ⟨i 0, i 1, i 2, i 3, eq_ix4 i⟩
  have hN : cfg0.N = 32 := N_0
  let t : Fin cfg0.N := ⟨n.val, by rw [hN]; exact n.isLt⟩
  refine ⟨t, flush0_7 t, ?_⟩
  rw [mem_blk7]
  obtain ⟨f0, f1, f2, f3, f4, f5, f6, f7, f8, f9, f10, f11, f12, f13, f14, f15, f16, f17, f18, f19⟩ := idx_facts t
  intro a
  match a with
  | ⟨0, _⟩ => show win0_7.index t (0 : Fin 4) * 1 ≤ n.val ∧ n.val < win0_7.index t (0 : Fin 4) * 1 + 1; rw [f16]; show n.val * 1 ≤ n.val ∧ n.val < n.val * 1 + 1; omega
  | ⟨1, _⟩ => show win0_7.index t (1 : Fin 4) * 56 ≤ y.val ∧ y.val < win0_7.index t (1 : Fin 4) * 56 + 56; rw [f17]; omega
  | ⟨2, _⟩ => show win0_7.index t (2 : Fin 4) * 56 ≤ x.val ∧ x.val < win0_7.index t (2 : Fin 4) * 56 + 56; rw [f18]; omega
  | ⟨3, _⟩ => show win0_7.index t (3 : Fin 4) * 128 ≤ o.val ∧ o.val < win0_7.index t (3 : Fin 4) * 128 + 128; rw [f19]; omega

/-- THE CALL'S RESULT ARRAY after the run. -/
theorem final7 : (dats (F := Ideal) m 0 c).arrAt 7 cfg0.N = callResult m c :=
  (dats m 0 c).arrAt_eq_of_cover 7 (callResult m c) (fun t _ => flushed_eq m c t) (cover7)

end Cert.ReferenceIdeal.RefValue

end
-- ==== Proof.RefValue.lean ====
/-
  The reference program's value: its run ends with the result array at the residual block of the eleven arguments.

  After the call, one host operation transposes the call's result [32, 56, 56, 128] back to channels-first: entry
  (n, o, y, x) of the program's result is entry (n, y, x, o) of the call's, which is the residual block of image n at
  channel o, position (y, x). The arguments are written by no operation and end as launched.
-/
import proofs.«104539_g2000404336194624_pallasbulk_886_2_alg».proof.Proof.RefBlocks

set_option maxRecDepth 16384

noncomputable section

namespace Cert.ReferenceIdeal.RefValue

open Cert.ReferenceIdeal Cert.ReferenceIdeal.Gen Cert.ResBlock
open Idealize.ShloMosaic Idealize.ShloMosaic.TcCoe Idealize.ShloMosaic.Tactic Idealize.ShloMosaic.ValueIdx Idealize.SL.Sem

/-- The result array after the host operation that follows the call: the call's result transposed to channels-first. -/
theorem tail_eq (m : (ℓ : Loc nD τ sig) → Buf (Elt Ideal) ℓ) (c : Dev nD) :
    Pipeline.afterTail₀ cfgs (dats (F := Ideal) m) 0 (V0 m) [hostOps1] c main_v31 = resultOf m c := by
  unfold Pipeline.afterTail₀
  show StableHlo.after hostOps1 _ (Proc.devRef .tc main_v31) = _
  after_results
  rw [(Pipeline.withArrays_arr spec0 launch0.win.arr_inj c _ _ 7).trans (final7 m c)]
  funext j
  obtain ⟨n, o, y, x, rfl⟩ : ∃ (n : Fin 32) (o : Fin 128) (y x : Fin 56), j = ix4 n o y x := ⟨j 0, j 1, j 2, j 3, eq_ix4 j⟩
  exact (transpose_apply [0, 3, 1, 2] (callResult m c) transposes_S32x56x56x128_S32x128x56x56_0_3_1_2 _ (ix4 n y x o)
    (fun b => by match b with | ⟨0, _⟩ => rfl | ⟨1, _⟩ => rfl | ⟨2, _⟩ => rfl | ⟨3, _⟩ => rfl)).trans (callResult_apply m c n y x o)

/-- The reference program's run over the extended reals ends with its result at the residual block of its arguments, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = Cert.ResBlock.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
      (((h c).2 main_v31 (Pipeline.mem_restRefs_of main_v31 (by decide) (by decide))).trans (tail_eq m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.ReferenceIdeal.RefValue

end
-- ==== Proof.IdealHostWritten.lean ====
/-
  The arrays the 447 host operations before the kernel call write, in the order they are written: operation
  number k writes array number k.
-/
import proofs.«104539_g2000404336194624_pallasbulk_886_2_alg».proof.Proof.IdealEntry

noncomputable section

namespace Cert.KernelIdeal.HostVal

open Cert.KernelIdeal Idealize.ShloMosaic

/-- The arrays the line writes, in the order it writes them. -/
def written : List (Ref sig .tc) :=
  [
    main_v0, main_cst, main_v1, main_v2, main_v3, main_v4, main_v5, main_v6, main_v7, main_v8,
    main_v9, main_v10, main_v11, main_v12, main_cst_0, main_v13, main_v14, main_v15, main_cst_1, main_v16,
    main_v17, main_v18, main_v19, main_v20, main_v21, main_v22, main_v23, main_v24, main_v25, main_v26,
    main_v27, main_cst_2, main_v28, main_v29, main_v30, main_v31, main_c, main_call0_v0, main_call0_v1, main_call0_v2,
    main_call0_v3, main_call0_v4, main_call0_v5, main_call0_v6, main_call0_v7, main_call0_v8, main_call0_c, main_call0_v9, main_call0_v10, main_call0_v11,
    main_call0_c_0, main_call0_v12, main_call0_v13, main_v32, main_c_3, main_call1_v0, main_call1_c, main_call1_v1, main_call1_c_0, main_call1_v2,
    main_call1_v3, main_call1_v4, main_call1_c_1, main_call1_v5, main_call1_v6, main_call1_c_2, main_call1_v7, main_call1_v8, main_call1_c_3, main_call1_v9,
    main_call1_v10, main_call1_v11, main_call1_v12, main_call1_v13, main_call1_v14, main_v33, main_c_4, main_v34, main_v35, main_c_5,
    main_v36, main_v37, main_c_6, main_v38, main_v39, main_c_7, main_v40, main_v41, main_c_8, main_v42,
    main_v43, main_c_9, main_v44, main_v45, main_v46, main_c_10, main_v47, main_v48, main_c_11, main_v49,
    main_v50, main_c_12, main_v51, main_v52, main_v53, main_c_13, main_v54, main_v55, main_c_14, main_v56,
    main_v57, main_c_15, main_v58, main_v59, main_v60, main_c_16, main_v61, main_v62, main_c_17, main_v63,
    main_v64, main_c_18, main_v65, main_v66, main_c_19, main_v67, main_v68, main_c_20, main_v69, main_v70,
    main_c_21, main_v71, main_v72, main_v73, main_c_22, main_v74, main_v75, main_c_23, main_v76, main_v77,
    main_c_24, main_v78, main_v79, main_v80, main_c_25, main_v81, main_v82, main_c_26, main_v83, main_v84,
    main_c_27, main_v85, main_v86, main_v87, main_c_28, main_v88, main_v89, main_c_29, main_v90, main_v91,
    main_c_30, main_v92, main_v93, main_c_31, main_v94, main_v95, main_c_32, main_v96, main_v97, main_c_33,
    main_v98, main_v99, main_v100, main_c_34, main_v101, main_v102, main_c_35, main_v103, main_v104, main_c_36,
    main_v105, main_v106, main_v107, main_c_37, main_v108, main_v109, main_c_38, main_v110, main_v111, main_c_39,
    main_v112, main_v113, main_v114, main_c_40, main_v115, main_v116, main_c_41, main_v117, main_v118, main_c_42,
    main_v119, main_v120, main_c_43, main_v121, main_v122, main_c_44, main_v123, main_v124, main_c_45, main_v125,
    main_v126, main_v127, main_c_46, main_v128, main_v129, main_c_47, main_v130, main_v131, main_c_48, main_v132,
    main_v133, main_v134, main_c_49, main_v135, main_v136, main_c_50, main_v137, main_v138, main_c_51, main_v139,
    main_v140, main_v141, main_c_52, main_v142, main_v143, main_c_53, main_v144, main_v145, main_c_54, main_v146,
    main_v147, main_c_55, main_v148, main_v149, main_c_56, main_v150, main_v151, main_c_57, main_v152, main_v153,
    main_v154, main_c_58, main_v155, main_v156, main_c_59, main_v157, main_v158, main_c_60, main_v159, main_v160,
    main_v161, main_c_61, main_v162, main_v163, main_c_62, main_v164, main_v165, main_c_63, main_v166, main_v167,
    main_v168, main_c_64, main_v169, main_v170, main_c_65, main_v171, main_v172, main_c_66, main_v173, main_v174,
    main_c_67, main_v175, main_v176, main_c_68, main_v177, main_v178, main_c_69, main_v179, main_v180, main_v181,
    main_c_70, main_v182, main_v183, main_c_71, main_v184, main_v185, main_c_72, main_v186, main_v187, main_v188,
    main_c_73, main_v189, main_v190, main_c_74, main_v191, main_v192, main_c_75, main_v193, main_v194, main_v195,
    main_c_76, main_v196, main_v197, main_c_77, main_v198, main_v199, main_c_78, main_v200, main_v201, main_c_79,
    main_v202, main_v203, main_c_80, main_v204, main_v205, main_c_81, main_v206, main_v207, main_v208, main_c_82,
    main_v209, main_v210, main_c_83, main_v211, main_v212, main_c_84, main_v213, main_v214, main_v215, main_c_85,
    main_v216, main_v217, main_c_86, main_v218, main_v219, main_c_87, main_v220, main_v221, main_v222, main_c_88,
    main_v223, main_v224, main_c_89, main_v225, main_v226, main_c_90, main_v227, main_v228, main_c_91, main_v229,
    main_v230, main_c_92, main_v231, main_v232, main_c_93, main_v233, main_v234, main_v235, main_c_94, main_v236,
    main_v237, main_c_95, main_v238, main_v239, main_c_96, main_v240, main_v241, main_v242, main_c_97, main_v243,
    main_v244, main_c_98, main_v245, main_v246, main_c_99, main_v247, main_v248, main_v249, main_c_100, main_v250,
    main_v251, main_c_101, main_v252, main_v253, main_c_102, main_v254, main_v255, main_c_103, main_v256, main_v257,
    main_c_104, main_v258, main_v259, main_c_105, main_v260, main_v261, main_v262, main_c_106, main_v263, main_v264,
    main_c_107, main_v265, main_v266, main_c_108, main_v267, main_v268, main_v269, main_c_109, main_v270, main_v271,
    main_c_110, main_v272, main_v273, main_c_111, main_v274, main_v275, main_v276, main_v277, main_v278, main_v279,
    main_v280, main_v281, main_v282, main_v283, main_v284, main_v285, main_v286, main_v287, main_v288, main_v289,
    main_cst_112, main_v290, main_c_113, main_v291, main_cst_114, main_v292, main_v293 ]

end Cert.KernelIdeal.HostVal

end
-- ==== Proof.LibHostSSA.lean ====
/-
  Reading a straight line of host operations one operation at a time.

  In a line where every array is written by at most one operation, and an operation reads only arrays written before it
  (or never written by the line), what an array holds AFTER THE WHOLE LINE obeys the operation that writes it: the
  result array holds the operation's function of its operand arrays, all read after the whole line. The reason: cut the
  line at the operation; the part after it writes neither the result nor the operands, so reading them after the whole
  line is reading them right after (for the result) or right before (for the operands) the operation. The lemmas take
  the line, the list of arrays it writes in order, the position of the operation, and three list non-memberships that a
  literal line decides. Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- The line `L` writes exactly the arrays `W`, in order: each operation its one result array. -/
def WritesAre : List (HloOp τ sig Val) → List (Ref sig .tc) → Prop
  | [], [] => True
  | op :: L, r :: W => op.writes = {Proc.devRef .tc r} ∧ WritesAre L W
  | [], _ :: _ => False
  | _ :: _, [] => False

/-- A line leaves alone every array it does not write. -/
theorem WritesAre.keeps : ∀ {L : List (HloOp τ sig Val)} {W : List (Ref sig .tc)}, WritesAre L W →
    ∀ (V : Valuation τ sig Val) (r : Ref sig .tc), r ∉ W → StableHlo.after L V (Proc.devRef .tc r) = V (Proc.devRef .tc r)
  | [], [], _, _, _, _ => rfl
  | op :: L, w :: W, h, V, r, hr => by
      rw [StableHlo.after_cons, WritesAre.keeps h.2 _ r (fun hm => hr (List.mem_cons_of_mem _ hm)),
        op.result_of_not_mem V (by
          rw [h.1, Finset.mem_singleton]
          exact StableHlo.devRef_ne_of_ne (fun e => hr (e ▸ List.mem_cons_self)))]
  | [], _ :: _, h, _, _, _ => h.elim
  | _ :: _, [], h, _, _, _ => h.elim

/-- The tail of a line writes the tail of the list. -/
theorem WritesAre.drop : ∀ (k : ℕ) {L : List (HloOp τ sig Val)} {W : List (Ref sig .tc)}, WritesAre L W →
    WritesAre (L.drop k) (W.drop k)
  | 0, _, _, h => h
  | _ + 1, [], [], _ => trivial
  | k + 1, _ :: _, _ :: _, h => WritesAre.drop k h.2
  | _ + 1, [], _ :: _, h => h.elim
  | _ + 1, _ :: _, [], h => h.elim

variable {L : List (HloOp τ sig Val)} {W : List (Ref sig .tc)}

/-- An array no operation from position `k` on writes holds after the line what it held before position `k`. -/
theorem after_eq_take (h : WritesAre L W) (k : ℕ) (V : Valuation τ sig Val) (r : Ref sig .tc) (hr : r ∉ W.drop k) :
    StableHlo.after L V (Proc.devRef .tc r) = StableHlo.after (L.take k) V (Proc.devRef .tc r) := by
  conv_lhs => rw [← List.take_append_drop k L]
  rw [after_append]
  exact (h.drop k).keeps _ r hr

/-- An array no operation after position `k` writes holds after the line what operation `k` leaves in it. -/
theorem after_at (h : WritesAre L W) (k : ℕ) (V : Valuation τ sig Val) (op : HloOp τ sig Val)
    (hk : L.drop k = op :: L.drop (k + 1)) (r : Ref sig .tc) (hr : r ∉ W.drop (k + 1)) :
    StableHlo.after L V (Proc.devRef .tc r) = op.result (StableHlo.after (L.take k) V) (Proc.devRef .tc r) := by
  conv_lhs => rw [← List.take_append_drop k L, hk]
  rw [after_append, StableHlo.after_cons]
  exact (h.drop (k + 1)).keeps _ r hr

variable {x a b c y : Ref sig .tc}

theorem ssa_nullary (h : WritesAre L W) (k : ℕ) (V : Valuation τ sig Val) (v : y.ty.Contents Val) (hy)
    (hk : L.drop k = nullary (τ := τ) y v hy :: L.drop (k + 1)) (hy' : y ∉ W.drop (k + 1)) :
    StableHlo.after L V (Proc.devRef .tc y) = v := by
  rw [after_at h k V _ hk y hy', nullary_result]

theorem ssa_unary (h : WritesAre L W) (k : ℕ) (V : Valuation τ sig Val) (f : x.ty.Contents Val → y.ty.Contents Val) (hx hy)
    (hk : L.drop k = unary (τ := τ) x y f hx hy :: L.drop (k + 1)) (hy' : y ∉ W.drop (k + 1)) (hx' : x ∉ W.drop k) :
    StableHlo.after L V (Proc.devRef .tc y) = f (StableHlo.after L V (Proc.devRef .tc x)) := by
  rw [after_at h k V _ hk y hy', unary_result, after_eq_take h k V x hx']

theorem ssa_binary (h : WritesAre L W) (k : ℕ) (V : Valuation τ sig Val)
    (f : a.ty.Contents Val → b.ty.Contents Val → y.ty.Contents Val) (ha hb hy)
    (hk : L.drop k = binary (τ := τ) a b y f ha hb hy :: L.drop (k + 1)) (hy' : y ∉ W.drop (k + 1))
    (ha' : a ∉ W.drop k) (hb' : b ∉ W.drop k) :
    StableHlo.after L V (Proc.devRef .tc y) = f (StableHlo.after L V (Proc.devRef .tc a)) (StableHlo.after L V (Proc.devRef .tc b)) := by
  rw [after_at h k V _ hk y hy', binary_result, after_eq_take h k V a ha', after_eq_take h k V b hb']

theorem ssa_ternary (h : WritesAre L W) (k : ℕ) (V : Valuation τ sig Val)
    (f : c.ty.Contents Val → a.ty.Contents Val → b.ty.Contents Val → y.ty.Contents Val) (hc ha hb hy)
    (hk : L.drop k = ternary (τ := τ) c a b y f hc ha hb hy :: L.drop (k + 1)) (hy' : y ∉ W.drop (k + 1))
    (hc' : c ∉ W.drop k) (ha' : a ∉ W.drop k) (hb' : b ∉ W.drop k) :
    StableHlo.after L V (Proc.devRef .tc y)
      = f (StableHlo.after L V (Proc.devRef .tc c)) (StableHlo.after L V (Proc.devRef .tc a)) (StableHlo.after L V (Proc.devRef .tc b)) := by
  rw [after_at h k V _ hk y hy', ternary_result, after_eq_take h k V c hc', after_eq_take h k V a ha', after_eq_take h k V b hb']

theorem ssa_reshape (h : WritesAre L W) (k : ℕ) (V : Valuation τ sig Val) (he hn hx hy)
    (hk : L.drop k = reshape (τ := τ) (Val := Val) x y he hn hx hy :: L.drop (k + 1)) (hy' : y ∉ W.drop (k + 1)) (hx' : x ∉ W.drop k) :
    StableHlo.after L V (Proc.devRef .tc y)
      = fun i => he ▸ shapeCast y.ty.shape (StableHlo.after L V (Proc.devRef .tc x)) hn i := by
  rw [after_at h k V _ hk y hy', reshape_result, after_eq_take h k V x hx']

/-- A join of three operands, written as one operation over a literal family of three arrays. -/
theorem ssa_nary3 (h : WritesAre L W) (k : ℕ) (V : Valuation τ sig Val)
    (f : ((i : Fin 3) → ((![a, b, c] : Fin 3 → Ref sig .tc) i).ty.Contents Val) → y.ty.Contents Val) (hxs hy)
    (hk : L.drop k = nary (τ := τ) ![a, b, c] y f hxs hy :: L.drop (k + 1)) (hy' : y ∉ W.drop (k + 1))
    (ha' : a ∉ W.drop k) (hb' : b ∉ W.drop k) (hc' : c ∉ W.drop k) :
    StableHlo.after L V (Proc.devRef .tc y)
      = f (Fin.cons (StableHlo.after L V (Proc.devRef .tc a)) (Fin.cons (StableHlo.after L V (Proc.devRef .tc b))
          (Fin.cons (StableHlo.after L V (Proc.devRef .tc c)) (fun i => i.elim0)))) := by
  rw [after_at h k V _ hk y hy', nary_result, after_eq_take h k V a ha', after_eq_take h k V b hb', after_eq_take h k V c hc']
  congr 1; funext i; fin_cases i <;> rfl

end Cert.Lib

end
-- ==== Proof.IdealHostLine.lean ====
/-
  The host operations that run before the kernel call, as ONE straight line.  Every operation of the line writes
  exactly one array — operation number k the array number k of the list of written arrays — and no array is written
  twice: what an array holds when the call is entered is then the writing operation's function of what its operand
  arrays hold when the call is entered.
-/
import proofs.«104539_g2000404336194624_pallasbulk_886_2_alg».proof.Proof.IdealHostWritten
import proofs.«104539_g2000404336194624_pallasbulk_886_2_alg».proof.Proof.LibHostSSA
import Idealize.ShloMosaic.PureOps.Ideal

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

/-- The five stretches of host operations before the call, as one line (447 operations). -/
abbrev line : List (HloOp τ sig (Elt Ideal)) :=
  List.flatten [hostOps0, hostOps0_1, hostOps0_2, hostOps0_3, hostOps0_4]

set_option maxHeartbeats 4000000 in
/-- Operation number k of the line writes array number k of the list, and nothing else. -/
theorem line_writes : Cert.Lib.WritesAre line written := by
  unfold written
  iterate 447 (refine ⟨rfl, ?_⟩)
  trivial

end Cert.KernelIdeal.HostVal

end
-- ==== Proof.IdealHostOpsA.lean ====
/-
  One statement per host operation: the array the operation writes, read when the call is entered, holds the
  operation's function of its operand arrays read when the call is entered — the first 76 operations: the reshape of the images, the two weight matrices with
  the batch-norm scale folded in, the lane numbers and their row and column by division and remainder.
  Each is the single-assignment reading of the line at the operation's position: the line writes each array once, the
  operation is the one at that position, no later operation writes its result and none from there on writes its operands.
-/
import proofs.«104539_g2000404336194624_pallasbulk_886_2_alg».proof.Proof.IdealHostLine

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

theorem op_main_v0 : (V (F := Ideal) m c main_v0 : S32x128x3136.Idx → EReal) = shapeCast S32x128x3136 (V (F := Ideal) m c main_arg0 : S32x128x56x56.Idx → EReal) shapeCasts_S32x128x56x56_S32x128x3136 := by
  have h := Cert.Lib.ssa_reshape (x := main_arg0) (y := main_v0) line_writes 0 (fun b => m (c, b)) rfl shapeCasts_S32x128x56x56_S32x128x3136 ⟨by decide, rfl⟩ ⟨by decide, rfl⟩ rfl (by decide +kernel) (by decide +kernel)
  exact h

theorem op_main_cst : (V (F := Ideal) m c main_cst : S_.Idx → EReal) = constant (F := Ideal) S_ .f32 0x3727C5AC#32 :=
  Cert.Lib.ssa_nullary line_writes 1 _ _ _ rfl (by decide +kernel)

theorem op_main_v1 : (V (F := Ideal) m c main_v1 : S128.Idx → EReal) = (broadcastInDim S128 ![] bcast_S_S128) (V (F := Ideal) m c main_cst : S_.Idx → EReal) :=
  Cert.Lib.ssa_unary line_writes 2 _ _ _ _ rfl (by decide +kernel) (by decide +kernel)

theorem op_main_v2 : (V (F := Ideal) m c main_v2 : S128.Idx → EReal) = addf (F := Ideal) (φ := .f32) (V (F := Ideal) m c main_arg5 : S128.Idx → EReal) (V (F := Ideal) m c main_v1 : S128.Idx → EReal) :=
  Cert.Lib.ssa_binary line_writes 3 _ _ _ _ _ rfl (by decide +kernel) (by decide +kernel) (by decide +kernel)

theorem op_main_v3 : (V (F := Ideal) m c main_v3 : S128.Idx → EReal) = Host.sqrt (F := Ideal) (φ := .f32) (V (F := Ideal) m c main_v2 : S128.Idx → EReal) :=
  Cert.Lib.ssa_unary line_writes 4 _ _ _ _ rfl (by decide +kernel) (by decide +kernel)

theorem op_main_v4 : (V (F := Ideal) m c main_v4 : S128.Idx → EReal) = Host.divf (F := Ideal) (φ := .f32) (V (F := Ideal) m c main_arg2 : S128.Idx → EReal) (V (F := Ideal) m c main_v3 : S128.Idx → EReal) :=
  Cert.Lib.ssa_binary line_writes 5 _ _ _ _ _ rfl (by decide +kernel) (by decide +kernel) (by decide +kernel)

theorem op_main_v5 : (V (F := Ideal) m c main_v5 : S128x3x3x128.Idx → EReal) = transpose S128x3x3x128 [0, 2, 3, 1] (V (F := Ideal) m c main_arg1 : S128x128x3x3.Idx → EReal) transposes_S128x128x3x3_S128x3x3x128_0_2_3_1 :=
  Cert.Lib.ssa_unary line_writes 6 _ _ _ _ rfl (by decide +kernel) (by decide +kernel)

theorem op_main_v6 : (V (F := Ideal) m c main_v6 : S128x1152.Idx → EReal) = shapeCast S128x1152 (V (F := Ideal) m c main_v5 : S128x3x3x128.Idx → EReal) shapeCasts_S128x3x3x128_S128x1152 := by
  have h := Cert.Lib.ssa_reshape (x := main_v5) (y := main_v6) line_writes 7 (fun b => m (c, b)) rfl shapeCasts_S128x3x3x128_S128x1152 ⟨by decide, rfl⟩ ⟨by decide, rfl⟩ rfl (by decide +kernel) (by decide +kernel)
  exact h

theorem op_main_v7 : (V (F := Ideal) m c main_v7 : S128x1.Idx → EReal) = (broadcastInDim S128x1 ![0] bcast_S128_S128x1_0) (V (F := Ideal) m c main_v4 : S128.Idx → EReal) :=
  Cert.Lib.ssa_unary line_writes 8 _ _ _ _ rfl (by decide +kernel) (by decide +kernel)

theorem op_main_v8 : (V (F := Ideal) m c main_v8 : S128x1152.Idx → EReal) = (broadcastInDim S128x1152 ![0, 1] bcast_S128x1_S128x1152_0_1) (V (F := Ideal) m c main_v7 : S128x1.Idx → EReal) :=
  Cert.Lib.ssa_unary line_writes 9 _ _ _ _ rfl (by decide +kernel) (by decide +kernel)

theorem op_main_v9 : (V (F := Ideal) m c main_v9 : S128x1152.Idx → EReal) = mulf (F := Ideal) (φ := .f32) (V (F := Ideal) m c main_v6 : S128x1152.Idx → EReal) (V (F := Ideal) m c main_v8 : S128x1152.Idx → EReal) :=
  Cert.Lib.ssa_binary line_writes 10 _ _ _ _ _ rfl (by decide +kernel) (by decide +kernel) (by decide +kernel)

theorem op_main_v10 : (V (F := Ideal) m c main_v10 : S128.Idx → EReal) = mulf (F := Ideal) (φ := .f32) (V (F := Ideal) m c main_arg4 : S128.Idx → EReal) (V (F := Ideal) m c main_v4 : S128.Idx → EReal) :=
  Cert.Lib.ssa_binary line_writes 11 _ _ _ _ _ rfl (by decide +kernel) (by decide +kernel) (by decide +kernel)

theorem op_main_v11 : (V (F := Ideal) m c main_v11 : S128.Idx → EReal) = subf (F := Ideal) (φ := .f32) (V (F := Ideal) m c main_arg3 : S128.Idx → EReal) (V (F := Ideal) m c main_v10 : S128.Idx → EReal) :=
  Cert.Lib.ssa_binary line_writes 12 _ _ _ _ _ rfl (by decide +kernel) (by decide +kernel) (by decide +kernel)

theorem op_main_v12 : (V (F := Ideal) m c main_v12 : S128x1.Idx → EReal) = (broadcastInDim S128x1 ![0] bcast_S128_S128x1_0) (V (F := Ideal) m c main_v11 : S128.Idx → EReal) :=
  Cert.Lib.ssa_unary line_writes 13 _ _ _ _ rfl (by decide +kernel) (by decide +kernel)

theorem op_main_cst_0 : (V (F := Ideal) m c main_cst_0 : S_.Idx → EReal) = constant (F := Ideal) S_ .f32 0x00000000#32 :=
  Cert.Lib.ssa_nullary line_writes 14 _ _ _ rfl (by decide +kernel)

theorem op_main_v13 : (V (F := Ideal) m c main_v13 : S128x7.Idx → EReal) = (broadcastInDim S128x7 ![] bcast_S_S128x7) (V (F := Ideal) m c main_cst_0 : S_.Idx → EReal) :=
  Cert.Lib.ssa_unary line_writes 15 _ _ _ _ rfl (by decide +kernel) (by decide +kernel)

set_option maxHeartbeats 8000000 in
theorem op_main_v14 : (V (F := Ideal) m c main_v14 : S128x1160.Idx → EReal) = concatenate (α := EReal) S128x1160 1 [⟨S128x1152, (V (F := Ideal) m c main_v9 : S128x1152.Idx → EReal)⟩, ⟨S128x1, (V (F := Ideal) m c main_v12 : S128x1.Idx → EReal)⟩, ⟨S128x7, (V (F := Ideal) m c main_v13 : S128x7.Idx → EReal)⟩] concatenates_S128x1152_S128x1_S128x7_S128x1160_d1 := by
  have h := Cert.Lib.ssa_nary3 (a := main_v9) (b := main_v12) (c := main_v13) (y := main_v14) line_writes 16 (fun b => m (c, b))
    (fun u => concatenate S128x1160 1 [⟨S128x1152, u 0⟩, ⟨S128x1, u 1⟩, ⟨S128x7, u 2⟩] concatenates_S128x1152_S128x1_S128x7_S128x1160_d1) (by decide) ⟨by decide, rfl⟩ rfl (by decide +kernel) (by decide +kernel) (by decide +kernel) (by decide +kernel)
  exact h

theorem op_main_v15 : (V (F := Ideal) m c main_v15 : S128x1160.Idx → EReal) = truncf (F := Ideal) (φ := .f32) .bf16 (V (F := Ideal) m c main_v14 : S128x1160.Idx → EReal) bitsLt_bf16_f32 :=
  Cert.Lib.ssa_unary line_writes 17 _ _ _ _ rfl (by decide +kernel) (by decide +kernel)

theorem op_main_cst_1 : (V (F := Ideal) m c main_cst_1 : S_.Idx → EReal) = constant (F := Ideal) S_ .f32 0x3727C5AC#32 :=
  Cert.Lib.ssa_nullary line_writes 18 _ _ _ rfl (by decide +kernel)

theorem op_main_v16 : (V (F := Ideal) m c main_v16 : S128.Idx → EReal) = (broadcastInDim S128 ![] bcast_S_S128) (V (F := Ideal) m c main_cst_1 : S_.Idx → EReal) :=
  Cert.Lib.ssa_unary line_writes 19 _ _ _ _ rfl (by decide +kernel) (by decide +kernel)

theorem op_main_v17 : (V (F := Ideal) m c main_v17 : S128.Idx → EReal) = addf (F := Ideal) (φ := .f32) (V (F := Ideal) m c main_arg10 : S128.Idx → EReal) (V (F := Ideal) m c main_v16 : S128.Idx → EReal) :=
  Cert.Lib.ssa_binary line_writes 20 _ _ _ _ _ rfl (by decide +kernel) (by decide +kernel) (by decide +kernel)

theorem op_main_v18 : (V (F := Ideal) m c main_v18 : S128.Idx → EReal) = Host.sqrt (F := Ideal) (φ := .f32) (V (F := Ideal) m c main_v17 : S128.Idx → EReal) :=
  Cert.Lib.ssa_unary line_writes 21 _ _ _ _ rfl (by decide +kernel) (by decide +kernel)

theorem op_main_v19 : (V (F := Ideal) m c main_v19 : S128.Idx → EReal) = Host.divf (F := Ideal) (φ := .f32) (V (F := Ideal) m c main_arg7 : S128.Idx → EReal) (V (F := Ideal) m c main_v18 : S128.Idx → EReal) :=
  Cert.Lib.ssa_binary line_writes 22 _ _ _ _ _ rfl (by decide +kernel) (by decide +kernel) (by decide +kernel)

theorem op_main_v20 : (V (F := Ideal) m c main_v20 : S128x3x3x128.Idx → EReal) = transpose S128x3x3x128 [0, 2, 3, 1] (V (F := Ideal) m c main_arg6 : S128x128x3x3.Idx → EReal) transposes_S128x128x3x3_S128x3x3x128_0_2_3_1 :=
  Cert.Lib.ssa_unary line_writes 23 _ _ _ _ rfl (by decide +kernel) (by decide +kernel)

theorem op_main_v21 : (V (F := Ideal) m c main_v21 : S128x1152.Idx → EReal) = shapeCast S128x1152 (V (F := Ideal) m c main_v20 : S128x3x3x128.Idx → EReal) shapeCasts_S128x3x3x128_S128x1152 := by
  have h := Cert.Lib.ssa_reshape (x := main_v20) (y := main_v21) line_writes 24 (fun b => m (c, b)) rfl shapeCasts_S128x3x3x128_S128x1152 ⟨by decide, rfl⟩ ⟨by decide, rfl⟩ rfl (by decide +kernel) (by decide +kernel)
  exact h

theorem op_main_v22 : (V (F := Ideal) m c main_v22 : S128x1.Idx → EReal) = (broadcastInDim S128x1 ![0] bcast_S128_S128x1_0) (V (F := Ideal) m c main_v19 : S128.Idx → EReal) :=
  Cert.Lib.ssa_unary line_writes 25 _ _ _ _ rfl (by decide +kernel) (by decide +kernel)

theorem op_main_v23 : (V (F := Ideal) m c main_v23 : S128x1152.Idx → EReal) = (broadcastInDim S128x1152 ![0, 1] bcast_S128x1_S128x1152_0_1) (V (F := Ideal) m c main_v22 : S128x1.Idx → EReal) :=
  Cert.Lib.ssa_unary line_writes 26 _ _ _ _ rfl (by decide +kernel) (by decide +kernel)

theorem op_main_v24 : (V (F := Ideal) m c main_v24 : S128x1152.Idx → EReal) = mulf (F := Ideal) (φ := .f32) (V (F := Ideal) m c main_v21 : S128x1152.Idx → EReal) (V (F := Ideal) m c main_v23 : S128x1152.Idx → EReal) :=
  Cert.Lib.ssa_binary line_writes 27 _ _ _ _ _ rfl (by decide +kernel) (by decide +kernel) (by decide +kernel)

theorem op_main_v25 : (V (F := Ideal) m c main_v25 : S128.Idx → EReal) = mulf (F := Ideal) (φ := .f32) (V (F := Ideal) m c main_arg9 : S128.Idx → EReal) (V (F := Ideal) m c main_v19 : S128.Idx → EReal) :=
  Cert.Lib.ssa_binary line_writes 28 _ _ _ _ _ rfl (by decide +kernel) (by decide +kernel) (by decide +kernel)

theorem op_main_v26 : (V (F := Ideal) m c main_v26 : S128.Idx → EReal) = subf (F := Ideal) (φ := .f32) (V (F := Ideal) m c main_arg8 : S128.Idx → EReal) (V (F := Ideal) m c main_v25 : S128.Idx → EReal) :=
  Cert.Lib.ssa_binary line_writes 29 _ _ _ _ _ rfl (by decide +kernel) (by decide +kernel) (by decide +kernel)

theorem op_main_v27 : (V (F := Ideal) m c main_v27 : S128x1.Idx → EReal) = (broadcastInDim S128x1 ![0] bcast_S128_S128x1_0) (V (F := Ideal) m c main_v26 : S128.Idx → EReal) :=
  Cert.Lib.ssa_unary line_writes 30 _ _ _ _ rfl (by decide +kernel) (by decide +kernel)

theorem op_main_cst_2 : (V (F := Ideal) m c main_cst_2 : S_.Idx → EReal) = constant (F := Ideal) S_ .f32 0x00000000#32 :=
  Cert.Lib.ssa_nullary line_writes 31 _ _ _ rfl (by decide +kernel)

theorem op_main_v28 : (V (F := Ideal) m c main_v28 : S128x7.Idx → EReal) = (broadcastInDim S128x7 ![] bcast_S_S128x7) (V (F := Ideal) m c main_cst_2 : S_.Idx → EReal) :=
  Cert.Lib.ssa_unary line_writes 32 _ _ _ _ rfl (by decide +kernel) (by decide +kernel)

set_option maxHeartbeats 8000000 in
theorem op_main_v29 : (V (F := Ideal) m c main_v29 : S128x1160.Idx → EReal) = concatenate (α := EReal) S128x1160 1 [⟨S128x1152, (V (F := Ideal) m c main_v24 : S128x1152.Idx → EReal)⟩, ⟨S128x1, (V (F := Ideal) m c main_v27 : S128x1.Idx → EReal)⟩, ⟨S128x7, (V (F := Ideal) m c main_v28 : S128x7.Idx → EReal)⟩] concatenates_S128x1152_S128x1_S128x7_S128x1160_d1 := by
  have h := Cert.Lib.ssa_nary3 (a := main_v24) (b := main_v27) (c := main_v28) (y := main_v29) line_writes 33 (fun b => m (c, b))
    (fun u => concatenate S128x1160 1 [⟨S128x1152, u 0⟩, ⟨S128x1, u 1⟩, ⟨S128x7, u 2⟩] concatenates_S128x1152_S128x1_S128x7_S128x1160_d1) (by decide) ⟨by decide, rfl⟩ rfl (by decide +kernel) (by decide +kernel) (by decide +kernel) (by decide +kernel)
  exact h

theorem op_main_v30 : (V (F := Ideal) m c main_v30 : S128x1160.Idx → EReal) = truncf (F := Ideal) (φ := .f32) .bf16 (V (F := Ideal) m c main_v29 : S128x1160.Idx → EReal) bitsLt_bf16_f32 :=
  Cert.Lib.ssa_unary line_writes 34 _ _ _ _ rfl (by decide +kernel) (by decide +kernel)

theorem op_main_v31 : (V (F := Ideal) m c main_v31 : S3136.Idx → BitVec 32) = iotaInDim S3136 32 0 :=
  Cert.Lib.ssa_nullary line_writes 35 _ _ _ rfl (by decide +kernel)

theorem op_main_c : (V (F := Ideal) m c main_c : S_.Idx → BitVec 32) = constantI S_ 32 56#32 :=
  Cert.Lib.ssa_nullary line_writes 36 _ _ _ rfl (by decide +kernel)

theorem op_main_call0_v0 : (V (F := Ideal) m c main_call0_v0 : S_.Idx → BitVec 32) = id (V (F := Ideal) m c main_c : S_.Idx → BitVec 32) :=
  Cert.Lib.ssa_unary line_writes 37 _ _ _ _ rfl (by decide +kernel) (by decide +kernel)

theorem op_main_call0_v1 : (V (F := Ideal) m c main_call0_v1 : S3136.Idx → BitVec 32) = (broadcastInDim S3136 ![] bcast_S_S3136) (V (F := Ideal) m c main_call0_v0 : S_.Idx → BitVec 32) :=
  Cert.Lib.ssa_unary line_writes 38 _ _ _ _ rfl (by decide +kernel) (by decide +kernel)

theorem op_main_call0_v2 : (V (F := Ideal) m c main_call0_v2 : S3136.Idx → BitVec 32) = Host.divsi (V (F := Ideal) m c main_v31 : S3136.Idx → BitVec 32) (V (F := Ideal) m c main_call0_v1 : S3136.Idx → BitVec 32) :=
  Cert.Lib.ssa_binary line_writes 39 _ _ _ _ _ rfl (by decide +kernel) (by decide +kernel) (by decide +kernel)

theorem op_main_call0_v3 : (V (F := Ideal) m c main_call0_v3 : S3136.Idx → BitVec 32) = signi (V (F := Ideal) m c main_v31 : S3136.Idx → BitVec 32) :=
  Cert.Lib.ssa_unary line_writes 40 _ _ _ _ rfl (by decide +kernel) (by decide +kernel)

theorem op_main_call0_v4 : (V (F := Ideal) m c main_call0_v4 : S_.Idx → BitVec 32) = signi (V (F := Ideal) m c main_call0_v0 : S_.Idx → BitVec 32) :=
  Cert.Lib.ssa_unary line_writes 41 _ _ _ _ rfl (by decide +kernel) (by decide +kernel)

theorem op_main_call0_v5 : (V (F := Ideal) m c main_call0_v5 : S3136.Idx → BitVec 32) = (broadcastInDim S3136 ![] bcast_S_S3136) (V (F := Ideal) m c main_call0_v4 : S_.Idx → BitVec 32) :=
  Cert.Lib.ssa_unary line_writes 42 _ _ _ _ rfl (by decide +kernel) (by decide +kernel)

theorem op_main_call0_v6 : (V (F := Ideal) m c main_call0_v6 : S3136.Idx → BitVec 1) = (cmpi .ne) (V (F := Ideal) m c main_call0_v3 : S3136.Idx → BitVec 32) (V (F := Ideal) m c main_call0_v5 : S3136.Idx → BitVec 32) :=
  Cert.Lib.ssa_binary line_writes 43 _ _ _ _ _ rfl (by decide +kernel) (by decide +kernel) (by decide +kernel)

theorem op_main_call0_v7 : (V (F := Ideal) m c main_call0_v7 : S3136.Idx → BitVec 32) = (broadcastInDim S3136 ![] bcast_S_S3136) (V (F := Ideal) m c main_call0_v0 : S_.Idx → BitVec 32) :=
  Cert.Lib.ssa_unary line_writes 44 _ _ _ _ rfl (by decide +kernel) (by decide +kernel)

theorem op_main_call0_v8 : (V (F := Ideal) m c main_call0_v8 : S3136.Idx → BitVec 32) = Host.remsi (V (F := Ideal) m c main_v31 : S3136.Idx → BitVec 32) (V (F := Ideal) m c main_call0_v7 : S3136.Idx → BitVec 32) :=
  Cert.Lib.ssa_binary line_writes 45 _ _ _ _ _ rfl (by decide +kernel) (by decide +kernel) (by decide +kernel)

theorem op_main_call0_c : (V (F := Ideal) m c main_call0_c : S_.Idx → BitVec 32) = constantI S_ 32 0#32 :=
  Cert.Lib.ssa_nullary line_writes 46 _ _ _ rfl (by decide +kernel)

theorem op_main_call0_v9 : (V (F := Ideal) m c main_call0_v9 : S3136.Idx → BitVec 32) = (broadcastInDim S3136 ![] bcast_S_S3136) (V (F := Ideal) m c main_call0_c : S_.Idx → BitVec 32) :=
  Cert.Lib.ssa_unary line_writes 47 _ _ _ _ rfl (by decide +kernel) (by decide +kernel)

theorem op_main_call0_v10 : (V (F := Ideal) m c main_call0_v10 : S3136.Idx → BitVec 1) = (cmpi .ne) (V (F := Ideal) m c main_call0_v8 : S3136.Idx → BitVec 32) (V (F := Ideal) m c main_call0_v9 : S3136.Idx → BitVec 32) :=
  Cert.Lib.ssa_binary line_writes 48 _ _ _ _ _ rfl (by decide +kernel) (by decide +kernel) (by decide +kernel)

theorem op_main_call0_v11 : (V (F := Ideal) m c main_call0_v11 : S3136.Idx → BitVec 1) = andi (V (F := Ideal) m c main_call0_v6 : S3136.Idx → BitVec 1) (V (F := Ideal) m c main_call0_v10 : S3136.Idx → BitVec 1) :=
  Cert.Lib.ssa_binary line_writes 49 _ _ _ _ _ rfl (by decide +kernel) (by decide +kernel) (by decide +kernel)

theorem op_main_call0_c_0 : (V (F := Ideal) m c main_call0_c_0 : S_.Idx → BitVec 32) = constantI S_ 32 1#32 :=
  Cert.Lib.ssa_nullary line_writes 50 _ _ _ rfl (by decide +kernel)

theorem op_main_call0_v12 : (V (F := Ideal) m c main_call0_v12 : S3136.Idx → BitVec 32) = (broadcastInDim S3136 ![] bcast_S_S3136) (V (F := Ideal) m c main_call0_c_0 : S_.Idx → BitVec 32) :=
  Cert.Lib.ssa_unary line_writes 51 _ _ _ _ rfl (by decide +kernel) (by decide +kernel)

theorem op_main_call0_v13 : (V (F := Ideal) m c main_call0_v13 : S3136.Idx → BitVec 32) = subi (V (F := Ideal) m c main_call0_v2 : S3136.Idx → BitVec 32) (V (F := Ideal) m c main_call0_v12 : S3136.Idx → BitVec 32) :=
  Cert.Lib.ssa_binary line_writes 52 _ _ _ _ _ rfl (by decide +kernel) (by decide +kernel) (by decide +kernel)

theorem op_main_v32 : (V (F := Ideal) m c main_v32 : S3136.Idx → BitVec 32) = select (V (F := Ideal) m c main_call0_v11 : S3136.Idx → BitVec 1) (V (F := Ideal) m c main_call0_v13 : S3136.Idx → BitVec 32) (V (F := Ideal) m c main_call0_v2 : S3136.Idx → BitVec 32) :=
  Cert.Lib.ssa_ternary line_writes 53 _ _ _ _ _ _ rfl (by decide +kernel) (by decide +kernel) (by decide +kernel) (by decide +kernel)

theorem op_main_c_3 : (V (F := Ideal) m c main_c_3 : S_.Idx → BitVec 32) = constantI S_ 32 56#32 :=
  Cert.Lib.ssa_nullary line_writes 54 _ _ _ rfl (by decide +kernel)

theorem op_main_call1_v0 : (V (F := Ideal) m c main_call1_v0 : S_.Idx → BitVec 32) = id (V (F := Ideal) m c main_c_3 : S_.Idx → BitVec 32) :=
  Cert.Lib.ssa_unary line_writes 55 _ _ _ _ rfl (by decide +kernel) (by decide +kernel)

theorem op_main_call1_c : (V (F := Ideal) m c main_call1_c : S_.Idx → BitVec 32) = constantI S_ 32 0#32 :=
  Cert.Lib.ssa_nullary line_writes 56 _ _ _ rfl (by decide +kernel)

theorem op_main_call1_v1 : (V (F := Ideal) m c main_call1_v1 : S_.Idx → BitVec 1) = (cmpi .eq) (V (F := Ideal) m c main_call1_v0 : S_.Idx → BitVec 32) (V (F := Ideal) m c main_call1_c : S_.Idx → BitVec 32) :=
  Cert.Lib.ssa_binary line_writes 57 _ _ _ _ _ rfl (by decide +kernel) (by decide +kernel) (by decide +kernel)

theorem op_main_call1_c_0 : (V (F := Ideal) m c main_call1_c_0 : S_.Idx → BitVec 32) = constantI S_ 32 1#32 :=
  Cert.Lib.ssa_nullary line_writes 58 _ _ _ rfl (by decide +kernel)

theorem op_main_call1_v2 : (V (F := Ideal) m c main_call1_v2 : S_.Idx → BitVec 32) = select (V (F := Ideal) m c main_call1_v1 : S_.Idx → BitVec 1) (V (F := Ideal) m c main_call1_c_0 : S_.Idx → BitVec 32) (V (F := Ideal) m c main_call1_v0 : S_.Idx → BitVec 32) :=
  Cert.Lib.ssa_ternary line_writes 59 _ _ _ _ _ _ rfl (by decide +kernel) (by decide +kernel) (by decide +kernel) (by decide +kernel)

theorem op_main_call1_v3 : (V (F := Ideal) m c main_call1_v3 : S3136.Idx → BitVec 32) = (broadcastInDim S3136 ![] bcast_S_S3136) (V (F := Ideal) m c main_call1_v2 : S_.Idx → BitVec 32) :=
  Cert.Lib.ssa_unary line_writes 60 _ _ _ _ rfl (by decide +kernel) (by decide +kernel)

theorem op_main_call1_v4 : (V (F := Ideal) m c main_call1_v4 : S3136.Idx → BitVec 32) = Host.remsi (V (F := Ideal) m c main_v31 : S3136.Idx → BitVec 32) (V (F := Ideal) m c main_call1_v3 : S3136.Idx → BitVec 32) :=
  Cert.Lib.ssa_binary line_writes 61 _ _ _ _ _ rfl (by decide +kernel) (by decide +kernel) (by decide +kernel)

theorem op_main_call1_c_1 : (V (F := Ideal) m c main_call1_c_1 : S_.Idx → BitVec 32) = constantI S_ 32 0#32 :=
  Cert.Lib.ssa_nullary line_writes 62 _ _ _ rfl (by decide +kernel)

theorem op_main_call1_v5 : (V (F := Ideal) m c main_call1_v5 : S3136.Idx → BitVec 32) = (broadcastInDim S3136 ![] bcast_S_S3136) (V (F := Ideal) m c main_call1_c_1 : S_.Idx → BitVec 32) :=
  Cert.Lib.ssa_unary line_writes 63 _ _ _ _ rfl (by decide +kernel) (by decide +kernel)

theorem op_main_call1_v6 : (V (F := Ideal) m c main_call1_v6 : S3136.Idx → BitVec 1) = (cmpi .ne) (V (F := Ideal) m c main_call1_v4 : S3136.Idx → BitVec 32) (V (F := Ideal) m c main_call1_v5 : S3136.Idx → BitVec 32) :=
  Cert.Lib.ssa_binary line_writes 64 _ _ _ _ _ rfl (by decide +kernel) (by decide +kernel) (by decide +kernel)

theorem op_main_call1_c_2 : (V (F := Ideal) m c main_call1_c_2 : S_.Idx → BitVec 32) = constantI S_ 32 0#32 :=
  Cert.Lib.ssa_nullary line_writes 65 _ _ _ rfl (by decide +kernel)

theorem op_main_call1_v7 : (V (F := Ideal) m c main_call1_v7 : S3136.Idx → BitVec 32) = (broadcastInDim S3136 ![] bcast_S_S3136) (V (F := Ideal) m c main_call1_c_2 : S_.Idx → BitVec 32) :=
  Cert.Lib.ssa_unary line_writes 66 _ _ _ _ rfl (by decide +kernel) (by decide +kernel)

theorem op_main_call1_v8 : (V (F := Ideal) m c main_call1_v8 : S3136.Idx → BitVec 1) = (cmpi .slt) (V (F := Ideal) m c main_call1_v4 : S3136.Idx → BitVec 32) (V (F := Ideal) m c main_call1_v7 : S3136.Idx → BitVec 32) :=
  Cert.Lib.ssa_binary line_writes 67 _ _ _ _ _ rfl (by decide +kernel) (by decide +kernel) (by decide +kernel)

theorem op_main_call1_c_3 : (V (F := Ideal) m c main_call1_c_3 : S_.Idx → BitVec 32) = constantI S_ 32 0#32 :=
  Cert.Lib.ssa_nullary line_writes 68 _ _ _ rfl (by decide +kernel)

theorem op_main_call1_v9 : (V (F := Ideal) m c main_call1_v9 : S_.Idx → BitVec 1) = (cmpi .slt) (V (F := Ideal) m c main_call1_v2 : S_.Idx → BitVec 32) (V (F := Ideal) m c main_call1_c_3 : S_.Idx → BitVec 32) :=
  Cert.Lib.ssa_binary line_writes 69 _ _ _ _ _ rfl (by decide +kernel) (by decide +kernel) (by decide +kernel)

theorem op_main_call1_v10 : (V (F := Ideal) m c main_call1_v10 : S3136.Idx → BitVec 1) = (broadcastInDim S3136 ![] bcast_S_S3136) (V (F := Ideal) m c main_call1_v9 : S_.Idx → BitVec 1) :=
  Cert.Lib.ssa_unary line_writes 70 _ _ _ _ rfl (by decide +kernel) (by decide +kernel)

theorem op_main_call1_v11 : (V (F := Ideal) m c main_call1_v11 : S3136.Idx → BitVec 1) = (cmpi .ne) (V (F := Ideal) m c main_call1_v8 : S3136.Idx → BitVec 1) (V (F := Ideal) m c main_call1_v10 : S3136.Idx → BitVec 1) :=
  Cert.Lib.ssa_binary line_writes 71 _ _ _ _ _ rfl (by decide +kernel) (by decide +kernel) (by decide +kernel)

theorem op_main_call1_v12 : (V (F := Ideal) m c main_call1_v12 : S3136.Idx → BitVec 1) = andi (V (F := Ideal) m c main_call1_v11 : S3136.Idx → BitVec 1) (V (F := Ideal) m c main_call1_v6 : S3136.Idx → BitVec 1) :=
  Cert.Lib.ssa_binary line_writes 72 _ _ _ _ _ rfl (by decide +kernel) (by decide +kernel) (by decide +kernel)

theorem op_main_call1_v13 : (V (F := Ideal) m c main_call1_v13 : S3136.Idx → BitVec 32) = (broadcastInDim S3136 ![] bcast_S_S3136) (V (F := Ideal) m c main_call1_v2 : S_.Idx → BitVec 32) :=
  Cert.Lib.ssa_unary line_writes 73 _ _ _ _ rfl (by decide +kernel) (by decide +kernel)

theorem op_main_call1_v14 : (V (F := Ideal) m c main_call1_v14 : S3136.Idx → BitVec 32) = addi (V (F := Ideal) m c main_call1_v4 : S3136.Idx → BitVec 32) (V (F := Ideal) m c main_call1_v13 : S3136.Idx → BitVec 32) :=
  Cert.Lib.ssa_binary line_writes 74 _ _ _ _ _ rfl (by decide +kernel) (by decide +kernel) (by decide +kernel)

theorem op_main_v33 : (V (F := Ideal) m c main_v33 : S3136.Idx → BitVec 32) = select (V (F := Ideal) m c main_call1_v12 : S3136.Idx → BitVec 1) (V (F := Ideal) m c main_call1_v14 : S3136.Idx → BitVec 32) (V (F := Ideal) m c main_call1_v4 : S3136.Idx → BitVec 32) :=
  Cert.Lib.ssa_ternary line_writes 75 _ _ _ _ _ _ rfl (by decide +kernel) (by decide +kernel) (by decide +kernel) (by decide +kernel)

end Cert.KernelIdeal.HostVal

end
-- ==== Proof.IdealHostTile.lean ====
/-
  The first array the call stages: the batch of images [32, 128, 56, 56] with each 56 x 56 plane flattened to 3136
  lanes, lane p holding row p / 56, column p % 56 — a reshape keeps the row-major position.
-/
import proofs.«104539_g2000404336194624_pallasbulk_886_2_alg».proof.Proof.IdealHostOpsA
import proofs.«104539_g2000404336194624_pallasbulk_886_2_alg».proof.Proof.ResBlock
import Idealize.ShloMosaic.Lib.Pipeline.Value

set_option maxRecDepth 65536

noncomputable section

namespace Cert.KernelIdeal.HostVal

open Cert.KernelIdeal Cert.KernelIdeal.Gen Cert.KernelIdeal.Frm Cert.ResBlock
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-- The reshape [32,128,56,56] -> [32,128,3136] the call's first window stages: lane p of plane (n, i) is the image's
    entry at row p / 56, column p % 56. -/
theorem x_tile (n : Fin 32) (i : Fin 128) (p : Fin 3136) :
    (V (F := Ideal) m c main_v0 : S32x128x3136.Idx → EReal) (ix3 n i p)
      = (m ((c : Thread nD τ).loc main_arg0)) (ix4 n i ⟨p.val / 56, by omega⟩ ⟨p.val % 56, Nat.mod_lt _ (by norm_num)⟩) := by
  rw [op_main_v0 m c]
  refine (shapeCast_apply _ _ (ix3 n i p) (ix4 n i ⟨p.val / 56, by omega⟩ ⟨p.val % 56, Nat.mod_lt _ (by norm_num)⟩) ?_).trans ?_
  · rw [Shape.rowMajor_val_four, Shape.rowMajor_val_three]
    show ((n.val * 128 + i.val) * 56 + p.val / 56) * 56 + p.val % 56 = (n.val * 128 + i.val) * 3136 + p.val
    omega
  · exact congrFun (V_main_arg0 m c) _

end Cert.KernelIdeal.HostVal

end
-- ==== Proof.LibConcatPieces.lean ====
/-
  A concatenation along an axis, read as ONE function of the result index.

  `concatenate t a xs h` lays the pieces `xs` end to end along axis `a`. If a function `G` of the result index
  restricts, on the span each piece occupies, to that piece (`Restricts`: piece by piece, the position where the
  piece starts accumulated along the list), then the concatenation IS `G` (`concatenate_eq_of_restricts`) — any
  number of pieces, any extents, any rank. For a literal list the hypothesis unfolds to one conjunct per piece.

  `slice_piece`: the conjunct of a piece that is a band `[off, off + N)` of the last axis of a rank-3 array `x`
  (a `vector.extract_strided_slice` with zero offsets on the two leading axes), from the statement that `G` at
  position `pre + k` is `x` at position `off + k`.
-/
import Idealize.ShloMosaic.Lib.Pipeline.Value
import Idealize.ShloMosaic.Lib.ValueIdx

namespace Idealize.ShloMosaic.ConcatPieces

open Idealize.ShloMosaic Idealize.ShloMosaic.ValueIdx

variable {α : Type}

/-- Where `c` falls among the extents `ns` laid end to end: some piece `k` starts at or before `c` and ends after it. -/
theorem exists_span : ∀ (ns : List Nat) (c : Nat), c < ns.sum →
    ∃ (k : Nat) (hk : k < ns.length), (ns.take k).sum ≤ c ∧ c < (ns.take k).sum + ns[k]
  | [], c, h => absurd h (by simp)
  | n :: ns, c, h => by
    by_cases hc : c < n
    · exact ⟨0, Nat.zero_lt_succ _, by simp, by simpa using hc⟩
    · have h' : c - n < ns.sum := by rw [List.sum_cons] at h; omega
      obtain ⟨k, hk, lo, hi⟩ := exists_span ns (c - n) h'
      refine ⟨k + 1, Nat.succ_lt_succ hk, ?_, ?_⟩
      · simp only [List.take_succ_cons, List.sum_cons]; omega
      · simp only [List.take_succ_cons, List.sum_cons, List.getElem_cons_succ]; omega

/-- The extent, along axis `a` of the result shape `t`, of a piece of shape `s` (0 for a piece of another rank, which
    `Shape.Concatenates` excludes): the summand of `Shape.Concatenates`' total. -/
def extent (t : Shape) (a : Fin t.rank) (s : Shape) : Nat := if h : s.rank = t.rank then s.size (a.cast h.symm) else 0

/-- Every piece of `xs`, the first starting at position `pre` of axis `a` and each next one where the previous
    ends, is the restriction of `G` to its span: at a piece index `i` and a result index `j` with the same
    coordinates off the axis and `j a = start + i a`, the piece at `i` is `G j`. -/
def Restricts (t : Shape) (a : Fin t.rank) (G : t.Idx → α) : Nat → List ((s : Shape) × (s.Idx → α)) → Prop
  | _, [] => True
  | pre, p :: rest =>
    (∀ (hr : p.1.rank = t.rank) (i : p.1.Idx) (j : t.Idx),
        (∀ b : Fin p.1.rank, b.cast hr ≠ a → (i b).val = (j (b.cast hr)).val) →
        pre + (i (a.cast hr.symm)).val = (j a).val → p.2 i = G j)
    ∧ Restricts t a G (pre + extent t a p.1) rest

/-- The conjunct of piece `k`, its start the extents of the pieces before it. -/
theorem Restricts.get {t : Shape} {a : Fin t.rank} {G : t.Idx → α} :
    ∀ (xs : List ((s : Shape) × (s.Idx → α))) (pre : Nat), Restricts t a G pre xs →
      ∀ (k : Nat) (hk : k < xs.length) (hr : (xs[k]).1.rank = t.rank) (i : (xs[k]).1.Idx) (j : t.Idx),
        (∀ b : Fin (xs[k]).1.rank, b.cast hr ≠ a → (i b).val = (j (b.cast hr)).val) →
        pre + (((xs.take k).map (·.1)).map fun s => if h : s.rank = t.rank then s.size (a.cast h.symm) else 0).sum
            + (i (a.cast hr.symm)).val = (j a).val →
        (xs[k]).2 i = G j
  | [], _, _, k, hk, _, _, _, _, _ => absurd hk (Nat.not_lt_zero _)
  | p :: rest, pre, h, 0, _, hr, i, j, hi, ha => h.1 hr i j hi (by simpa using ha)
  | p :: rest, pre, h, k + 1, hk, hr, i, j, hi, ha =>
    Restricts.get rest _ h.2 k (Nat.lt_of_succ_lt_succ hk) hr i j hi (by
      simp only [List.take_succ_cons, List.map_cons, List.sum_cons] at ha
      rw [Nat.add_assoc pre]
      exact ha)

/-- **A concatenation whose pieces are the restrictions of one function is that function.** -/
theorem concatenate_eq_of_restricts {t : Shape} (a : Fin t.rank) (xs : List ((s : Shape) × (s.Idx → α)))
    (h : Shape.Concatenates (xs.map (·.1)) t a) (G : t.Idx → α) (hG : Restricts t a G 0 xs) :
    concatenate t a xs h = G := by
  funext j
  let f : Shape → Nat := fun s => if h : s.rank = t.rank then s.size (a.cast h.symm) else 0
  let ns : List Nat := (xs.map (·.1)).map f
  have hsum : (j a).val < ns.sum := by
    have e : ns.sum = t.size a := h.2.2
    rw [e]; exact (j a).isLt
  obtain ⟨k, hk, lo, hi⟩ := exists_span ns (j a).val hsum
  have hk' : k < xs.length := by simpa [ns] using hk
  have hmem : (xs[k]).1 ∈ xs.map (·.1) := List.mem_map.2 ⟨xs[k], List.getElem_mem hk', rfl⟩
  obtain ⟨hr, hoff⟩ := h.2.1 _ hmem
  have hnk : ns[k] = (xs[k]).1.size (a.cast hr.symm) := by
    have e1 : ns[k] = f ((xs.map (·.1))[k]'(by simpa using hk')) := List.getElem_map _
    rw [e1, List.getElem_map]
    exact dif_pos hr
  have htake : (((xs.take k).map (·.1)).map f).sum = (ns.take k).sum := by
    simp only [ns, List.map_take]
  let i : (xs[k]).1.Idx := fun b =>
    if hb : b.cast hr = a then
      ⟨(j a).val - (ns.take k).sum, by
        have e : b = a.cast hr.symm := Fin.ext (by simpa using congrArg Fin.val hb)
        subst e; rw [← hnk]; omega⟩
    else
      ⟨(j (b.cast hr)).val, by
        have e : (xs[k]).1.size b = t.size (b.cast hr) := hoff (b.cast hr) hb
        rw [e]; exact (j _).isLt⟩
  have hi' : ∀ b : Fin (xs[k]).1.rank, b.cast hr ≠ a → (i b).val = (j (b.cast hr)).val := fun b hb => by
    simp only [i, dif_neg hb]
  have hia : (i (a.cast hr.symm)).val = (j a).val - (ns.take k).sum := by
    have hb : (a.cast hr.symm).cast hr = a := Fin.ext rfl
    simp only [i, dif_pos hb]
  have ha' : (ns.take k).sum + (i (a.cast hr.symm)).val = (j a).val := by rw [hia]; omega
  rw [concatenate_apply_piece a xs h j k hk' (xs[k]).1 (xs[k]).2 rfl hr (ns.take k).sum htake i hi' ha']
  exact Restricts.get xs 0 hG k hk' hr i j hi' (by rw [Nat.zero_add]; exact htake ▸ ha')

/-- The conjunct of a piece that is the band `[off, off + N)` of the last axis of a rank-3 array `x`, laid at
    `[pre, pre + N)` of the result's last axis: it is `G`'s restriction as soon as `G` at last coordinate `pre + k`
    is `x` at last coordinate `off + k`, the two leading coordinates kept. -/
theorem slice_piece {A B M T : Nat} (N off pre : Nat) (x : (⟨3, ![A, B, M]⟩ : Shape).Idx → α)
    (G : (⟨3, ![A, B, T]⟩ : Shape).Idx → α)
    (hs : (⟨3, ![A, B, M]⟩ : Shape).Slices ![0, 0, off] ⟨3, ![A, B, N]⟩)
    (hG : ∀ (p : Fin A) (q : Fin B) (k : Nat) (_ : k < N) (hT : pre + k < T) (hM : off + k < M),
      G (ix3 p q ⟨pre + k, hT⟩) = x (ix3 p q ⟨off + k, hM⟩)) :
    ∀ (hr : (⟨3, ![A, B, N]⟩ : Shape).rank = (⟨3, ![A, B, T]⟩ : Shape).rank)
      (i : (⟨3, ![A, B, N]⟩ : Shape).Idx) (j : (⟨3, ![A, B, T]⟩ : Shape).Idx),
      (∀ b : Fin 3, b.cast hr ≠ (2 : Fin 3) → (i b).val = (j (b.cast hr)).val) →
      pre + (i ((2 : Fin 3).cast hr.symm)).val = (j 2).val →
      extractStridedSlice ⟨3, ![A, B, N]⟩ ![0, 0, off] x hs i = G j := by
  intro hr i j hi ha
  have h0 : (i 0).val = (j 0).val := hi 0 (Fin.ne_of_val_ne (show (0 : Nat) ≠ 2 by decide))
  have h1 : (i 1).val = (j 1).val := hi 1 (Fin.ne_of_val_ne (show (1 : Nat) ≠ 2 by decide))
  have h2 : pre + (i 2).val = (j 2).val := ha
  have hle : off + N ≤ M := hs.2 2
  have hiN : (i 2).val < N := (i 2).isLt
  have hjT : (j 2).val < T := (j 2).isLt
  have hj : j = ix3 (n0 := A) (n1 := B) (n2 := T) (j 0) (j 1) ⟨pre + (i 2).val, by omega⟩ := by
    funext a; apply Fin.ext
    match a with
    | ⟨0, _⟩ => rfl
    | ⟨1, _⟩ => rfl
    | ⟨2, _⟩ => exact h2.symm
  rw [hj, hG (j 0) (j 1) (i 2).val hiN (by omega) (by omega)]
  show x _ = x _
  congr 1; funext a; apply Fin.ext
  match a with
  | ⟨0, _⟩ => show 0 + (i 0).val = (j 0).val; omega
  | ⟨1, _⟩ => show 0 + (i 1).val = (j 1).val; omega
  | ⟨2, _⟩ => rfl

end Idealize.ShloMosaic.ConcatPieces
-- ==== Proof.IdealHostWeights.lean ====
/-
  The two weight matrices [128, 1160] the call stages, one per convolution.  Row o holds the 1152 weights of output
  channel o in tap-major order — column (ky*3 + kx)*128 + i is w[o, i, ky, kx], a transpose to [o, ky, kx, i]
  followed by a reshape — each times the folded batch-norm scale g[o] / sqrt(v[o] + eps); then one column with the
  folded shift b[o] - mu[o] * scale[o]; then seven columns of zeros.  The conversion to the narrower float format is the
  identity over the extended reals.
-/
import proofs.«104539_g2000404336194624_pallasbulk_886_2_alg».proof.Proof.IdealHostOpsA
import proofs.«104539_g2000404336194624_pallasbulk_886_2_alg».proof.Proof.ResBlock
import proofs.«104539_g2000404336194624_pallasbulk_886_2_alg».proof.Proof.LibConcatPieces
import Idealize.ShloMosaic.Lib.Pipeline.Value
import Idealize.ShloMosaic.PureOps.Ideal.Laws

set_option maxRecDepth 65536

noncomputable section

namespace Cert.KernelIdeal.HostVal

open Cert.KernelIdeal Cert.KernelIdeal.Gen Cert.KernelIdeal.Frm Cert.ResBlock
open Idealize.ShloMosaic Idealize.ShloMosaic.TcCoe Idealize.ShloMosaic.ValueIdx Idealize.ShloMosaic.StableHlo Idealize.SL.Sem
open Idealize.ShloMosaic.ConcatPieces

variable (m : (ℓ : Loc nD τ sig) → Buf (Elt Ideal) ℓ) (c : Dev nD)

/-! ## The pieces, read at an index (over any arrays) -/

/-- The weights transposed to [o, ky, kx, i] and flattened to [o, 1152]: column k is the tap (tapY k, tapX k), input
    channel chan k. -/
theorem tapMajor_apply (W : S128x128x3x3.Idx → EReal) (o : Fin 128) (k : Fin 1152) :
    shapeCast S128x1152 (transpose S128x3x3x128 [0, 2, 3, 1] W transposes_S128x128x3x3_S128x3x3x128_0_2_3_1) shapeCasts_S128x3x3x128_S128x1152 (ix2 o k)
      = W (ix4 o (chan k) (tapY k) (tapX k)) := by
  refine (shapeCast_apply _ _ (ix2 o k) (ix4 o (tapY k) (tapX k) (chan k)) ?_).trans ?_
  · rw [Shape.rowMajor_val_four, Shape.rowMajor_val_two]
    show ((o.val * 3 + k.val / 128 / 3) * 3 + k.val / 128 % 3) * 128 + k.val % 128 = o.val * 1152 + k.val
    have := k.isLt
    omega
  · refine transpose_apply [0, 2, 3, 1] W _ (ix4 o (tapY k) (tapX k) (chan k)) (ix4 o (chan k) (tapY k) (tapX k)) fun b => ?_
    match b with
    | ⟨0, _⟩ => rfl
    | ⟨1, _⟩ => rfl
    | ⟨2, _⟩ => rfl
    | ⟨3, _⟩ => rfl

/-- A vector [128] made a column [128, 1], read at (o, 0), is the vector at o. -/
theorem column_apply (v : S128.Idx → EReal) (o : Fin 128) (z : Fin 1) :
    broadcastInDim S128x1 ![0] bcast_S128_S128x1_0 v (ix2 o z) = v (ix1 o) := by
  refine broadcastInDim_apply _ _ v (ix2 o z) (ix1 o) fun a => ?_
  match a with
  | ⟨0, _⟩ => rfl

/-- A vector [128] made a column and spread across the 1152 columns, read at (o, k), is the vector at o. -/
theorem spread_apply (v : S128.Idx → EReal) (o : Fin 128) (k : Fin 1152) :
    broadcastInDim S128x1152 ![0, 1] bcast_S128x1_S128x1152_0_1 (broadcastInDim S128x1 ![0] bcast_S128_S128x1_0 v) (ix2 o k) = v (ix1 o) := by
  refine (broadcastInDim_apply _ _ _ (ix2 o k) (ix2 o (0 : Fin 1)) fun a => ?_).trans (column_apply v o 0)
  match a with
  | ⟨0, _⟩ => rfl
  | ⟨1, _⟩ => rfl

/-! ## The folded matrix as one function of the index -/

/-- Entry (o, k) of a folded weight matrix: a scaled weight, the shift, or zero. -/
def folded (W : S128x128x3x3.Idx → EReal) (g b mu v : S128.Idx → EReal) : S128x1160.Idx → EReal := fun j =>
  if h : (j 1).val < 1152 then
    wt W (j 0) (chan ⟨(j 1).val, h⟩) (tapY ⟨(j 1).val, h⟩) (tapX ⟨(j 1).val, h⟩) * scale (vec g) (vec v) (j 0)
  else if (j 1).val = 1152 then shift (vec b) (vec mu) (vec g) (vec v) (j 0)
  else 0

/-- The three pieces the host operations join along the columns: the scaled tap-major weights [128, 1152], the shift
    column [128, 1], the zero padding [128, 7]. -/
def pieces (W : S128x128x3x3.Idx → EReal) (g b mu v : S128.Idx → EReal) : List ((s : Shape) × (s.Idx → EReal)) :=
  [⟨S128x1152, mulf (F := Ideal) (φ := .f32)
      (shapeCast S128x1152 (transpose S128x3x3x128 [0, 2, 3, 1] W transposes_S128x128x3x3_S128x3x3x128_0_2_3_1) shapeCasts_S128x3x3x128_S128x1152)
      (broadcastInDim S128x1152 ![0, 1] bcast_S128x1_S128x1152_0_1 (broadcastInDim S128x1 ![0] bcast_S128_S128x1_0 (Host.divf (F := Ideal) (φ := .f32) g (Host.sqrt (F := Ideal) (φ := .f32) (addf (F := Ideal) (φ := .f32) v (broadcastInDim S128 ![] bcast_S_S128 (constant (F := Ideal) S_ .f32 0x3727C5AC#32)))))))⟩,
   ⟨S128x1, broadcastInDim S128x1 ![0] bcast_S128_S128x1_0 (subf (F := Ideal) (φ := .f32) b (mulf (F := Ideal) (φ := .f32) mu (Host.divf (F := Ideal) (φ := .f32) g (Host.sqrt (F := Ideal) (φ := .f32) (addf (F := Ideal) (φ := .f32) v (broadcastInDim S128 ![] bcast_S_S128 (constant (F := Ideal) S_ .f32 0x3727C5AC#32)))))))⟩,
   ⟨S128x7, broadcastInDim S128x7 ![] bcast_S_S128x7 (constant (F := Ideal) S_ .f32 0x00000000#32)⟩]

set_option maxHeartbeats 1000000 in
/-- The term the host operations build for a weight matrix — scale the tap-major weights row by row, append the shift
    column and seven zero columns, convert — is the folded matrix. -/
theorem fold_term_eq (W : S128x128x3x3.Idx → EReal) (g b mu v : S128.Idx → EReal) :
    truncf (F := Ideal) (φ := .f32) .bf16
        (concatenate (α := EReal) S128x1160 1 (pieces W g b mu v) concatenates_S128x1152_S128x1_S128x7_S128x1160_d1) bitsLt_bf16_f32
      = folded W g b mu v := by
  funext j0
  refine congrFun (concatenate_eq_of_restricts (t := S128x1160) (1 : Fin 2) (pieces W g b mu v) concatenates_S128x1152_S128x1_S128x7_S128x1160_d1
    (folded W g b mu v) ?_) j0
  unfold pieces
  refine ⟨?_, ?_, ?_, trivial⟩
  · -- the scaled weights occupy columns 0 .. 1151
    intro hr i j hi ha
    obtain ⟨o, k, rfl⟩ : ∃ (o : Fin 128) (k : Fin 1152), i = ix2 o k := ⟨i 0, i 1, eq_ix2 i⟩
    obtain ⟨o', k', rfl⟩ : ∃ (o' : Fin 128) (k' : Fin 1160), j = ix2 o' k' := ⟨j 0, j 1, eq_ix2 j⟩
    have h0 : o.val = o'.val := hi 0 (Fin.ne_of_val_ne (show (0 : Nat) ≠ 1 by decide))
    have h1 : 0 + k.val = k'.val := ha
    obtain rfl : o = o' := Fin.ext h0
    have hk : k'.val < 1152 := by have := k.isLt; omega
    obtain rfl : k = ⟨k'.val, hk⟩ := Fin.ext (show k.val = k'.val by omega)
    show _ * _ = folded W g b mu v (ix2 o k')
    rw [tapMajor_apply, spread_apply]
    unfold folded
    rw [dif_pos (show (ix2 o k' 1).val < 1152 from hk)]
    rfl
  · -- the shift is column 1152
    intro hr i j hi ha
    obtain ⟨o, z, rfl⟩ : ∃ (o : Fin 128) (z : Fin 1), i = ix2 o z := ⟨i 0, i 1, eq_ix2 i⟩
    obtain ⟨o', k', rfl⟩ : ∃ (o' : Fin 128) (k' : Fin 1160), j = ix2 o' k' := ⟨j 0, j 1, eq_ix2 j⟩
    have h0 : o.val = o'.val := hi 0 (Fin.ne_of_val_ne (show (0 : Nat) ≠ 1 by decide))
    have h1 : 1152 + z.val = k'.val := ha
    obtain rfl : o = o' := Fin.ext h0
    have hk : k'.val = 1152 := by have := z.isLt; omega
    dsimp only
    rw [column_apply]
    unfold folded
    rw [dif_neg (show ¬ (ix2 o k' 1).val < 1152 from by show ¬ k'.val < 1152; omega), if_pos (show (ix2 o k' 1).val = 1152 from hk)]
    rfl
  · -- the padding is columns 1153 .. 1159
    intro hr i j hi ha
    obtain ⟨o, z, rfl⟩ : ∃ (o : Fin 128) (z : Fin 7), i = ix2 o z := ⟨i 0, i 1, eq_ix2 i⟩
    obtain ⟨o', k', rfl⟩ : ∃ (o' : Fin 128) (k' : Fin 1160), j = ix2 o' k' := ⟨j 0, j 1, eq_ix2 j⟩
    have h1 : 1153 + z.val = k'.val := ha
    unfold folded
    rw [dif_neg (show ¬ (ix2 o' k' 1).val < 1152 from by show ¬ k'.val < 1152; omega), if_neg (show ¬ (ix2 o' k' 1).val = 1152 from by show ¬ k'.val = 1152; omega)]
    exact Ideal.ofBits_zero_f32

/-! ## The two matrices of the program -/

/-- The first weight matrix [128,1160]: scaled weights (tap-major), the shift column, seven zero columns. -/
theorem w1_fold (o : Fin 128) (k : Fin 1160) :
    (V (F := Ideal) m c main_v15 : S128x1160.Idx → EReal) (ix2 o k)
      = if h : k.val < 1152 then
          wt (m ((c : Thread nD τ).loc main_arg1)) o (chan ⟨k.val, h⟩) (tapY ⟨k.val, h⟩) (tapX ⟨k.val, h⟩) * scale (vec (m ((c : Thread nD τ).loc main_arg2))) (vec (m ((c : Thread nD τ).loc main_arg5))) o
        else if k.val = 1152 then shift (vec (m ((c : Thread nD τ).loc main_arg3))) (vec (m ((c : Thread nD τ).loc main_arg4))) (vec (m ((c : Thread nD τ).loc main_arg2))) (vec (m ((c : Thread nD τ).loc main_arg5))) o
        else 0 := by
  rw [op_main_v15 m c, op_main_v14 m c, op_main_v13 m c, op_main_cst_0 m c, op_main_v12 m c, op_main_v11 m c, op_main_v10 m c, op_main_v9 m c, op_main_v8 m c, op_main_v7 m c, op_main_v6 m c, op_main_v5 m c, op_main_v4 m c, op_main_v3 m c, op_main_v2 m c, op_main_v1 m c, op_main_cst m c]
  rw [V_main_arg1 m c, V_main_arg2 m c, V_main_arg3 m c, V_main_arg4 m c, V_main_arg5 m c]
  exact congrFun (fold_term_eq (m ((c : Thread nD τ).loc main_arg1)) (m ((c : Thread nD τ).loc main_arg2)) (m ((c : Thread nD τ).loc main_arg3)) (m ((c : Thread nD τ).loc main_arg4)) (m ((c : Thread nD τ).loc main_arg5))) (ix2 o k)

/-- The second weight matrix. -/
theorem w2_fold (o : Fin 128) (k : Fin 1160) :
    (V (F := Ideal) m c main_v30 : S128x1160.Idx → EReal) (ix2 o k)
      = if h : k.val < 1152 then
          wt (m ((c : Thread nD τ).loc main_arg6)) o (chan ⟨k.val, h⟩) (tapY ⟨k.val, h⟩) (tapX ⟨k.val, h⟩) * scale (vec (m ((c : Thread nD τ).loc main_arg7))) (vec (m ((c : Thread nD τ).loc main_arg10))) o
        else if k.val = 1152 then shift (vec (m ((c : Thread nD τ).loc main_arg8))) (vec (m ((c : Thread nD τ).loc main_arg9))) (vec (m ((c : Thread nD τ).loc main_arg7))) (vec (m ((c : Thread nD τ).loc main_arg10))) o
        else 0 := by
  rw [op_main_v30 m c, op_main_v29 m c, op_main_v28 m c, op_main_cst_2 m c, op_main_v27 m c, op_main_v26 m c, op_main_v25 m c, op_main_v24 m c, op_main_v23 m c, op_main_v22 m c, op_main_v21 m c, op_main_v20 m c, op_main_v19 m c, op_main_v18 m c, op_main_v17 m c, op_main_v16 m c, op_main_cst_1 m c]
  rw [V_main_arg6 m c, V_main_arg7 m c, V_main_arg8 m c, V_main_arg9 m c, V_main_arg10 m c]
  exact congrFun (fold_term_eq (m ((c : Thread nD τ).loc main_arg6)) (m ((c : Thread nD τ).loc main_arg7)) (m ((c : Thread nD τ).loc main_arg8)) (m ((c : Thread nD τ).loc main_arg9)) (m ((c : Thread nD τ).loc main_arg10))) (ix2 o k)

end Cert.KernelIdeal.HostVal

end
-- ==== Proof.IdealHostJoin9.lean ====
/-
  A join of nine operands in a line of host operations where each array is written once.

  The operation is written over a literal family of nine arrays.  Cut the line at the operation: the part after it
  writes neither the result nor the nine operands, so the result array holds after the whole line the operation's
  function of the nine operand arrays read after the whole line — each operand at its own array, so that reading can go
  on into the operands.  Independent of any program.
-/
import proofs.«104539_g2000404336194624_pallasbulk_886_2_alg».proof.Proof.LibHostSSA

noncomputable section

namespace Cert.KernelIdeal.HostVal

open Idealize.ShloMosaic Idealize.ShloMosaic.StableHlo Idealize.SL.Sem

variable {τ' : Topo} {sig' : RefSig} {Val : EltTy → Type} {L : List (HloOp τ' sig' Val)} {W : List (Ref sig' .tc)}
variable {x0 x1 x2 x3 x4 x5 x6 x7 x8 y : Ref sig' .tc}

/-- The result array of a join of nine operands holds, after the line, the join of the nine operand arrays read after
    the line. -/
theorem ssa_nary9 (h : Cert.Lib.WritesAre L W) (k : ℕ) (V : Valuation τ' sig' Val)
    (f : ((i : Fin 9) → ((![x0, x1, x2, x3, x4, x5, x6, x7, x8] : Fin 9 → Ref sig' .tc) i).ty.Contents Val) → y.ty.Contents Val) (hxs hy)
    (hk : L.drop k = nary (τ := τ') ![x0, x1, x2, x3, x4, x5, x6, x7, x8] y f hxs hy :: L.drop (k + 1)) (hy' : y ∉ W.drop (k + 1))
    (h0 : x0 ∉ W.drop k) (h1 : x1 ∉ W.drop k) (h2 : x2 ∉ W.drop k) (h3 : x3 ∉ W.drop k) (h4 : x4 ∉ W.drop k)
    (h5 : x5 ∉ W.drop k) (h6 : x6 ∉ W.drop k) (h7 : x7 ∉ W.drop k) (h8 : x8 ∉ W.drop k) :
    StableHlo.after L V (Proc.devRef .tc y)
      = f (Fin.cons (StableHlo.after L V (Proc.devRef .tc x0)) (Fin.cons (StableHlo.after L V (Proc.devRef .tc x1))
          (Fin.cons (StableHlo.after L V (Proc.devRef .tc x2)) (Fin.cons (StableHlo.after L V (Proc.devRef .tc x3))
          (Fin.cons (StableHlo.after L V (Proc.devRef .tc x4)) (Fin.cons (StableHlo.after L V (Proc.devRef .tc x5))
          (Fin.cons (StableHlo.after L V (Proc.devRef .tc x6)) (Fin.cons (StableHlo.after L V (Proc.devRef .tc x7))
          (Fin.cons (StableHlo.after L V (Proc.devRef .tc x8)) (fun i => i.elim0)))))))))) := by
  rw [Cert.Lib.after_at h k V _ hk y hy', nary_result, Cert.Lib.after_eq_take h k V x0 h0, Cert.Lib.after_eq_take h k V x1 h1,
    Cert.Lib.after_eq_take h k V x2 h2, Cert.Lib.after_eq_take h k V x3 h3, Cert.Lib.after_eq_take h k V x4 h4,
    Cert.Lib.after_eq_take h k V x5 h5, Cert.Lib.after_eq_take h k V x6 h6, Cert.Lib.after_eq_take h k V x7 h7,
    Cert.Lib.after_eq_take h k V x8 h8]
  congr 1; funext i; fin_cases i <;> rfl

end Cert.KernelIdeal.HostVal

end
-- ==== Proof.IdealHostOpsC.lean ====
/-
  One statement per host operation: the array the operation writes, read when the call is entered, holds the
  operation's function of its operand arrays read when the call is entered — the last 20 operations: the nine tap arrays stacked into the mask array, converted
  and spread over the channels; the block of eight rows whose first row is ones.
  Each is the single-assignment reading of the line at the operation's position: the line writes each array once, the
  operation is the one at that position, no later operation writes its result and none from there on writes its operands.
-/
import proofs.«104539_g2000404336194624_pallasbulk_886_2_alg».proof.Proof.IdealHostLine
import proofs.«104539_g2000404336194624_pallasbulk_886_2_alg».proof.Proof.IdealHostJoin9

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

theorem op_main_v277 : (V (F := Ideal) m c main_v277 : S1x3136.Idx → BitVec 1) = (broadcastInDim S1x3136 ![1] bcast_S3136_S1x3136_1) (V (F := Ideal) m c main_v60 : S3136.Idx → BitVec 1) :=
  Cert.Lib.ssa_unary line_writes 427 _ _ _ _ rfl (by decide +kernel) (by decide +kernel)

theorem op_main_v278 : (V (F := Ideal) m c main_v278 : S1x3136.Idx → BitVec 1) = (broadcastInDim S1x3136 ![1] bcast_S3136_S1x3136_1) (V (F := Ideal) m c main_v87 : S3136.Idx → BitVec 1) :=
  Cert.Lib.ssa_unary line_writes 428 _ _ _ _ rfl (by decide +kernel) (by decide +kernel)

theorem op_main_v279 : (V (F := Ideal) m c main_v279 : S1x3136.Idx → BitVec 1) = (broadcastInDim S1x3136 ![1] bcast_S3136_S1x3136_1) (V (F := Ideal) m c main_v114 : S3136.Idx → BitVec 1) :=
  Cert.Lib.ssa_unary line_writes 429 _ _ _ _ rfl (by decide +kernel) (by decide +kernel)

theorem op_main_v280 : (V (F := Ideal) m c main_v280 : S1x3136.Idx → BitVec 1) = (broadcastInDim S1x3136 ![1] bcast_S3136_S1x3136_1) (V (F := Ideal) m c main_v141 : S3136.Idx → BitVec 1) :=
  Cert.Lib.ssa_unary line_writes 430 _ _ _ _ rfl (by decide +kernel) (by decide +kernel)

theorem op_main_v281 : (V (F := Ideal) m c main_v281 : S1x3136.Idx → BitVec 1) = (broadcastInDim S1x3136 ![1] bcast_S3136_S1x3136_1) (V (F := Ideal) m c main_v168 : S3136.Idx → BitVec 1) :=
  Cert.Lib.ssa_unary line_writes 431 _ _ _ _ rfl (by decide +kernel) (by decide +kernel)

theorem op_main_v282 : (V (F := Ideal) m c main_v282 : S1x3136.Idx → BitVec 1) = (broadcastInDim S1x3136 ![1] bcast_S3136_S1x3136_1) (V (F := Ideal) m c main_v195 : S3136.Idx → BitVec 1) :=
  Cert.Lib.ssa_unary line_writes 432 _ _ _ _ rfl (by decide +kernel) (by decide +kernel)

theorem op_main_v283 : (V (F := Ideal) m c main_v283 : S1x3136.Idx → BitVec 1) = (broadcastInDim S1x3136 ![1] bcast_S3136_S1x3136_1) (V (F := Ideal) m c main_v222 : S3136.Idx → BitVec 1) :=
  Cert.Lib.ssa_unary line_writes 433 _ _ _ _ rfl (by decide +kernel) (by decide +kernel)

theorem op_main_v284 : (V (F := Ideal) m c main_v284 : S1x3136.Idx → BitVec 1) = (broadcastInDim S1x3136 ![1] bcast_S3136_S1x3136_1) (V (F := Ideal) m c main_v249 : S3136.Idx → BitVec 1) :=
  Cert.Lib.ssa_unary line_writes 434 _ _ _ _ rfl (by decide +kernel) (by decide +kernel)

theorem op_main_v285 : (V (F := Ideal) m c main_v285 : S1x3136.Idx → BitVec 1) = (broadcastInDim S1x3136 ![1] bcast_S3136_S1x3136_1) (V (F := Ideal) m c main_v276 : S3136.Idx → BitVec 1) :=
  Cert.Lib.ssa_unary line_writes 435 _ _ _ _ rfl (by decide +kernel) (by decide +kernel)

set_option maxHeartbeats 8000000 in
theorem op_main_v286 : (V (F := Ideal) m c main_v286 : S9x3136.Idx → BitVec 1) = concatenate (α := BitVec 1) S9x3136 0 [⟨S1x3136, (V (F := Ideal) m c main_v277 : S1x3136.Idx → BitVec 1)⟩, ⟨S1x3136, (V (F := Ideal) m c main_v278 : S1x3136.Idx → BitVec 1)⟩, ⟨S1x3136, (V (F := Ideal) m c main_v279 : S1x3136.Idx → BitVec 1)⟩, ⟨S1x3136, (V (F := Ideal) m c main_v280 : S1x3136.Idx → BitVec 1)⟩, ⟨S1x3136, (V (F := Ideal) m c main_v281 : S1x3136.Idx → BitVec 1)⟩, ⟨S1x3136, (V (F := Ideal) m c main_v282 : S1x3136.Idx → BitVec 1)⟩, ⟨S1x3136, (V (F := Ideal) m c main_v283 : S1x3136.Idx → BitVec 1)⟩, ⟨S1x3136, (V (F := Ideal) m c main_v284 : S1x3136.Idx → BitVec 1)⟩, ⟨S1x3136, (V (F := Ideal) m c main_v285 : S1x3136.Idx → BitVec 1)⟩] concatenates_S1x3136_S1x3136_S1x3136_S1x3136_S1x3136_S1x3136_S1x3136_S1x3136_S1x3136_S9x3136_d0 := by
  have h := ssa_nary9 (x0 := main_v277) (x1 := main_v278) (x2 := main_v279) (x3 := main_v280) (x4 := main_v281) (x5 := main_v282) (x6 := main_v283) (x7 := main_v284) (x8 := main_v285) (y := main_v286) line_writes 436 (fun b => m (c, b))
    (fun u => concatenate S9x3136 0 [⟨S1x3136, u 0⟩, ⟨S1x3136, u 1⟩, ⟨S1x3136, u 2⟩, ⟨S1x3136, u 3⟩, ⟨S1x3136, u 4⟩, ⟨S1x3136, u 5⟩, ⟨S1x3136, u 6⟩, ⟨S1x3136, u 7⟩, ⟨S1x3136, u 8⟩] concatenates_S1x3136_S1x3136_S1x3136_S1x3136_S1x3136_S1x3136_S1x3136_S1x3136_S1x3136_S9x3136_d0) (by decide) ⟨by decide, rfl⟩ rfl (by decide +kernel) (by decide +kernel) (by decide +kernel) (by decide +kernel) (by decide +kernel) (by decide +kernel) (by decide +kernel) (by decide +kernel) (by decide +kernel) (by decide +kernel)
  exact h

theorem op_main_v287 : (V (F := Ideal) m c main_v287 : S9x3136.Idx → EReal) = uitofp (F := Ideal) .bf16 (V (F := Ideal) m c main_v286 : S9x3136.Idx → BitVec 1) :=
  Cert.Lib.ssa_unary line_writes 437 _ _ _ _ rfl (by decide +kernel) (by decide +kernel)

theorem op_main_v288 : (V (F := Ideal) m c main_v288 : S9x1x3136.Idx → EReal) = (broadcastInDim S9x1x3136 ![0, 2] bcast_S9x3136_S9x1x3136_0_2) (V (F := Ideal) m c main_v287 : S9x3136.Idx → EReal) :=
  Cert.Lib.ssa_unary line_writes 438 _ _ _ _ rfl (by decide +kernel) (by decide +kernel)

theorem op_main_v289 : (V (F := Ideal) m c main_v289 : S9x128x3136.Idx → EReal) = (broadcastInDim S9x128x3136 ![0, 1, 2] bcast_S9x1x3136_S9x128x3136_0_1_2) (V (F := Ideal) m c main_v288 : S9x1x3136.Idx → EReal) :=
  Cert.Lib.ssa_unary line_writes 439 _ _ _ _ rfl (by decide +kernel) (by decide +kernel)

theorem op_main_cst_112 : (V (F := Ideal) m c main_cst_112 : S_.Idx → EReal) = constant (F := Ideal) S_ .bf16 0x0000#16 :=
  Cert.Lib.ssa_nullary line_writes 440 _ _ _ rfl (by decide +kernel)

theorem op_main_v290 : (V (F := Ideal) m c main_v290 : S8x3136.Idx → EReal) = (broadcastInDim S8x3136 ![] bcast_S_S8x3136) (V (F := Ideal) m c main_cst_112 : S_.Idx → EReal) :=
  Cert.Lib.ssa_unary line_writes 441 _ _ _ _ rfl (by decide +kernel) (by decide +kernel)

theorem op_main_c_113 : (V (F := Ideal) m c main_c_113 : S_.Idx → BitVec 32) = constantI S_ 32 0#32 :=
  Cert.Lib.ssa_nullary line_writes 442 _ _ _ rfl (by decide +kernel)

theorem op_main_v291 : (V (F := Ideal) m c main_v291 : S1.Idx → BitVec 32) = (broadcastInDim S1 ![] bcast_S_S1) (V (F := Ideal) m c main_c_113 : S_.Idx → BitVec 32) :=
  Cert.Lib.ssa_unary line_writes 443 _ _ _ _ rfl (by decide +kernel) (by decide +kernel)

theorem op_main_cst_114 : (V (F := Ideal) m c main_cst_114 : S_.Idx → EReal) = constant (F := Ideal) S_ .bf16 0x3F80#16 :=
  Cert.Lib.ssa_nullary line_writes 444 _ _ _ rfl (by decide +kernel)

theorem op_main_v292 : (V (F := Ideal) m c main_v292 : S3136.Idx → EReal) = (broadcastInDim S3136 ![] bcast_S_S3136) (V (F := Ideal) m c main_cst_114 : S_.Idx → EReal) :=
  Cert.Lib.ssa_unary line_writes 445 _ _ _ _ rfl (by decide +kernel) (by decide +kernel)

theorem op_main_v293 : (V (F := Ideal) m c main_v293 : S8x3136.Idx → EReal) = Host.scatter scatter_S8x3136_S1_S3136_0_0_0_0 (fun _ b => b) (V (F := Ideal) m c main_v290 : S8x3136.Idx → EReal) (V (F := Ideal) m c main_v291 : S1.Idx → BitVec 32) (V (F := Ideal) m c main_v292 : S3136.Idx → EReal) :=
  Cert.Lib.ssa_ternary line_writes 446 _ _ _ _ _ _ rfl (by decide +kernel) (by decide +kernel) (by decide +kernel) (by decide +kernel)

end Cert.KernelIdeal.HostVal

end
-- ==== Proof.IdealHostOpsB0.lean ====
/-
  One statement per host operation: the array the operation writes, read when the call is entered, holds the
  operation's function of its operand arrays read when the call is entered — the stencil taps 0 to 2: per tap four signed comparisons of the row and column
  words shifted by the tap, joined by and.
  Each is the single-assignment reading of the line at the operation's position: the line writes each array once, the
  operation is the one at that position, no later operation writes its result and none from there on writes its operands.
-/
import proofs.«104539_g2000404336194624_pallasbulk_886_2_alg».proof.Proof.IdealHostLine

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

theorem op_main_c_4 : (V (F := Ideal) m c main_c_4 : S_.Idx → BitVec 32) = constantI S_ 32 0#32 :=
  Cert.Lib.ssa_nullary line_writes 76 _ _ _ rfl (by decide +kernel)

theorem op_main_v34 : (V (F := Ideal) m c main_v34 : S3136.Idx → BitVec 32) = (broadcastInDim S3136 ![] bcast_S_S3136) (V (F := Ideal) m c main_c_4 : S_.Idx → BitVec 32) :=
  Cert.Lib.ssa_unary line_writes 77 _ _ _ _ rfl (by decide +kernel) (by decide +kernel)

theorem op_main_v35 : (V (F := Ideal) m c main_v35 : S3136.Idx → BitVec 32) = addi (V (F := Ideal) m c main_v32 : S3136.Idx → BitVec 32) (V (F := Ideal) m c main_v34 : S3136.Idx → BitVec 32) :=
  Cert.Lib.ssa_binary line_writes 78 _ _ _ _ _ rfl (by decide +kernel) (by decide +kernel) (by decide +kernel)

theorem op_main_c_5 : (V (F := Ideal) m c main_c_5 : S_.Idx → BitVec 32) = constantI S_ 32 1#32 :=
  Cert.Lib.ssa_nullary line_writes 79 _ _ _ rfl (by decide +kernel)

theorem op_main_v36 : (V (F := Ideal) m c main_v36 : S3136.Idx → BitVec 32) = (broadcastInDim S3136 ![] bcast_S_S3136) (V (F := Ideal) m c main_c_5 : S_.Idx → BitVec 32) :=
  Cert.Lib.ssa_unary line_writes 80 _ _ _ _ rfl (by decide +kernel) (by decide +kernel)

theorem op_main_v37 : (V (F := Ideal) m c main_v37 : S3136.Idx → BitVec 32) = subi (V (F := Ideal) m c main_v35 : S3136.Idx → BitVec 32) (V (F := Ideal) m c main_v36 : S3136.Idx → BitVec 32) :=
  Cert.Lib.ssa_binary line_writes 81 _ _ _ _ _ rfl (by decide +kernel) (by decide +kernel) (by decide +kernel)

theorem op_main_c_6 : (V (F := Ideal) m c main_c_6 : S_.Idx → BitVec 32) = constantI S_ 32 0#32 :=
  Cert.Lib.ssa_nullary line_writes 82 _ _ _ rfl (by decide +kernel)

theorem op_main_v38 : (V (F := Ideal) m c main_v38 : S3136.Idx → BitVec 32) = (broadcastInDim S3136 ![] bcast_S_S3136) (V (F := Ideal) m c main_c_6 : S_.Idx → BitVec 32) :=
  Cert.Lib.ssa_unary line_writes 83 _ _ _ _ rfl (by decide +kernel) (by decide +kernel)

theorem op_main_v39 : (V (F := Ideal) m c main_v39 : S3136.Idx → BitVec 1) = (cmpi .sge) (V (F := Ideal) m c main_v37 : S3136.Idx → BitVec 32) (V (F := Ideal) m c main_v38 : S3136.Idx → BitVec 32) :=
  Cert.Lib.ssa_binary line_writes 84 _ _ _ _ _ rfl (by decide +kernel) (by decide +kernel) (by decide +kernel)

theorem op_main_c_7 : (V (F := Ideal) m c main_c_7 : S_.Idx → BitVec 32) = constantI S_ 32 0#32 :=
  Cert.Lib.ssa_nullary line_writes 85 _ _ _ rfl (by decide +kernel)

theorem op_main_v40 : (V (F := Ideal) m c main_v40 : S3136.Idx → BitVec 32) = (broadcastInDim S3136 ![] bcast_S_S3136) (V (F := Ideal) m c main_c_7 : S_.Idx → BitVec 32) :=
  Cert.Lib.ssa_unary line_writes 86 _ _ _ _ rfl (by decide +kernel) (by decide +kernel)

theorem op_main_v41 : (V (F := Ideal) m c main_v41 : S3136.Idx → BitVec 32) = addi (V (F := Ideal) m c main_v32 : S3136.Idx → BitVec 32) (V (F := Ideal) m c main_v40 : S3136.Idx → BitVec 32) :=
  Cert.Lib.ssa_binary line_writes 87 _ _ _ _ _ rfl (by decide +kernel) (by decide +kernel) (by decide +kernel)

theorem op_main_c_8 : (V (F := Ideal) m c main_c_8 : S_.Idx → BitVec 32) = constantI S_ 32 1#32 :=
  Cert.Lib.ssa_nullary line_writes 88 _ _ _ rfl (by decide +kernel)

theorem op_main_v42 : (V (F := Ideal) m c main_v42 : S3136.Idx → BitVec 32) = (broadcastInDim S3136 ![] bcast_S_S3136) (V (F := Ideal) m c main_c_8 : S_.Idx → BitVec 32) :=
  Cert.Lib.ssa_unary line_writes 89 _ _ _ _ rfl (by decide +kernel) (by decide +kernel)

theorem op_main_v43 : (V (F := Ideal) m c main_v43 : S3136.Idx → BitVec 32) = subi (V (F := Ideal) m c main_v41 : S3136.Idx → BitVec 32) (V (F := Ideal) m c main_v42 : S3136.Idx → BitVec 32) :=
  Cert.Lib.ssa_binary line_writes 90 _ _ _ _ _ rfl (by decide +kernel) (by decide +kernel) (by decide +kernel)

theorem op_main_c_9 : (V (F := Ideal) m c main_c_9 : S_.Idx → BitVec 32) = constantI S_ 32 56#32 :=
  Cert.Lib.ssa_nullary line_writes 91 _ _ _ rfl (by decide +kernel)

theorem op_main_v44 : (V (F := Ideal) m c main_v44 : S3136.Idx → BitVec 32) = (broadcastInDim S3136 ![] bcast_S_S3136) (V (F := Ideal) m c main_c_9 : S_.Idx → BitVec 32) :=
  Cert.Lib.ssa_unary line_writes 92 _ _ _ _ rfl (by decide +kernel) (by decide +kernel)

theorem op_main_v45 : (V (F := Ideal) m c main_v45 : S3136.Idx → BitVec 1) = (cmpi .slt) (V (F := Ideal) m c main_v43 : S3136.Idx → BitVec 32) (V (F := Ideal) m c main_v44 : S3136.Idx → BitVec 32) :=
  Cert.Lib.ssa_binary line_writes 93 _ _ _ _ _ rfl (by decide +kernel) (by decide +kernel) (by decide +kernel)

theorem op_main_v46 : (V (F := Ideal) m c main_v46 : S3136.Idx → BitVec 1) = andi (V (F := Ideal) m c main_v39 : S3136.Idx → BitVec 1) (V (F := Ideal) m c main_v45 : S3136.Idx → BitVec 1) :=
  Cert.Lib.ssa_binary line_writes 94 _ _ _ _ _ rfl (by decide +kernel) (by decide +kernel) (by decide +kernel)

theorem op_main_c_10 : (V (F := Ideal) m c main_c_10 : S_.Idx → BitVec 32) = constantI S_ 32 0#32 :=
  Cert.Lib.ssa_nullary line_writes 95 _ _ _ rfl (by decide +kernel)

theorem op_main_v47 : (V (F := Ideal) m c main_v47 : S3136.Idx → BitVec 32) = (broadcastInDim S3136 ![] bcast_S_S3136) (V (F := Ideal) m c main_c_10 : S_.Idx → BitVec 32) :=
  Cert.Lib.ssa_unary line_writes 96 _ _ _ _ rfl (by decide +kernel) (by decide +kernel)

theorem op_main_v48 : (V (F := Ideal) m c main_v48 : S3136.Idx → BitVec 32) = addi (V (F := Ideal) m c main_v33 : S3136.Idx → BitVec 32) (V (F := Ideal) m c main_v47 : S3136.Idx → BitVec 32) :=
  Cert.Lib.ssa_binary line_writes 97 _ _ _ _ _ rfl (by decide +kernel) (by decide +kernel) (by decide +kernel)

theorem op_main_c_11 : (V (F := Ideal) m c main_c_11 : S_.Idx → BitVec 32) = constantI S_ 32 1#32 :=
  Cert.Lib.ssa_nullary line_writes 98 _ _ _ rfl (by decide +kernel)

theorem op_main_v49 : (V (F := Ideal) m c main_v49 : S3136.Idx → BitVec 32) = (broadcastInDim S3136 ![] bcast_S_S3136) (V (F := Ideal) m c main_c_11 : S_.Idx → BitVec 32) :=
  Cert.Lib.ssa_unary line_writes 99 _ _ _ _ rfl (by decide +kernel) (by decide +kernel)

theorem op_main_v50 : (V (F := Ideal) m c main_v50 : S3136.Idx → BitVec 32) = subi (V (F := Ideal) m c main_v48 : S3136.Idx → BitVec 32) (V (F := Ideal) m c main_v49 : S3136.Idx → BitVec 32) :=
  Cert.Lib.ssa_binary line_writes 100 _ _ _ _ _ rfl (by decide +kernel) (by decide +kernel) (by decide +kernel)

theorem op_main_c_12 : (V (F := Ideal) m c main_c_12 : S_.Idx → BitVec 32) = constantI S_ 32 0#32 :=
  Cert.Lib.ssa_nullary line_writes 101 _ _ _ rfl (by decide +kernel)

theorem op_main_v51 : (V (F := Ideal) m c main_v51 : S3136.Idx → BitVec 32) = (broadcastInDim S3136 ![] bcast_S_S3136) (V (F := Ideal) m c main_c_12 : S_.Idx → BitVec 32) :=
  Cert.Lib.ssa_unary line_writes 102 _ _ _ _ rfl (by decide +kernel) (by decide +kernel)

theorem op_main_v52 : (V (F := Ideal) m c main_v52 : S3136.Idx → BitVec 1) = (cmpi .sge) (V (F := Ideal) m c main_v50 : S3136.Idx → BitVec 32) (V (F := Ideal) m c main_v51 : S3136.Idx → BitVec 32) :=
  Cert.Lib.ssa_binary line_writes 103 _ _ _ _ _ rfl (by decide +kernel) (by decide +kernel) (by decide +kernel)

theorem op_main_v53 : (V (F := Ideal) m c main_v53 : S3136.Idx → BitVec 1) = andi (V (F := Ideal) m c main_v46 : S3136.Idx → BitVec 1) (V (F := Ideal) m c main_v52 : S3136.Idx → BitVec 1) :=
  Cert.Lib.ssa_binary line_writes 104 _ _ _ _ _ rfl (by decide +kernel) (by decide +kernel) (by decide +kernel)

theorem op_main_c_13 : (V (F := Ideal) m c main_c_13 : S_.Idx → BitVec 32) = constantI S_ 32 0#32 :=
  Cert.Lib.ssa_nullary line_writes 105 _ _ _ rfl (by decide +kernel)

theorem op_main_v54 : (V (F := Ideal) m c main_v54 : S3136.Idx → BitVec 32) = (broadcastInDim S3136 ![] bcast_S_S3136) (V (F := Ideal) m c main_c_13 : S_.Idx → BitVec 32) :=
  Cert.Lib.ssa_unary line_writes 106 _ _ _ _ rfl (by decide +kernel) (by decide +kernel)

theorem op_main_v55 : (V (F := Ideal) m c main_v55 : S3136.Idx → BitVec 32) = addi (V (F := Ideal) m c main_v33 : S3136.Idx → BitVec 32) (V (F := Ideal) m c main_v54 : S3136.Idx → BitVec 32) :=
  Cert.Lib.ssa_binary line_writes 107 _ _ _ _ _ rfl (by decide +kernel) (by decide +kernel) (by decide +kernel)

theorem op_main_c_14 : (V (F := Ideal) m c main_c_14 : S_.Idx → BitVec 32) = constantI S_ 32 1#32 :=
  Cert.Lib.ssa_nullary line_writes 108 _ _ _ rfl (by decide +kernel)

theorem op_main_v56 : (V (F := Ideal) m c main_v56 : S3136.Idx → BitVec 32) = (broadcastInDim S3136 ![] bcast_S_S3136) (V (F := Ideal) m c main_c_14 : S_.Idx → BitVec 32) :=
  Cert.Lib.ssa_unary line_writes 109 _ _ _ _ rfl (by decide +kernel) (by decide +kernel)

theorem op_main_v57 : (V (F := Ideal) m c main_v57 : S3136.Idx → BitVec 32) = subi (V (F := Ideal) m c main_v55 : S3136.Idx → BitVec 32) (V (F := Ideal) m c main_v56 : S3136.Idx → BitVec 32) :=
  Cert.Lib.ssa_binary line_writes 110 _ _ _ _ _ rfl (by decide +kernel) (by decide +kernel) (by decide +kernel)

theorem op_main_c_15 : (V (F := Ideal) m c main_c_15 : S_.Idx → BitVec 32) = constantI S_ 32 56#32 :=
  Cert.Lib.ssa_nullary line_writes 111 _ _ _ rfl (by decide +kernel)

theorem op_main_v58 : (V (F := Ideal) m c main_v58 : S3136.Idx → BitVec 32) = (broadcastInDim S3136 ![] bcast_S_S3136) (V (F := Ideal) m c main_c_15 : S_.Idx → BitVec 32) :=
  Cert.Lib.ssa_unary line_writes 112 _ _ _ _ rfl (by decide +kernel) (by decide +kernel)

theorem op_main_v59 : (V (F := Ideal) m c main_v59 : S3136.Idx → BitVec 1) = (cmpi .slt) (V (F := Ideal) m c main_v57 : S3136.Idx → BitVec 32) (V (F := Ideal) m c main_v58 : S3136.Idx → BitVec 32) :=
  Cert.Lib.ssa_binary line_writes 113 _ _ _ _ _ rfl (by decide +kernel) (by decide +kernel) (by decide +kernel)

theorem op_main_v60 : (V (F := Ideal) m c main_v60 : S3136.Idx → BitVec 1) = andi (V (F := Ideal) m c main_v53 : S3136.Idx → BitVec 1) (V (F := Ideal) m c main_v59 : S3136.Idx → BitVec 1) :=
  Cert.Lib.ssa_binary line_writes 114 _ _ _ _ _ rfl (by decide +kernel) (by decide +kernel) (by decide +kernel)

theorem op_main_c_16 : (V (F := Ideal) m c main_c_16 : S_.Idx → BitVec 32) = constantI S_ 32 0#32 :=
  Cert.Lib.ssa_nullary line_writes 115 _ _ _ rfl (by decide +kernel)

theorem op_main_v61 : (V (F := Ideal) m c main_v61 : S3136.Idx → BitVec 32) = (broadcastInDim S3136 ![] bcast_S_S3136) (V (F := Ideal) m c main_c_16 : S_.Idx → BitVec 32) :=
  Cert.Lib.ssa_unary line_writes 116 _ _ _ _ rfl (by decide +kernel) (by decide +kernel)

theorem op_main_v62 : (V (F := Ideal) m c main_v62 : S3136.Idx → BitVec 32) = addi (V (F := Ideal) m c main_v32 : S3136.Idx → BitVec 32) (V (F := Ideal) m c main_v61 : S3136.Idx → BitVec 32) :=
  Cert.Lib.ssa_binary line_writes 117 _ _ _ _ _ rfl (by decide +kernel) (by decide +kernel) (by decide +kernel)

theorem op_main_c_17 : (V (F := Ideal) m c main_c_17 : S_.Idx → BitVec 32) = constantI S_ 32 1#32 :=
  Cert.Lib.ssa_nullary line_writes 118 _ _ _ rfl (by decide +kernel)

theorem op_main_v63 : (V (F := Ideal) m c main_v63 : S3136.Idx → BitVec 32) = (broadcastInDim S3136 ![] bcast_S_S3136) (V (F := Ideal) m c main_c_17 : S_.Idx → BitVec 32) :=
  Cert.Lib.ssa_unary line_writes 119 _ _ _ _ rfl (by decide +kernel) (by decide +kernel)

theorem op_main_v64 : (V (F := Ideal) m c main_v64 : S3136.Idx → BitVec 32) = subi (V (F := Ideal) m c main_v62 : S3136.Idx → BitVec 32) (V (F := Ideal) m c main_v63 : S3136.Idx → BitVec 32) :=
  Cert.Lib.ssa_binary line_writes 120 _ _ _ _ _ rfl (by decide +kernel) (by decide +kernel) (by decide +kernel)

theorem op_main_c_18 : (V (F := Ideal) m c main_c_18 : S_.Idx → BitVec 32) = constantI S_ 32 0#32 :=
  Cert.Lib.ssa_nullary line_writes 121 _ _ _ rfl (by decide +kernel)

theorem op_main_v65 : (V (F := Ideal) m c main_v65 : S3136.Idx → BitVec 32) = (broadcastInDim S3136 ![] bcast_S_S3136) (V (F := Ideal) m c main_c_18 : S_.Idx → BitVec 32) :=
  Cert.Lib.ssa_unary line_writes 122 _ _ _ _ rfl (by decide +kernel) (by decide +kernel)

theorem op_main_v66 : (V (F := Ideal) m c main_v66 : S3136.Idx → BitVec 1) = (cmpi .sge) (V (F := Ideal) m c main_v64 : S3136.Idx → BitVec 32) (V (F := Ideal) m c main_v65 : S3136.Idx → BitVec 32) :=
  Cert.Lib.ssa_binary line_writes 123 _ _ _ _ _ rfl (by decide +kernel) (by decide +kernel) (by decide +kernel)

theorem op_main_c_19 : (V (F := Ideal) m c main_c_19 : S_.Idx → BitVec 32) = constantI S_ 32 0#32 :=
  Cert.Lib.ssa_nullary line_writes 124 _ _ _ rfl (by decide +kernel)

theorem op_main_v67 : (V (F := Ideal) m c main_v67 : S3136.Idx → BitVec 32) = (broadcastInDim S3136 ![] bcast_S_S3136) (V (F := Ideal) m c main_c_19 : S_.Idx → BitVec 32) :=
  Cert.Lib.ssa_unary line_writes 125 _ _ _ _ rfl (by decide +kernel) (by decide +kernel)

theorem op_main_v68 : (V (F := Ideal) m c main_v68 : S3136.Idx → BitVec 32) = addi (V (F := Ideal) m c main_v32 : S3136.Idx → BitVec 32) (V (F := Ideal) m c main_v67 : S3136.Idx → BitVec 32) :=
  Cert.Lib.ssa_binary line_writes 126 _ _ _ _ _ rfl (by decide +kernel) (by decide +kernel) (by decide +kernel)

theorem op_main_c_20 : (V (F := Ideal) m c main_c_20 : S_.Idx → BitVec 32) = constantI S_ 32 1#32 :=
  Cert.Lib.ssa_nullary line_writes 127 _ _ _ rfl (by decide +kernel)

theorem op_main_v69 : (V (F := Ideal) m c main_v69 : S3136.Idx → BitVec 32) = (broadcastInDim S3136 ![] bcast_S_S3136) (V (F := Ideal) m c main_c_20 : S_.Idx → BitVec 32) :=
  Cert.Lib.ssa_unary line_writes 128 _ _ _ _ rfl (by decide +kernel) (by decide +kernel)

theorem op_main_v70 : (V (F := Ideal) m c main_v70 : S3136.Idx → BitVec 32) = subi (V (F := Ideal) m c main_v68 : S3136.Idx → BitVec 32) (V (F := Ideal) m c main_v69 : S3136.Idx → BitVec 32) :=
  Cert.Lib.ssa_binary line_writes 129 _ _ _ _ _ rfl (by decide +kernel) (by decide +kernel) (by decide +kernel)

theorem op_main_c_21 : (V (F := Ideal) m c main_c_21 : S_.Idx → BitVec 32) = constantI S_ 32 56#32 :=
  Cert.Lib.ssa_nullary line_writes 130 _ _ _ rfl (by decide +kernel)

theorem op_main_v71 : (V (F := Ideal) m c main_v71 : S3136.Idx → BitVec 32) = (broadcastInDim S3136 ![] bcast_S_S3136) (V (F := Ideal) m c main_c_21 : S_.Idx → BitVec 32) :=
  Cert.Lib.ssa_unary line_writes 131 _ _ _ _ rfl (by decide +kernel) (by decide +kernel)

theorem op_main_v72 : (V (F := Ideal) m c main_v72 : S3136.Idx → BitVec 1) = (cmpi .slt) (V (F := Ideal) m c main_v70 : S3136.Idx → BitVec 32) (V (F := Ideal) m c main_v71 : S3136.Idx → BitVec 32) :=
  Cert.Lib.ssa_binary line_writes 132 _ _ _ _ _ rfl (by decide +kernel) (by decide +kernel) (by decide +kernel)

theorem op_main_v73 : (V (F := Ideal) m c main_v73 : S3136.Idx → BitVec 1) = andi (V (F := Ideal) m c main_v66 : S3136.Idx → BitVec 1) (V (F := Ideal) m c main_v72 : S3136.Idx → BitVec 1) :=
  Cert.Lib.ssa_binary line_writes 133 _ _ _ _ _ rfl (by decide +kernel) (by decide +kernel) (by decide +kernel)

theorem op_main_c_22 : (V (F := Ideal) m c main_c_22 : S_.Idx → BitVec 32) = constantI S_ 32 1#32 :=
  Cert.Lib.ssa_nullary line_writes 134 _ _ _ rfl (by decide +kernel)

theorem op_main_v74 : (V (F := Ideal) m c main_v74 : S3136.Idx → BitVec 32) = (broadcastInDim S3136 ![] bcast_S_S3136) (V (F := Ideal) m c main_c_22 : S_.Idx → BitVec 32) :=
  Cert.Lib.ssa_unary line_writes 135 _ _ _ _ rfl (by decide +kernel) (by decide +kernel)

theorem op_main_v75 : (V (F := Ideal) m c main_v75 : S3136.Idx → BitVec 32) = addi (V (F := Ideal) m c main_v33 : S3136.Idx → BitVec 32) (V (F := Ideal) m c main_v74 : S3136.Idx → BitVec 32) :=
  Cert.Lib.ssa_binary line_writes 136 _ _ _ _ _ rfl (by decide +kernel) (by decide +kernel) (by decide +kernel)

theorem op_main_c_23 : (V (F := Ideal) m c main_c_23 : S_.Idx → BitVec 32) = constantI S_ 32 1#32 :=
  Cert.Lib.ssa_nullary line_writes 137 _ _ _ rfl (by decide +kernel)

theorem op_main_v76 : (V (F := Ideal) m c main_v76 : S3136.Idx → BitVec 32) = (broadcastInDim S3136 ![] bcast_S_S3136) (V (F := Ideal) m c main_c_23 : S_.Idx → BitVec 32) :=
  Cert.Lib.ssa_unary line_writes 138 _ _ _ _ rfl (by decide +kernel) (by decide +kernel)

theorem op_main_v77 : (V (F := Ideal) m c main_v77 : S3136.Idx → BitVec 32) = subi (V (F := Ideal) m c main_v75 : S3136.Idx → BitVec 32) (V (F := Ideal) m c main_v76 : S3136.Idx → BitVec 32) :=
  Cert.Lib.ssa_binary line_writes 139 _ _ _ _ _ rfl (by decide +kernel) (by decide +kernel) (by decide +kernel)

theorem op_main_c_24 : (V (F := Ideal) m c main_c_24 : S_.Idx → BitVec 32) = constantI S_ 32 0#32 :=
  Cert.Lib.ssa_nullary line_writes 140 _ _ _ rfl (by decide +kernel)

theorem op_main_v78 : (V (F := Ideal) m c main_v78 : S3136.Idx → BitVec 32) = (broadcastInDim S3136 ![] bcast_S_S3136) (V (F := Ideal) m c main_c_24 : S_.Idx → BitVec 32) :=
  Cert.Lib.ssa_unary line_writes 141 _ _ _ _ rfl (by decide +kernel) (by decide +kernel)

theorem op_main_v79 : (V (F := Ideal) m c main_v79 : S3136.Idx → BitVec 1) = (cmpi .sge) (V (F := Ideal) m c main_v77 : S3136.Idx → BitVec 32) (V (F := Ideal) m c main_v78 : S3136.Idx → BitVec 32) :=
  Cert.Lib.ssa_binary line_writes 142 _ _ _ _ _ rfl (by decide +kernel) (by decide +kernel) (by decide +kernel)

theorem op_main_v80 : (V (F := Ideal) m c main_v80 : S3136.Idx → BitVec 1) = andi (V (F := Ideal) m c main_v73 : S3136.Idx → BitVec 1) (V (F := Ideal) m c main_v79 : S3136.Idx → BitVec 1) :=
  Cert.Lib.ssa_binary line_writes 143 _ _ _ _ _ rfl (by decide +kernel) (by decide +kernel) (by decide +kernel)

theorem op_main_c_25 : (V (F := Ideal) m c main_c_25 : S_.Idx → BitVec 32) = constantI S_ 32 1#32 :=
  Cert.Lib.ssa_nullary line_writes 144 _ _ _ rfl (by decide +kernel)

theorem op_main_v81 : (V (F := Ideal) m c main_v81 : S3136.Idx → BitVec 32) = (broadcastInDim S3136 ![] bcast_S_S3136) (V (F := Ideal) m c main_c_25 : S_.Idx → BitVec 32) :=
  Cert.Lib.ssa_unary line_writes 145 _ _ _ _ rfl (by decide +kernel) (by decide +kernel)

theorem op_main_v82 : (V (F := Ideal) m c main_v82 : S3136.Idx → BitVec 32) = addi (V (F := Ideal) m c main_v33 : S3136.Idx → BitVec 32) (V (F := Ideal) m c main_v81 : S3136.Idx → BitVec 32) :=
  Cert.Lib.ssa_binary line_writes 146 _ _ _ _ _ rfl (by decide +kernel) (by decide +kernel) (by decide +kernel)

theorem op_main_c_26 : (V (F := Ideal) m c main_c_26 : S_.Idx → BitVec 32) = constantI S_ 32 1#32 :=
  Cert.Lib.ssa_nullary line_writes 147 _ _ _ rfl (by decide +kernel)

theorem op_main_v83 : (V (F := Ideal) m c main_v83 : S3136.Idx → BitVec 32) = (broadcastInDim S3136 ![] bcast_S_S3136) (V (F := Ideal) m c main_c_26 : S_.Idx → BitVec 32) :=
  Cert.Lib.ssa_unary line_writes 148 _ _ _ _ rfl (by decide +kernel) (by decide +kernel)

theorem op_main_v84 : (V (F := Ideal) m c main_v84 : S3136.Idx → BitVec 32) = subi (V (F := Ideal) m c main_v82 : S3136.Idx → BitVec 32) (V (F := Ideal) m c main_v83 : S3136.Idx → BitVec 32) :=
  Cert.Lib.ssa_binary line_writes 149 _ _ _ _ _ rfl (by decide +kernel) (by decide +kernel) (by decide +kernel)

theorem op_main_c_27 : (V (F := Ideal) m c main_c_27 : S_.Idx → BitVec 32) = constantI S_ 32 56#32 :=
  Cert.Lib.ssa_nullary line_writes 150 _ _ _ rfl (by decide +kernel)

theorem op_main_v85 : (V (F := Ideal) m c main_v85 : S3136.Idx → BitVec 32) = (broadcastInDim S3136 ![] bcast_S_S3136) (V (F := Ideal) m c main_c_27 : S_.Idx → BitVec 32) :=
  Cert.Lib.ssa_unary line_writes 151 _ _ _ _ rfl (by decide +kernel) (by decide +kernel)

theorem op_main_v86 : (V (F := Ideal) m c main_v86 : S3136.Idx → BitVec 1) = (cmpi .slt) (V (F := Ideal) m c main_v84 : S3136.Idx → BitVec 32) (V (F := Ideal) m c main_v85 : S3136.Idx → BitVec 32) :=
  Cert.Lib.ssa_binary line_writes 152 _ _ _ _ _ rfl (by decide +kernel) (by decide +kernel) (by decide +kernel)

theorem op_main_v87 : (V (F := Ideal) m c main_v87 : S3136.Idx → BitVec 1) = andi (V (F := Ideal) m c main_v80 : S3136.Idx → BitVec 1) (V (F := Ideal) m c main_v86 : S3136.Idx → BitVec 1) :=
  Cert.Lib.ssa_binary line_writes 153 _ _ _ _ _ rfl (by decide +kernel) (by decide +kernel) (by decide +kernel)

theorem op_main_c_28 : (V (F := Ideal) m c main_c_28 : S_.Idx → BitVec 32) = constantI S_ 32 0#32 :=
  Cert.Lib.ssa_nullary line_writes 154 _ _ _ rfl (by decide +kernel)

theorem op_main_v88 : (V (F := Ideal) m c main_v88 : S3136.Idx → BitVec 32) = (broadcastInDim S3136 ![] bcast_S_S3136) (V (F := Ideal) m c main_c_28 : S_.Idx → BitVec 32) :=
  Cert.Lib.ssa_unary line_writes 155 _ _ _ _ rfl (by decide +kernel) (by decide +kernel)

theorem op_main_v89 : (V (F := Ideal) m c main_v89 : S3136.Idx → BitVec 32) = addi (V (F := Ideal) m c main_v32 : S3136.Idx → BitVec 32) (V (F := Ideal) m c main_v88 : S3136.Idx → BitVec 32) :=
  Cert.Lib.ssa_binary line_writes 156 _ _ _ _ _ rfl (by decide +kernel) (by decide +kernel) (by decide +kernel)

theorem op_main_c_29 : (V (F := Ideal) m c main_c_29 : S_.Idx → BitVec 32) = constantI S_ 32 1#32 :=
  Cert.Lib.ssa_nullary line_writes 157 _ _ _ rfl (by decide +kernel)

theorem op_main_v90 : (V (F := Ideal) m c main_v90 : S3136.Idx → BitVec 32) = (broadcastInDim S3136 ![] bcast_S_S3136) (V (F := Ideal) m c main_c_29 : S_.Idx → BitVec 32) :=
  Cert.Lib.ssa_unary line_writes 158 _ _ _ _ rfl (by decide +kernel) (by decide +kernel)

theorem op_main_v91 : (V (F := Ideal) m c main_v91 : S3136.Idx → BitVec 32) = subi (V (F := Ideal) m c main_v89 : S3136.Idx → BitVec 32) (V (F := Ideal) m c main_v90 : S3136.Idx → BitVec 32) :=
  Cert.Lib.ssa_binary line_writes 159 _ _ _ _ _ rfl (by decide +kernel) (by decide +kernel) (by decide +kernel)

theorem op_main_c_30 : (V (F := Ideal) m c main_c_30 : S_.Idx → BitVec 32) = constantI S_ 32 0#32 :=
  Cert.Lib.ssa_nullary line_writes 160 _ _ _ rfl (by decide +kernel)

theorem op_main_v92 : (V (F := Ideal) m c main_v92 : S3136.Idx → BitVec 32) = (broadcastInDim S3136 ![] bcast_S_S3136) (V (F := Ideal) m c main_c_30 : S_.Idx → BitVec 32) :=
  Cert.Lib.ssa_unary line_writes 161 _ _ _ _ rfl (by decide +kernel) (by decide +kernel)

theorem op_main_v93 : (V (F := Ideal) m c main_v93 : S3136.Idx → BitVec 1) = (cmpi .sge) (V (F := Ideal) m c main_v91 : S3136.Idx → BitVec 32) (V (F := Ideal) m c main_v92 : S3136.Idx → BitVec 32) :=
  Cert.Lib.ssa_binary line_writes 162 _ _ _ _ _ rfl (by decide +kernel) (by decide +kernel) (by decide +kernel)

theorem op_main_c_31 : (V (F := Ideal) m c main_c_31 : S_.Idx → BitVec 32) = constantI S_ 32 0#32 :=
  Cert.Lib.ssa_nullary line_writes 163 _ _ _ rfl (by decide +kernel)

theorem op_main_v94 : (V (F := Ideal) m c main_v94 : S3136.Idx → BitVec 32) = (broadcastInDim S3136 ![] bcast_S_S3136) (V (F := Ideal) m c main_c_31 : S_.Idx → BitVec 32) :=
  Cert.Lib.ssa_unary line_writes 164 _ _ _ _ rfl (by decide +kernel) (by decide +kernel)

theorem op_main_v95 : (V (F := Ideal) m c main_v95 : S3136.Idx → BitVec 32) = addi (V (F := Ideal) m c main_v32 : S3136.Idx → BitVec 32) (V (F := Ideal) m c main_v94 : S3136.Idx → BitVec 32) :=
  Cert.Lib.ssa_binary line_writes 165 _ _ _ _ _ rfl (by decide +kernel) (by decide +kernel) (by decide +kernel)

theorem op_main_c_32 : (V (F := Ideal) m c main_c_32 : S_.Idx → BitVec 32) = constantI S_ 32 1#32 :=
  Cert.Lib.ssa_nullary line_writes 166 _ _ _ rfl (by decide +kernel)

theorem op_main_v96 : (V (F := Ideal) m c main_v96 : S3136.Idx → BitVec 32) = (broadcastInDim S3136 ![] bcast_S_S3136) (V (F := Ideal) m c main_c_32 : S_.Idx → BitVec 32) :=
  Cert.Lib.ssa_unary line_writes 167 _ _ _ _ rfl (by decide +kernel) (by decide +kernel)

theorem op_main_v97 : (V (F := Ideal) m c main_v97 : S3136.Idx → BitVec 32) = subi (V (F := Ideal) m c main_v95 : S3136.Idx → BitVec 32) (V (F := Ideal) m c main_v96 : S3136.Idx → BitVec 32) :=
  Cert.Lib.ssa_binary line_writes 168 _ _ _ _ _ rfl (by decide +kernel) (by decide +kernel) (by decide +kernel)

theorem op_main_c_33 : (V (F := Ideal) m c main_c_33 : S_.Idx → BitVec 32) = constantI S_ 32 56#32 :=
  Cert.Lib.ssa_nullary line_writes 169 _ _ _ rfl (by decide +kernel)

theorem op_main_v98 : (V (F := Ideal) m c main_v98 : S3136.Idx → BitVec 32) = (broadcastInDim S3136 ![] bcast_S_S3136) (V (F := Ideal) m c main_c_33 : S_.Idx → BitVec 32) :=
  Cert.Lib.ssa_unary line_writes 170 _ _ _ _ rfl (by decide +kernel) (by decide +kernel)

theorem op_main_v99 : (V (F := Ideal) m c main_v99 : S3136.Idx → BitVec 1) = (cmpi .slt) (V (F := Ideal) m c main_v97 : S3136.Idx → BitVec 32) (V (F := Ideal) m c main_v98 : S3136.Idx → BitVec 32) :=
  Cert.Lib.ssa_binary line_writes 171 _ _ _ _ _ rfl (by decide +kernel) (by decide +kernel) (by decide +kernel)

theorem op_main_v100 : (V (F := Ideal) m c main_v100 : S3136.Idx → BitVec 1) = andi (V (F := Ideal) m c main_v93 : S3136.Idx → BitVec 1) (V (F := Ideal) m c main_v99 : S3136.Idx → BitVec 1) :=
  Cert.Lib.ssa_binary line_writes 172 _ _ _ _ _ rfl (by decide +kernel) (by decide +kernel) (by decide +kernel)

theorem op_main_c_34 : (V (F := Ideal) m c main_c_34 : S_.Idx → BitVec 32) = constantI S_ 32 2#32 :=
  Cert.Lib.ssa_nullary line_writes 173 _ _ _ rfl (by decide +kernel)

theorem op_main_v101 : (V (F := Ideal) m c main_v101 : S3136.Idx → BitVec 32) = (broadcastInDim S3136 ![] bcast_S_S3136) (V (F := Ideal) m c main_c_34 : S_.Idx → BitVec 32) :=
  Cert.Lib.ssa_unary line_writes 174 _ _ _ _ rfl (by decide +kernel) (by decide +kernel)

theorem op_main_v102 : (V (F := Ideal) m c main_v102 : S3136.Idx → BitVec 32) = addi (V (F := Ideal) m c main_v33 : S3136.Idx → BitVec 32) (V (F := Ideal) m c main_v101 : S3136.Idx → BitVec 32) :=
  Cert.Lib.ssa_binary line_writes 175 _ _ _ _ _ rfl (by decide +kernel) (by decide +kernel) (by decide +kernel)

theorem op_main_c_35 : (V (F := Ideal) m c main_c_35 : S_.Idx → BitVec 32) = constantI S_ 32 1#32 :=
  Cert.Lib.ssa_nullary line_writes 176 _ _ _ rfl (by decide +kernel)

theorem op_main_v103 : (V (F := Ideal) m c main_v103 : S3136.Idx → BitVec 32) = (broadcastInDim S3136 ![] bcast_S_S3136) (V (F := Ideal) m c main_c_35 : S_.Idx → BitVec 32) :=
  Cert.Lib.ssa_unary line_writes 177 _ _ _ _ rfl (by decide +kernel) (by decide +kernel)

theorem op_main_v104 : (V (F := Ideal) m c main_v104 : S3136.Idx → BitVec 32) = subi (V (F := Ideal) m c main_v102 : S3136.Idx → BitVec 32) (V (F := Ideal) m c main_v103 : S3136.Idx → BitVec 32) :=
  Cert.Lib.ssa_binary line_writes 178 _ _ _ _ _ rfl (by decide +kernel) (by decide +kernel) (by decide +kernel)

theorem op_main_c_36 : (V (F := Ideal) m c main_c_36 : S_.Idx → BitVec 32) = constantI S_ 32 0#32 :=
  Cert.Lib.ssa_nullary line_writes 179 _ _ _ rfl (by decide +kernel)

theorem op_main_v105 : (V (F := Ideal) m c main_v105 : S3136.Idx → BitVec 32) = (broadcastInDim S3136 ![] bcast_S_S3136) (V (F := Ideal) m c main_c_36 : S_.Idx → BitVec 32) :=
  Cert.Lib.ssa_unary line_writes 180 _ _ _ _ rfl (by decide +kernel) (by decide +kernel)

theorem op_main_v106 : (V (F := Ideal) m c main_v106 : S3136.Idx → BitVec 1) = (cmpi .sge) (V (F := Ideal) m c main_v104 : S3136.Idx → BitVec 32) (V (F := Ideal) m c main_v105 : S3136.Idx → BitVec 32) :=
  Cert.Lib.ssa_binary line_writes 181 _ _ _ _ _ rfl (by decide +kernel) (by decide +kernel) (by decide +kernel)

theorem op_main_v107 : (V (F := Ideal) m c main_v107 : S3136.Idx → BitVec 1) = andi (V (F := Ideal) m c main_v100 : S3136.Idx → BitVec 1) (V (F := Ideal) m c main_v106 : S3136.Idx → BitVec 1) :=
  Cert.Lib.ssa_binary line_writes 182 _ _ _ _ _ rfl (by decide +kernel) (by decide +kernel) (by decide +kernel)

theorem op_main_c_37 : (V (F := Ideal) m c main_c_37 : S_.Idx → BitVec 32) = constantI S_ 32 2#32 :=
  Cert.Lib.ssa_nullary line_writes 183 _ _ _ rfl (by decide +kernel)

theorem op_main_v108 : (V (F := Ideal) m c main_v108 : S3136.Idx → BitVec 32) = (broadcastInDim S3136 ![] bcast_S_S3136) (V (F := Ideal) m c main_c_37 : S_.Idx → BitVec 32) :=
  Cert.Lib.ssa_unary line_writes 184 _ _ _ _ rfl (by decide +kernel) (by decide +kernel)

theorem op_main_v109 : (V (F := Ideal) m c main_v109 : S3136.Idx → BitVec 32) = addi (V (F := Ideal) m c main_v33 : S3136.Idx → BitVec 32) (V (F := Ideal) m c main_v108 : S3136.Idx → BitVec 32) :=
  Cert.Lib.ssa_binary line_writes 185 _ _ _ _ _ rfl (by decide +kernel) (by decide +kernel) (by decide +kernel)

theorem op_main_c_38 : (V (F := Ideal) m c main_c_38 : S_.Idx → BitVec 32) = constantI S_ 32 1#32 :=
  Cert.Lib.ssa_nullary line_writes 186 _ _ _ rfl (by decide +kernel)

theorem op_main_v110 : (V (F := Ideal) m c main_v110 : S3136.Idx → BitVec 32) = (broadcastInDim S3136 ![] bcast_S_S3136) (V (F := Ideal) m c main_c_38 : S_.Idx → BitVec 32) :=
  Cert.Lib.ssa_unary line_writes 187 _ _ _ _ rfl (by decide +kernel) (by decide +kernel)

theorem op_main_v111 : (V (F := Ideal) m c main_v111 : S3136.Idx → BitVec 32) = subi (V (F := Ideal) m c main_v109 : S3136.Idx → BitVec 32) (V (F := Ideal) m c main_v110 : S3136.Idx → BitVec 32) :=
  Cert.Lib.ssa_binary line_writes 188 _ _ _ _ _ rfl (by decide +kernel) (by decide +kernel) (by decide +kernel)

theorem op_main_c_39 : (V (F := Ideal) m c main_c_39 : S_.Idx → BitVec 32) = constantI S_ 32 56#32 :=
  Cert.Lib.ssa_nullary line_writes 189 _ _ _ rfl (by decide +kernel)

theorem op_main_v112 : (V (F := Ideal) m c main_v112 : S3136.Idx → BitVec 32) = (broadcastInDim S3136 ![] bcast_S_S3136) (V (F := Ideal) m c main_c_39 : S_.Idx → BitVec 32) :=
  Cert.Lib.ssa_unary line_writes 190 _ _ _ _ rfl (by decide +kernel) (by decide +kernel)

theorem op_main_v113 : (V (F := Ideal) m c main_v113 : S3136.Idx → BitVec 1) = (cmpi .slt) (V (F := Ideal) m c main_v111 : S3136.Idx → BitVec 32) (V (F := Ideal) m c main_v112 : S3136.Idx → BitVec 32) :=
  Cert.Lib.ssa_binary line_writes 191 _ _ _ _ _ rfl (by decide +kernel) (by decide +kernel) (by decide +kernel)

theorem op_main_v114 : (V (F := Ideal) m c main_v114 : S3136.Idx → BitVec 1) = andi (V (F := Ideal) m c main_v107 : S3136.Idx → BitVec 1) (V (F := Ideal) m c main_v113 : S3136.Idx → BitVec 1) :=
  Cert.Lib.ssa_binary line_writes 192 _ _ _ _ _ rfl (by decide +kernel) (by decide +kernel) (by decide +kernel)

end Cert.KernelIdeal.HostVal

end
-- ==== Proof.IdealHostOpsB1.lean ====
/-
  One statement per host operation: the array the operation writes, read when the call is entered, holds the
  operation's function of its operand arrays read when the call is entered — the stencil taps 3 to 5: per tap four signed comparisons of the row and column
  words shifted by the tap, joined by and.
  Each is the single-assignment reading of the line at the operation's position: the line writes each array once, the
  operation is the one at that position, no later operation writes its result and none from there on writes its operands.
-/
import proofs.«104539_g2000404336194624_pallasbulk_886_2_alg».proof.Proof.IdealHostLine

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

theorem op_main_c_40 : (V (F := Ideal) m c main_c_40 : S_.Idx → BitVec 32) = constantI S_ 32 1#32 :=
  Cert.Lib.ssa_nullary line_writes 193 _ _ _ rfl (by decide +kernel)

theorem op_main_v115 : (V (F := Ideal) m c main_v115 : S3136.Idx → BitVec 32) = (broadcastInDim S3136 ![] bcast_S_S3136) (V (F := Ideal) m c main_c_40 : S_.Idx → BitVec 32) :=
  Cert.Lib.ssa_unary line_writes 194 _ _ _ _ rfl (by decide +kernel) (by decide +kernel)

theorem op_main_v116 : (V (F := Ideal) m c main_v116 : S3136.Idx → BitVec 32) = addi (V (F := Ideal) m c main_v32 : S3136.Idx → BitVec 32) (V (F := Ideal) m c main_v115 : S3136.Idx → BitVec 32) :=
  Cert.Lib.ssa_binary line_writes 195 _ _ _ _ _ rfl (by decide +kernel) (by decide +kernel) (by decide +kernel)

theorem op_main_c_41 : (V (F := Ideal) m c main_c_41 : S_.Idx → BitVec 32) = constantI S_ 32 1#32 :=
  Cert.Lib.ssa_nullary line_writes 196 _ _ _ rfl (by decide +kernel)

theorem op_main_v117 : (V (F := Ideal) m c main_v117 : S3136.Idx → BitVec 32) = (broadcastInDim S3136 ![] bcast_S_S3136) (V (F := Ideal) m c main_c_41 : S_.Idx → BitVec 32) :=
  Cert.Lib.ssa_unary line_writes 197 _ _ _ _ rfl (by decide +kernel) (by decide +kernel)

theorem op_main_v118 : (V (F := Ideal) m c main_v118 : S3136.Idx → BitVec 32) = subi (V (F := Ideal) m c main_v116 : S3136.Idx → BitVec 32) (V (F := Ideal) m c main_v117 : S3136.Idx → BitVec 32) :=
  Cert.Lib.ssa_binary line_writes 198 _ _ _ _ _ rfl (by decide +kernel) (by decide +kernel) (by decide +kernel)

theorem op_main_c_42 : (V (F := Ideal) m c main_c_42 : S_.Idx → BitVec 32) = constantI S_ 32 0#32 :=
  Cert.Lib.ssa_nullary line_writes 199 _ _ _ rfl (by decide +kernel)

theorem op_main_v119 : (V (F := Ideal) m c main_v119 : S3136.Idx → BitVec 32) = (broadcastInDim S3136 ![] bcast_S_S3136) (V (F := Ideal) m c main_c_42 : S_.Idx → BitVec 32) :=
  Cert.Lib.ssa_unary line_writes 200 _ _ _ _ rfl (by decide +kernel) (by decide +kernel)

theorem op_main_v120 : (V (F := Ideal) m c main_v120 : S3136.Idx → BitVec 1) = (cmpi .sge) (V (F := Ideal) m c main_v118 : S3136.Idx → BitVec 32) (V (F := Ideal) m c main_v119 : S3136.Idx → BitVec 32) :=
  Cert.Lib.ssa_binary line_writes 201 _ _ _ _ _ rfl (by decide +kernel) (by decide +kernel) (by decide +kernel)

theorem op_main_c_43 : (V (F := Ideal) m c main_c_43 : S_.Idx → BitVec 32) = constantI S_ 32 1#32 :=
  Cert.Lib.ssa_nullary line_writes 202 _ _ _ rfl (by decide +kernel)

theorem op_main_v121 : (V (F := Ideal) m c main_v121 : S3136.Idx → BitVec 32) = (broadcastInDim S3136 ![] bcast_S_S3136) (V (F := Ideal) m c main_c_43 : S_.Idx → BitVec 32) :=
  Cert.Lib.ssa_unary line_writes 203 _ _ _ _ rfl (by decide +kernel) (by decide +kernel)

theorem op_main_v122 : (V (F := Ideal) m c main_v122 : S3136.Idx → BitVec 32) = addi (V (F := Ideal) m c main_v32 : S3136.Idx → BitVec 32) (V (F := Ideal) m c main_v121 : S3136.Idx → BitVec 32) :=
  Cert.Lib.ssa_binary line_writes 204 _ _ _ _ _ rfl (by decide +kernel) (by decide +kernel) (by decide +kernel)

theorem op_main_c_44 : (V (F := Ideal) m c main_c_44 : S_.Idx → BitVec 32) = constantI S_ 32 1#32 :=
  Cert.Lib.ssa_nullary line_writes 205 _ _ _ rfl (by decide +kernel)

theorem op_main_v123 : (V (F := Ideal) m c main_v123 : S3136.Idx → BitVec 32) = (broadcastInDim S3136 ![] bcast_S_S3136) (V (F := Ideal) m c main_c_44 : S_.Idx → BitVec 32) :=
  Cert.Lib.ssa_unary line_writes 206 _ _ _ _ rfl (by decide +kernel) (by decide +kernel)

theorem op_main_v124 : (V (F := Ideal) m c main_v124 : S3136.Idx → BitVec 32) = subi (V (F := Ideal) m c main_v122 : S3136.Idx → BitVec 32) (V (F := Ideal) m c main_v123 : S3136.Idx → BitVec 32) :=
  Cert.Lib.ssa_binary line_writes 207 _ _ _ _ _ rfl (by decide +kernel) (by decide +kernel) (by decide +kernel)

theorem op_main_c_45 : (V (F := Ideal) m c main_c_45 : S_.Idx → BitVec 32) = constantI S_ 32 56#32 :=
  Cert.Lib.ssa_nullary line_writes 208 _ _ _ rfl (by decide +kernel)

theorem op_main_v125 : (V (F := Ideal) m c main_v125 : S3136.Idx → BitVec 32) = (broadcastInDim S3136 ![] bcast_S_S3136) (V (F := Ideal) m c main_c_45 : S_.Idx → BitVec 32) :=
  Cert.Lib.ssa_unary line_writes 209 _ _ _ _ rfl (by decide +kernel) (by decide +kernel)

theorem op_main_v126 : (V (F := Ideal) m c main_v126 : S3136.Idx → BitVec 1) = (cmpi .slt) (V (F := Ideal) m c main_v124 : S3136.Idx → BitVec 32) (V (F := Ideal) m c main_v125 : S3136.Idx → BitVec 32) :=
  Cert.Lib.ssa_binary line_writes 210 _ _ _ _ _ rfl (by decide +kernel) (by decide +kernel) (by decide +kernel)

theorem op_main_v127 : (V (F := Ideal) m c main_v127 : S3136.Idx → BitVec 1) = andi (V (F := Ideal) m c main_v120 : S3136.Idx → BitVec 1) (V (F := Ideal) m c main_v126 : S3136.Idx → BitVec 1) :=
  Cert.Lib.ssa_binary line_writes 211 _ _ _ _ _ rfl (by decide +kernel) (by decide +kernel) (by decide +kernel)

theorem op_main_c_46 : (V (F := Ideal) m c main_c_46 : S_.Idx → BitVec 32) = constantI S_ 32 0#32 :=
  Cert.Lib.ssa_nullary line_writes 212 _ _ _ rfl (by decide +kernel)

theorem op_main_v128 : (V (F := Ideal) m c main_v128 : S3136.Idx → BitVec 32) = (broadcastInDim S3136 ![] bcast_S_S3136) (V (F := Ideal) m c main_c_46 : S_.Idx → BitVec 32) :=
  Cert.Lib.ssa_unary line_writes 213 _ _ _ _ rfl (by decide +kernel) (by decide +kernel)

theorem op_main_v129 : (V (F := Ideal) m c main_v129 : S3136.Idx → BitVec 32) = addi (V (F := Ideal) m c main_v33 : S3136.Idx → BitVec 32) (V (F := Ideal) m c main_v128 : S3136.Idx → BitVec 32) :=
  Cert.Lib.ssa_binary line_writes 214 _ _ _ _ _ rfl (by decide +kernel) (by decide +kernel) (by decide +kernel)

theorem op_main_c_47 : (V (F := Ideal) m c main_c_47 : S_.Idx → BitVec 32) = constantI S_ 32 1#32 :=
  Cert.Lib.ssa_nullary line_writes 215 _ _ _ rfl (by decide +kernel)

theorem op_main_v130 : (V (F := Ideal) m c main_v130 : S3136.Idx → BitVec 32) = (broadcastInDim S3136 ![] bcast_S_S3136) (V (F := Ideal) m c main_c_47 : S_.Idx → BitVec 32) :=
  Cert.Lib.ssa_unary line_writes 216 _ _ _ _ rfl (by decide +kernel) (by decide +kernel)

theorem op_main_v131 : (V (F := Ideal) m c main_v131 : S3136.Idx → BitVec 32) = subi (V (F := Ideal) m c main_v129 : S3136.Idx → BitVec 32) (V (F := Ideal) m c main_v130 : S3136.Idx → BitVec 32) :=
  Cert.Lib.ssa_binary line_writes 217 _ _ _ _ _ rfl (by decide +kernel) (by decide +kernel) (by decide +kernel)

theorem op_main_c_48 : (V (F := Ideal) m c main_c_48 : S_.Idx → BitVec 32) = constantI S_ 32 0#32 :=
  Cert.Lib.ssa_nullary line_writes 218 _ _ _ rfl (by decide +kernel)

theorem op_main_v132 : (V (F := Ideal) m c main_v132 : S3136.Idx → BitVec 32) = (broadcastInDim S3136 ![] bcast_S_S3136) (V (F := Ideal) m c main_c_48 : S_.Idx → BitVec 32) :=
  Cert.Lib.ssa_unary line_writes 219 _ _ _ _ rfl (by decide +kernel) (by decide +kernel)

theorem op_main_v133 : (V (F := Ideal) m c main_v133 : S3136.Idx → BitVec 1) = (cmpi .sge) (V (F := Ideal) m c main_v131 : S3136.Idx → BitVec 32) (V (F := Ideal) m c main_v132 : S3136.Idx → BitVec 32) :=
  Cert.Lib.ssa_binary line_writes 220 _ _ _ _ _ rfl (by decide +kernel) (by decide +kernel) (by decide +kernel)

theorem op_main_v134 : (V (F := Ideal) m c main_v134 : S3136.Idx → BitVec 1) = andi (V (F := Ideal) m c main_v127 : S3136.Idx → BitVec 1) (V (F := Ideal) m c main_v133 : S3136.Idx → BitVec 1) :=
  Cert.Lib.ssa_binary line_writes 221 _ _ _ _ _ rfl (by decide +kernel) (by decide +kernel) (by decide +kernel)

theorem op_main_c_49 : (V (F := Ideal) m c main_c_49 : S_.Idx → BitVec 32) = constantI S_ 32 0#32 :=
  Cert.Lib.ssa_nullary line_writes 222 _ _ _ rfl (by decide +kernel)

theorem op_main_v135 : (V (F := Ideal) m c main_v135 : S3136.Idx → BitVec 32) = (broadcastInDim S3136 ![] bcast_S_S3136) (V (F := Ideal) m c main_c_49 : S_.Idx → BitVec 32) :=
  Cert.Lib.ssa_unary line_writes 223 _ _ _ _ rfl (by decide +kernel) (by decide +kernel)

theorem op_main_v136 : (V (F := Ideal) m c main_v136 : S3136.Idx → BitVec 32) = addi (V (F := Ideal) m c main_v33 : S3136.Idx → BitVec 32) (V (F := Ideal) m c main_v135 : S3136.Idx → BitVec 32) :=
  Cert.Lib.ssa_binary line_writes 224 _ _ _ _ _ rfl (by decide +kernel) (by decide +kernel) (by decide +kernel)

theorem op_main_c_50 : (V (F := Ideal) m c main_c_50 : S_.Idx → BitVec 32) = constantI S_ 32 1#32 :=
  Cert.Lib.ssa_nullary line_writes 225 _ _ _ rfl (by decide +kernel)

theorem op_main_v137 : (V (F := Ideal) m c main_v137 : S3136.Idx → BitVec 32) = (broadcastInDim S3136 ![] bcast_S_S3136) (V (F := Ideal) m c main_c_50 : S_.Idx → BitVec 32) :=
  Cert.Lib.ssa_unary line_writes 226 _ _ _ _ rfl (by decide +kernel) (by decide +kernel)

theorem op_main_v138 : (V (F := Ideal) m c main_v138 : S3136.Idx → BitVec 32) = subi (V (F := Ideal) m c main_v136 : S3136.Idx → BitVec 32) (V (F := Ideal) m c main_v137 : S3136.Idx → BitVec 32) :=
  Cert.Lib.ssa_binary line_writes 227 _ _ _ _ _ rfl (by decide +kernel) (by decide +kernel) (by decide +kernel)

theorem op_main_c_51 : (V (F := Ideal) m c main_c_51 : S_.Idx → BitVec 32) = constantI S_ 32 56#32 :=
  Cert.Lib.ssa_nullary line_writes 228 _ _ _ rfl (by decide +kernel)

theorem op_main_v139 : (V (F := Ideal) m c main_v139 : S3136.Idx → BitVec 32) = (broadcastInDim S3136 ![] bcast_S_S3136) (V (F := Ideal) m c main_c_51 : S_.Idx → BitVec 32) :=
  Cert.Lib.ssa_unary line_writes 229 _ _ _ _ rfl (by decide +kernel) (by decide +kernel)

theorem op_main_v140 : (V (F := Ideal) m c main_v140 : S3136.Idx → BitVec 1) = (cmpi .slt) (V (F := Ideal) m c main_v138 : S3136.Idx → BitVec 32) (V (F := Ideal) m c main_v139 : S3136.Idx → BitVec 32) :=
  Cert.Lib.ssa_binary line_writes 230 _ _ _ _ _ rfl (by decide +kernel) (by decide +kernel) (by decide +kernel)

theorem op_main_v141 : (V (F := Ideal) m c main_v141 : S3136.Idx → BitVec 1) = andi (V (F := Ideal) m c main_v134 : S3136.Idx → BitVec 1) (V (F := Ideal) m c main_v140 : S3136.Idx → BitVec 1) :=
  Cert.Lib.ssa_binary line_writes 231 _ _ _ _ _ rfl (by decide +kernel) (by decide +kernel) (by decide +kernel)

theorem op_main_c_52 : (V (F := Ideal) m c main_c_52 : S_.Idx → BitVec 32) = constantI S_ 32 1#32 :=
  Cert.Lib.ssa_nullary line_writes 232 _ _ _ rfl (by decide +kernel)

theorem op_main_v142 : (V (F := Ideal) m c main_v142 : S3136.Idx → BitVec 32) = (broadcastInDim S3136 ![] bcast_S_S3136) (V (F := Ideal) m c main_c_52 : S_.Idx → BitVec 32) :=
  Cert.Lib.ssa_unary line_writes 233 _ _ _ _ rfl (by decide +kernel) (by decide +kernel)

theorem op_main_v143 : (V (F := Ideal) m c main_v143 : S3136.Idx → BitVec 32) = addi (V (F := Ideal) m c main_v32 : S3136.Idx → BitVec 32) (V (F := Ideal) m c main_v142 : S3136.Idx → BitVec 32) :=
  Cert.Lib.ssa_binary line_writes 234 _ _ _ _ _ rfl (by decide +kernel) (by decide +kernel) (by decide +kernel)

theorem op_main_c_53 : (V (F := Ideal) m c main_c_53 : S_.Idx → BitVec 32) = constantI S_ 32 1#32 :=
  Cert.Lib.ssa_nullary line_writes 235 _ _ _ rfl (by decide +kernel)

theorem op_main_v144 : (V (F := Ideal) m c main_v144 : S3136.Idx → BitVec 32) = (broadcastInDim S3136 ![] bcast_S_S3136) (V (F := Ideal) m c main_c_53 : S_.Idx → BitVec 32) :=
  Cert.Lib.ssa_unary line_writes 236 _ _ _ _ rfl (by decide +kernel) (by decide +kernel)

theorem op_main_v145 : (V (F := Ideal) m c main_v145 : S3136.Idx → BitVec 32) = subi (V (F := Ideal) m c main_v143 : S3136.Idx → BitVec 32) (V (F := Ideal) m c main_v144 : S3136.Idx → BitVec 32) :=
  Cert.Lib.ssa_binary line_writes 237 _ _ _ _ _ rfl (by decide +kernel) (by decide +kernel) (by decide +kernel)

theorem op_main_c_54 : (V (F := Ideal) m c main_c_54 : S_.Idx → BitVec 32) = constantI S_ 32 0#32 :=
  Cert.Lib.ssa_nullary line_writes 238 _ _ _ rfl (by decide +kernel)

theorem op_main_v146 : (V (F := Ideal) m c main_v146 : S3136.Idx → BitVec 32) = (broadcastInDim S3136 ![] bcast_S_S3136) (V (F := Ideal) m c main_c_54 : S_.Idx → BitVec 32) :=
  Cert.Lib.ssa_unary line_writes 239 _ _ _ _ rfl (by decide +kernel) (by decide +kernel)

theorem op_main_v147 : (V (F := Ideal) m c main_v147 : S3136.Idx → BitVec 1) = (cmpi .sge) (V (F := Ideal) m c main_v145 : S3136.Idx → BitVec 32) (V (F := Ideal) m c main_v146 : S3136.Idx → BitVec 32) :=
  Cert.Lib.ssa_binary line_writes 240 _ _ _ _ _ rfl (by decide +kernel) (by decide +kernel) (by decide +kernel)

theorem op_main_c_55 : (V (F := Ideal) m c main_c_55 : S_.Idx → BitVec 32) = constantI S_ 32 1#32 :=
  Cert.Lib.ssa_nullary line_writes 241 _ _ _ rfl (by decide +kernel)

theorem op_main_v148 : (V (F := Ideal) m c main_v148 : S3136.Idx → BitVec 32) = (broadcastInDim S3136 ![] bcast_S_S3136) (V (F := Ideal) m c main_c_55 : S_.Idx → BitVec 32) :=
  Cert.Lib.ssa_unary line_writes 242 _ _ _ _ rfl (by decide +kernel) (by decide +kernel)

theorem op_main_v149 : (V (F := Ideal) m c main_v149 : S3136.Idx → BitVec 32) = addi (V (F := Ideal) m c main_v32 : S3136.Idx → BitVec 32) (V (F := Ideal) m c main_v148 : S3136.Idx → BitVec 32) :=
  Cert.Lib.ssa_binary line_writes 243 _ _ _ _ _ rfl (by decide +kernel) (by decide +kernel) (by decide +kernel)

theorem op_main_c_56 : (V (F := Ideal) m c main_c_56 : S_.Idx → BitVec 32) = constantI S_ 32 1#32 :=
  Cert.Lib.ssa_nullary line_writes 244 _ _ _ rfl (by decide +kernel)

theorem op_main_v150 : (V (F := Ideal) m c main_v150 : S3136.Idx → BitVec 32) = (broadcastInDim S3136 ![] bcast_S_S3136) (V (F := Ideal) m c main_c_56 : S_.Idx → BitVec 32) :=
  Cert.Lib.ssa_unary line_writes 245 _ _ _ _ rfl (by decide +kernel) (by decide +kernel)

theorem op_main_v151 : (V (F := Ideal) m c main_v151 : S3136.Idx → BitVec 32) = subi (V (F := Ideal) m c main_v149 : S3136.Idx → BitVec 32) (V (F := Ideal) m c main_v150 : S3136.Idx → BitVec 32) :=
  Cert.Lib.ssa_binary line_writes 246 _ _ _ _ _ rfl (by decide +kernel) (by decide +kernel) (by decide +kernel)

theorem op_main_c_57 : (V (F := Ideal) m c main_c_57 : S_.Idx → BitVec 32) = constantI S_ 32 56#32 :=
  Cert.Lib.ssa_nullary line_writes 247 _ _ _ rfl (by decide +kernel)

theorem op_main_v152 : (V (F := Ideal) m c main_v152 : S3136.Idx → BitVec 32) = (broadcastInDim S3136 ![] bcast_S_S3136) (V (F := Ideal) m c main_c_57 : S_.Idx → BitVec 32) :=
  Cert.Lib.ssa_unary line_writes 248 _ _ _ _ rfl (by decide +kernel) (by decide +kernel)

theorem op_main_v153 : (V (F := Ideal) m c main_v153 : S3136.Idx → BitVec 1) = (cmpi .slt) (V (F := Ideal) m c main_v151 : S3136.Idx → BitVec 32) (V (F := Ideal) m c main_v152 : S3136.Idx → BitVec 32) :=
  Cert.Lib.ssa_binary line_writes 249 _ _ _ _ _ rfl (by decide +kernel) (by decide +kernel) (by decide +kernel)

theorem op_main_v154 : (V (F := Ideal) m c main_v154 : S3136.Idx → BitVec 1) = andi (V (F := Ideal) m c main_v147 : S3136.Idx → BitVec 1) (V (F := Ideal) m c main_v153 : S3136.Idx → BitVec 1) :=
  Cert.Lib.ssa_binary line_writes 250 _ _ _ _ _ rfl (by decide +kernel) (by decide +kernel) (by decide +kernel)

theorem op_main_c_58 : (V (F := Ideal) m c main_c_58 : S_.Idx → BitVec 32) = constantI S_ 32 1#32 :=
  Cert.Lib.ssa_nullary line_writes 251 _ _ _ rfl (by decide +kernel)

theorem op_main_v155 : (V (F := Ideal) m c main_v155 : S3136.Idx → BitVec 32) = (broadcastInDim S3136 ![] bcast_S_S3136) (V (F := Ideal) m c main_c_58 : S_.Idx → BitVec 32) :=
  Cert.Lib.ssa_unary line_writes 252 _ _ _ _ rfl (by decide +kernel) (by decide +kernel)

theorem op_main_v156 : (V (F := Ideal) m c main_v156 : S3136.Idx → BitVec 32) = addi (V (F := Ideal) m c main_v33 : S3136.Idx → BitVec 32) (V (F := Ideal) m c main_v155 : S3136.Idx → BitVec 32) :=
  Cert.Lib.ssa_binary line_writes 253 _ _ _ _ _ rfl (by decide +kernel) (by decide +kernel) (by decide +kernel)

theorem op_main_c_59 : (V (F := Ideal) m c main_c_59 : S_.Idx → BitVec 32) = constantI S_ 32 1#32 :=
  Cert.Lib.ssa_nullary line_writes 254 _ _ _ rfl (by decide +kernel)

theorem op_main_v157 : (V (F := Ideal) m c main_v157 : S3136.Idx → BitVec 32) = (broadcastInDim S3136 ![] bcast_S_S3136) (V (F := Ideal) m c main_c_59 : S_.Idx → BitVec 32) :=
  Cert.Lib.ssa_unary line_writes 255 _ _ _ _ rfl (by decide +kernel) (by decide +kernel)

theorem op_main_v158 : (V (F := Ideal) m c main_v158 : S3136.Idx → BitVec 32) = subi (V (F := Ideal) m c main_v156 : S3136.Idx → BitVec 32) (V (F := Ideal) m c main_v157 : S3136.Idx → BitVec 32) :=
  Cert.Lib.ssa_binary line_writes 256 _ _ _ _ _ rfl (by decide +kernel) (by decide +kernel) (by decide +kernel)

theorem op_main_c_60 : (V (F := Ideal) m c main_c_60 : S_.Idx → BitVec 32) = constantI S_ 32 0#32 :=
  Cert.Lib.ssa_nullary line_writes 257 _ _ _ rfl (by decide +kernel)

theorem op_main_v159 : (V (F := Ideal) m c main_v159 : S3136.Idx → BitVec 32) = (broadcastInDim S3136 ![] bcast_S_S3136) (V (F := Ideal) m c main_c_60 : S_.Idx → BitVec 32) :=
  Cert.Lib.ssa_unary line_writes 258 _ _ _ _ rfl (by decide +kernel) (by decide +kernel)

theorem op_main_v160 : (V (F := Ideal) m c main_v160 : S3136.Idx → BitVec 1) = (cmpi .sge) (V (F := Ideal) m c main_v158 : S3136.Idx → BitVec 32) (V (F := Ideal) m c main_v159 : S3136.Idx → BitVec 32) :=
  Cert.Lib.ssa_binary line_writes 259 _ _ _ _ _ rfl (by decide +kernel) (by decide +kernel) (by decide +kernel)

theorem op_main_v161 : (V (F := Ideal) m c main_v161 : S3136.Idx → BitVec 1) = andi (V (F := Ideal) m c main_v154 : S3136.Idx → BitVec 1) (V (F := Ideal) m c main_v160 : S3136.Idx → BitVec 1) :=
  Cert.Lib.ssa_binary line_writes 260 _ _ _ _ _ rfl (by decide +kernel) (by decide +kernel) (by decide +kernel)

theorem op_main_c_61 : (V (F := Ideal) m c main_c_61 : S_.Idx → BitVec 32) = constantI S_ 32 1#32 :=
  Cert.Lib.ssa_nullary line_writes 261 _ _ _ rfl (by decide +kernel)

theorem op_main_v162 : (V (F := Ideal) m c main_v162 : S3136.Idx → BitVec 32) = (broadcastInDim S3136 ![] bcast_S_S3136) (V (F := Ideal) m c main_c_61 : S_.Idx → BitVec 32) :=
  Cert.Lib.ssa_unary line_writes 262 _ _ _ _ rfl (by decide +kernel) (by decide +kernel)

theorem op_main_v163 : (V (F := Ideal) m c main_v163 : S3136.Idx → BitVec 32) = addi (V (F := Ideal) m c main_v33 : S3136.Idx → BitVec 32) (V (F := Ideal) m c main_v162 : S3136.Idx → BitVec 32) :=
  Cert.Lib.ssa_binary line_writes 263 _ _ _ _ _ rfl (by decide +kernel) (by decide +kernel) (by decide +kernel)

theorem op_main_c_62 : (V (F := Ideal) m c main_c_62 : S_.Idx → BitVec 32) = constantI S_ 32 1#32 :=
  Cert.Lib.ssa_nullary line_writes 264 _ _ _ rfl (by decide +kernel)

theorem op_main_v164 : (V (F := Ideal) m c main_v164 : S3136.Idx → BitVec 32) = (broadcastInDim S3136 ![] bcast_S_S3136) (V (F := Ideal) m c main_c_62 : S_.Idx → BitVec 32) :=
  Cert.Lib.ssa_unary line_writes 265 _ _ _ _ rfl (by decide +kernel) (by decide +kernel)

theorem op_main_v165 : (V (F := Ideal) m c main_v165 : S3136.Idx → BitVec 32) = subi (V (F := Ideal) m c main_v163 : S3136.Idx → BitVec 32) (V (F := Ideal) m c main_v164 : S3136.Idx → BitVec 32) :=
  Cert.Lib.ssa_binary line_writes 266 _ _ _ _ _ rfl (by decide +kernel) (by decide +kernel) (by decide +kernel)

theorem op_main_c_63 : (V (F := Ideal) m c main_c_63 : S_.Idx → BitVec 32) = constantI S_ 32 56#32 :=
  Cert.Lib.ssa_nullary line_writes 267 _ _ _ rfl (by decide +kernel)

theorem op_main_v166 : (V (F := Ideal) m c main_v166 : S3136.Idx → BitVec 32) = (broadcastInDim S3136 ![] bcast_S_S3136) (V (F := Ideal) m c main_c_63 : S_.Idx → BitVec 32) :=
  Cert.Lib.ssa_unary line_writes 268 _ _ _ _ rfl (by decide +kernel) (by decide +kernel)

theorem op_main_v167 : (V (F := Ideal) m c main_v167 : S3136.Idx → BitVec 1) = (cmpi .slt) (V (F := Ideal) m c main_v165 : S3136.Idx → BitVec 32) (V (F := Ideal) m c main_v166 : S3136.Idx → BitVec 32) :=
  Cert.Lib.ssa_binary line_writes 269 _ _ _ _ _ rfl (by decide +kernel) (by decide +kernel) (by decide +kernel)

theorem op_main_v168 : (V (F := Ideal) m c main_v168 : S3136.Idx → BitVec 1) = andi (V (F := Ideal) m c main_v161 : S3136.Idx → BitVec 1) (V (F := Ideal) m c main_v167 : S3136.Idx → BitVec 1) :=
  Cert.Lib.ssa_binary line_writes 270 _ _ _ _ _ rfl (by decide +kernel) (by decide +kernel) (by decide +kernel)

theorem op_main_c_64 : (V (F := Ideal) m c main_c_64 : S_.Idx → BitVec 32) = constantI S_ 32 1#32 :=
  Cert.Lib.ssa_nullary line_writes 271 _ _ _ rfl (by decide +kernel)

theorem op_main_v169 : (V (F := Ideal) m c main_v169 : S3136.Idx → BitVec 32) = (broadcastInDim S3136 ![] bcast_S_S3136) (V (F := Ideal) m c main_c_64 : S_.Idx → BitVec 32) :=
  Cert.Lib.ssa_unary line_writes 272 _ _ _ _ rfl (by decide +kernel) (by decide +kernel)

theorem op_main_v170 : (V (F := Ideal) m c main_v170 : S3136.Idx → BitVec 32) = addi (V (F := Ideal) m c main_v32 : S3136.Idx → BitVec 32) (V (F := Ideal) m c main_v169 : S3136.Idx → BitVec 32) :=
  Cert.Lib.ssa_binary line_writes 273 _ _ _ _ _ rfl (by decide +kernel) (by decide +kernel) (by decide +kernel)

theorem op_main_c_65 : (V (F := Ideal) m c main_c_65 : S_.Idx → BitVec 32) = constantI S_ 32 1#32 :=
  Cert.Lib.ssa_nullary line_writes 274 _ _ _ rfl (by decide +kernel)

theorem op_main_v171 : (V (F := Ideal) m c main_v171 : S3136.Idx → BitVec 32) = (broadcastInDim S3136 ![] bcast_S_S3136) (V (F := Ideal) m c main_c_65 : S_.Idx → BitVec 32) :=
  Cert.Lib.ssa_unary line_writes 275 _ _ _ _ rfl (by decide +kernel) (by decide +kernel)

theorem op_main_v172 : (V (F := Ideal) m c main_v172 : S3136.Idx → BitVec 32) = subi (V (F := Ideal) m c main_v170 : S3136.Idx → BitVec 32) (V (F := Ideal) m c main_v171 : S3136.Idx → BitVec 32) :=
  Cert.Lib.ssa_binary line_writes 276 _ _ _ _ _ rfl (by decide +kernel) (by decide +kernel) (by decide +kernel)

theorem op_main_c_66 : (V (F := Ideal) m c main_c_66 : S_.Idx → BitVec 32) = constantI S_ 32 0#32 :=
  Cert.Lib.ssa_nullary line_writes 277 _ _ _ rfl (by decide +kernel)

theorem op_main_v173 : (V (F := Ideal) m c main_v173 : S3136.Idx → BitVec 32) = (broadcastInDim S3136 ![] bcast_S_S3136) (V (F := Ideal) m c main_c_66 : S_.Idx → BitVec 32) :=
  Cert.Lib.ssa_unary line_writes 278 _ _ _ _ rfl (by decide +kernel) (by decide +kernel)

theorem op_main_v174 : (V (F := Ideal) m c main_v174 : S3136.Idx → BitVec 1) = (cmpi .sge) (V (F := Ideal) m c main_v172 : S3136.Idx → BitVec 32) (V (F := Ideal) m c main_v173 : S3136.Idx → BitVec 32) :=
  Cert.Lib.ssa_binary line_writes 279 _ _ _ _ _ rfl (by decide +kernel) (by decide +kernel) (by decide +kernel)

theorem op_main_c_67 : (V (F := Ideal) m c main_c_67 : S_.Idx → BitVec 32) = constantI S_ 32 1#32 :=
  Cert.Lib.ssa_nullary line_writes 280 _ _ _ rfl (by decide +kernel)

theorem op_main_v175 : (V (F := Ideal) m c main_v175 : S3136.Idx → BitVec 32) = (broadcastInDim S3136 ![] bcast_S_S3136) (V (F := Ideal) m c main_c_67 : S_.Idx → BitVec 32) :=
  Cert.Lib.ssa_unary line_writes 281 _ _ _ _ rfl (by decide +kernel) (by decide +kernel)

theorem op_main_v176 : (V (F := Ideal) m c main_v176 : S3136.Idx → BitVec 32) = addi (V (F := Ideal) m c main_v32 : S3136.Idx → BitVec 32) (V (F := Ideal) m c main_v175 : S3136.Idx → BitVec 32) :=
  Cert.Lib.ssa_binary line_writes 282 _ _ _ _ _ rfl (by decide +kernel) (by decide +kernel) (by decide +kernel)

theorem op_main_c_68 : (V (F := Ideal) m c main_c_68 : S_.Idx → BitVec 32) = constantI S_ 32 1#32 :=
  Cert.Lib.ssa_nullary line_writes 283 _ _ _ rfl (by decide +kernel)

theorem op_main_v177 : (V (F := Ideal) m c main_v177 : S3136.Idx → BitVec 32) = (broadcastInDim S3136 ![] bcast_S_S3136) (V (F := Ideal) m c main_c_68 : S_.Idx → BitVec 32) :=
  Cert.Lib.ssa_unary line_writes 284 _ _ _ _ rfl (by decide +kernel) (by decide +kernel)

theorem op_main_v178 : (V (F := Ideal) m c main_v178 : S3136.Idx → BitVec 32) = subi (V (F := Ideal) m c main_v176 : S3136.Idx → BitVec 32) (V (F := Ideal) m c main_v177 : S3136.Idx → BitVec 32) :=
  Cert.Lib.ssa_binary line_writes 285 _ _ _ _ _ rfl (by decide +kernel) (by decide +kernel) (by decide +kernel)

theorem op_main_c_69 : (V (F := Ideal) m c main_c_69 : S_.Idx → BitVec 32) = constantI S_ 32 56#32 :=
  Cert.Lib.ssa_nullary line_writes 286 _ _ _ rfl (by decide +kernel)

theorem op_main_v179 : (V (F := Ideal) m c main_v179 : S3136.Idx → BitVec 32) = (broadcastInDim S3136 ![] bcast_S_S3136) (V (F := Ideal) m c main_c_69 : S_.Idx → BitVec 32) :=
  Cert.Lib.ssa_unary line_writes 287 _ _ _ _ rfl (by decide +kernel) (by decide +kernel)

theorem op_main_v180 : (V (F := Ideal) m c main_v180 : S3136.Idx → BitVec 1) = (cmpi .slt) (V (F := Ideal) m c main_v178 : S3136.Idx → BitVec 32) (V (F := Ideal) m c main_v179 : S3136.Idx → BitVec 32) :=
  Cert.Lib.ssa_binary line_writes 288 _ _ _ _ _ rfl (by decide +kernel) (by decide +kernel) (by decide +kernel)

theorem op_main_v181 : (V (F := Ideal) m c main_v181 : S3136.Idx → BitVec 1) = andi (V (F := Ideal) m c main_v174 : S3136.Idx → BitVec 1) (V (F := Ideal) m c main_v180 : S3136.Idx → BitVec 1) :=
  Cert.Lib.ssa_binary line_writes 289 _ _ _ _ _ rfl (by decide +kernel) (by decide +kernel) (by decide +kernel)

theorem op_main_c_70 : (V (F := Ideal) m c main_c_70 : S_.Idx → BitVec 32) = constantI S_ 32 2#32 :=
  Cert.Lib.ssa_nullary line_writes 290 _ _ _ rfl (by decide +kernel)

theorem op_main_v182 : (V (F := Ideal) m c main_v182 : S3136.Idx → BitVec 32) = (broadcastInDim S3136 ![] bcast_S_S3136) (V (F := Ideal) m c main_c_70 : S_.Idx → BitVec 32) :=
  Cert.Lib.ssa_unary line_writes 291 _ _ _ _ rfl (by decide +kernel) (by decide +kernel)

theorem op_main_v183 : (V (F := Ideal) m c main_v183 : S3136.Idx → BitVec 32) = addi (V (F := Ideal) m c main_v33 : S3136.Idx → BitVec 32) (V (F := Ideal) m c main_v182 : S3136.Idx → BitVec 32) :=
  Cert.Lib.ssa_binary line_writes 292 _ _ _ _ _ rfl (by decide +kernel) (by decide +kernel) (by decide +kernel)

theorem op_main_c_71 : (V (F := Ideal) m c main_c_71 : S_.Idx → BitVec 32) = constantI S_ 32 1#32 :=
  Cert.Lib.ssa_nullary line_writes 293 _ _ _ rfl (by decide +kernel)

theorem op_main_v184 : (V (F := Ideal) m c main_v184 : S3136.Idx → BitVec 32) = (broadcastInDim S3136 ![] bcast_S_S3136) (V (F := Ideal) m c main_c_71 : S_.Idx → BitVec 32) :=
  Cert.Lib.ssa_unary line_writes 294 _ _ _ _ rfl (by decide +kernel) (by decide +kernel)

theorem op_main_v185 : (V (F := Ideal) m c main_v185 : S3136.Idx → BitVec 32) = subi (V (F := Ideal) m c main_v183 : S3136.Idx → BitVec 32) (V (F := Ideal) m c main_v184 : S3136.Idx → BitVec 32) :=
  Cert.Lib.ssa_binary line_writes 295 _ _ _ _ _ rfl (by decide +kernel) (by decide +kernel) (by decide +kernel)

theorem op_main_c_72 : (V (F := Ideal) m c main_c_72 : S_.Idx → BitVec 32) = constantI S_ 32 0#32 :=
  Cert.Lib.ssa_nullary line_writes 296 _ _ _ rfl (by decide +kernel)

theorem op_main_v186 : (V (F := Ideal) m c main_v186 : S3136.Idx → BitVec 32) = (broadcastInDim S3136 ![] bcast_S_S3136) (V (F := Ideal) m c main_c_72 : S_.Idx → BitVec 32) :=
  Cert.Lib.ssa_unary line_writes 297 _ _ _ _ rfl (by decide +kernel) (by decide +kernel)

theorem op_main_v187 : (V (F := Ideal) m c main_v187 : S3136.Idx → BitVec 1) = (cmpi .sge) (V (F := Ideal) m c main_v185 : S3136.Idx → BitVec 32) (V (F := Ideal) m c main_v186 : S3136.Idx → BitVec 32) :=
  Cert.Lib.ssa_binary line_writes 298 _ _ _ _ _ rfl (by decide +kernel) (by decide +kernel) (by decide +kernel)

theorem op_main_v188 : (V (F := Ideal) m c main_v188 : S3136.Idx → BitVec 1) = andi (V (F := Ideal) m c main_v181 : S3136.Idx → BitVec 1) (V (F := Ideal) m c main_v187 : S3136.Idx → BitVec 1) :=
  Cert.Lib.ssa_binary line_writes 299 _ _ _ _ _ rfl (by decide +kernel) (by decide +kernel) (by decide +kernel)

theorem op_main_c_73 : (V (F := Ideal) m c main_c_73 : S_.Idx → BitVec 32) = constantI S_ 32 2#32 :=
  Cert.Lib.ssa_nullary line_writes 300 _ _ _ rfl (by decide +kernel)

theorem op_main_v189 : (V (F := Ideal) m c main_v189 : S3136.Idx → BitVec 32) = (broadcastInDim S3136 ![] bcast_S_S3136) (V (F := Ideal) m c main_c_73 : S_.Idx → BitVec 32) :=
  Cert.Lib.ssa_unary line_writes 301 _ _ _ _ rfl (by decide +kernel) (by decide +kernel)

theorem op_main_v190 : (V (F := Ideal) m c main_v190 : S3136.Idx → BitVec 32) = addi (V (F := Ideal) m c main_v33 : S3136.Idx → BitVec 32) (V (F := Ideal) m c main_v189 : S3136.Idx → BitVec 32) :=
  Cert.Lib.ssa_binary line_writes 302 _ _ _ _ _ rfl (by decide +kernel) (by decide +kernel) (by decide +kernel)

theorem op_main_c_74 : (V (F := Ideal) m c main_c_74 : S_.Idx → BitVec 32) = constantI S_ 32 1#32 :=
  Cert.Lib.ssa_nullary line_writes 303 _ _ _ rfl (by decide +kernel)

theorem op_main_v191 : (V (F := Ideal) m c main_v191 : S3136.Idx → BitVec 32) = (broadcastInDim S3136 ![] bcast_S_S3136) (V (F := Ideal) m c main_c_74 : S_.Idx → BitVec 32) :=
  Cert.Lib.ssa_unary line_writes 304 _ _ _ _ rfl (by decide +kernel) (by decide +kernel)

theorem op_main_v192 : (V (F := Ideal) m c main_v192 : S3136.Idx → BitVec 32) = subi (V (F := Ideal) m c main_v190 : S3136.Idx → BitVec 32) (V (F := Ideal) m c main_v191 : S3136.Idx → BitVec 32) :=
  Cert.Lib.ssa_binary line_writes 305 _ _ _ _ _ rfl (by decide +kernel) (by decide +kernel) (by decide +kernel)

theorem op_main_c_75 : (V (F := Ideal) m c main_c_75 : S_.Idx → BitVec 32) = constantI S_ 32 56#32 :=
  Cert.Lib.ssa_nullary line_writes 306 _ _ _ rfl (by decide +kernel)

theorem op_main_v193 : (V (F := Ideal) m c main_v193 : S3136.Idx → BitVec 32) = (broadcastInDim S3136 ![] bcast_S_S3136) (V (F := Ideal) m c main_c_75 : S_.Idx → BitVec 32) :=
  Cert.Lib.ssa_unary line_writes 307 _ _ _ _ rfl (by decide +kernel) (by decide +kernel)

theorem op_main_v194 : (V (F := Ideal) m c main_v194 : S3136.Idx → BitVec 1) = (cmpi .slt) (V (F := Ideal) m c main_v192 : S3136.Idx → BitVec 32) (V (F := Ideal) m c main_v193 : S3136.Idx → BitVec 32) :=
  Cert.Lib.ssa_binary line_writes 308 _ _ _ _ _ rfl (by decide +kernel) (by decide +kernel) (by decide +kernel)

theorem op_main_v195 : (V (F := Ideal) m c main_v195 : S3136.Idx → BitVec 1) = andi (V (F := Ideal) m c main_v188 : S3136.Idx → BitVec 1) (V (F := Ideal) m c main_v194 : S3136.Idx → BitVec 1) :=
  Cert.Lib.ssa_binary line_writes 309 _ _ _ _ _ rfl (by decide +kernel) (by decide +kernel) (by decide +kernel)

end Cert.KernelIdeal.HostVal

end
-- ==== Proof.IdealHostOpsB2.lean ====
/-
  One statement per host operation: the array the operation writes, read when the call is entered, holds the
  operation's function of its operand arrays read when the call is entered — the stencil taps 6 to 8: per tap four signed comparisons of the row and column
  words shifted by the tap, joined by and.
  Each is the single-assignment reading of the line at the operation's position: the line writes each array once, the
  operation is the one at that position, no later operation writes its result and none from there on writes its operands.
-/
import proofs.«104539_g2000404336194624_pallasbulk_886_2_alg».proof.Proof.IdealHostLine

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

theorem op_main_c_76 : (V (F := Ideal) m c main_c_76 : S_.Idx → BitVec 32) = constantI S_ 32 2#32 :=
  Cert.Lib.ssa_nullary line_writes 310 _ _ _ rfl (by decide +kernel)

theorem op_main_v196 : (V (F := Ideal) m c main_v196 : S3136.Idx → BitVec 32) = (broadcastInDim S3136 ![] bcast_S_S3136) (V (F := Ideal) m c main_c_76 : S_.Idx → BitVec 32) :=
  Cert.Lib.ssa_unary line_writes 311 _ _ _ _ rfl (by decide +kernel) (by decide +kernel)

theorem op_main_v197 : (V (F := Ideal) m c main_v197 : S3136.Idx → BitVec 32) = addi (V (F := Ideal) m c main_v32 : S3136.Idx → BitVec 32) (V (F := Ideal) m c main_v196 : S3136.Idx → BitVec 32) :=
  Cert.Lib.ssa_binary line_writes 312 _ _ _ _ _ rfl (by decide +kernel) (by decide +kernel) (by decide +kernel)

theorem op_main_c_77 : (V (F := Ideal) m c main_c_77 : S_.Idx → BitVec 32) = constantI S_ 32 1#32 :=
  Cert.Lib.ssa_nullary line_writes 313 _ _ _ rfl (by decide +kernel)

theorem op_main_v198 : (V (F := Ideal) m c main_v198 : S3136.Idx → BitVec 32) = (broadcastInDim S3136 ![] bcast_S_S3136) (V (F := Ideal) m c main_c_77 : S_.Idx → BitVec 32) :=
  Cert.Lib.ssa_unary line_writes 314 _ _ _ _ rfl (by decide +kernel) (by decide +kernel)

theorem op_main_v199 : (V (F := Ideal) m c main_v199 : S3136.Idx → BitVec 32) = subi (V (F := Ideal) m c main_v197 : S3136.Idx → BitVec 32) (V (F := Ideal) m c main_v198 : S3136.Idx → BitVec 32) :=
  Cert.Lib.ssa_binary line_writes 315 _ _ _ _ _ rfl (by decide +kernel) (by decide +kernel) (by decide +kernel)

theorem op_main_c_78 : (V (F := Ideal) m c main_c_78 : S_.Idx → BitVec 32) = constantI S_ 32 0#32 :=
  Cert.Lib.ssa_nullary line_writes 316 _ _ _ rfl (by decide +kernel)

theorem op_main_v200 : (V (F := Ideal) m c main_v200 : S3136.Idx → BitVec 32) = (broadcastInDim S3136 ![] bcast_S_S3136) (V (F := Ideal) m c main_c_78 : S_.Idx → BitVec 32) :=
  Cert.Lib.ssa_unary line_writes 317 _ _ _ _ rfl (by decide +kernel) (by decide +kernel)

theorem op_main_v201 : (V (F := Ideal) m c main_v201 : S3136.Idx → BitVec 1) = (cmpi .sge) (V (F := Ideal) m c main_v199 : S3136.Idx → BitVec 32) (V (F := Ideal) m c main_v200 : S3136.Idx → BitVec 32) :=
  Cert.Lib.ssa_binary line_writes 318 _ _ _ _ _ rfl (by decide +kernel) (by decide +kernel) (by decide +kernel)

theorem op_main_c_79 : (V (F := Ideal) m c main_c_79 : S_.Idx → BitVec 32) = constantI S_ 32 2#32 :=
  Cert.Lib.ssa_nullary line_writes 319 _ _ _ rfl (by decide +kernel)

theorem op_main_v202 : (V (F := Ideal) m c main_v202 : S3136.Idx → BitVec 32) = (broadcastInDim S3136 ![] bcast_S_S3136) (V (F := Ideal) m c main_c_79 : S_.Idx → BitVec 32) :=
  Cert.Lib.ssa_unary line_writes 320 _ _ _ _ rfl (by decide +kernel) (by decide +kernel)

theorem op_main_v203 : (V (F := Ideal) m c main_v203 : S3136.Idx → BitVec 32) = addi (V (F := Ideal) m c main_v32 : S3136.Idx → BitVec 32) (V (F := Ideal) m c main_v202 : S3136.Idx → BitVec 32) :=
  Cert.Lib.ssa_binary line_writes 321 _ _ _ _ _ rfl (by decide +kernel) (by decide +kernel) (by decide +kernel)

theorem op_main_c_80 : (V (F := Ideal) m c main_c_80 : S_.Idx → BitVec 32) = constantI S_ 32 1#32 :=
  Cert.Lib.ssa_nullary line_writes 322 _ _ _ rfl (by decide +kernel)

theorem op_main_v204 : (V (F := Ideal) m c main_v204 : S3136.Idx → BitVec 32) = (broadcastInDim S3136 ![] bcast_S_S3136) (V (F := Ideal) m c main_c_80 : S_.Idx → BitVec 32) :=
  Cert.Lib.ssa_unary line_writes 323 _ _ _ _ rfl (by decide +kernel) (by decide +kernel)

theorem op_main_v205 : (V (F := Ideal) m c main_v205 : S3136.Idx → BitVec 32) = subi (V (F := Ideal) m c main_v203 : S3136.Idx → BitVec 32) (V (F := Ideal) m c main_v204 : S3136.Idx → BitVec 32) :=
  Cert.Lib.ssa_binary line_writes 324 _ _ _ _ _ rfl (by decide +kernel) (by decide +kernel) (by decide +kernel)

theorem op_main_c_81 : (V (F := Ideal) m c main_c_81 : S_.Idx → BitVec 32) = constantI S_ 32 56#32 :=
  Cert.Lib.ssa_nullary line_writes 325 _ _ _ rfl (by decide +kernel)

theorem op_main_v206 : (V (F := Ideal) m c main_v206 : S3136.Idx → BitVec 32) = (broadcastInDim S3136 ![] bcast_S_S3136) (V (F := Ideal) m c main_c_81 : S_.Idx → BitVec 32) :=
  Cert.Lib.ssa_unary line_writes 326 _ _ _ _ rfl (by decide +kernel) (by decide +kernel)

theorem op_main_v207 : (V (F := Ideal) m c main_v207 : S3136.Idx → BitVec 1) = (cmpi .slt) (V (F := Ideal) m c main_v205 : S3136.Idx → BitVec 32) (V (F := Ideal) m c main_v206 : S3136.Idx → BitVec 32) :=
  Cert.Lib.ssa_binary line_writes 327 _ _ _ _ _ rfl (by decide +kernel) (by decide +kernel) (by decide +kernel)

theorem op_main_v208 : (V (F := Ideal) m c main_v208 : S3136.Idx → BitVec 1) = andi (V (F := Ideal) m c main_v201 : S3136.Idx → BitVec 1) (V (F := Ideal) m c main_v207 : S3136.Idx → BitVec 1) :=
  Cert.Lib.ssa_binary line_writes 328 _ _ _ _ _ rfl (by decide +kernel) (by decide +kernel) (by decide +kernel)

theorem op_main_c_82 : (V (F := Ideal) m c main_c_82 : S_.Idx → BitVec 32) = constantI S_ 32 0#32 :=
  Cert.Lib.ssa_nullary line_writes 329 _ _ _ rfl (by decide +kernel)

theorem op_main_v209 : (V (F := Ideal) m c main_v209 : S3136.Idx → BitVec 32) = (broadcastInDim S3136 ![] bcast_S_S3136) (V (F := Ideal) m c main_c_82 : S_.Idx → BitVec 32) :=
  Cert.Lib.ssa_unary line_writes 330 _ _ _ _ rfl (by decide +kernel) (by decide +kernel)

theorem op_main_v210 : (V (F := Ideal) m c main_v210 : S3136.Idx → BitVec 32) = addi (V (F := Ideal) m c main_v33 : S3136.Idx → BitVec 32) (V (F := Ideal) m c main_v209 : S3136.Idx → BitVec 32) :=
  Cert.Lib.ssa_binary line_writes 331 _ _ _ _ _ rfl (by decide +kernel) (by decide +kernel) (by decide +kernel)

theorem op_main_c_83 : (V (F := Ideal) m c main_c_83 : S_.Idx → BitVec 32) = constantI S_ 32 1#32 :=
  Cert.Lib.ssa_nullary line_writes 332 _ _ _ rfl (by decide +kernel)

theorem op_main_v211 : (V (F := Ideal) m c main_v211 : S3136.Idx → BitVec 32) = (broadcastInDim S3136 ![] bcast_S_S3136) (V (F := Ideal) m c main_c_83 : S_.Idx → BitVec 32) :=
  Cert.Lib.ssa_unary line_writes 333 _ _ _ _ rfl (by decide +kernel) (by decide +kernel)

theorem op_main_v212 : (V (F := Ideal) m c main_v212 : S3136.Idx → BitVec 32) = subi (V (F := Ideal) m c main_v210 : S3136.Idx → BitVec 32) (V (F := Ideal) m c main_v211 : S3136.Idx → BitVec 32) :=
  Cert.Lib.ssa_binary line_writes 334 _ _ _ _ _ rfl (by decide +kernel) (by decide +kernel) (by decide +kernel)

theorem op_main_c_84 : (V (F := Ideal) m c main_c_84 : S_.Idx → BitVec 32) = constantI S_ 32 0#32 :=
  Cert.Lib.ssa_nullary line_writes 335 _ _ _ rfl (by decide +kernel)

theorem op_main_v213 : (V (F := Ideal) m c main_v213 : S3136.Idx → BitVec 32) = (broadcastInDim S3136 ![] bcast_S_S3136) (V (F := Ideal) m c main_c_84 : S_.Idx → BitVec 32) :=
  Cert.Lib.ssa_unary line_writes 336 _ _ _ _ rfl (by decide +kernel) (by decide +kernel)

theorem op_main_v214 : (V (F := Ideal) m c main_v214 : S3136.Idx → BitVec 1) = (cmpi .sge) (V (F := Ideal) m c main_v212 : S3136.Idx → BitVec 32) (V (F := Ideal) m c main_v213 : S3136.Idx → BitVec 32) :=
  Cert.Lib.ssa_binary line_writes 337 _ _ _ _ _ rfl (by decide +kernel) (by decide +kernel) (by decide +kernel)

theorem op_main_v215 : (V (F := Ideal) m c main_v215 : S3136.Idx → BitVec 1) = andi (V (F := Ideal) m c main_v208 : S3136.Idx → BitVec 1) (V (F := Ideal) m c main_v214 : S3136.Idx → BitVec 1) :=
  Cert.Lib.ssa_binary line_writes 338 _ _ _ _ _ rfl (by decide +kernel) (by decide +kernel) (by decide +kernel)

theorem op_main_c_85 : (V (F := Ideal) m c main_c_85 : S_.Idx → BitVec 32) = constantI S_ 32 0#32 :=
  Cert.Lib.ssa_nullary line_writes 339 _ _ _ rfl (by decide +kernel)

theorem op_main_v216 : (V (F := Ideal) m c main_v216 : S3136.Idx → BitVec 32) = (broadcastInDim S3136 ![] bcast_S_S3136) (V (F := Ideal) m c main_c_85 : S_.Idx → BitVec 32) :=
  Cert.Lib.ssa_unary line_writes 340 _ _ _ _ rfl (by decide +kernel) (by decide +kernel)

theorem op_main_v217 : (V (F := Ideal) m c main_v217 : S3136.Idx → BitVec 32) = addi (V (F := Ideal) m c main_v33 : S3136.Idx → BitVec 32) (V (F := Ideal) m c main_v216 : S3136.Idx → BitVec 32) :=
  Cert.Lib.ssa_binary line_writes 341 _ _ _ _ _ rfl (by decide +kernel) (by decide +kernel) (by decide +kernel)

theorem op_main_c_86 : (V (F := Ideal) m c main_c_86 : S_.Idx → BitVec 32) = constantI S_ 32 1#32 :=
  Cert.Lib.ssa_nullary line_writes 342 _ _ _ rfl (by decide +kernel)

theorem op_main_v218 : (V (F := Ideal) m c main_v218 : S3136.Idx → BitVec 32) = (broadcastInDim S3136 ![] bcast_S_S3136) (V (F := Ideal) m c main_c_86 : S_.Idx → BitVec 32) :=
  Cert.Lib.ssa_unary line_writes 343 _ _ _ _ rfl (by decide +kernel) (by decide +kernel)

theorem op_main_v219 : (V (F := Ideal) m c main_v219 : S3136.Idx → BitVec 32) = subi (V (F := Ideal) m c main_v217 : S3136.Idx → BitVec 32) (V (F := Ideal) m c main_v218 : S3136.Idx → BitVec 32) :=
  Cert.Lib.ssa_binary line_writes 344 _ _ _ _ _ rfl (by decide +kernel) (by decide +kernel) (by decide +kernel)

theorem op_main_c_87 : (V (F := Ideal) m c main_c_87 : S_.Idx → BitVec 32) = constantI S_ 32 56#32 :=
  Cert.Lib.ssa_nullary line_writes 345 _ _ _ rfl (by decide +kernel)

theorem op_main_v220 : (V (F := Ideal) m c main_v220 : S3136.Idx → BitVec 32) = (broadcastInDim S3136 ![] bcast_S_S3136) (V (F := Ideal) m c main_c_87 : S_.Idx → BitVec 32) :=
  Cert.Lib.ssa_unary line_writes 346 _ _ _ _ rfl (by decide +kernel) (by decide +kernel)

theorem op_main_v221 : (V (F := Ideal) m c main_v221 : S3136.Idx → BitVec 1) = (cmpi .slt) (V (F := Ideal) m c main_v219 : S3136.Idx → BitVec 32) (V (F := Ideal) m c main_v220 : S3136.Idx → BitVec 32) :=
  Cert.Lib.ssa_binary line_writes 347 _ _ _ _ _ rfl (by decide +kernel) (by decide +kernel) (by decide +kernel)

theorem op_main_v222 : (V (F := Ideal) m c main_v222 : S3136.Idx → BitVec 1) = andi (V (F := Ideal) m c main_v215 : S3136.Idx → BitVec 1) (V (F := Ideal) m c main_v221 : S3136.Idx → BitVec 1) :=
  Cert.Lib.ssa_binary line_writes 348 _ _ _ _ _ rfl (by decide +kernel) (by decide +kernel) (by decide +kernel)

theorem op_main_c_88 : (V (F := Ideal) m c main_c_88 : S_.Idx → BitVec 32) = constantI S_ 32 2#32 :=
  Cert.Lib.ssa_nullary line_writes 349 _ _ _ rfl (by decide +kernel)

theorem op_main_v223 : (V (F := Ideal) m c main_v223 : S3136.Idx → BitVec 32) = (broadcastInDim S3136 ![] bcast_S_S3136) (V (F := Ideal) m c main_c_88 : S_.Idx → BitVec 32) :=
  Cert.Lib.ssa_unary line_writes 350 _ _ _ _ rfl (by decide +kernel) (by decide +kernel)

theorem op_main_v224 : (V (F := Ideal) m c main_v224 : S3136.Idx → BitVec 32) = addi (V (F := Ideal) m c main_v32 : S3136.Idx → BitVec 32) (V (F := Ideal) m c main_v223 : S3136.Idx → BitVec 32) :=
  Cert.Lib.ssa_binary line_writes 351 _ _ _ _ _ rfl (by decide +kernel) (by decide +kernel) (by decide +kernel)

theorem op_main_c_89 : (V (F := Ideal) m c main_c_89 : S_.Idx → BitVec 32) = constantI S_ 32 1#32 :=
  Cert.Lib.ssa_nullary line_writes 352 _ _ _ rfl (by decide +kernel)

theorem op_main_v225 : (V (F := Ideal) m c main_v225 : S3136.Idx → BitVec 32) = (broadcastInDim S3136 ![] bcast_S_S3136) (V (F := Ideal) m c main_c_89 : S_.Idx → BitVec 32) :=
  Cert.Lib.ssa_unary line_writes 353 _ _ _ _ rfl (by decide +kernel) (by decide +kernel)

theorem op_main_v226 : (V (F := Ideal) m c main_v226 : S3136.Idx → BitVec 32) = subi (V (F := Ideal) m c main_v224 : S3136.Idx → BitVec 32) (V (F := Ideal) m c main_v225 : S3136.Idx → BitVec 32) :=
  Cert.Lib.ssa_binary line_writes 354 _ _ _ _ _ rfl (by decide +kernel) (by decide +kernel) (by decide +kernel)

theorem op_main_c_90 : (V (F := Ideal) m c main_c_90 : S_.Idx → BitVec 32) = constantI S_ 32 0#32 :=
  Cert.Lib.ssa_nullary line_writes 355 _ _ _ rfl (by decide +kernel)

theorem op_main_v227 : (V (F := Ideal) m c main_v227 : S3136.Idx → BitVec 32) = (broadcastInDim S3136 ![] bcast_S_S3136) (V (F := Ideal) m c main_c_90 : S_.Idx → BitVec 32) :=
  Cert.Lib.ssa_unary line_writes 356 _ _ _ _ rfl (by decide +kernel) (by decide +kernel)

theorem op_main_v228 : (V (F := Ideal) m c main_v228 : S3136.Idx → BitVec 1) = (cmpi .sge) (V (F := Ideal) m c main_v226 : S3136.Idx → BitVec 32) (V (F := Ideal) m c main_v227 : S3136.Idx → BitVec 32) :=
  Cert.Lib.ssa_binary line_writes 357 _ _ _ _ _ rfl (by decide +kernel) (by decide +kernel) (by decide +kernel)

theorem op_main_c_91 : (V (F := Ideal) m c main_c_91 : S_.Idx → BitVec 32) = constantI S_ 32 2#32 :=
  Cert.Lib.ssa_nullary line_writes 358 _ _ _ rfl (by decide +kernel)

theorem op_main_v229 : (V (F := Ideal) m c main_v229 : S3136.Idx → BitVec 32) = (broadcastInDim S3136 ![] bcast_S_S3136) (V (F := Ideal) m c main_c_91 : S_.Idx → BitVec 32) :=
  Cert.Lib.ssa_unary line_writes 359 _ _ _ _ rfl (by decide +kernel) (by decide +kernel)

theorem op_main_v230 : (V (F := Ideal) m c main_v230 : S3136.Idx → BitVec 32) = addi (V (F := Ideal) m c main_v32 : S3136.Idx → BitVec 32) (V (F := Ideal) m c main_v229 : S3136.Idx → BitVec 32) :=
  Cert.Lib.ssa_binary line_writes 360 _ _ _ _ _ rfl (by decide +kernel) (by decide +kernel) (by decide +kernel)

theorem op_main_c_92 : (V (F := Ideal) m c main_c_92 : S_.Idx → BitVec 32) = constantI S_ 32 1#32 :=
  Cert.Lib.ssa_nullary line_writes 361 _ _ _ rfl (by decide +kernel)

theorem op_main_v231 : (V (F := Ideal) m c main_v231 : S3136.Idx → BitVec 32) = (broadcastInDim S3136 ![] bcast_S_S3136) (V (F := Ideal) m c main_c_92 : S_.Idx → BitVec 32) :=
  Cert.Lib.ssa_unary line_writes 362 _ _ _ _ rfl (by decide +kernel) (by decide +kernel)

theorem op_main_v232 : (V (F := Ideal) m c main_v232 : S3136.Idx → BitVec 32) = subi (V (F := Ideal) m c main_v230 : S3136.Idx → BitVec 32) (V (F := Ideal) m c main_v231 : S3136.Idx → BitVec 32) :=
  Cert.Lib.ssa_binary line_writes 363 _ _ _ _ _ rfl (by decide +kernel) (by decide +kernel) (by decide +kernel)

theorem op_main_c_93 : (V (F := Ideal) m c main_c_93 : S_.Idx → BitVec 32) = constantI S_ 32 56#32 :=
  Cert.Lib.ssa_nullary line_writes 364 _ _ _ rfl (by decide +kernel)

theorem op_main_v233 : (V (F := Ideal) m c main_v233 : S3136.Idx → BitVec 32) = (broadcastInDim S3136 ![] bcast_S_S3136) (V (F := Ideal) m c main_c_93 : S_.Idx → BitVec 32) :=
  Cert.Lib.ssa_unary line_writes 365 _ _ _ _ rfl (by decide +kernel) (by decide +kernel)

theorem op_main_v234 : (V (F := Ideal) m c main_v234 : S3136.Idx → BitVec 1) = (cmpi .slt) (V (F := Ideal) m c main_v232 : S3136.Idx → BitVec 32) (V (F := Ideal) m c main_v233 : S3136.Idx → BitVec 32) :=
  Cert.Lib.ssa_binary line_writes 366 _ _ _ _ _ rfl (by decide +kernel) (by decide +kernel) (by decide +kernel)

theorem op_main_v235 : (V (F := Ideal) m c main_v235 : S3136.Idx → BitVec 1) = andi (V (F := Ideal) m c main_v228 : S3136.Idx → BitVec 1) (V (F := Ideal) m c main_v234 : S3136.Idx → BitVec 1) :=
  Cert.Lib.ssa_binary line_writes 367 _ _ _ _ _ rfl (by decide +kernel) (by decide +kernel) (by decide +kernel)

theorem op_main_c_94 : (V (F := Ideal) m c main_c_94 : S_.Idx → BitVec 32) = constantI S_ 32 1#32 :=
  Cert.Lib.ssa_nullary line_writes 368 _ _ _ rfl (by decide +kernel)

theorem op_main_v236 : (V (F := Ideal) m c main_v236 : S3136.Idx → BitVec 32) = (broadcastInDim S3136 ![] bcast_S_S3136) (V (F := Ideal) m c main_c_94 : S_.Idx → BitVec 32) :=
  Cert.Lib.ssa_unary line_writes 369 _ _ _ _ rfl (by decide +kernel) (by decide +kernel)

theorem op_main_v237 : (V (F := Ideal) m c main_v237 : S3136.Idx → BitVec 32) = addi (V (F := Ideal) m c main_v33 : S3136.Idx → BitVec 32) (V (F := Ideal) m c main_v236 : S3136.Idx → BitVec 32) :=
  Cert.Lib.ssa_binary line_writes 370 _ _ _ _ _ rfl (by decide +kernel) (by decide +kernel) (by decide +kernel)

theorem op_main_c_95 : (V (F := Ideal) m c main_c_95 : S_.Idx → BitVec 32) = constantI S_ 32 1#32 :=
  Cert.Lib.ssa_nullary line_writes 371 _ _ _ rfl (by decide +kernel)

theorem op_main_v238 : (V (F := Ideal) m c main_v238 : S3136.Idx → BitVec 32) = (broadcastInDim S3136 ![] bcast_S_S3136) (V (F := Ideal) m c main_c_95 : S_.Idx → BitVec 32) :=
  Cert.Lib.ssa_unary line_writes 372 _ _ _ _ rfl (by decide +kernel) (by decide +kernel)

theorem op_main_v239 : (V (F := Ideal) m c main_v239 : S3136.Idx → BitVec 32) = subi (V (F := Ideal) m c main_v237 : S3136.Idx → BitVec 32) (V (F := Ideal) m c main_v238 : S3136.Idx → BitVec 32) :=
  Cert.Lib.ssa_binary line_writes 373 _ _ _ _ _ rfl (by decide +kernel) (by decide +kernel) (by decide +kernel)

theorem op_main_c_96 : (V (F := Ideal) m c main_c_96 : S_.Idx → BitVec 32) = constantI S_ 32 0#32 :=
  Cert.Lib.ssa_nullary line_writes 374 _ _ _ rfl (by decide +kernel)

theorem op_main_v240 : (V (F := Ideal) m c main_v240 : S3136.Idx → BitVec 32) = (broadcastInDim S3136 ![] bcast_S_S3136) (V (F := Ideal) m c main_c_96 : S_.Idx → BitVec 32) :=
  Cert.Lib.ssa_unary line_writes 375 _ _ _ _ rfl (by decide +kernel) (by decide +kernel)

theorem op_main_v241 : (V (F := Ideal) m c main_v241 : S3136.Idx → BitVec 1) = (cmpi .sge) (V (F := Ideal) m c main_v239 : S3136.Idx → BitVec 32) (V (F := Ideal) m c main_v240 : S3136.Idx → BitVec 32) :=
  Cert.Lib.ssa_binary line_writes 376 _ _ _ _ _ rfl (by decide +kernel) (by decide +kernel) (by decide +kernel)

theorem op_main_v242 : (V (F := Ideal) m c main_v242 : S3136.Idx → BitVec 1) = andi (V (F := Ideal) m c main_v235 : S3136.Idx → BitVec 1) (V (F := Ideal) m c main_v241 : S3136.Idx → BitVec 1) :=
  Cert.Lib.ssa_binary line_writes 377 _ _ _ _ _ rfl (by decide +kernel) (by decide +kernel) (by decide +kernel)

theorem op_main_c_97 : (V (F := Ideal) m c main_c_97 : S_.Idx → BitVec 32) = constantI S_ 32 1#32 :=
  Cert.Lib.ssa_nullary line_writes 378 _ _ _ rfl (by decide +kernel)

theorem op_main_v243 : (V (F := Ideal) m c main_v243 : S3136.Idx → BitVec 32) = (broadcastInDim S3136 ![] bcast_S_S3136) (V (F := Ideal) m c main_c_97 : S_.Idx → BitVec 32) :=
  Cert.Lib.ssa_unary line_writes 379 _ _ _ _ rfl (by decide +kernel) (by decide +kernel)

theorem op_main_v244 : (V (F := Ideal) m c main_v244 : S3136.Idx → BitVec 32) = addi (V (F := Ideal) m c main_v33 : S3136.Idx → BitVec 32) (V (F := Ideal) m c main_v243 : S3136.Idx → BitVec 32) :=
  Cert.Lib.ssa_binary line_writes 380 _ _ _ _ _ rfl (by decide +kernel) (by decide +kernel) (by decide +kernel)

theorem op_main_c_98 : (V (F := Ideal) m c main_c_98 : S_.Idx → BitVec 32) = constantI S_ 32 1#32 :=
  Cert.Lib.ssa_nullary line_writes 381 _ _ _ rfl (by decide +kernel)

theorem op_main_v245 : (V (F := Ideal) m c main_v245 : S3136.Idx → BitVec 32) = (broadcastInDim S3136 ![] bcast_S_S3136) (V (F := Ideal) m c main_c_98 : S_.Idx → BitVec 32) :=
  Cert.Lib.ssa_unary line_writes 382 _ _ _ _ rfl (by decide +kernel) (by decide +kernel)

theorem op_main_v246 : (V (F := Ideal) m c main_v246 : S3136.Idx → BitVec 32) = subi (V (F := Ideal) m c main_v244 : S3136.Idx → BitVec 32) (V (F := Ideal) m c main_v245 : S3136.Idx → BitVec 32) :=
  Cert.Lib.ssa_binary line_writes 383 _ _ _ _ _ rfl (by decide +kernel) (by decide +kernel) (by decide +kernel)

theorem op_main_c_99 : (V (F := Ideal) m c main_c_99 : S_.Idx → BitVec 32) = constantI S_ 32 56#32 :=
  Cert.Lib.ssa_nullary line_writes 384 _ _ _ rfl (by decide +kernel)

theorem op_main_v247 : (V (F := Ideal) m c main_v247 : S3136.Idx → BitVec 32) = (broadcastInDim S3136 ![] bcast_S_S3136) (V (F := Ideal) m c main_c_99 : S_.Idx → BitVec 32) :=
  Cert.Lib.ssa_unary line_writes 385 _ _ _ _ rfl (by decide +kernel) (by decide +kernel)

theorem op_main_v248 : (V (F := Ideal) m c main_v248 : S3136.Idx → BitVec 1) = (cmpi .slt) (V (F := Ideal) m c main_v246 : S3136.Idx → BitVec 32) (V (F := Ideal) m c main_v247 : S3136.Idx → BitVec 32) :=
  Cert.Lib.ssa_binary line_writes 386 _ _ _ _ _ rfl (by decide +kernel) (by decide +kernel) (by decide +kernel)

theorem op_main_v249 : (V (F := Ideal) m c main_v249 : S3136.Idx → BitVec 1) = andi (V (F := Ideal) m c main_v242 : S3136.Idx → BitVec 1) (V (F := Ideal) m c main_v248 : S3136.Idx → BitVec 1) :=
  Cert.Lib.ssa_binary line_writes 387 _ _ _ _ _ rfl (by decide +kernel) (by decide +kernel) (by decide +kernel)

theorem op_main_c_100 : (V (F := Ideal) m c main_c_100 : S_.Idx → BitVec 32) = constantI S_ 32 2#32 :=
  Cert.Lib.ssa_nullary line_writes 388 _ _ _ rfl (by decide +kernel)

theorem op_main_v250 : (V (F := Ideal) m c main_v250 : S3136.Idx → BitVec 32) = (broadcastInDim S3136 ![] bcast_S_S3136) (V (F := Ideal) m c main_c_100 : S_.Idx → BitVec 32) :=
  Cert.Lib.ssa_unary line_writes 389 _ _ _ _ rfl (by decide +kernel) (by decide +kernel)

theorem op_main_v251 : (V (F := Ideal) m c main_v251 : S3136.Idx → BitVec 32) = addi (V (F := Ideal) m c main_v32 : S3136.Idx → BitVec 32) (V (F := Ideal) m c main_v250 : S3136.Idx → BitVec 32) :=
  Cert.Lib.ssa_binary line_writes 390 _ _ _ _ _ rfl (by decide +kernel) (by decide +kernel) (by decide +kernel)

theorem op_main_c_101 : (V (F := Ideal) m c main_c_101 : S_.Idx → BitVec 32) = constantI S_ 32 1#32 :=
  Cert.Lib.ssa_nullary line_writes 391 _ _ _ rfl (by decide +kernel)

theorem op_main_v252 : (V (F := Ideal) m c main_v252 : S3136.Idx → BitVec 32) = (broadcastInDim S3136 ![] bcast_S_S3136) (V (F := Ideal) m c main_c_101 : S_.Idx → BitVec 32) :=
  Cert.Lib.ssa_unary line_writes 392 _ _ _ _ rfl (by decide +kernel) (by decide +kernel)

theorem op_main_v253 : (V (F := Ideal) m c main_v253 : S3136.Idx → BitVec 32) = subi (V (F := Ideal) m c main_v251 : S3136.Idx → BitVec 32) (V (F := Ideal) m c main_v252 : S3136.Idx → BitVec 32) :=
  Cert.Lib.ssa_binary line_writes 393 _ _ _ _ _ rfl (by decide +kernel) (by decide +kernel) (by decide +kernel)

theorem op_main_c_102 : (V (F := Ideal) m c main_c_102 : S_.Idx → BitVec 32) = constantI S_ 32 0#32 :=
  Cert.Lib.ssa_nullary line_writes 394 _ _ _ rfl (by decide +kernel)

theorem op_main_v254 : (V (F := Ideal) m c main_v254 : S3136.Idx → BitVec 32) = (broadcastInDim S3136 ![] bcast_S_S3136) (V (F := Ideal) m c main_c_102 : S_.Idx → BitVec 32) :=
  Cert.Lib.ssa_unary line_writes 395 _ _ _ _ rfl (by decide +kernel) (by decide +kernel)

theorem op_main_v255 : (V (F := Ideal) m c main_v255 : S3136.Idx → BitVec 1) = (cmpi .sge) (V (F := Ideal) m c main_v253 : S3136.Idx → BitVec 32) (V (F := Ideal) m c main_v254 : S3136.Idx → BitVec 32) :=
  Cert.Lib.ssa_binary line_writes 396 _ _ _ _ _ rfl (by decide +kernel) (by decide +kernel) (by decide +kernel)

theorem op_main_c_103 : (V (F := Ideal) m c main_c_103 : S_.Idx → BitVec 32) = constantI S_ 32 2#32 :=
  Cert.Lib.ssa_nullary line_writes 397 _ _ _ rfl (by decide +kernel)

theorem op_main_v256 : (V (F := Ideal) m c main_v256 : S3136.Idx → BitVec 32) = (broadcastInDim S3136 ![] bcast_S_S3136) (V (F := Ideal) m c main_c_103 : S_.Idx → BitVec 32) :=
  Cert.Lib.ssa_unary line_writes 398 _ _ _ _ rfl (by decide +kernel) (by decide +kernel)

theorem op_main_v257 : (V (F := Ideal) m c main_v257 : S3136.Idx → BitVec 32) = addi (V (F := Ideal) m c main_v32 : S3136.Idx → BitVec 32) (V (F := Ideal) m c main_v256 : S3136.Idx → BitVec 32) :=
  Cert.Lib.ssa_binary line_writes 399 _ _ _ _ _ rfl (by decide +kernel) (by decide +kernel) (by decide +kernel)

theorem op_main_c_104 : (V (F := Ideal) m c main_c_104 : S_.Idx → BitVec 32) = constantI S_ 32 1#32 :=
  Cert.Lib.ssa_nullary line_writes 400 _ _ _ rfl (by decide +kernel)

theorem op_main_v258 : (V (F := Ideal) m c main_v258 : S3136.Idx → BitVec 32) = (broadcastInDim S3136 ![] bcast_S_S3136) (V (F := Ideal) m c main_c_104 : S_.Idx → BitVec 32) :=
  Cert.Lib.ssa_unary line_writes 401 _ _ _ _ rfl (by decide +kernel) (by decide +kernel)

theorem op_main_v259 : (V (F := Ideal) m c main_v259 : S3136.Idx → BitVec 32) = subi (V (F := Ideal) m c main_v257 : S3136.Idx → BitVec 32) (V (F := Ideal) m c main_v258 : S3136.Idx → BitVec 32) :=
  Cert.Lib.ssa_binary line_writes 402 _ _ _ _ _ rfl (by decide +kernel) (by decide +kernel) (by decide +kernel)

theorem op_main_c_105 : (V (F := Ideal) m c main_c_105 : S_.Idx → BitVec 32) = constantI S_ 32 56#32 :=
  Cert.Lib.ssa_nullary line_writes 403 _ _ _ rfl (by decide +kernel)

theorem op_main_v260 : (V (F := Ideal) m c main_v260 : S3136.Idx → BitVec 32) = (broadcastInDim S3136 ![] bcast_S_S3136) (V (F := Ideal) m c main_c_105 : S_.Idx → BitVec 32) :=
  Cert.Lib.ssa_unary line_writes 404 _ _ _ _ rfl (by decide +kernel) (by decide +kernel)

theorem op_main_v261 : (V (F := Ideal) m c main_v261 : S3136.Idx → BitVec 1) = (cmpi .slt) (V (F := Ideal) m c main_v259 : S3136.Idx → BitVec 32) (V (F := Ideal) m c main_v260 : S3136.Idx → BitVec 32) :=
  Cert.Lib.ssa_binary line_writes 405 _ _ _ _ _ rfl (by decide +kernel) (by decide +kernel) (by decide +kernel)

theorem op_main_v262 : (V (F := Ideal) m c main_v262 : S3136.Idx → BitVec 1) = andi (V (F := Ideal) m c main_v255 : S3136.Idx → BitVec 1) (V (F := Ideal) m c main_v261 : S3136.Idx → BitVec 1) :=
  Cert.Lib.ssa_binary line_writes 406 _ _ _ _ _ rfl (by decide +kernel) (by decide +kernel) (by decide +kernel)

theorem op_main_c_106 : (V (F := Ideal) m c main_c_106 : S_.Idx → BitVec 32) = constantI S_ 32 2#32 :=
  Cert.Lib.ssa_nullary line_writes 407 _ _ _ rfl (by decide +kernel)

theorem op_main_v263 : (V (F := Ideal) m c main_v263 : S3136.Idx → BitVec 32) = (broadcastInDim S3136 ![] bcast_S_S3136) (V (F := Ideal) m c main_c_106 : S_.Idx → BitVec 32) :=
  Cert.Lib.ssa_unary line_writes 408 _ _ _ _ rfl (by decide +kernel) (by decide +kernel)

theorem op_main_v264 : (V (F := Ideal) m c main_v264 : S3136.Idx → BitVec 32) = addi (V (F := Ideal) m c main_v33 : S3136.Idx → BitVec 32) (V (F := Ideal) m c main_v263 : S3136.Idx → BitVec 32) :=
  Cert.Lib.ssa_binary line_writes 409 _ _ _ _ _ rfl (by decide +kernel) (by decide +kernel) (by decide +kernel)

theorem op_main_c_107 : (V (F := Ideal) m c main_c_107 : S_.Idx → BitVec 32) = constantI S_ 32 1#32 :=
  Cert.Lib.ssa_nullary line_writes 410 _ _ _ rfl (by decide +kernel)

theorem op_main_v265 : (V (F := Ideal) m c main_v265 : S3136.Idx → BitVec 32) = (broadcastInDim S3136 ![] bcast_S_S3136) (V (F := Ideal) m c main_c_107 : S_.Idx → BitVec 32) :=
  Cert.Lib.ssa_unary line_writes 411 _ _ _ _ rfl (by decide +kernel) (by decide +kernel)

theorem op_main_v266 : (V (F := Ideal) m c main_v266 : S3136.Idx → BitVec 32) = subi (V (F := Ideal) m c main_v264 : S3136.Idx → BitVec 32) (V (F := Ideal) m c main_v265 : S3136.Idx → BitVec 32) :=
  Cert.Lib.ssa_binary line_writes 412 _ _ _ _ _ rfl (by decide +kernel) (by decide +kernel) (by decide +kernel)

theorem op_main_c_108 : (V (F := Ideal) m c main_c_108 : S_.Idx → BitVec 32) = constantI S_ 32 0#32 :=
  Cert.Lib.ssa_nullary line_writes 413 _ _ _ rfl (by decide +kernel)

theorem op_main_v267 : (V (F := Ideal) m c main_v267 : S3136.Idx → BitVec 32) = (broadcastInDim S3136 ![] bcast_S_S3136) (V (F := Ideal) m c main_c_108 : S_.Idx → BitVec 32) :=
  Cert.Lib.ssa_unary line_writes 414 _ _ _ _ rfl (by decide +kernel) (by decide +kernel)

theorem op_main_v268 : (V (F := Ideal) m c main_v268 : S3136.Idx → BitVec 1) = (cmpi .sge) (V (F := Ideal) m c main_v266 : S3136.Idx → BitVec 32) (V (F := Ideal) m c main_v267 : S3136.Idx → BitVec 32) :=
  Cert.Lib.ssa_binary line_writes 415 _ _ _ _ _ rfl (by decide +kernel) (by decide +kernel) (by decide +kernel)

theorem op_main_v269 : (V (F := Ideal) m c main_v269 : S3136.Idx → BitVec 1) = andi (V (F := Ideal) m c main_v262 : S3136.Idx → BitVec 1) (V (F := Ideal) m c main_v268 : S3136.Idx → BitVec 1) :=
  Cert.Lib.ssa_binary line_writes 416 _ _ _ _ _ rfl (by decide +kernel) (by decide +kernel) (by decide +kernel)

theorem op_main_c_109 : (V (F := Ideal) m c main_c_109 : S_.Idx → BitVec 32) = constantI S_ 32 2#32 :=
  Cert.Lib.ssa_nullary line_writes 417 _ _ _ rfl (by decide +kernel)

theorem op_main_v270 : (V (F := Ideal) m c main_v270 : S3136.Idx → BitVec 32) = (broadcastInDim S3136 ![] bcast_S_S3136) (V (F := Ideal) m c main_c_109 : S_.Idx → BitVec 32) :=
  Cert.Lib.ssa_unary line_writes 418 _ _ _ _ rfl (by decide +kernel) (by decide +kernel)

theorem op_main_v271 : (V (F := Ideal) m c main_v271 : S3136.Idx → BitVec 32) = addi (V (F := Ideal) m c main_v33 : S3136.Idx → BitVec 32) (V (F := Ideal) m c main_v270 : S3136.Idx → BitVec 32) :=
  Cert.Lib.ssa_binary line_writes 419 _ _ _ _ _ rfl (by decide +kernel) (by decide +kernel) (by decide +kernel)

theorem op_main_c_110 : (V (F := Ideal) m c main_c_110 : S_.Idx → BitVec 32) = constantI S_ 32 1#32 :=
  Cert.Lib.ssa_nullary line_writes 420 _ _ _ rfl (by decide +kernel)

theorem op_main_v272 : (V (F := Ideal) m c main_v272 : S3136.Idx → BitVec 32) = (broadcastInDim S3136 ![] bcast_S_S3136) (V (F := Ideal) m c main_c_110 : S_.Idx → BitVec 32) :=
  Cert.Lib.ssa_unary line_writes 421 _ _ _ _ rfl (by decide +kernel) (by decide +kernel)

theorem op_main_v273 : (V (F := Ideal) m c main_v273 : S3136.Idx → BitVec 32) = subi (V (F := Ideal) m c main_v271 : S3136.Idx → BitVec 32) (V (F := Ideal) m c main_v272 : S3136.Idx → BitVec 32) :=
  Cert.Lib.ssa_binary line_writes 422 _ _ _ _ _ rfl (by decide +kernel) (by decide +kernel) (by decide +kernel)

theorem op_main_c_111 : (V (F := Ideal) m c main_c_111 : S_.Idx → BitVec 32) = constantI S_ 32 56#32 :=
  Cert.Lib.ssa_nullary line_writes 423 _ _ _ rfl (by decide +kernel)

theorem op_main_v274 : (V (F := Ideal) m c main_v274 : S3136.Idx → BitVec 32) = (broadcastInDim S3136 ![] bcast_S_S3136) (V (F := Ideal) m c main_c_111 : S_.Idx → BitVec 32) :=
  Cert.Lib.ssa_unary line_writes 424 _ _ _ _ rfl (by decide +kernel) (by decide +kernel)

theorem op_main_v275 : (V (F := Ideal) m c main_v275 : S3136.Idx → BitVec 1) = (cmpi .slt) (V (F := Ideal) m c main_v273 : S3136.Idx → BitVec 32) (V (F := Ideal) m c main_v274 : S3136.Idx → BitVec 32) :=
  Cert.Lib.ssa_binary line_writes 425 _ _ _ _ _ rfl (by decide +kernel) (by decide +kernel) (by decide +kernel)

theorem op_main_v276 : (V (F := Ideal) m c main_v276 : S3136.Idx → BitVec 1) = andi (V (F := Ideal) m c main_v269 : S3136.Idx → BitVec 1) (V (F := Ideal) m c main_v275 : S3136.Idx → BitVec 1) :=
  Cert.Lib.ssa_binary line_writes 426 _ _ _ _ _ rfl (by decide +kernel) (by decide +kernel) (by decide +kernel)

end Cert.KernelIdeal.HostVal

end
-- ==== Proof.IdealHostWords.lean ====
/-
  The 32-bit integer arithmetic behind the nine boundary masks, one lane at a time.

  Lane p of the flattened 56 x 56 plane is row p / 56, column p % 56.  The program computes both from the lane
  number by a signed division rounded toward zero followed by the corrections that turn it into a division rounded
  toward minus infinity (for the quotient: one less when the signs of dividend and divisor differ and the remainder is
  not zero; for the remainder: the divisor added when the remainder's sign differs from the divisor's and it is not
  zero).  For the 3136 lanes, all non-negative, against the divisor 56, the corrections never fire: the words are
  p / 56 and p % 56.  A tap (ky, kx) of the 3 x 3 stencil is inside the plane at row y, column x when
  0 <= y + ky - 1 < 56 and 0 <= x + kx - 1 < 56, four signed comparisons of 32-bit words joined by and; for
  y, x < 56 and ky, kx < 3 nothing wraps, and the bit is set exactly when 1 <= y + ky <= 56 and 1 <= x + kx <= 56.
  Converted to an extended real, unsigned, a one-bit word is 1 when set and 0 when not.
-/
import Idealize.ShloMosaic.PureOps.Ideal
import Idealize.ShloMosaic.Lib.ValueIdx

namespace Cert.KernelIdeal.HostVal

open Idealize.ShloMosaic Idealize.ShloMosaic.ValueIdx

/-- The sign of a 32-bit word read signed, as a word: 0, 1 or -1. -/
def sgn (x : BitVec 32) : BitVec 32 := if x = 0 then 0 else if x.msb then -1 else 1

/-- The quotient by 56 rounded toward minus infinity, from the quotient rounded toward zero: one less when the signs
    of the dividend and of 56 differ and the remainder is not zero. -/
def floorDiv56 (w : BitVec 32) : BitVec 32 :=
  Scalar.select (IntOp.andi (IntOp.cmpi .ne (sgn w) (sgn 56#32)) (IntOp.cmpi .ne (IntOp.remsi .host w 56#32) 0#32))
    (IntOp.subi (IntOp.divsi .host w 56#32) 1#32) (IntOp.divsi .host w 56#32)

/-- The divisor of the remainder, replaced by 1 if it were zero. -/
def modDivisor : BitVec 32 := Scalar.select (IntOp.cmpi .eq 56#32 0#32) 1#32 56#32

/-- The remainder by 56 with the divisor's sign, from the remainder with the dividend's sign: the divisor added when
    the remainder is not zero and its sign differs from the divisor's. -/
def floorMod56 (w : BitVec 32) : BitVec 32 :=
  Scalar.select
    (IntOp.andi (IntOp.cmpi .ne (IntOp.cmpi .slt (IntOp.remsi .host w modDivisor) 0#32) (IntOp.cmpi .slt modDivisor 0#32))
      (IntOp.cmpi .ne (IntOp.remsi .host w modDivisor) 0#32))
    (IntOp.addi (IntOp.remsi .host w modDivisor) modDivisor) (IntOp.remsi .host w modDivisor)

/-- On the 3136 lanes the corrected quotient is the row p / 56. -/
theorem floorDiv56_lane : ∀ n : Fin 3136, floorDiv56 (BitVec.ofNat 32 n.val) = BitVec.ofNat 32 (n.val / 56) := by
  decide +kernel

/-- On the 3136 lanes the corrected remainder is the column p % 56. -/
theorem floorMod56_lane : ∀ n : Fin 3136, floorMod56 (BitVec.ofNat 32 n.val) = BitVec.ofNat 32 (n.val % 56) := by
  decide +kernel

/-- The comparison 0 <= w + k - 1, read signed. -/
def geBit (w k : BitVec 32) : BitVec 1 := IntOp.cmpi .sge (IntOp.subi (IntOp.addi w k) 1#32) 0#32
/-- The comparison w + k - 1 < 56, read signed. -/
def ltBit (w k : BitVec 32) : BitVec 1 := IntOp.cmpi .slt (IntOp.subi (IntOp.addi w k) 1#32) 56#32
/-- The tap (ky, kx) at row word yw, column word xw is inside the plane: the four comparisons joined by and. -/
def tapBit (ky kx yw xw : BitVec 32) : BitVec 1 :=
  IntOp.andi (IntOp.andi (IntOp.andi (geBit yw ky) (ltBit yw ky)) (geBit xw kx)) (ltBit xw kx)

theorem geBit_iff : ∀ (a : Fin 56) (k : Fin 3),
    geBit (BitVec.ofNat 32 a.val) (BitVec.ofNat 32 k.val) = 1#1 ↔ 1 ≤ a.val + k.val := by decide +kernel
theorem ltBit_iff : ∀ (a : Fin 56) (k : Fin 3),
    ltBit (BitVec.ofNat 32 a.val) (BitVec.ofNat 32 k.val) = 1#1 ↔ a.val + k.val ≤ 56 := by decide +kernel
theorem andi_eq_one_iff : ∀ b c : BitVec 1, IntOp.andi b c = 1#1 ↔ b = 1#1 ∧ c = 1#1 := by decide

/-- For a row and a column of the plane and a tap of the stencil the bit is set exactly when the tap's position is
    inside the plane. -/
theorem tapBit_iff (a b : Fin 56) (ky kx : Fin 3) :
    tapBit (BitVec.ofNat 32 ky.val) (BitVec.ofNat 32 kx.val) (BitVec.ofNat 32 a.val) (BitVec.ofNat 32 b.val) = 1#1
      ↔ 1 ≤ a.val + ky.val ∧ a.val + ky.val ≤ 56 ∧ 1 ≤ b.val + kx.val ∧ b.val + kx.val ≤ 56 := by
  unfold tapBit
  rw [andi_eq_one_iff, andi_eq_one_iff, andi_eq_one_iff, geBit_iff, ltBit_iff, geBit_iff, ltBit_iff]
  exact ⟨fun ⟨⟨⟨h1, h2⟩, h3⟩, h4⟩ => ⟨h1, h2, h3, h4⟩, fun ⟨h1, h2, h3, h4⟩ => ⟨⟨⟨h1, h2⟩, h3⟩, h4⟩⟩

/-- At the extended reals a one-bit word converted unsigned is 1 when set and 0 when not. -/
theorem uitofp_bit (φ : FTy) {b : BitVec 1} {P : Prop} [Decidable P] (h : b = 1#1 ↔ P) :
    FloatOps.uitofp (F := Ideal) φ b = if P then (1 : EReal) else 0 := by
  by_cases hb : b = 1#1
  · rw [if_pos (h.mp hb), hb]
    show (((1#1 : BitVec 1).toNat : ℝ) : EReal) = 1
    rw [show (1#1 : BitVec 1).toNat = 1 from by decide, Nat.cast_one, EReal.coe_one]
  · rw [if_neg (fun hP => hb (h.mpr hP)), eq_zero_of_ne_one hb]
    show (((0#1 : BitVec 1).toNat : ℝ) : EReal) = 0
    rw [show (0#1 : BitVec 1).toNat = 0 from by decide, Nat.cast_zero, EReal.coe_zero]

end Cert.KernelIdeal.HostVal
-- ==== Proof.IdealHostTaps.lean ====
/-
  The nine stencil taps, each as one array of bits over the lanes.  For the tap (ky, kx) the program compares
  row + ky - 1 and column + kx - 1 against 0 and 56, lane by lane, and joins the four bits by and: at a lane the array
  holds the tap's bit at the lane's row and column words.  One statement per tap, each proved by unfolding the tap's 39
  operations, last first, down to the row and column arrays; what is left holds by computation.
-/
import proofs.«104539_g2000404336194624_pallasbulk_886_2_alg».proof.Proof.IdealHostOpsB0
import proofs.«104539_g2000404336194624_pallasbulk_886_2_alg».proof.Proof.IdealHostOpsB1
import proofs.«104539_g2000404336194624_pallasbulk_886_2_alg».proof.Proof.IdealHostOpsB2
import proofs.«104539_g2000404336194624_pallasbulk_886_2_alg».proof.Proof.IdealHostWords

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.StableHlo Idealize.SL.Sem

variable (m : (ℓ : Loc nD τ sig) → Buf (Elt Ideal) ℓ) (c : Dev nD)

/-- Tap 0 = (0, 0): its array at a lane is the tap's bit at the lane's row and column words. -/
theorem tap0_bit (p : S3136.Idx) :
    (V (F := Ideal) m c main_v60 : S3136.Idx → BitVec 1) p
      = tapBit 0#32 0#32 ((V (F := Ideal) m c main_v32 : S3136.Idx → BitVec 32) p) ((V (F := Ideal) m c main_v33 : S3136.Idx → BitVec 32) p) := by
  rw [op_main_v60 m c, op_main_v59 m c, op_main_v58 m c, op_main_c_15 m c, op_main_v57 m c, op_main_v56 m c, op_main_c_14 m c, op_main_v55 m c, op_main_v54 m c, op_main_c_13 m c, op_main_v53 m c, op_main_v52 m c, op_main_v51 m c, op_main_c_12 m c, op_main_v50 m c, op_main_v49 m c, op_main_c_11 m c, op_main_v48 m c, op_main_v47 m c, op_main_c_10 m c, op_main_v46 m c, op_main_v45 m c, op_main_v44 m c, op_main_c_9 m c, op_main_v43 m c, op_main_v42 m c, op_main_c_8 m c, op_main_v41 m c, op_main_v40 m c, op_main_c_7 m c, op_main_v39 m c, op_main_v38 m c, op_main_c_6 m c, op_main_v37 m c, op_main_v36 m c, op_main_c_5 m c, op_main_v35 m c, op_main_v34 m c, op_main_c_4 m c]
  rfl

/-- Tap 1 = (0, 1): its array at a lane is the tap's bit at the lane's row and column words. -/
theorem tap1_bit (p : S3136.Idx) :
    (V (F := Ideal) m c main_v87 : S3136.Idx → BitVec 1) p
      = tapBit 0#32 1#32 ((V (F := Ideal) m c main_v32 : S3136.Idx → BitVec 32) p) ((V (F := Ideal) m c main_v33 : S3136.Idx → BitVec 32) p) := by
  rw [op_main_v87 m c, op_main_v86 m c, op_main_v85 m c, op_main_c_27 m c, op_main_v84 m c, op_main_v83 m c, op_main_c_26 m c, op_main_v82 m c, op_main_v81 m c, op_main_c_25 m c, op_main_v80 m c, op_main_v79 m c, op_main_v78 m c, op_main_c_24 m c, op_main_v77 m c, op_main_v76 m c, op_main_c_23 m c, op_main_v75 m c, op_main_v74 m c, op_main_c_22 m c, op_main_v73 m c, op_main_v72 m c, op_main_v71 m c, op_main_c_21 m c, op_main_v70 m c, op_main_v69 m c, op_main_c_20 m c, op_main_v68 m c, op_main_v67 m c, op_main_c_19 m c, op_main_v66 m c, op_main_v65 m c, op_main_c_18 m c, op_main_v64 m c, op_main_v63 m c, op_main_c_17 m c, op_main_v62 m c, op_main_v61 m c, op_main_c_16 m c]
  rfl

/-- Tap 2 = (0, 2): its array at a lane is the tap's bit at the lane's row and column words. -/
theorem tap2_bit (p : S3136.Idx) :
    (V (F := Ideal) m c main_v114 : S3136.Idx → BitVec 1) p
      = tapBit 0#32 2#32 ((V (F := Ideal) m c main_v32 : S3136.Idx → BitVec 32) p) ((V (F := Ideal) m c main_v33 : S3136.Idx → BitVec 32) p) := by
  rw [op_main_v114 m c, op_main_v113 m c, op_main_v112 m c, op_main_c_39 m c, op_main_v111 m c, op_main_v110 m c, op_main_c_38 m c, op_main_v109 m c, op_main_v108 m c, op_main_c_37 m c, op_main_v107 m c, op_main_v106 m c, op_main_v105 m c, op_main_c_36 m c, op_main_v104 m c, op_main_v103 m c, op_main_c_35 m c, op_main_v102 m c, op_main_v101 m c, op_main_c_34 m c, op_main_v100 m c, op_main_v99 m c, op_main_v98 m c, op_main_c_33 m c, op_main_v97 m c, op_main_v96 m c, op_main_c_32 m c, op_main_v95 m c, op_main_v94 m c, op_main_c_31 m c, op_main_v93 m c, op_main_v92 m c, op_main_c_30 m c, op_main_v91 m c, op_main_v90 m c, op_main_c_29 m c, op_main_v89 m c, op_main_v88 m c, op_main_c_28 m c]
  rfl

/-- Tap 3 = (1, 0): its array at a lane is the tap's bit at the lane's row and column words. -/
theorem tap3_bit (p : S3136.Idx) :
    (V (F := Ideal) m c main_v141 : S3136.Idx → BitVec 1) p
      = tapBit 1#32 0#32 ((V (F := Ideal) m c main_v32 : S3136.Idx → BitVec 32) p) ((V (F := Ideal) m c main_v33 : S3136.Idx → BitVec 32) p) := by
  rw [op_main_v141 m c, op_main_v140 m c, op_main_v139 m c, op_main_c_51 m c, op_main_v138 m c, op_main_v137 m c, op_main_c_50 m c, op_main_v136 m c, op_main_v135 m c, op_main_c_49 m c, op_main_v134 m c, op_main_v133 m c, op_main_v132 m c, op_main_c_48 m c, op_main_v131 m c, op_main_v130 m c, op_main_c_47 m c, op_main_v129 m c, op_main_v128 m c, op_main_c_46 m c, op_main_v127 m c, op_main_v126 m c, op_main_v125 m c, op_main_c_45 m c, op_main_v124 m c, op_main_v123 m c, op_main_c_44 m c, op_main_v122 m c, op_main_v121 m c, op_main_c_43 m c, op_main_v120 m c, op_main_v119 m c, op_main_c_42 m c, op_main_v118 m c, op_main_v117 m c, op_main_c_41 m c, op_main_v116 m c, op_main_v115 m c, op_main_c_40 m c]
  rfl

/-- Tap 4 = (1, 1): its array at a lane is the tap's bit at the lane's row and column words. -/
theorem tap4_bit (p : S3136.Idx) :
    (V (F := Ideal) m c main_v168 : S3136.Idx → BitVec 1) p
      = tapBit 1#32 1#32 ((V (F := Ideal) m c main_v32 : S3136.Idx → BitVec 32) p) ((V (F := Ideal) m c main_v33 : S3136.Idx → BitVec 32) p) := by
  rw [op_main_v168 m c, op_main_v167 m c, op_main_v166 m c, op_main_c_63 m c, op_main_v165 m c, op_main_v164 m c, op_main_c_62 m c, op_main_v163 m c, op_main_v162 m c, op_main_c_61 m c, op_main_v161 m c, op_main_v160 m c, op_main_v159 m c, op_main_c_60 m c, op_main_v158 m c, op_main_v157 m c, op_main_c_59 m c, op_main_v156 m c, op_main_v155 m c, op_main_c_58 m c, op_main_v154 m c, op_main_v153 m c, op_main_v152 m c, op_main_c_57 m c, op_main_v151 m c, op_main_v150 m c, op_main_c_56 m c, op_main_v149 m c, op_main_v148 m c, op_main_c_55 m c, op_main_v147 m c, op_main_v146 m c, op_main_c_54 m c, op_main_v145 m c, op_main_v144 m c, op_main_c_53 m c, op_main_v143 m c, op_main_v142 m c, op_main_c_52 m c]
  rfl

/-- Tap 5 = (1, 2): its array at a lane is the tap's bit at the lane's row and column words. -/
theorem tap5_bit (p : S3136.Idx) :
    (V (F := Ideal) m c main_v195 : S3136.Idx → BitVec 1) p
      = tapBit 1#32 2#32 ((V (F := Ideal) m c main_v32 : S3136.Idx → BitVec 32) p) ((V (F := Ideal) m c main_v33 : S3136.Idx → BitVec 32) p) := by
  rw [op_main_v195 m c, op_main_v194 m c, op_main_v193 m c, op_main_c_75 m c, op_main_v192 m c, op_main_v191 m c, op_main_c_74 m c, op_main_v190 m c, op_main_v189 m c, op_main_c_73 m c, op_main_v188 m c, op_main_v187 m c, op_main_v186 m c, op_main_c_72 m c, op_main_v185 m c, op_main_v184 m c, op_main_c_71 m c, op_main_v183 m c, op_main_v182 m c, op_main_c_70 m c, op_main_v181 m c, op_main_v180 m c, op_main_v179 m c, op_main_c_69 m c, op_main_v178 m c, op_main_v177 m c, op_main_c_68 m c, op_main_v176 m c, op_main_v175 m c, op_main_c_67 m c, op_main_v174 m c, op_main_v173 m c, op_main_c_66 m c, op_main_v172 m c, op_main_v171 m c, op_main_c_65 m c, op_main_v170 m c, op_main_v169 m c, op_main_c_64 m c]
  rfl

/-- Tap 6 = (2, 0): its array at a lane is the tap's bit at the lane's row and column words. -/
theorem tap6_bit (p : S3136.Idx) :
    (V (F := Ideal) m c main_v222 : S3136.Idx → BitVec 1) p
      = tapBit 2#32 0#32 ((V (F := Ideal) m c main_v32 : S3136.Idx → BitVec 32) p) ((V (F := Ideal) m c main_v33 : S3136.Idx → BitVec 32) p) := by
  rw [op_main_v222 m c, op_main_v221 m c, op_main_v220 m c, op_main_c_87 m c, op_main_v219 m c, op_main_v218 m c, op_main_c_86 m c, op_main_v217 m c, op_main_v216 m c, op_main_c_85 m c, op_main_v215 m c, op_main_v214 m c, op_main_v213 m c, op_main_c_84 m c, op_main_v212 m c, op_main_v211 m c, op_main_c_83 m c, op_main_v210 m c, op_main_v209 m c, op_main_c_82 m c, op_main_v208 m c, op_main_v207 m c, op_main_v206 m c, op_main_c_81 m c, op_main_v205 m c, op_main_v204 m c, op_main_c_80 m c, op_main_v203 m c, op_main_v202 m c, op_main_c_79 m c, op_main_v201 m c, op_main_v200 m c, op_main_c_78 m c, op_main_v199 m c, op_main_v198 m c, op_main_c_77 m c, op_main_v197 m c, op_main_v196 m c, op_main_c_76 m c]
  rfl

/-- Tap 7 = (2, 1): its array at a lane is the tap's bit at the lane's row and column words. -/
theorem tap7_bit (p : S3136.Idx) :
    (V (F := Ideal) m c main_v249 : S3136.Idx → BitVec 1) p
      = tapBit 2#32 1#32 ((V (F := Ideal) m c main_v32 : S3136.Idx → BitVec 32) p) ((V (F := Ideal) m c main_v33 : S3136.Idx → BitVec 32) p) := by
  rw [op_main_v249 m c, op_main_v248 m c, op_main_v247 m c, op_main_c_99 m c, op_main_v246 m c, op_main_v245 m c, op_main_c_98 m c, op_main_v244 m c, op_main_v243 m c, op_main_c_97 m c, op_main_v242 m c, op_main_v241 m c, op_main_v240 m c, op_main_c_96 m c, op_main_v239 m c, op_main_v238 m c, op_main_c_95 m c, op_main_v237 m c, op_main_v236 m c, op_main_c_94 m c, op_main_v235 m c, op_main_v234 m c, op_main_v233 m c, op_main_c_93 m c, op_main_v232 m c, op_main_v231 m c, op_main_c_92 m c, op_main_v230 m c, op_main_v229 m c, op_main_c_91 m c, op_main_v228 m c, op_main_v227 m c, op_main_c_90 m c, op_main_v226 m c, op_main_v225 m c, op_main_c_89 m c, op_main_v224 m c, op_main_v223 m c, op_main_c_88 m c]
  rfl

/-- Tap 8 = (2, 2): its array at a lane is the tap's bit at the lane's row and column words. -/
theorem tap8_bit (p : S3136.Idx) :
    (V (F := Ideal) m c main_v276 : S3136.Idx → BitVec 1) p
      = tapBit 2#32 2#32 ((V (F := Ideal) m c main_v32 : S3136.Idx → BitVec 32) p) ((V (F := Ideal) m c main_v33 : S3136.Idx → BitVec 32) p) := by
  rw [op_main_v276 m c, op_main_v275 m c, op_main_v274 m c, op_main_c_111 m c, op_main_v273 m c, op_main_v272 m c, op_main_c_110 m c, op_main_v271 m c, op_main_v270 m c, op_main_c_109 m c, op_main_v269 m c, op_main_v268 m c, op_main_v267 m c, op_main_c_108 m c, op_main_v266 m c, op_main_v265 m c, op_main_c_107 m c, op_main_v264 m c, op_main_v263 m c, op_main_c_106 m c, op_main_v262 m c, op_main_v261 m c, op_main_v260 m c, op_main_c_105 m c, op_main_v259 m c, op_main_v258 m c, op_main_c_104 m c, op_main_v257 m c, op_main_v256 m c, op_main_c_103 m c, op_main_v255 m c, op_main_v254 m c, op_main_c_102 m c, op_main_v253 m c, op_main_v252 m c, op_main_c_101 m c, op_main_v251 m c, op_main_v250 m c, op_main_c_100 m c]
  rfl

end Cert.KernelIdeal.HostVal

end
-- ==== Proof.IdealHostLane.lean ====
/-
  The row and the column of every lane, as the program computes them.  The lane numbers 0 .. 3135 are an iota; the
  row is their quotient by 56 and the column their remainder, each computed by a signed division with the
  corrections of a division rounded toward minus infinity — read at one lane, the words of the word-level lemmas.
-/
import proofs.«104539_g2000404336194624_pallasbulk_886_2_alg».proof.Proof.IdealHostOpsA
import proofs.«104539_g2000404336194624_pallasbulk_886_2_alg».proof.Proof.IdealHostWords

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-- The lane numbers: lane p holds the 32-bit word of p. -/
theorem lane_word (p : S3136.Idx) : (V (F := Ideal) m c main_v31 : S3136.Idx → BitVec 32) p = BitVec.ofNat 32 (p 0).val := by
  rw [op_main_v31 m c]; rfl

/-- The row array at a lane is the corrected quotient of the lane number by 56. -/
theorem row_word_eq (p : S3136.Idx) :
    (V (F := Ideal) m c main_v32 : S3136.Idx → BitVec 32) p = floorDiv56 ((V (F := Ideal) m c main_v31 : S3136.Idx → BitVec 32) p) := by
  rw [op_main_v32 m c, op_main_call0_v13 m c, op_main_call0_v12 m c, op_main_call0_c_0 m c, op_main_call0_v11 m c, op_main_call0_v10 m c, op_main_call0_v9 m c, op_main_call0_c m c, op_main_call0_v8 m c, op_main_call0_v7 m c, op_main_call0_v6 m c, op_main_call0_v5 m c, op_main_call0_v4 m c, op_main_call0_v3 m c, op_main_call0_v2 m c, op_main_call0_v1 m c, op_main_call0_v0 m c, op_main_c m c]
  rfl

/-- The column array at a lane is the corrected remainder of the lane number by 56. -/
theorem col_word_eq (p : S3136.Idx) :
    (V (F := Ideal) m c main_v33 : S3136.Idx → BitVec 32) p = floorMod56 ((V (F := Ideal) m c main_v31 : S3136.Idx → BitVec 32) p) := by
  rw [op_main_v33 m c, op_main_call1_v14 m c, op_main_call1_v13 m c, op_main_call1_v12 m c, op_main_call1_v11 m c, op_main_call1_v10 m c, op_main_call1_v9 m c, op_main_call1_c_3 m c, op_main_call1_v8 m c, op_main_call1_v7 m c, op_main_call1_c_2 m c, op_main_call1_v6 m c, op_main_call1_v5 m c, op_main_call1_c_1 m c, op_main_call1_v4 m c, op_main_call1_v3 m c, op_main_call1_v2 m c, op_main_call1_c_0 m c, op_main_call1_v1 m c, op_main_call1_c m c, op_main_call1_v0 m c, op_main_c_3 m c]
  rfl

/-- Lane p is in row p / 56. -/
theorem row_word (p : Fin 3136) : (V (F := Ideal) m c main_v32 : S3136.Idx → BitVec 32) (ix1 p) = BitVec.ofNat 32 (p.val / 56) := by
  rw [row_word_eq, lane_word]; exact floorDiv56_lane p

/-- Lane p is in column p % 56. -/
theorem col_word (p : Fin 3136) : (V (F := Ideal) m c main_v33 : S3136.Idx → BitVec 32) (ix1 p) = BitVec.ofNat 32 (p.val % 56) := by
  rw [col_word_eq, lane_word]; exact floorMod56_lane p

end Cert.KernelIdeal.HostVal

end
-- ==== Proof.IdealHostMasks.lean ====
/-
  The nine boundary masks [9, 128, 3136] the call stages.  The nine tap arrays of bits are stacked as the rows of a
  [9, 3136] array, converted to floats (a set bit is 1, a clear bit 0) and spread over the 128 channels: entry
  (t, i, p) is 1 when the tap t = ky*3 + kx, applied at row p / 56 and column p % 56, stays inside the 56 x 56 plane
  — 1 <= p/56 + ky <= 56 and 1 <= p%56 + kx <= 56 — and 0 otherwise.
-/
import proofs.«104539_g2000404336194624_pallasbulk_886_2_alg».proof.Proof.IdealHostOpsC
import proofs.«104539_g2000404336194624_pallasbulk_886_2_alg».proof.Proof.IdealHostTaps
import proofs.«104539_g2000404336194624_pallasbulk_886_2_alg».proof.Proof.IdealHostLane
import proofs.«104539_g2000404336194624_pallasbulk_886_2_alg».proof.Proof.IdealHostWords
import proofs.«104539_g2000404336194624_pallasbulk_886_2_alg».proof.Proof.LibConcatPieces
import Idealize.ShloMosaic.Lib.Pipeline.Value

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.ValueIdx Idealize.ShloMosaic.StableHlo Idealize.SL.Sem
open Idealize.ShloMosaic.ConcatPieces

variable (m : (ℓ : Loc nD τ sig) → Buf (Elt Ideal) ℓ) (c : Dev nD)

/-- The nine tap arrays stacked: row t, lane p holds the bit of tap (t / 3, t % 3) at lane p's row and column words. -/
def stacked : S9x3136.Idx → BitVec 1 := fun j =>
  tapBit (BitVec.ofNat 32 ((j 0).val / 3)) (BitVec.ofNat 32 ((j 0).val % 3))
    ((V (F := Ideal) m c main_v32 : S3136.Idx → BitVec 32) (ix1 (j 1))) ((V (F := Ideal) m c main_v33 : S3136.Idx → BitVec 32) (ix1 (j 1)))

/-- A tap's array, made a [1, 3136] row and laid as row t of the stack, is the stack's restriction to that row. -/
theorem row_piece (t : Fin 9) (X : S3136.Idx → BitVec 1)
    (hX : ∀ p : S3136.Idx, X p = tapBit (BitVec.ofNat 32 (t.val / 3)) (BitVec.ofNat 32 (t.val % 3))
      ((V (F := Ideal) m c main_v32 : S3136.Idx → BitVec 32) p) ((V (F := Ideal) m c main_v33 : S3136.Idx → BitVec 32) p))
    (pre : Nat) (hpre : pre = t.val) :
    ∀ (hr : S1x3136.rank = S9x3136.rank) (i : S1x3136.Idx) (j : S9x3136.Idx),
      (∀ b : Fin S1x3136.rank, b.cast hr ≠ (0 : Fin S9x3136.rank) → (i b).val = (j (b.cast hr)).val) →
      pre + (i ((0 : Fin S9x3136.rank).cast hr.symm)).val = (j (0 : Fin S9x3136.rank)).val →
      broadcastInDim S1x3136 ![1] bcast_S3136_S1x3136_1 X i = stacked m c j := by
  intro hr i j hi ha
  obtain ⟨z, p, rfl⟩ : ∃ (z : Fin 1) (p : Fin 3136), i = ix2 z p := ⟨i 0, i 1, eq_ix2 i⟩
  obtain ⟨t', p', rfl⟩ : ∃ (t' : Fin 9) (p' : Fin 3136), j = ix2 t' p' := ⟨j 0, j 1, eq_ix2 j⟩
  have h1 : p.val = p'.val := hi 1 (Fin.ne_of_val_ne (show (1 : Nat) ≠ 0 by decide))
  have h0 : pre + z.val = t'.val := ha
  obtain rfl : p = p' := Fin.ext h1
  obtain rfl : t' = t := Fin.ext (by have := z.isLt; omega)
  rw [broadcastInDim_apply _ _ X (ix2 z p) (ix1 p) (fun a => by match a with | ⟨0, _⟩ => rfl), hX]
  rfl

set_option maxHeartbeats 2000000 in
/-- The stacked array of the program is the stack of the nine taps' bits. -/
theorem stacked_eq : (V (F := Ideal) m c main_v286 : S9x3136.Idx → BitVec 1) = stacked m c := by
  rw [op_main_v286 m c, op_main_v277 m c, op_main_v278 m c, op_main_v279 m c, op_main_v280 m c, op_main_v281 m c, op_main_v282 m c, op_main_v283 m c, op_main_v284 m c, op_main_v285 m c]
  refine concatenate_eq_of_restricts (0 : Fin 2) _ _ (stacked m c) ?_
  exact
    ⟨row_piece m c 0 _ (tap0_bit m c) _ rfl,
     row_piece m c 1 _ (tap1_bit m c) _ rfl,
     row_piece m c 2 _ (tap2_bit m c) _ rfl,
     row_piece m c 3 _ (tap3_bit m c) _ rfl,
     row_piece m c 4 _ (tap4_bit m c) _ rfl,
     row_piece m c 5 _ (tap5_bit m c) _ rfl,
     row_piece m c 6 _ (tap6_bit m c) _ rfl,
     row_piece m c 7 _ (tap7_bit m c) _ rfl,
     row_piece m c 8 _ (tap8_bit m c) _ rfl,
     trivial⟩

/-- The nine boundary masks [9,128,3136]: tap t = ky*3+kx at lane p = y*56+x is 1 when (y+ky-1, x+kx-1) is in the plane, else 0. -/
theorem mask_apply (t : Fin 9) (i : Fin 128) (p : Fin 3136) :
    (V (F := Ideal) m c main_v289 : S9x128x3136.Idx → EReal) (ix3 t i p)
      = if 1 ≤ p.val / 56 + t.val / 3 ∧ p.val / 56 + t.val / 3 ≤ 56 ∧ 1 ≤ p.val % 56 + t.val % 3 ∧ p.val % 56 + t.val % 3 ≤ 56 then (1 : EReal) else (0 : EReal) := by
  rw [op_main_v289 m c, op_main_v288 m c, op_main_v287 m c, stacked_eq m c]
  rw [broadcastInDim_apply _ _ _ (ix3 t i p) (ix3 t (0 : Fin 1) p)
    (fun a => by match a with | ⟨0, _⟩ => rfl | ⟨1, _⟩ => rfl | ⟨2, _⟩ => rfl)]
  rw [broadcastInDim_apply _ _ _ (ix3 t (0 : Fin 1) p) (ix2 t p)
    (fun a => by match a with | ⟨0, _⟩ => rfl | ⟨1, _⟩ => rfl)]
  show FloatOps.uitofp (F := Ideal) .bf16 (stacked m c (ix2 t p)) = _
  refine uitofp_bit .bf16 ?_
  show tapBit (BitVec.ofNat 32 (t.val / 3)) (BitVec.ofNat 32 (t.val % 3))
    ((V (F := Ideal) m c main_v32 : S3136.Idx → BitVec 32) (ix1 p)) ((V (F := Ideal) m c main_v33 : S3136.Idx → BitVec 32) (ix1 p)) = 1#1 ↔ _
  rw [row_word, col_word]
  exact tapBit_iff ⟨p.val / 56, by omega⟩ ⟨p.val % 56, Nat.mod_lt _ (by norm_num)⟩ ⟨t.val / 3, by omega⟩ ⟨t.val % 3, Nat.mod_lt _ (by norm_num)⟩

end Cert.KernelIdeal.HostVal

end
-- ==== Proof.LibScatterSet.lean ====
/-
  A StableHLO scatter whose body returns the update (jnp's x.at[...].set(v)), read at an index. The scatter is a fold over
  the update indices, each overwriting the element it lands on. So at an index that exactly one update index lands on, the
  result is that update's element, whatever the operand held and whatever the other updates did; and a fold of
  overwrites in general reads, at a position, the value the writes to that position share, when some write hits it.
  Any shapes, any dimension numbers, any element type. Independent of any program.
-/
import Idealize.ShloMosaic.PureOps.ShapeOps

namespace Cert.Lib

open Idealize.ShloMosaic

/-- A fold of overwrites, read at a position a: step n either writes val n at its target tgt n or does nothing. If every
    step that targets a writes the same v, the fold holds v at a as soon as some step targets a, else what it began with. -/
theorem foldl_overwrite_apply {ι A B : Type} [DecidableEq A] (g : (A → B) → ι → (A → B)) (tgt : ι → Option A) (val : ι → B)
    (hsome : ∀ r n a0, tgt n = some a0 → ∀ a, g r n a = if a = a0 then val n else r a)
    (hnone : ∀ r n, tgt n = none → g r n = r)
    (a : A) (v : B) (hv : ∀ n, tgt n = some a → val n = v) :
    ∀ (L : List ι) (r : A → B), (L.foldl g r) a = if ∃ n ∈ L, tgt n = some a then v else r a := by
  classical
  intro L
  induction L with
  | nil => intro r; simp
  | cons n L ih =>
    intro r
    rw [List.foldl_cons, ih]
    by_cases hL : ∃ n' ∈ L, tgt n' = some a
    · rw [if_pos hL, if_pos (by obtain ⟨n', hn', h⟩ := hL; exact ⟨n', List.mem_cons_of_mem _ hn', h⟩)]
    · rw [if_neg hL]
      cases hn : tgt n with
      | none =>
        rw [hnone r n hn, if_neg]
        rintro ⟨n', hn', h⟩
        rcases List.mem_cons.mp hn' with rfl | hn''
        · rw [hn] at h; cases h
        · exact hL ⟨n', hn'', h⟩
      | some a0 =>
        rw [hsome r n a0 hn a]
        by_cases ha : a = a0
        · subst ha
          rw [if_pos rfl, if_pos ⟨n, List.mem_cons_self, hn⟩]
          exact hv n hn
        · rw [if_neg ha, if_neg]
          rintro ⟨n', hn', h⟩
          rcases List.mem_cons.mp hn' with rfl | hn''
          · rw [hn] at h; exact ha (Option.some.inj h).symm
          · exact hL ⟨n', hn'', h⟩

/-- An overwriting scatter at an index i that update index j lands on, and no other: the update at j. -/
theorem scatter_set_apply {s si u : Shape} {α : Type} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  unfold Host.scatter
  refine (foldl_overwrite_apply _ (fun n => d.resultIdx? (u.rowMajor.symm n) idx) (fun n => upd (u.rowMajor.symm n))
    ?_ ?_ i (upd j) ?_ _ x).trans (if_pos ⟨u.rowMajor j, List.mem_finRange _, by rw [Equiv.symm_apply_apply]; exact hj⟩)
  · intro r n a0 h a
    show (match d.resultIdx? (u.rowMajor.symm n) idx with
      | some i => fun i' => if i' = i then (fun _ b => b) (r i) (upd (u.rowMajor.symm n)) else r i'
      | none => r) a = _
    rw [h]
  · intro r n h
    show (match d.resultIdx? (u.rowMajor.symm n) idx with
      | some i => fun i' => if i' = i then (fun _ b => b) (r i) (upd (u.rowMajor.symm n)) else r i'
      | none => r) = _
    rw [h]
  · intro n hn
    rw [huniq _ hn]

/-- An overwriting scatter whose every update index lands on the operand index equal to itself (an update as large as the
    operand, written at the origin) gives the updates, whatever the operand held. -/
theorem scatter_whole {s si : Shape} {α : Type} {w : Nat} (d : ScatterDims s si s) (x : s.Idx → α) (idx : IVec si w)
    (upd : s.Idx → α) (h : ∀ j, d.resultIdx? j idx = some j) :
    Host.scatter d (fun _ b => b) x idx upd = upd :=
  funext fun i => scatter_set_apply d x idx upd i i (h i) fun j' hj' => by
    rw [h j'] at hj'; exact Option.some.inj hj'

end Cert.Lib
-- ==== Proof.IdealHostOnes.lean ====
/-
  The block of eight rows [8, 3136] the call stages: zeros, with row 0 overwritten by ones.  The overwrite is a
  scatter with one scatter index, 0, whose update is a whole row of 3136 ones: update element p lands on (0, p), so
  row 0 is ones and the rows 1 .. 7, on which nothing lands, keep their zeros.
-/
import proofs.«104539_g2000404336194624_pallasbulk_886_2_alg».proof.Proof.IdealHostOpsC
import proofs.«104539_g2000404336194624_pallasbulk_886_2_alg».proof.Proof.LibScatterSet
import Idealize.ShloMosaic.Lib.IdealHost
import Idealize.ShloMosaic.Lib.Pipeline.Value

set_option maxRecDepth 65536

noncomputable section

namespace Cert.KernelIdeal.HostVal

open Cert.KernelIdeal Cert.KernelIdeal.Gen Cert.KernelIdeal.Frm
open Idealize.ShloMosaic Idealize.ShloMosaic.TcCoe Idealize.ShloMosaic.ValueIdx Idealize.ShloMosaic.StableHlo Idealize.SL.Sem

variable (m : (ℓ : Loc nD τ sig) → Buf (Elt Ideal) ℓ) (c : Dev nD)

/-- An overwriting scatter of updates that all hold the same value v reads v wherever some update lands, and the
    operand elsewhere. -/
theorem scatter_const_apply {s si u : Shape} {α : Type} {w : Nat} (d : ScatterDims s si u) (x : s.Idx → α) (idx : IVec si w)
    (upd : u.Idx → α) (v : α) (hupd : ∀ j, upd j = v) (i : s.Idx) :
    Host.scatter d (fun _ b => b) x idx upd i = if ∃ j, d.resultIdx? j idx = some i then v else x i := by
  unfold Host.scatter
  refine (Cert.Lib.foldl_overwrite_apply _ (fun n => d.resultIdx? (u.rowMajor.symm n) idx) (fun n => upd (u.rowMajor.symm n))
    ?_ ?_ i v (fun n _ => hupd _) _ x).trans ?_
  · intro r n a0 h a
    show (match d.resultIdx? (u.rowMajor.symm n) idx with
      | some i => fun i' => if i' = i then (fun _ b => b) (r i) (upd (u.rowMajor.symm n)) else r i'
      | none => r) a = _
    rw [h]
  · intro r n h
    show (match d.resultIdx? (u.rowMajor.symm n) idx with
      | some i => fun i' => if i' = i then (fun _ b => b) (r i) (upd (u.rowMajor.symm n)) else r i'
      | none => r) = _
    rw [h]
  · by_cases h : ∃ j, d.resultIdx? j idx = some i
    · rw [if_pos h, if_pos (by
        obtain ⟨j, hj⟩ := h
        exact ⟨u.rowMajor j, List.mem_finRange _, by rw [Equiv.symm_apply_apply]; exact hj⟩)]
    · rw [if_neg h, if_neg (fun ⟨n, _, hn⟩ => h ⟨_, hn⟩)]

/-- With the one scatter index equal to 0, update element p lands on row 0, lane p. -/
theorem lands_row0 (idx : IVec S1 32) (hidx : ∀ k, idx k = 0#32) (j : S3136.Idx) :
    scatter_S8x3136_S1_S3136_0_0_0_0.resultIdx? j idx = some (ix2 (0 : Fin 8) (j 0)) := by
  have hs : ∀ a, scatter_S8x3136_S1_S3136_0_0_0_0.start j idx a = 0 := by
    intro a
    unfold ScatterDims.start
    split
    · rw [hidx]; rfl
    · rfl
  have hw0 : scatter_S8x3136_S1_S3136_0_0_0_0.window j (0 : Fin 2) = 0 := rfl
  have hw1 : scatter_S8x3136_S1_S3136_0_0_0_0.window j (1 : Fin 2) = (j 0).val := rfl
  have hj : (j 0).val < 3136 := (j 0).isLt
  have hin : ∀ a : Fin 2, 0 ≤ scatter_S8x3136_S1_S3136_0_0_0_0.start j idx a + scatter_S8x3136_S1_S3136_0_0_0_0.window j a
      ∧ scatter_S8x3136_S1_S3136_0_0_0_0.start j idx a + scatter_S8x3136_S1_S3136_0_0_0_0.window j a < S8x3136.size a := by
    refine Fin.forall_fin_two.2 ⟨?_, ?_⟩
    · rw [hs, hw0]; exact ⟨by decide, by decide⟩
    · rw [hs, hw1]
      refine ⟨by omega, ?_⟩
      show (0 : Int) + ((j 0).val : Int) < ((3136 : Nat) : Int)
      omega
  unfold ScatterDims.resultIdx?
  rw [dif_pos hin]
  congr 1
  funext a
  apply Fin.ext
  revert a
  refine Fin.forall_fin_two.2 ⟨?_, ?_⟩
  · show (scatter_S8x3136_S1_S3136_0_0_0_0.start j idx 0 + scatter_S8x3136_S1_S3136_0_0_0_0.window j 0).toNat = 0
    rw [hs, hw0]; rfl
  · show (scatter_S8x3136_S1_S3136_0_0_0_0.start j idx 1 + scatter_S8x3136_S1_S3136_0_0_0_0.window j 1).toNat = (j 0).val
    rw [hs, hw1]; simp

/-- The ones-row block [8,3136]: row 0 all ones, rows 1..7 zero. -/
theorem ones_rows (r : Fin 8) (p : Fin 3136) :
    (V (F := Ideal) m c main_v293 : S8x3136.Idx → EReal) (ix2 r p) = if r.val = 0 then (1 : EReal) else (0 : EReal) := by
  rw [op_main_v293 m c, op_main_v292 m c, op_main_cst_114 m c, op_main_v291 m c, op_main_c_113 m c, op_main_v290 m c, op_main_cst_112 m c]
  refine (scatter_const_apply scatter_S8x3136_S1_S3136_0_0_0_0 _ _
    (broadcastInDim S3136 ![] bcast_S_S3136 (constant (F := Ideal) S_ .bf16 0x3F80#16)) (1 : EReal)
    (fun j => Ideal.ofBits_one_bf16) (ix2 r p)).trans ?_
  have hl := lands_row0 (broadcastInDim S1 ![] bcast_S_S1 (constantI S_ 32 0#32)) (fun _ => rfl)
  by_cases hr : r.val = 0
  · rw [if_pos hr, if_pos ⟨ix1 p, by
      rw [hl]
      congr 1
      funext a
      apply Fin.ext
      revert a
      exact Fin.forall_fin_two.2 ⟨hr.symm, rfl⟩⟩]
  · rw [if_neg hr, if_neg (fun ⟨j, hj⟩ => hr (by
      rw [hl] at hj
      have := congrArg (fun f : S8x3136.Idx => (f 0).val) (Option.some.inj hj)
      exact this.symm))]
    exact Ideal.ofBits_zero_bf16

end Cert.KernelIdeal.HostVal

end
-- ==== Proof.lean ====
/-
  The certificate of the residual block: a 3 x 3 convolution, batch normalisation with running statistics folded to a
  scale and a shift, a positive part, a second convolution and normalisation, the input added back, a positive part —
  computed by the kernel program with the scale folded into its weight rows and the shift riding a ones row of its
  patch matrix, and by the reference program with the scale and shift applied after each product.
  The three frames: each program's @main runs to the end without a fault and leaves its eleven argument arrays as
  launched (the two kernel programs' frames are proved at any float instance; the reference's is generated).  The
  kernel's idealization rewrote nothing, so there is nothing to preserve.  The algebraic claim: over the extended reals
  both programs end with the result array equal to ONE function of the arguments, `Cert.ResBlock.result` — the
  reference by reading its operations in their own order, the kernel by the folded contraction, which needs every
  entry to be a real number; the precondition (finite arguments, non-negative variances) provides exactly that.
-/
import proofs.«104539_g2000404336194624_pallasbulk_886_2_alg».proof.Defs
import proofs.«104539_g2000404336194624_pallasbulk_886_2_alg».proof.Proof.Gen.Kernel
import proofs.«104539_g2000404336194624_pallasbulk_886_2_alg».proof.Proof.Gen.KernelIdeal
import proofs.«104539_g2000404336194624_pallasbulk_886_2_alg».proof.Proof.Gen.ReferenceIdeal
import proofs.«104539_g2000404336194624_pallasbulk_886_2_alg».proof.Proof.Gen.ReferenceIdeal.Frame
import proofs.«104539_g2000404336194624_pallasbulk_886_2_alg».proof.Proof.Gen.Pre_finite_inputs
import proofs.«104539_g2000404336194624_pallasbulk_886_2_alg».proof.Proof.BitsFrame
import proofs.«104539_g2000404336194624_pallasbulk_886_2_alg».proof.Proof.IdealFrame
import proofs.«104539_g2000404336194624_pallasbulk_886_2_alg».proof.Proof.IdealValue
import proofs.«104539_g2000404336194624_pallasbulk_886_2_alg».proof.Proof.RefValue
import proofs.«104539_g2000404336194624_pallasbulk_886_2_alg».proof.Proof.IdealHostTile
import proofs.«104539_g2000404336194624_pallasbulk_886_2_alg».proof.Proof.IdealHostWeights
import proofs.«104539_g2000404336194624_pallasbulk_886_2_alg».proof.Proof.IdealHostMasks
import proofs.«104539_g2000404336194624_pallasbulk_886_2_alg».proof.Proof.IdealHostOnes
import Idealize.ShloMosaic.Adequacy
import Idealize.ShloMosaic.Init

noncomputable section

namespace Cert.Proof

open Idealize.ShloMosaic Idealize.SL.Sem

/-- The kernel program as printed runs and keeps its arguments. -/
theorem frame_kernel : @Cert.frame_Kernel Cert.Kernel.Gen.facts Cert.Pre_finite_inputs.Gen.facts :=
  fun m ρ _ => Cert.Kernel.Frm.frame m ρ

/-- So does its reading over the extended reals. -/
theorem frame_kernelIdeal : @Cert.frame_KernelIdeal Cert.KernelIdeal.Gen.facts Cert.Pre_finite_inputs.Gen.facts :=
  fun m ρ _ => Cert.KernelIdeal.Frm.frame m ρ

/-- And the reference program. -/
theorem frame_referenceIdeal : @Cert.frame_ReferenceIdeal Cert.ReferenceIdeal.Gen.facts Cert.Pre_finite_inputs.Gen.facts :=
  fun m ρ _ => Cert.ReferenceIdeal.Gen.frame m ρ

/-- Both programs, from memories that agree on the arguments, end with the residual block of the arguments. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, @Cert.KernelIdeal.BodyVal.value m ρ Cert.Pre_finite_inputs.Gen.facts hpre
    (fun c => ⟨Cert.KernelIdeal.HostVal.x_tile m c, Cert.KernelIdeal.HostVal.w1_fold m c, Cert.KernelIdeal.HostVal.w2_fold m c,
      Cert.KernelIdeal.HostVal.mask_apply m c, Cert.KernelIdeal.HostVal.ones_rows m c⟩), ?_⟩
  refine (θ_run Cert.ReferenceIdeal.defs _ _).mono (fun r h c => ⟨(h c).1.trans ?_, (h c).2⟩) (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
